-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x200 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S1024x200 32 := broadcastInDim S1024x200 ![] bcast_S_S1024x200 main_c_0
  let main_v5 : IVec S1024x200 1 := cmpi .sge main_arg0 main_v4
  let main_c_1 : IVec S_ 32 := constantI S_ 32 999#32
  let main_v6 : IVec S1024x200 32 := broadcastInDim S1024x200 ![] bcast_S_S1024x200 main_c_1
  let main_v7 : IVec S1024x200 1 := cmpi .sle main_arg0 main_v6
  let main_v8 : IVec S1024x200 1 := andi main_v5 main_v7
  let main_c_2 : IVec S_ 1 := constantI S_ 1 1#1
  let main_v9 : IVec S_ 1 := (fun x v => Host.reduce IntOp.andi x v reducesTo_S1024x200_S_d0_1 h_S_) main_v8 main_c_2
  let main_v10 : IVec S_ 1 := andi main_v3 main_v9
  main_v10
-- ==== Kernel.lean ====
abbrev S1024x200 : Shape := ⟨2, ![1024, 200]⟩
abbrev S1000x128 : Shape := ⟨2, ![1000, 128]⟩
abbrev S128x1000 : Shape := ⟨2, ![128, 1000]⟩
abbrev S128000 : Shape := ⟨1, ![128000]⟩
abbrev S204800 : Shape := ⟨1, ![204800]⟩
abbrev S1024x128x200 : Shape := ⟨3, ![1024, 128, 200]⟩
abbrev S64000 : Shape := ⟨1, ![64000]⟩
abbrev S12800 : Shape := ⟨1, ![12800]⟩
abbrev S2x64x200 : Shape := ⟨3, ![2, 64, 200]⟩
abbrev S_ : Shape := ⟨0, ![]⟩
abbrev S1x64x200 : Shape := ⟨3, ![1, 64, 200]⟩
abbrev S64x200 : Shape := ⟨2, ![64, 200]⟩
abbrev S16 : Shape := ⟨1, ![16]⟩
abbrev S1x1x16 : Shape := ⟨3, ![1, 1, 16]⟩

abbrev nBuf : Table → Nat
  | .hbm => 6
  | .local .scVector .vmem => 3
  | _ => 0

abbrev bufTy : (tb : Table) → Fin (nBuf tb) → BufTy
  | .hbm, ⟨0, _⟩ => ⟨S1024x200, .i32⟩
  | .hbm, ⟨1, _⟩ => ⟨S1000x128, .f32⟩
  | .hbm, ⟨2, _⟩ => ⟨S128x1000, .f32⟩
  | .hbm, ⟨3, _⟩ => ⟨S128000, .f32⟩
  | .hbm, ⟨4, _⟩ => ⟨S204800, .i32⟩
  | .hbm, ⟨5, _⟩ => ⟨S1024x128x200, .f32⟩
  | .local .scVector .vmem, ⟨0, _⟩ => ⟨S64000, .f32⟩
  | .local .scVector .vmem, ⟨1, _⟩ => ⟨S12800, .i32⟩
  | .local .scVector .vmem, ⟨2, _⟩ => ⟨S2x64x200, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c64_i32 : BitVec 32 := 64#32
  let v29 : BitVec 32 := Scalar.muli v11 c64_i32
  let c1000_i32 : BitVec 32 := 1000#32
  let v31 : BitVec 32 := Scalar.muli v29 c1000_i32
  ![v31.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c64_i32_11 : BitVec 32 := 64#32
  let v30 : BitVec 32 := Scalar.muli v28 c64_i32_11
  let c200_i32 : BitVec 32 := 200#32
  let v32 : BitVec 32 := Scalar.muli v30 c200_i32
  ![v32.toNat]
@[reducible] def k0_t1_loop : Scf.Loop 32 :=
  let c0_i32_13 : BitVec 32 := 0#32
  let c32_i32 : BitVec 32 := 32#32
  let v33 : BitVec 32 := Scalar.addi c0_i32_13 c32_i32
  let c1_i32_14 : BitVec 32 := 1#32
  ⟨c0_i32_13, v33, c1_i32_14⟩
@[reducible] def k0_t2_loop : Scf.Loop 32 :=
  let c0_i32_41 : BitVec 32 := 0#32
  let c12_i32 : BitVec 32 := 12#32
  let v55 : BitVec 32 := Scalar.addi c0_i32_41 c12_i32
  let c1_i32_42 : BitVec 32 := 1#32
  ⟨c0_i32_41, v55, c1_i32_42⟩
def k0_mult1 (k0_t2 : Fin k0_t2_loop.trips) : BitVec 32 :=
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  v856
def k0_off3 (k0_t1 : Fin k0_t1_loop.trips) (k0_t2 : Fin k0_t2_loop.trips) : Fin 1 → Nat :=
  let c0_i32_13 : BitVec 32 := 0#32
  let c1_i32_14 : BitVec 32 := 1#32
  let arg10 : BitVec 32 := Scf.iv c0_i32_13 c1_i32_14 k0_t1
  let c2_i32_36 : BitVec 32 := 2#32
  let v50 : BitVec 32 := Scalar.muli arg10 c2_i32_36
  let c0_i32_37 : BitVec 32 := 0#32
  let v51 : BitVec 32 := Scalar.addi v50 c0_i32_37
  let c200_i32_461 : BitVec 32 := 200#32
  let v858 : BitVec 32 := Scalar.muli v51 c200_i32_461
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v859 : BitVec 32 := Scalar.addi v858 v857
  let v860 : Index := Scalar.indexCast v859
  ![v860.toNat]

def k0_chk1 (v863 : IVec S16 32) : Prop :=
  (∀ a x, ((![v863] : Fin 1 → IVec S16 32) a x).toNat < S64000.size a)
instance k0_chk1.dec : ∀ (v863 : IVec S16 32), Decidable (k0_chk1 v863) := fun v863 => decidable_of_iff' _ (Iff.of_eq (k0_chk1.eq_1 v863))
theorem k0_idx1_inb : ∀ (v863 : IVec S16 32) (k0_hw1 : k0_chk1 v863), ∀ a x, ((![v863] : Fin 1 → IVec S16 32) a x).toNat < S64000.size a := fun v863 k0_hw1 => k0_hw1

def k0_chk2 (v866 : IVec S16 32) : Prop :=
  (∀ a x, ((![v866] : Fin 1 → IVec S16 32) a x).toNat < S64000.size a)
instance k0_chk2.dec : ∀ (v866 : IVec S16 32), Decidable (k0_chk2 v866) := fun v866 => decidable_of_iff' _ (Iff.of_eq (k0_chk2.eq_1 v866))
theorem k0_idx2_inb : ∀ (v866 : IVec S16 32) (k0_hw2 : k0_chk2 v866), ∀ a x, ((![v866] : Fin 1 → IVec S16 32) a x).toNat < S64000.size a := fun v866 k0_hw2 => k0_hw2

def k0_chk3 (v869 : IVec S16 32) : Prop :=
  (∀ a x, ((![v869] : Fin 1 → IVec S16 32) a x).toNat < S64000.size a)
instance k0_chk3.dec : ∀ (v869 : IVec S16 32), Decidable (k0_chk3 v869) := fun v869 => decidable_of_iff' _ (Iff.of_eq (k0_chk3.eq_1 v869))
theorem k0_idx3_inb : ∀ (v869 : IVec S16 32) (k0_hw3 : k0_chk3 v869), ∀ a x, ((![v869] : Fin 1 → IVec S16 32) a x).toNat < S64000.size a := fun v869 k0_hw3 => k0_hw3

def k0_chk4 (v872 : IVec S16 32) : Prop :=
  (∀ a x, ((![v872] : Fin 1 → IVec S16 32) a x).toNat < S64000.size a)
instance k0_chk4.dec : ∀ (v872 : IVec S16 32), Decidable (k0_chk4 v872) := fun v872 => decidable_of_iff' _ (Iff.of_eq (k0_chk4.eq_1 v872))
theorem k0_idx4_inb : ∀ (v872 : IVec S16 32) (k0_hw4 : k0_chk4 v872), ∀ a x, ((![v872] : Fin 1 → IVec S16 32) a x).toNat < S64000.size a := fun v872 k0_hw4 => k0_hw4

def k0_chk5 (v875 : IVec S16 32) : Prop :=
  (∀ a x, ((![v875] : Fin 1 → IVec S16 32) a x).toNat < S64000.size a)
instance k0_chk5.dec : ∀ (v875 : IVec S16 32), Decidable (k0_chk5 v875) := fun v875 => decidable_of_iff' _ (Iff.of_eq (k0_chk5.eq_1 v875))
theorem k0_idx5_inb : ∀ (v875 : IVec S16 32) (k0_hw5 : k0_chk5 v875), ∀ a x, ((![v875] : Fin 1 → IVec S16 32) a x).toNat < S64000.size a := fun v875 k0_hw5 => k0_hw5

def k0_chk6 (v878 : IVec S16 32) : Prop :=
  (∀ a x, ((![v878] : Fin 1 → IVec S16 32) a x).toNat < S64000.size a)
instance k0_chk6.dec : ∀ (v878 : IVec S16 32), Decidable (k0_chk6 v878) := fun v878 => decidable_of_iff' _ (Iff.of_eq (k0_chk6.eq_1 v878))
theorem k0_idx6_inb : ∀ (v878 : IVec S16 32) (k0_hw6 : k0_chk6 v878), ∀ a x, ((![v878] : Fin 1 → IVec S16 32) a x).toNat < S64000.size a := fun v878 k0_hw6 => k0_hw6

def k0_chk7 (v881 : IVec S16 32) : Prop :=
  (∀ a x, ((![v881] : Fin 1 → IVec S16 32) a x).toNat < S64000.size a)
instance k0_chk7.dec : ∀ (v881 : IVec S16 32), Decidable (k0_chk7 v881) := fun v881 => decidable_of_iff' _ (Iff.of_eq (k0_chk7.eq_1 v881))
theorem k0_idx7_inb : ∀ (v881 : IVec S16 32) (k0_hw7 : k0_chk7 v881), ∀ a x, ((![v881] : Fin 1 → IVec S16 32) a x).toNat < S64000.size a := fun v881 k0_hw7 => k0_hw7

def k0_chk8 (v884 : IVec S16 32) : Prop :=
  (∀ a x, ((![v884] : Fin 1 → IVec S16 32) a x).toNat < S64000.size a)
instance k0_chk8.dec : ∀ (v884 : IVec S16 32), Decidable (k0_chk8 v884) := fun v884 => decidable_of_iff' _ (Iff.of_eq (k0_chk8.eq_1 v884))
theorem k0_idx8_inb : ∀ (v884 : IVec S16 32) (k0_hw8 : k0_chk8 v884), ∀ a x, ((![v884] : Fin 1 → IVec S16 32) a x).toNat < S64000.size a := fun v884 k0_hw8 => k0_hw8

def k0_chk9 (v887 : IVec S16 32) : Prop :=
  (∀ a x, ((![v887] : Fin 1 → IVec S16 32) a x).toNat < S64000.size a)
instance k0_chk9.dec : ∀ (v887 : IVec S16 32), Decidable (k0_chk9 v887) := fun v887 => decidable_of_iff' _ (Iff.of_eq (k0_chk9.eq_1 v887))
theorem k0_idx9_inb : ∀ (v887 : IVec S16 32) (k0_hw9 : k0_chk9 v887), ∀ a x, ((![v887] : Fin 1 → IVec S16 32) a x).toNat < S64000.size a := fun v887 k0_hw9 => k0_hw9
def k0_off4 (k0_t2 : Fin k0_t2_loop.trips) : Fin 3 → Nat :=
  let c0_i32_471 : BitVec 32 := 0#32
  let v889 : Index := Scalar.indexCast c0_i32_471
  let c0_i32_472 : BitVec 32 := 0#32
  let v890 : Index := Scalar.indexCast c0_i32_472
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v891 : Index := Scalar.indexCast v857
  ![0, 0, v891.toNat]

def k0_chk10 (v894 : IVec S16 32) : Prop :=
  (∀ a x, ((![v894] : Fin 1 → IVec S16 32) a x).toNat < S64000.size a)
instance k0_chk10.dec : ∀ (v894 : IVec S16 32), Decidable (k0_chk10 v894) := fun v894 => decidable_of_iff' _ (Iff.of_eq (k0_chk10.eq_1 v894))
theorem k0_idx10_inb : ∀ (v894 : IVec S16 32) (k0_hw10 : k0_chk10 v894), ∀ a x, ((![v894] : Fin 1 → IVec S16 32) a x).toNat < S64000.size a := fun v894 k0_hw10 => k0_hw10
def k0_off5 (k0_t2 : Fin k0_t2_loop.trips) : Fin 3 → Nat :=
  let c0_i32_474 : BitVec 32 := 0#32
  let v896 : Index := Scalar.indexCast c0_i32_474
  let c1_i32_475 : BitVec 32 := 1#32
  let v897 : Index := Scalar.indexCast c1_i32_475
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v898 : Index := Scalar.indexCast v857
  ![0, 1, v898.toNat]

def k0_chk11 (v901 : IVec S16 32) : Prop :=
  (∀ a x, ((![v901] : Fin 1 → IVec S16 32) a x).toNat < S64000.size a)
instance k0_chk11.dec : ∀ (v901 : IVec S16 32), Decidable (k0_chk11 v901) := fun v901 => decidable_of_iff' _ (Iff.of_eq (k0_chk11.eq_1 v901))
theorem k0_idx11_inb : ∀ (v901 : IVec S16 32) (k0_hw11 : k0_chk11 v901), ∀ a x, ((![v901] : Fin 1 → IVec S16 32) a x).toNat < S64000.size a := fun v901 k0_hw11 => k0_hw11
def k0_off6 (k0_t2 : Fin k0_t2_loop.trips) : Fin 3 → Nat :=
  let c0_i32_477 : BitVec 32 := 0#32
  let v903 : Index := Scalar.indexCast c0_i32_477
  let c2_i32_478 : BitVec 32 := 2#32
  let v904 : Index := Scalar.indexCast c2_i32_478
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v905 : Index := Scalar.indexCast v857
  ![0, 2, v905.toNat]

def k0_chk12 (v908 : IVec S16 32) : Prop :=
  (∀ a x, ((![v908] : Fin 1 → IVec S16 32) a x).toNat < S64000.size a)
instance k0_chk12.dec : ∀ (v908 : IVec S16 32), Decidable (k0_chk12 v908) := fun v908 => decidable_of_iff' _ (Iff.of_eq (k0_chk12.eq_1 v908))
theorem k0_idx12_inb : ∀ (v908 : IVec S16 32) (k0_hw12 : k0_chk12 v908), ∀ a x, ((![v908] : Fin 1 → IVec S16 32) a x).toNat < S64000.size a := fun v908 k0_hw12 => k0_hw12
def k0_off7 (k0_t2 : Fin k0_t2_loop.trips) : Fin 3 → Nat :=
  let c0_i32_480 : BitVec 32 := 0#32
  let v910 : Index := Scalar.indexCast c0_i32_480
  let c3_i32_481 : BitVec 32 := 3#32
  let v911 : Index := Scalar.indexCast c3_i32_481
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v912 : Index := Scalar.indexCast v857
  ![0, 3, v912.toNat]

def k0_chk13 (v915 : IVec S16 32) : Prop :=
  (∀ a x, ((![v915] : Fin 1 → IVec S16 32) a x).toNat < S64000.size a)
instance k0_chk13.dec : ∀ (v915 : IVec S16 32), Decidable (k0_chk13 v915) := fun v915 => decidable_of_iff' _ (Iff.of_eq (k0_chk13.eq_1 v915))
theorem k0_idx13_inb : ∀ (v915 : IVec S16 32) (k0_hw13 : k0_chk13 v915), ∀ a x, ((![v915] : Fin 1 → IVec S16 32) a x).toNat < S64000.size a := fun v915 k0_hw13 => k0_hw13
def k0_off8 (k0_t2 : Fin k0_t2_loop.trips) : Fin 3 → Nat :=
  let c0_i32_483 : BitVec 32 := 0#32
  let v917 : Index := Scalar.indexCast c0_i32_483
  let c4_i32_484 : BitVec 32 := 4#32
  let v918 : Index := Scalar.indexCast c4_i32_484
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v919 : Index := Scalar.indexCast v857
  ![0, 4, v919.toNat]

def k0_chk14 (v922 : IVec S16 32) : Prop :=
  (∀ a x, ((![v922] : Fin 1 → IVec S16 32) a x).toNat < S64000.size a)
instance k0_chk14.dec : ∀ (v922 : IVec S16 32), Decidable (k0_chk14 v922) := fun v922 => decidable_of_iff' _ (Iff.of_eq (k0_chk14.eq_1 v922))
theorem k0_idx14_inb : ∀ (v922 : IVec S16 32) (k0_hw14 : k0_chk14 v922), ∀ a x, ((![v922] : Fin 1 → IVec S16 32) a x).toNat < S64000.size a := fun v922 k0_hw14 => k0_hw14
def k0_off9 (k0_t2 : Fin k0_t2_loop.trips) : Fin 3 → Nat :=
  let c0_i32_486 : BitVec 32 := 0#32
  let v924 : Index := Scalar.indexCast c0_i32_486
  let c5_i32_487 : BitVec 32 := 5#32
  let v925 : Index := Scalar.indexCast c5_i32_487
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v926 : Index := Scalar.indexCast v857
  ![0, 5, v926.toNat]

def k0_chk15 (v929 : IVec S16 32) : Prop :=
  (∀ a x, ((![v929] : Fin 1 → IVec S16 32) a x).toNat < S64000.size a)
instance k0_chk15.dec : ∀ (v929 : IVec S16 32), Decidable (k0_chk15 v929) := fun v929 => decidable_of_iff' _ (Iff.of_eq (k0_chk15.eq_1 v929))
theorem k0_idx15_inb : ∀ (v929 : IVec S16 32) (k0_hw15 : k0_chk15 v929), ∀ a x, ((![v929] : Fin 1 → IVec S16 32) a x).toNat < S64000.size a := fun v929 k0_hw15 => k0_hw15
def k0_off10 (k0_t2 : Fin k0_t2_loop.trips) : Fin 3 → Nat :=
  let c0_i32_489 : BitVec 32 := 0#32
  let v931 : Index := Scalar.indexCast c0_i32_489
  let c6_i32_490 : BitVec 32 := 6#32
  let v932 : Index := Scalar.indexCast c6_i32_490
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v933 : Index := Scalar.indexCast v857
  ![0, 6, v933.toNat]

def k0_chk16 (v936 : IVec S16 32) : Prop :=
  (∀ a x, ((![v936] : Fin 1 → IVec S16 32) a x).toNat < S64000.size a)
instance k0_chk16.dec : ∀ (v936 : IVec S16 32), Decidable (k0_chk16 v936) := fun v936 => decidable_of_iff' _ (Iff.of_eq (k0_chk16.eq_1 v936))
theorem k0_idx16_inb : ∀ (v936 : IVec S16 32) (k0_hw16 : k0_chk16 v936), ∀ a x, ((![v936] : Fin 1 → IVec S16 32) a x).toNat < S64000.size a := fun v936 k0_hw16 => k0_hw16
def k0_off11 (k0_t2 : Fin k0_t2_loop.trips) : Fin 3 → Nat :=
  let c0_i32_492 : BitVec 32 := 0#32
  let v938 : Index := Scalar.indexCast c0_i32_492
  let c7_i32_493 : BitVec 32 := 7#32
  let v939 : Index := Scalar.indexCast c7_i32_493
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v940 : Index := Scalar.indexCast v857
  ![0, 7, v940.toNat]

def k0_chk17 (v943 : IVec S16 32) : Prop :=
  (∀ a x, ((![v943] : Fin 1 → IVec S16 32) a x).toNat < S64000.size a)
instance k0_chk17.dec : ∀ (v943 : IVec S16 32), Decidable (k0_chk17 v943) := fun v943 => decidable_of_iff' _ (Iff.of_eq (k0_chk17.eq_1 v943))
theorem k0_idx17_inb : ∀ (v943 : IVec S16 32) (k0_hw17 : k0_chk17 v943), ∀ a x, ((![v943] : Fin 1 → IVec S16 32) a x).toNat < S64000.size a := fun v943 k0_hw17 => k0_hw17
def k0_off12 (k0_t2 : Fin k0_t2_loop.trips) : Fin 3 → Nat :=
  let c0_i32_495 : BitVec 32 := 0#32
  let v945 : Index := Scalar.indexCast c0_i32_495
  let c8_i32_496 : BitVec 32 := 8#32
  let v946 : Index := Scalar.indexCast c8_i32_496
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v947 : Index := Scalar.indexCast v857
  ![0, 8, v947.toNat]

def k0_chk18 (v950 : IVec S16 32) : Prop :=
  (∀ a x, ((![v950] : Fin 1 → IVec S16 32) a x).toNat < S64000.size a)
instance k0_chk18.dec : ∀ (v950 : IVec S16 32), Decidable (k0_chk18 v950) := fun v950 => decidable_of_iff' _ (Iff.of_eq (k0_chk18.eq_1 v950))
theorem k0_idx18_inb : ∀ (v950 : IVec S16 32) (k0_hw18 : k0_chk18 v950), ∀ a x, ((![v950] : Fin 1 → IVec S16 32) a x).toNat < S64000.size a := fun v950 k0_hw18 => k0_hw18
def k0_off13 (k0_t2 : Fin k0_t2_loop.trips) : Fin 3 → Nat :=
  let c0_i32_498 : BitVec 32 := 0#32
  let v952 : Index := Scalar.indexCast c0_i32_498
  let c9_i32_499 : BitVec 32 := 9#32
  let v953 : Index := Scalar.indexCast c9_i32_499
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v954 : Index := Scalar.indexCast v857
  ![0, 9, v954.toNat]

def k0_chk19 (v957 : IVec S16 32) : Prop :=
  (∀ a x, ((![v957] : Fin 1 → IVec S16 32) a x).toNat < S64000.size a)
instance k0_chk19.dec : ∀ (v957 : IVec S16 32), Decidable (k0_chk19 v957) := fun v957 => decidable_of_iff' _ (Iff.of_eq (k0_chk19.eq_1 v957))
theorem k0_idx19_inb : ∀ (v957 : IVec S16 32) (k0_hw19 : k0_chk19 v957), ∀ a x, ((![v957] : Fin 1 → IVec S16 32) a x).toNat < S64000.size a := fun v957 k0_hw19 => k0_hw19
def k0_off14 (k0_t2 : Fin k0_t2_loop.trips) : Fin 3 → Nat :=
  let c0_i32_501 : BitVec 32 := 0#32
  let v959 : Index := Scalar.indexCast c0_i32_501
  let c10_i32_502 : BitVec 32 := 10#32
  let v960 : Index := Scalar.indexCast c10_i32_502
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v961 : Index := Scalar.indexCast v857
  ![0, 10, v961.toNat]

def k0_chk20 (v964 : IVec S16 32) : Prop :=
  (∀ a x, ((![v964] : Fin 1 → IVec S16 32) a x).toNat < S64000.size a)
instance k0_chk20.dec : ∀ (v964 : IVec S16 32), Decidable (k0_chk20 v964) := fun v964 => decidable_of_iff' _ (Iff.of_eq (k0_chk20.eq_1 v964))
theorem k0_idx20_inb : ∀ (v964 : IVec S16 32) (k0_hw20 : k0_chk20 v964), ∀ a x, ((![v964] : Fin 1 → IVec S16 32) a x).toNat < S64000.size a := fun v964 k0_hw20 => k0_hw20
def k0_off15 (k0_t2 : Fin k0_t2_loop.trips) : Fin 3 → Nat :=
  let c0_i32_504 : BitVec 32 := 0#32
  let v966 : Index := Scalar.indexCast c0_i32_504
  let c11_i32_505 : BitVec 32 := 11#32
  let v967 : Index := Scalar.indexCast c11_i32_505
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v968 : Index := Scalar.indexCast v857
  ![0, 11, v968.toNat]

def k0_chk21 (v971 : IVec S16 32) : Prop :=
  (∀ a x, ((![v971] : Fin 1 → IVec S16 32) a x).toNat < S64000.size a)
instance k0_chk21.dec : ∀ (v971 : IVec S16 32), Decidable (k0_chk21 v971) := fun v971 => decidable_of_iff' _ (Iff.of_eq (k0_chk21.eq_1 v971))
theorem k0_idx21_inb : ∀ (v971 : IVec S16 32) (k0_hw21 : k0_chk21 v971), ∀ a x, ((![v971] : Fin 1 → IVec S16 32) a x).toNat < S64000.size a := fun v971 k0_hw21 => k0_hw21
def k0_off16 (k0_t2 : Fin k0_t2_loop.trips) : Fin 3 → Nat :=
  let c0_i32_507 : BitVec 32 := 0#32
  let v973 : Index := Scalar.indexCast c0_i32_507
  let c12_i32_508 : BitVec 32 := 12#32
  let v974 : Index := Scalar.indexCast c12_i32_508
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v975 : Index := Scalar.indexCast v857
  ![0, 12, v975.toNat]

def k0_chk22 (v978 : IVec S16 32) : Prop :=
  (∀ a x, ((![v978] : Fin 1 → IVec S16 32) a x).toNat < S64000.size a)
instance k0_chk22.dec : ∀ (v978 : IVec S16 32), Decidable (k0_chk22 v978) := fun v978 => decidable_of_iff' _ (Iff.of_eq (k0_chk22.eq_1 v978))
theorem k0_idx22_inb : ∀ (v978 : IVec S16 32) (k0_hw22 : k0_chk22 v978), ∀ a x, ((![v978] : Fin 1 → IVec S16 32) a x).toNat < S64000.size a := fun v978 k0_hw22 => k0_hw22
def k0_off17 (k0_t2 : Fin k0_t2_loop.trips) : Fin 3 → Nat :=
  let c0_i32_510 : BitVec 32 := 0#32
  let v980 : Index := Scalar.indexCast c0_i32_510
  let c13_i32_511 : BitVec 32 := 13#32
  let v981 : Index := Scalar.indexCast c13_i32_511
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v982 : Index := Scalar.indexCast v857
  ![0, 13, v982.toNat]

def k0_chk23 (v985 : IVec S16 32) : Prop :=
  (∀ a x, ((![v985] : Fin 1 → IVec S16 32) a x).toNat < S64000.size a)
instance k0_chk23.dec : ∀ (v985 : IVec S16 32), Decidable (k0_chk23 v985) := fun v985 => decidable_of_iff' _ (Iff.of_eq (k0_chk23.eq_1 v985))
theorem k0_idx23_inb : ∀ (v985 : IVec S16 32) (k0_hw23 : k0_chk23 v985), ∀ a x, ((![v985] : Fin 1 → IVec S16 32) a x).toNat < S64000.size a := fun v985 k0_hw23 => k0_hw23
def k0_off18 (k0_t2 : Fin k0_t2_loop.trips) : Fin 3 → Nat :=
  let c0_i32_513 : BitVec 32 := 0#32
  let v987 : Index := Scalar.indexCast c0_i32_513
  let c14_i32_514 : BitVec 32 := 14#32
  let v988 : Index := Scalar.indexCast c14_i32_514
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v989 : Index := Scalar.indexCast v857
  ![0, 14, v989.toNat]

def k0_chk24 (v992 : IVec S16 32) : Prop :=
  (∀ a x, ((![v992] : Fin 1 → IVec S16 32) a x).toNat < S64000.size a)
instance k0_chk24.dec : ∀ (v992 : IVec S16 32), Decidable (k0_chk24 v992) := fun v992 => decidable_of_iff' _ (Iff.of_eq (k0_chk24.eq_1 v992))
theorem k0_idx24_inb : ∀ (v992 : IVec S16 32) (k0_hw24 : k0_chk24 v992), ∀ a x, ((![v992] : Fin 1 → IVec S16 32) a x).toNat < S64000.size a := fun v992 k0_hw24 => k0_hw24
def k0_off19 (k0_t2 : Fin k0_t2_loop.trips) : Fin 3 → Nat :=
  let c0_i32_516 : BitVec 32 := 0#32
  let v994 : Index := Scalar.indexCast c0_i32_516
  let c15_i32_517 : BitVec 32 := 15#32
  let v995 : Index := Scalar.indexCast c15_i32_517
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v996 : Index := Scalar.indexCast v857
  ![0, 15, v996.toNat]

def k0_chk25 (v999 : IVec S16 32) : Prop :=
  (∀ a x, ((![v999] : Fin 1 → IVec S16 32) a x).toNat < S64000.size a)
instance k0_chk25.dec : ∀ (v999 : IVec S16 32), Decidable (k0_chk25 v999) := fun v999 => decidable_of_iff' _ (Iff.of_eq (k0_chk25.eq_1 v999))
theorem k0_idx25_inb : ∀ (v999 : IVec S16 32) (k0_hw25 : k0_chk25 v999), ∀ a x, ((![v999] : Fin 1 → IVec S16 32) a x).toNat < S64000.size a := fun v999 k0_hw25 => k0_hw25
def k0_off20 (k0_t2 : Fin k0_t2_loop.trips) : Fin 3 → Nat :=
  let c0_i32_519 : BitVec 32 := 0#32
  let v1001 : Index := Scalar.indexCast c0_i32_519
  let c16_i32_520 : BitVec 32 := 16#32
  let v1002 : Index := Scalar.indexCast c16_i32_520
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1003 : Index := Scalar.indexCast v857
  ![0, 16, v1003.toNat]

def k0_chk26 (v1006 : IVec S16 32) : Prop :=
  (∀ a x, ((![v1006] : Fin 1 → IVec S16 32) a x).toNat < S64000.size a)
instance k0_chk26.dec : ∀ (v1006 : IVec S16 32), Decidable (k0_chk26 v1006) := fun v1006 => decidable_of_iff' _ (Iff.of_eq (k0_chk26.eq_1 v1006))
theorem k0_idx26_inb : ∀ (v1006 : IVec S16 32) (k0_hw26 : k0_chk26 v1006), ∀ a x, ((![v1006] : Fin 1 → IVec S16 32) a x).toNat < S64000.size a := fun v1006 k0_hw26 => k0_hw26
def k0_off21 (k0_t2 : Fin k0_t2_loop.trips) : Fin 3 → Nat :=
  let c0_i32_522 : BitVec 32 := 0#32
  let v1008 : Index := Scalar.indexCast c0_i32_522
  let c17_i32_523 : BitVec 32 := 17#32
  let v1009 : Index := Scalar.indexCast c17_i32_523
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1010 : Index := Scalar.indexCast v857
  ![0, 17, v1010.toNat]

def k0_chk27 (v1013 : IVec S16 32) : Prop :=
  (∀ a x, ((![v1013] : Fin 1 → IVec S16 32) a x).toNat < S64000.size a)
instance k0_chk27.dec : ∀ (v1013 : IVec S16 32), Decidable (k0_chk27 v1013) := fun v1013 => decidable_of_iff' _ (Iff.of_eq (k0_chk27.eq_1 v1013))
theorem k0_idx27_inb : ∀ (v1013 : IVec S16 32) (k0_hw27 : k0_chk27 v1013), ∀ a x, ((![v1013] : Fin 1 → IVec S16 32) a x).toNat < S64000.size a := fun v1013 k0_hw27 => k0_hw27
def k0_off22 (k0_t2 : Fin k0_t2_loop.trips) : Fin 3 → Nat :=
  let c0_i32_525 : BitVec 32 := 0#32
  let v1015 : Index := Scalar.indexCast c0_i32_525
  let c18_i32_526 : BitVec 32 := 18#32
  let v1016 : Index := Scalar.indexCast c18_i32_526
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1017 : Index := Scalar.indexCast v857
  ![0, 18, v1017.toNat]

def k0_chk28 (v1020 : IVec S16 32) : Prop :=
  (∀ a x, ((![v1020] : Fin 1 → IVec S16 32) a x).toNat < S64000.size a)
instance k0_chk28.dec : ∀ (v1020 : IVec S16 32), Decidable (k0_chk28 v1020) := fun v1020 => decidable_of_iff' _ (Iff.of_eq (k0_chk28.eq_1 v1020))
theorem k0_idx28_inb : ∀ (v1020 : IVec S16 32) (k0_hw28 : k0_chk28 v1020), ∀ a x, ((![v1020] : Fin 1 → IVec S16 32) a x).toNat < S64000.size a := fun v1020 k0_hw28 => k0_hw28
def k0_off23 (k0_t2 : Fin k0_t2_loop.trips) : Fin 3 → Nat :=
  let c0_i32_528 : BitVec 32 := 0#32
  let v1022 : Index := Scalar.indexCast c0_i32_528
  let c19_i32_529 : BitVec 32 := 19#32
  let v1023 : Index := Scalar.indexCast c19_i32_529
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1024 : Index := Scalar.indexCast v857
  ![0, 19, v1024.toNat]

def k0_chk29 (v1027 : IVec S16 32) : Prop :=
  (∀ a x, ((![v1027] : Fin 1 → IVec S16 32) a x).toNat < S64000.size a)
instance k0_chk29.dec : ∀ (v1027 : IVec S16 32), Decidable (k0_chk29 v1027) := fun v1027 => decidable_of_iff' _ (Iff.of_eq (k0_chk29.eq_1 v1027))
theorem k0_idx29_inb : ∀ (v1027 : IVec S16 32) (k0_hw29 : k0_chk29 v1027), ∀ a x, ((![v1027] : Fin 1 → IVec S16 32) a x).toNat < S64000.size a := fun v1027 k0_hw29 => k0_hw29
def k0_off24 (k0_t2 : Fin k0_t2_loop.trips) : Fin 3 → Nat :=
  let c0_i32_531 : BitVec 32 := 0#32
  let v1029 : Index := Scalar.indexCast c0_i32_531
  let c20_i32_532 : BitVec 32 := 20#32
  let v1030 : Index := Scalar.indexCast c20_i32_532
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1031 : Index := Scalar.indexCast v857
  ![0, 20, v1031.toNat]

def k0_chk30 (v1034 : IVec S16 32) : Prop :=
  (∀ a x, ((![v1034] : Fin 1 → IVec S16 32) a x).toNat < S64000.size a)
instance k0_chk30.dec : ∀ (v1034 : IVec S16 32), Decidable (k0_chk30 v1034) := fun v1034 => decidable_of_iff' _ (Iff.of_eq (k0_chk30.eq_1 v1034))
theorem k0_idx30_inb : ∀ (v1034 : IVec S16 32) (k0_hw30 : k0_chk30 v1034), ∀ a x, ((![v1034] : Fin 1 → IVec S16 32) a x).toNat < S64000.size a := fun v1034 k0_hw30 => k0_hw30
def k0_off25 (k0_t2 : Fin k0_t2_loop.trips) : Fin 3 → Nat :=
  let c0_i32_534 : BitVec 32 := 0#32
  let v1036 : Index := Scalar.indexCast c0_i32_534
  let c21_i32_535 : BitVec 32 := 21#32
  let v1037 : Index := Scalar.indexCast c21_i32_535
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1038 : Index := Scalar.indexCast v857
  ![0, 21, v1038.toNat]

def k0_chk31 (v1041 : IVec S16 32) : Prop :=
  (∀ a x, ((![v1041] : Fin 1 → IVec S16 32) a x).toNat < S64000.size a)
instance k0_chk31.dec : ∀ (v1041 : IVec S16 32), Decidable (k0_chk31 v1041) := fun v1041 => decidable_of_iff' _ (Iff.of_eq (k0_chk31.eq_1 v1041))
theorem k0_idx31_inb : ∀ (v1041 : IVec S16 32) (k0_hw31 : k0_chk31 v1041), ∀ a x, ((![v1041] : Fin 1 → IVec S16 32) a x).toNat < S64000.size a := fun v1041 k0_hw31 => k0_hw31
def k0_off26 (k0_t2 : Fin k0_t2_loop.trips) : Fin 3 → Nat :=
  let c0_i32_537 : BitVec 32 := 0#32
  let v1043 : Index := Scalar.indexCast c0_i32_537
  let c22_i32_538 : BitVec 32 := 22#32
  let v1044 : Index := Scalar.indexCast c22_i32_538
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1045 : Index := Scalar.indexCast v857
  ![0, 22, v1045.toNat]

def k0_chk32 (v1048 : IVec S16 32) : Prop :=
  (∀ a x, ((![v1048] : Fin 1 → IVec S16 32) a x).toNat < S64000.size a)
instance k0_chk32.dec : ∀ (v1048 : IVec S16 32), Decidable (k0_chk32 v1048) := fun v1048 => decidable_of_iff' _ (Iff.of_eq (k0_chk32.eq_1 v1048))
theorem k0_idx32_inb : ∀ (v1048 : IVec S16 32) (k0_hw32 : k0_chk32 v1048), ∀ a x, ((![v1048] : Fin 1 → IVec S16 32) a x).toNat < S64000.size a := fun v1048 k0_hw32 => k0_hw32
def k0_off27 (k0_t2 : Fin k0_t2_loop.trips) : Fin 3 → Nat :=
  let c0_i32_540 : BitVec 32 := 0#32
  let v1050 : Index := Scalar.indexCast c0_i32_540
  let c23_i32_541 : BitVec 32 := 23#32
  let v1051 : Index := Scalar.indexCast c23_i32_541
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1052 : Index := Scalar.indexCast v857
  ![0, 23, v1052.toNat]

def k0_chk33 (v1055 : IVec S16 32) : Prop :=
  (∀ a x, ((![v1055] : Fin 1 → IVec S16 32) a x).toNat < S64000.size a)
instance k0_chk33.dec : ∀ (v1055 : IVec S16 32), Decidable (k0_chk33 v1055) := fun v1055 => decidable_of_iff' _ (Iff.of_eq (k0_chk33.eq_1 v1055))
theorem k0_idx33_inb : ∀ (v1055 : IVec S16 32) (k0_hw33 : k0_chk33 v1055), ∀ a x, ((![v1055] : Fin 1 → IVec S16 32) a x).toNat < S64000.size a := fun v1055 k0_hw33 => k0_hw33
def k0_off28 (k0_t2 : Fin k0_t2_loop.trips) : Fin 3 → Nat :=
  let c0_i32_543 : BitVec 32 := 0#32
  let v1057 : Index := Scalar.indexCast c0_i32_543
  let c24_i32_544 : BitVec 32 := 24#32
  let v1058 : Index := Scalar.indexCast c24_i32_544
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1059 : Index := Scalar.indexCast v857
  ![0, 24, v1059.toNat]

def k0_chk34 (v1062 : IVec S16 32) : Prop :=
  (∀ a x, ((![v1062] : Fin 1 → IVec S16 32) a x).toNat < S64000.size a)
instance k0_chk34.dec : ∀ (v1062 : IVec S16 32), Decidable (k0_chk34 v1062) := fun v1062 => decidable_of_iff' _ (Iff.of_eq (k0_chk34.eq_1 v1062))
theorem k0_idx34_inb : ∀ (v1062 : IVec S16 32) (k0_hw34 : k0_chk34 v1062), ∀ a x, ((![v1062] : Fin 1 → IVec S16 32) a x).toNat < S64000.size a := fun v1062 k0_hw34 => k0_hw34
def k0_off29 (k0_t2 : Fin k0_t2_loop.trips) : Fin 3 → Nat :=
  let c0_i32_546 : BitVec 32 := 0#32
  let v1064 : Index := Scalar.indexCast c0_i32_546
  let c25_i32_547 : BitVec 32 := 25#32
  let v1065 : Index := Scalar.indexCast c25_i32_547
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1066 : Index := Scalar.indexCast v857
  ![0, 25, v1066.toNat]

def k0_chk35 (v1069 : IVec S16 32) : Prop :=
  (∀ a x, ((![v1069] : Fin 1 → IVec S16 32) a x).toNat < S64000.size a)
instance k0_chk35.dec : ∀ (v1069 : IVec S16 32), Decidable (k0_chk35 v1069) := fun v1069 => decidable_of_iff' _ (Iff.of_eq (k0_chk35.eq_1 v1069))
theorem k0_idx35_inb : ∀ (v1069 : IVec S16 32) (k0_hw35 : k0_chk35 v1069), ∀ a x, ((![v1069] : Fin 1 → IVec S16 32) a x).toNat < S64000.size a := fun v1069 k0_hw35 => k0_hw35
def k0_off30 (k0_t2 : Fin k0_t2_loop.trips) : Fin 3 → Nat :=
  let c0_i32_549 : BitVec 32 := 0#32
  let v1071 : Index := Scalar.indexCast c0_i32_549
  let c26_i32_550 : BitVec 32 := 26#32
  let v1072 : Index := Scalar.indexCast c26_i32_550
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1073 : Index := Scalar.indexCast v857
  ![0, 26, v1073.toNat]

def k0_chk36 (v1076 : IVec S16 32) : Prop :=
  (∀ a x, ((![v1076] : Fin 1 → IVec S16 32) a x).toNat < S64000.size a)
instance k0_chk36.dec : ∀ (v1076 : IVec S16 32), Decidable (k0_chk36 v1076) := fun v1076 => decidable_of_iff' _ (Iff.of_eq (k0_chk36.eq_1 v1076))
theorem k0_idx36_inb : ∀ (v1076 : IVec S16 32) (k0_hw36 : k0_chk36 v1076), ∀ a x, ((![v1076] : Fin 1 → IVec S16 32) a x).toNat < S64000.size a := fun v1076 k0_hw36 => k0_hw36
def k0_off31 (k0_t2 : Fin k0_t2_loop.trips) : Fin 3 → Nat :=
  let c0_i32_552 : BitVec 32 := 0#32
  let v1078 : Index := Scalar.indexCast c0_i32_552
  let c27_i32_553 : BitVec 32 := 27#32
  let v1079 : Index := Scalar.indexCast c27_i32_553
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1080 : Index := Scalar.indexCast v857
  ![0, 27, v1080.toNat]

def k0_chk37 (v1083 : IVec S16 32) : Prop :=
  (∀ a x, ((![v1083] : Fin 1 → IVec S16 32) a x).toNat < S64000.size a)
instance k0_chk37.dec : ∀ (v1083 : IVec S16 32), Decidable (k0_chk37 v1083) := fun v1083 => decidable_of_iff' _ (Iff.of_eq (k0_chk37.eq_1 v1083))
theorem k0_idx37_inb : ∀ (v1083 : IVec S16 32) (k0_hw37 : k0_chk37 v1083), ∀ a x, ((![v1083] : Fin 1 → IVec S16 32) a x).toNat < S64000.size a := fun v1083 k0_hw37 => k0_hw37
def k0_off32 (k0_t2 : Fin k0_t2_loop.trips) : Fin 3 → Nat :=
  let c0_i32_555 : BitVec 32 := 0#32
  let v1085 : Index := Scalar.indexCast c0_i32_555
  let c28_i32_556 : BitVec 32 := 28#32
  let v1086 : Index := Scalar.indexCast c28_i32_556
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1087 : Index := Scalar.indexCast v857
  ![0, 28, v1087.toNat]

def k0_chk38 (v1090 : IVec S16 32) : Prop :=
  (∀ a x, ((![v1090] : Fin 1 → IVec S16 32) a x).toNat < S64000.size a)
instance k0_chk38.dec : ∀ (v1090 : IVec S16 32), Decidable (k0_chk38 v1090) := fun v1090 => decidable_of_iff' _ (Iff.of_eq (k0_chk38.eq_1 v1090))
theorem k0_idx38_inb : ∀ (v1090 : IVec S16 32) (k0_hw38 : k0_chk38 v1090), ∀ a x, ((![v1090] : Fin 1 → IVec S16 32) a x).toNat < S64000.size a := fun v1090 k0_hw38 => k0_hw38
def k0_off33 (k0_t2 : Fin k0_t2_loop.trips) : Fin 3 → Nat :=
  let c0_i32_558 : BitVec 32 := 0#32
  let v1092 : Index := Scalar.indexCast c0_i32_558
  let c29_i32_559 : BitVec 32 := 29#32
  let v1093 : Index := Scalar.indexCast c29_i32_559
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1094 : Index := Scalar.indexCast v857
  ![0, 29, v1094.toNat]

def k0_chk39 (v1097 : IVec S16 32) : Prop :=
  (∀ a x, ((![v1097] : Fin 1 → IVec S16 32) a x).toNat < S64000.size a)
instance k0_chk39.dec : ∀ (v1097 : IVec S16 32), Decidable (k0_chk39 v1097) := fun v1097 => decidable_of_iff' _ (Iff.of_eq (k0_chk39.eq_1 v1097))
theorem k0_idx39_inb : ∀ (v1097 : IVec S16 32) (k0_hw39 : k0_chk39 v1097), ∀ a x, ((![v1097] : Fin 1 → IVec S16 32) a x).toNat < S64000.size a := fun v1097 k0_hw39 => k0_hw39
def k0_off34 (k0_t2 : Fin k0_t2_loop.trips) : Fin 3 → Nat :=
  let c0_i32_561 : BitVec 32 := 0#32
  let v1099 : Index := Scalar.indexCast c0_i32_561
  let c30_i32_562 : BitVec 32 := 30#32
  let v1100 : Index := Scalar.indexCast c30_i32_562
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1101 : Index := Scalar.indexCast v857
  ![0, 30, v1101.toNat]

def k0_chk40 (v1104 : IVec S16 32) : Prop :=
  (∀ a x, ((![v1104] : Fin 1 → IVec S16 32) a x).toNat < S64000.size a)
instance k0_chk40.dec : ∀ (v1104 : IVec S16 32), Decidable (k0_chk40 v1104) := fun v1104 => decidable_of_iff' _ (Iff.of_eq (k0_chk40.eq_1 v1104))
theorem k0_idx40_inb : ∀ (v1104 : IVec S16 32) (k0_hw40 : k0_chk40 v1104), ∀ a x, ((![v1104] : Fin 1 → IVec S16 32) a x).toNat < S64000.size a := fun v1104 k0_hw40 => k0_hw40
def k0_off35 (k0_t2 : Fin k0_t2_loop.trips) : Fin 3 → Nat :=
  let c0_i32_564 : BitVec 32 := 0#32
  let v1106 : Index := Scalar.indexCast c0_i32_564
  let c31_i32_565 : BitVec 32 := 31#32
  let v1107 : Index := Scalar.indexCast c31_i32_565
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1108 : Index := Scalar.indexCast v857
  ![0, 31, v1108.toNat]

def k0_chk41 (v1111 : IVec S16 32) : Prop :=
  (∀ a x, ((![v1111] : Fin 1 → IVec S16 32) a x).toNat < S64000.size a)
instance k0_chk41.dec : ∀ (v1111 : IVec S16 32), Decidable (k0_chk41 v1111) := fun v1111 => decidable_of_iff' _ (Iff.of_eq (k0_chk41.eq_1 v1111))
theorem k0_idx41_inb : ∀ (v1111 : IVec S16 32) (k0_hw41 : k0_chk41 v1111), ∀ a x, ((![v1111] : Fin 1 → IVec S16 32) a x).toNat < S64000.size a := fun v1111 k0_hw41 => k0_hw41
def k0_off36 (k0_t2 : Fin k0_t2_loop.trips) : Fin 3 → Nat :=
  let c0_i32_567 : BitVec 32 := 0#32
  let v1113 : Index := Scalar.indexCast c0_i32_567
  let c32_i32_568 : BitVec 32 := 32#32
  let v1114 : Index := Scalar.indexCast c32_i32_568
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1115 : Index := Scalar.indexCast v857
  ![0, 32, v1115.toNat]

def k0_chk42 (v1118 : IVec S16 32) : Prop :=
  (∀ a x, ((![v1118] : Fin 1 → IVec S16 32) a x).toNat < S64000.size a)
instance k0_chk42.dec : ∀ (v1118 : IVec S16 32), Decidable (k0_chk42 v1118) := fun v1118 => decidable_of_iff' _ (Iff.of_eq (k0_chk42.eq_1 v1118))
theorem k0_idx42_inb : ∀ (v1118 : IVec S16 32) (k0_hw42 : k0_chk42 v1118), ∀ a x, ((![v1118] : Fin 1 → IVec S16 32) a x).toNat < S64000.size a := fun v1118 k0_hw42 => k0_hw42
def k0_off37 (k0_t2 : Fin k0_t2_loop.trips) : Fin 3 → Nat :=
  let c0_i32_570 : BitVec 32 := 0#32
  let v1120 : Index := Scalar.indexCast c0_i32_570
  let c33_i32_571 : BitVec 32 := 33#32
  let v1121 : Index := Scalar.indexCast c33_i32_571
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1122 : Index := Scalar.indexCast v857
  ![0, 33, v1122.toNat]

def k0_chk43 (v1125 : IVec S16 32) : Prop :=
  (∀ a x, ((![v1125] : Fin 1 → IVec S16 32) a x).toNat < S64000.size a)
instance k0_chk43.dec : ∀ (v1125 : IVec S16 32), Decidable (k0_chk43 v1125) := fun v1125 => decidable_of_iff' _ (Iff.of_eq (k0_chk43.eq_1 v1125))
theorem k0_idx43_inb : ∀ (v1125 : IVec S16 32) (k0_hw43 : k0_chk43 v1125), ∀ a x, ((![v1125] : Fin 1 → IVec S16 32) a x).toNat < S64000.size a := fun v1125 k0_hw43 => k0_hw43
def k0_off38 (k0_t2 : Fin k0_t2_loop.trips) : Fin 3 → Nat :=
  let c0_i32_573 : BitVec 32 := 0#32
  let v1127 : Index := Scalar.indexCast c0_i32_573
  let c34_i32_574 : BitVec 32 := 34#32
  let v1128 : Index := Scalar.indexCast c34_i32_574
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1129 : Index := Scalar.indexCast v857
  ![0, 34, v1129.toNat]

def k0_chk44 (v1132 : IVec S16 32) : Prop :=
  (∀ a x, ((![v1132] : Fin 1 → IVec S16 32) a x).toNat < S64000.size a)
instance k0_chk44.dec : ∀ (v1132 : IVec S16 32), Decidable (k0_chk44 v1132) := fun v1132 => decidable_of_iff' _ (Iff.of_eq (k0_chk44.eq_1 v1132))
theorem k0_idx44_inb : ∀ (v1132 : IVec S16 32) (k0_hw44 : k0_chk44 v1132), ∀ a x, ((![v1132] : Fin 1 → IVec S16 32) a x).toNat < S64000.size a := fun v1132 k0_hw44 => k0_hw44
def k0_off39 (k0_t2 : Fin k0_t2_loop.trips) : Fin 3 → Nat :=
  let c0_i32_576 : BitVec 32 := 0#32
  let v1134 : Index := Scalar.indexCast c0_i32_576
  let c35_i32_577 : BitVec 32 := 35#32
  let v1135 : Index := Scalar.indexCast c35_i32_577
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1136 : Index := Scalar.indexCast v857
  ![0, 35, v1136.toNat]

def k0_chk45 (v1139 : IVec S16 32) : Prop :=
  (∀ a x, ((![v1139] : Fin 1 → IVec S16 32) a x).toNat < S64000.size a)
instance k0_chk45.dec : ∀ (v1139 : IVec S16 32), Decidable (k0_chk45 v1139) := fun v1139 => decidable_of_iff' _ (Iff.of_eq (k0_chk45.eq_1 v1139))
theorem k0_idx45_inb : ∀ (v1139 : IVec S16 32) (k0_hw45 : k0_chk45 v1139), ∀ a x, ((![v1139] : Fin 1 → IVec S16 32) a x).toNat < S64000.size a := fun v1139 k0_hw45 => k0_hw45
def k0_off40 (k0_t2 : Fin k0_t2_loop.trips) : Fin 3 → Nat :=
  let c0_i32_579 : BitVec 32 := 0#32
  let v1141 : Index := Scalar.indexCast c0_i32_579
  let c36_i32_580 : BitVec 32 := 36#32
  let v1142 : Index := Scalar.indexCast c36_i32_580
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1143 : Index := Scalar.indexCast v857
  ![0, 36, v1143.toNat]

def k0_chk46 (v1146 : IVec S16 32) : Prop :=
  (∀ a x, ((![v1146] : Fin 1 → IVec S16 32) a x).toNat < S64000.size a)
instance k0_chk46.dec : ∀ (v1146 : IVec S16 32), Decidable (k0_chk46 v1146) := fun v1146 => decidable_of_iff' _ (Iff.of_eq (k0_chk46.eq_1 v1146))
theorem k0_idx46_inb : ∀ (v1146 : IVec S16 32) (k0_hw46 : k0_chk46 v1146), ∀ a x, ((![v1146] : Fin 1 → IVec S16 32) a x).toNat < S64000.size a := fun v1146 k0_hw46 => k0_hw46
def k0_off41 (k0_t2 : Fin k0_t2_loop.trips) : Fin 3 → Nat :=
  let c0_i32_582 : BitVec 32 := 0#32
  let v1148 : Index := Scalar.indexCast c0_i32_582
  let c37_i32_583 : BitVec 32 := 37#32
  let v1149 : Index := Scalar.indexCast c37_i32_583
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1150 : Index := Scalar.indexCast v857
  ![0, 37, v1150.toNat]

def k0_chk47 (v1153 : IVec S16 32) : Prop :=
  (∀ a x, ((![v1153] : Fin 1 → IVec S16 32) a x).toNat < S64000.size a)
instance k0_chk47.dec : ∀ (v1153 : IVec S16 32), Decidable (k0_chk47 v1153) := fun v1153 => decidable_of_iff' _ (Iff.of_eq (k0_chk47.eq_1 v1153))
theorem k0_idx47_inb : ∀ (v1153 : IVec S16 32) (k0_hw47 : k0_chk47 v1153), ∀ a x, ((![v1153] : Fin 1 → IVec S16 32) a x).toNat < S64000.size a := fun v1153 k0_hw47 => k0_hw47
def k0_off42 (k0_t2 : Fin k0_t2_loop.trips) : Fin 3 → Nat :=
  let c0_i32_585 : BitVec 32 := 0#32
  let v1155 : Index := Scalar.indexCast c0_i32_585
  let c38_i32_586 : BitVec 32 := 38#32
  let v1156 : Index := Scalar.indexCast c38_i32_586
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1157 : Index := Scalar.indexCast v857
  ![0, 38, v1157.toNat]

def k0_chk48 (v1160 : IVec S16 32) : Prop :=
  (∀ a x, ((![v1160] : Fin 1 → IVec S16 32) a x).toNat < S64000.size a)
instance k0_chk48.dec : ∀ (v1160 : IVec S16 32), Decidable (k0_chk48 v1160) := fun v1160 => decidable_of_iff' _ (Iff.of_eq (k0_chk48.eq_1 v1160))
theorem k0_idx48_inb : ∀ (v1160 : IVec S16 32) (k0_hw48 : k0_chk48 v1160), ∀ a x, ((![v1160] : Fin 1 → IVec S16 32) a x).toNat < S64000.size a := fun v1160 k0_hw48 => k0_hw48
def k0_off43 (k0_t2 : Fin k0_t2_loop.trips) : Fin 3 → Nat :=
  let c0_i32_588 : BitVec 32 := 0#32
  let v1162 : Index := Scalar.indexCast c0_i32_588
  let c39_i32_589 : BitVec 32 := 39#32
  let v1163 : Index := Scalar.indexCast c39_i32_589
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1164 : Index := Scalar.indexCast v857
  ![0, 39, v1164.toNat]

def k0_chk49 (v1167 : IVec S16 32) : Prop :=
  (∀ a x, ((![v1167] : Fin 1 → IVec S16 32) a x).toNat < S64000.size a)
instance k0_chk49.dec : ∀ (v1167 : IVec S16 32), Decidable (k0_chk49 v1167) := fun v1167 => decidable_of_iff' _ (Iff.of_eq (k0_chk49.eq_1 v1167))
theorem k0_idx49_inb : ∀ (v1167 : IVec S16 32) (k0_hw49 : k0_chk49 v1167), ∀ a x, ((![v1167] : Fin 1 → IVec S16 32) a x).toNat < S64000.size a := fun v1167 k0_hw49 => k0_hw49
def k0_off44 (k0_t2 : Fin k0_t2_loop.trips) : Fin 3 → Nat :=
  let c0_i32_591 : BitVec 32 := 0#32
  let v1169 : Index := Scalar.indexCast c0_i32_591
  let c40_i32_592 : BitVec 32 := 40#32
  let v1170 : Index := Scalar.indexCast c40_i32_592
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1171 : Index := Scalar.indexCast v857
  ![0, 40, v1171.toNat]

def k0_chk50 (v1174 : IVec S16 32) : Prop :=
  (∀ a x, ((![v1174] : Fin 1 → IVec S16 32) a x).toNat < S64000.size a)
instance k0_chk50.dec : ∀ (v1174 : IVec S16 32), Decidable (k0_chk50 v1174) := fun v1174 => decidable_of_iff' _ (Iff.of_eq (k0_chk50.eq_1 v1174))
theorem k0_idx50_inb : ∀ (v1174 : IVec S16 32) (k0_hw50 : k0_chk50 v1174), ∀ a x, ((![v1174] : Fin 1 → IVec S16 32) a x).toNat < S64000.size a := fun v1174 k0_hw50 => k0_hw50
def k0_off45 (k0_t2 : Fin k0_t2_loop.trips) : Fin 3 → Nat :=
  let c0_i32_594 : BitVec 32 := 0#32
  let v1176 : Index := Scalar.indexCast c0_i32_594
  let c41_i32_595 : BitVec 32 := 41#32
  let v1177 : Index := Scalar.indexCast c41_i32_595
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1178 : Index := Scalar.indexCast v857
  ![0, 41, v1178.toNat]

def k0_chk51 (v1181 : IVec S16 32) : Prop :=
  (∀ a x, ((![v1181] : Fin 1 → IVec S16 32) a x).toNat < S64000.size a)
instance k0_chk51.dec : ∀ (v1181 : IVec S16 32), Decidable (k0_chk51 v1181) := fun v1181 => decidable_of_iff' _ (Iff.of_eq (k0_chk51.eq_1 v1181))
theorem k0_idx51_inb : ∀ (v1181 : IVec S16 32) (k0_hw51 : k0_chk51 v1181), ∀ a x, ((![v1181] : Fin 1 → IVec S16 32) a x).toNat < S64000.size a := fun v1181 k0_hw51 => k0_hw51
def k0_off46 (k0_t2 : Fin k0_t2_loop.trips) : Fin 3 → Nat :=
  let c0_i32_597 : BitVec 32 := 0#32
  let v1183 : Index := Scalar.indexCast c0_i32_597
  let c42_i32_598 : BitVec 32 := 42#32
  let v1184 : Index := Scalar.indexCast c42_i32_598
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1185 : Index := Scalar.indexCast v857
  ![0, 42, v1185.toNat]

def k0_chk52 (v1188 : IVec S16 32) : Prop :=
  (∀ a x, ((![v1188] : Fin 1 → IVec S16 32) a x).toNat < S64000.size a)
instance k0_chk52.dec : ∀ (v1188 : IVec S16 32), Decidable (k0_chk52 v1188) := fun v1188 => decidable_of_iff' _ (Iff.of_eq (k0_chk52.eq_1 v1188))
theorem k0_idx52_inb : ∀ (v1188 : IVec S16 32) (k0_hw52 : k0_chk52 v1188), ∀ a x, ((![v1188] : Fin 1 → IVec S16 32) a x).toNat < S64000.size a := fun v1188 k0_hw52 => k0_hw52
def k0_off47 (k0_t2 : Fin k0_t2_loop.trips) : Fin 3 → Nat :=
  let c0_i32_600 : BitVec 32 := 0#32
  let v1190 : Index := Scalar.indexCast c0_i32_600
  let c43_i32_601 : BitVec 32 := 43#32
  let v1191 : Index := Scalar.indexCast c43_i32_601
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1192 : Index := Scalar.indexCast v857
  ![0, 43, v1192.toNat]

def k0_chk53 (v1195 : IVec S16 32) : Prop :=
  (∀ a x, ((![v1195] : Fin 1 → IVec S16 32) a x).toNat < S64000.size a)
instance k0_chk53.dec : ∀ (v1195 : IVec S16 32), Decidable (k0_chk53 v1195) := fun v1195 => decidable_of_iff' _ (Iff.of_eq (k0_chk53.eq_1 v1195))
theorem k0_idx53_inb : ∀ (v1195 : IVec S16 32) (k0_hw53 : k0_chk53 v1195), ∀ a x, ((![v1195] : Fin 1 → IVec S16 32) a x).toNat < S64000.size a := fun v1195 k0_hw53 => k0_hw53
def k0_off48 (k0_t2 : Fin k0_t2_loop.trips) : Fin 3 → Nat :=
  let c0_i32_603 : BitVec 32 := 0#32
  let v1197 : Index := Scalar.indexCast c0_i32_603
  let c44_i32_604 : BitVec 32 := 44#32
  let v1198 : Index := Scalar.indexCast c44_i32_604
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1199 : Index := Scalar.indexCast v857
  ![0, 44, v1199.toNat]

def k0_chk54 (v1202 : IVec S16 32) : Prop :=
  (∀ a x, ((![v1202] : Fin 1 → IVec S16 32) a x).toNat < S64000.size a)
instance k0_chk54.dec : ∀ (v1202 : IVec S16 32), Decidable (k0_chk54 v1202) := fun v1202 => decidable_of_iff' _ (Iff.of_eq (k0_chk54.eq_1 v1202))
theorem k0_idx54_inb : ∀ (v1202 : IVec S16 32) (k0_hw54 : k0_chk54 v1202), ∀ a x, ((![v1202] : Fin 1 → IVec S16 32) a x).toNat < S64000.size a := fun v1202 k0_hw54 => k0_hw54
def k0_off49 (k0_t2 : Fin k0_t2_loop.trips) : Fin 3 → Nat :=
  let c0_i32_606 : BitVec 32 := 0#32
  let v1204 : Index := Scalar.indexCast c0_i32_606
  let c45_i32_607 : BitVec 32 := 45#32
  let v1205 : Index := Scalar.indexCast c45_i32_607
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1206 : Index := Scalar.indexCast v857
  ![0, 45, v1206.toNat]

def k0_chk55 (v1209 : IVec S16 32) : Prop :=
  (∀ a x, ((![v1209] : Fin 1 → IVec S16 32) a x).toNat < S64000.size a)
instance k0_chk55.dec : ∀ (v1209 : IVec S16 32), Decidable (k0_chk55 v1209) := fun v1209 => decidable_of_iff' _ (Iff.of_eq (k0_chk55.eq_1 v1209))
theorem k0_idx55_inb : ∀ (v1209 : IVec S16 32) (k0_hw55 : k0_chk55 v1209), ∀ a x, ((![v1209] : Fin 1 → IVec S16 32) a x).toNat < S64000.size a := fun v1209 k0_hw55 => k0_hw55
def k0_off50 (k0_t2 : Fin k0_t2_loop.trips) : Fin 3 → Nat :=
  let c0_i32_609 : BitVec 32 := 0#32
  let v1211 : Index := Scalar.indexCast c0_i32_609
  let c46_i32_610 : BitVec 32 := 46#32
  let v1212 : Index := Scalar.indexCast c46_i32_610
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1213 : Index := Scalar.indexCast v857
  ![0, 46, v1213.toNat]

def k0_chk56 (v1216 : IVec S16 32) : Prop :=
  (∀ a x, ((![v1216] : Fin 1 → IVec S16 32) a x).toNat < S64000.size a)
instance k0_chk56.dec : ∀ (v1216 : IVec S16 32), Decidable (k0_chk56 v1216) := fun v1216 => decidable_of_iff' _ (Iff.of_eq (k0_chk56.eq_1 v1216))
theorem k0_idx56_inb : ∀ (v1216 : IVec S16 32) (k0_hw56 : k0_chk56 v1216), ∀ a x, ((![v1216] : Fin 1 → IVec S16 32) a x).toNat < S64000.size a := fun v1216 k0_hw56 => k0_hw56
def k0_off51 (k0_t2 : Fin k0_t2_loop.trips) : Fin 3 → Nat :=
  let c0_i32_612 : BitVec 32 := 0#32
  let v1218 : Index := Scalar.indexCast c0_i32_612
  let c47_i32_613 : BitVec 32 := 47#32
  let v1219 : Index := Scalar.indexCast c47_i32_613
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1220 : Index := Scalar.indexCast v857
  ![0, 47, v1220.toNat]

def k0_chk57 (v1223 : IVec S16 32) : Prop :=
  (∀ a x, ((![v1223] : Fin 1 → IVec S16 32) a x).toNat < S64000.size a)
instance k0_chk57.dec : ∀ (v1223 : IVec S16 32), Decidable (k0_chk57 v1223) := fun v1223 => decidable_of_iff' _ (Iff.of_eq (k0_chk57.eq_1 v1223))
theorem k0_idx57_inb : ∀ (v1223 : IVec S16 32) (k0_hw57 : k0_chk57 v1223), ∀ a x, ((![v1223] : Fin 1 → IVec S16 32) a x).toNat < S64000.size a := fun v1223 k0_hw57 => k0_hw57
def k0_off52 (k0_t2 : Fin k0_t2_loop.trips) : Fin 3 → Nat :=
  let c0_i32_615 : BitVec 32 := 0#32
  let v1225 : Index := Scalar.indexCast c0_i32_615
  let c48_i32_616 : BitVec 32 := 48#32
  let v1226 : Index := Scalar.indexCast c48_i32_616
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1227 : Index := Scalar.indexCast v857
  ![0, 48, v1227.toNat]

def k0_chk58 (v1230 : IVec S16 32) : Prop :=
  (∀ a x, ((![v1230] : Fin 1 → IVec S16 32) a x).toNat < S64000.size a)
instance k0_chk58.dec : ∀ (v1230 : IVec S16 32), Decidable (k0_chk58 v1230) := fun v1230 => decidable_of_iff' _ (Iff.of_eq (k0_chk58.eq_1 v1230))
theorem k0_idx58_inb : ∀ (v1230 : IVec S16 32) (k0_hw58 : k0_chk58 v1230), ∀ a x, ((![v1230] : Fin 1 → IVec S16 32) a x).toNat < S64000.size a := fun v1230 k0_hw58 => k0_hw58
def k0_off53 (k0_t2 : Fin k0_t2_loop.trips) : Fin 3 → Nat :=
  let c0_i32_618 : BitVec 32 := 0#32
  let v1232 : Index := Scalar.indexCast c0_i32_618
  let c49_i32_619 : BitVec 32 := 49#32
  let v1233 : Index := Scalar.indexCast c49_i32_619
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1234 : Index := Scalar.indexCast v857
  ![0, 49, v1234.toNat]

def k0_chk59 (v1237 : IVec S16 32) : Prop :=
  (∀ a x, ((![v1237] : Fin 1 → IVec S16 32) a x).toNat < S64000.size a)
instance k0_chk59.dec : ∀ (v1237 : IVec S16 32), Decidable (k0_chk59 v1237) := fun v1237 => decidable_of_iff' _ (Iff.of_eq (k0_chk59.eq_1 v1237))
theorem k0_idx59_inb : ∀ (v1237 : IVec S16 32) (k0_hw59 : k0_chk59 v1237), ∀ a x, ((![v1237] : Fin 1 → IVec S16 32) a x).toNat < S64000.size a := fun v1237 k0_hw59 => k0_hw59
def k0_off54 (k0_t2 : Fin k0_t2_loop.trips) : Fin 3 → Nat :=
  let c0_i32_621 : BitVec 32 := 0#32
  let v1239 : Index := Scalar.indexCast c0_i32_621
  let c50_i32_622 : BitVec 32 := 50#32
  let v1240 : Index := Scalar.indexCast c50_i32_622
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1241 : Index := Scalar.indexCast v857
  ![0, 50, v1241.toNat]

def k0_chk60 (v1244 : IVec S16 32) : Prop :=
  (∀ a x, ((![v1244] : Fin 1 → IVec S16 32) a x).toNat < S64000.size a)
instance k0_chk60.dec : ∀ (v1244 : IVec S16 32), Decidable (k0_chk60 v1244) := fun v1244 => decidable_of_iff' _ (Iff.of_eq (k0_chk60.eq_1 v1244))
theorem k0_idx60_inb : ∀ (v1244 : IVec S16 32) (k0_hw60 : k0_chk60 v1244), ∀ a x, ((![v1244] : Fin 1 → IVec S16 32) a x).toNat < S64000.size a := fun v1244 k0_hw60 => k0_hw60
def k0_off55 (k0_t2 : Fin k0_t2_loop.trips) : Fin 3 → Nat :=
  let c0_i32_624 : BitVec 32 := 0#32
  let v1246 : Index := Scalar.indexCast c0_i32_624
  let c51_i32_625 : BitVec 32 := 51#32
  let v1247 : Index := Scalar.indexCast c51_i32_625
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1248 : Index := Scalar.indexCast v857
  ![0, 51, v1248.toNat]

def k0_chk61 (v1251 : IVec S16 32) : Prop :=
  (∀ a x, ((![v1251] : Fin 1 → IVec S16 32) a x).toNat < S64000.size a)
instance k0_chk61.dec : ∀ (v1251 : IVec S16 32), Decidable (k0_chk61 v1251) := fun v1251 => decidable_of_iff' _ (Iff.of_eq (k0_chk61.eq_1 v1251))
theorem k0_idx61_inb : ∀ (v1251 : IVec S16 32) (k0_hw61 : k0_chk61 v1251), ∀ a x, ((![v1251] : Fin 1 → IVec S16 32) a x).toNat < S64000.size a := fun v1251 k0_hw61 => k0_hw61
def k0_off56 (k0_t2 : Fin k0_t2_loop.trips) : Fin 3 → Nat :=
  let c0_i32_627 : BitVec 32 := 0#32
  let v1253 : Index := Scalar.indexCast c0_i32_627
  let c52_i32_628 : BitVec 32 := 52#32
  let v1254 : Index := Scalar.indexCast c52_i32_628
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1255 : Index := Scalar.indexCast v857
  ![0, 52, v1255.toNat]

def k0_chk62 (v1258 : IVec S16 32) : Prop :=
  (∀ a x, ((![v1258] : Fin 1 → IVec S16 32) a x).toNat < S64000.size a)
instance k0_chk62.dec : ∀ (v1258 : IVec S16 32), Decidable (k0_chk62 v1258) := fun v1258 => decidable_of_iff' _ (Iff.of_eq (k0_chk62.eq_1 v1258))
theorem k0_idx62_inb : ∀ (v1258 : IVec S16 32) (k0_hw62 : k0_chk62 v1258), ∀ a x, ((![v1258] : Fin 1 → IVec S16 32) a x).toNat < S64000.size a := fun v1258 k0_hw62 => k0_hw62
def k0_off57 (k0_t2 : Fin k0_t2_loop.trips) : Fin 3 → Nat :=
  let c0_i32_630 : BitVec 32 := 0#32
  let v1260 : Index := Scalar.indexCast c0_i32_630
  let c53_i32_631 : BitVec 32 := 53#32
  let v1261 : Index := Scalar.indexCast c53_i32_631
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1262 : Index := Scalar.indexCast v857
  ![0, 53, v1262.toNat]

def k0_chk63 (v1265 : IVec S16 32) : Prop :=
  (∀ a x, ((![v1265] : Fin 1 → IVec S16 32) a x).toNat < S64000.size a)
instance k0_chk63.dec : ∀ (v1265 : IVec S16 32), Decidable (k0_chk63 v1265) := fun v1265 => decidable_of_iff' _ (Iff.of_eq (k0_chk63.eq_1 v1265))
theorem k0_idx63_inb : ∀ (v1265 : IVec S16 32) (k0_hw63 : k0_chk63 v1265), ∀ a x, ((![v1265] : Fin 1 → IVec S16 32) a x).toNat < S64000.size a := fun v1265 k0_hw63 => k0_hw63
def k0_off58 (k0_t2 : Fin k0_t2_loop.trips) : Fin 3 → Nat :=
  let c0_i32_633 : BitVec 32 := 0#32
  let v1267 : Index := Scalar.indexCast c0_i32_633
  let c54_i32_634 : BitVec 32 := 54#32
  let v1268 : Index := Scalar.indexCast c54_i32_634
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1269 : Index := Scalar.indexCast v857
  ![0, 54, v1269.toNat]

def k0_chk64 (v1272 : IVec S16 32) : Prop :=
  (∀ a x, ((![v1272] : Fin 1 → IVec S16 32) a x).toNat < S64000.size a)
instance k0_chk64.dec : ∀ (v1272 : IVec S16 32), Decidable (k0_chk64 v1272) := fun v1272 => decidable_of_iff' _ (Iff.of_eq (k0_chk64.eq_1 v1272))
theorem k0_idx64_inb : ∀ (v1272 : IVec S16 32) (k0_hw64 : k0_chk64 v1272), ∀ a x, ((![v1272] : Fin 1 → IVec S16 32) a x).toNat < S64000.size a := fun v1272 k0_hw64 => k0_hw64
def k0_off59 (k0_t2 : Fin k0_t2_loop.trips) : Fin 3 → Nat :=
  let c0_i32_636 : BitVec 32 := 0#32
  let v1274 : Index := Scalar.indexCast c0_i32_636
  let c55_i32_637 : BitVec 32 := 55#32
  let v1275 : Index := Scalar.indexCast c55_i32_637
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1276 : Index := Scalar.indexCast v857
  ![0, 55, v1276.toNat]
def k0_off60 (k0_t2 : Fin k0_t2_loop.trips) : Fin 3 → Nat :=
  let c0_i32_638 : BitVec 32 := 0#32
  let v1278 : Index := Scalar.indexCast c0_i32_638
  let c56_i32_639 : BitVec 32 := 56#32
  let v1279 : Index := Scalar.indexCast c56_i32_639
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1280 : Index := Scalar.indexCast v857
  ![0, 56, v1280.toNat]
def k0_off61 (k0_t2 : Fin k0_t2_loop.trips) : Fin 3 → Nat :=
  let c0_i32_640 : BitVec 32 := 0#32
  let v1282 : Index := Scalar.indexCast c0_i32_640
  let c57_i32_641 : BitVec 32 := 57#32
  let v1283 : Index := Scalar.indexCast c57_i32_641
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1284 : Index := Scalar.indexCast v857
  ![0, 57, v1284.toNat]
def k0_off62 (k0_t2 : Fin k0_t2_loop.trips) : Fin 3 → Nat :=
  let c0_i32_642 : BitVec 32 := 0#32
  let v1286 : Index := Scalar.indexCast c0_i32_642
  let c58_i32_643 : BitVec 32 := 58#32
  let v1287 : Index := Scalar.indexCast c58_i32_643
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1288 : Index := Scalar.indexCast v857
  ![0, 58, v1288.toNat]
def k0_off63 (k0_t2 : Fin k0_t2_loop.trips) : Fin 3 → Nat :=
  let c0_i32_644 : BitVec 32 := 0#32
  let v1290 : Index := Scalar.indexCast c0_i32_644
  let c59_i32_645 : BitVec 32 := 59#32
  let v1291 : Index := Scalar.indexCast c59_i32_645
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1292 : Index := Scalar.indexCast v857
  ![0, 59, v1292.toNat]
def k0_off64 (k0_t2 : Fin k0_t2_loop.trips) : Fin 3 → Nat :=
  let c0_i32_646 : BitVec 32 := 0#32
  let v1294 : Index := Scalar.indexCast c0_i32_646
  let c60_i32_647 : BitVec 32 := 60#32
  let v1295 : Index := Scalar.indexCast c60_i32_647
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1296 : Index := Scalar.indexCast v857
  ![0, 60, v1296.toNat]
def k0_off65 (k0_t2 : Fin k0_t2_loop.trips) : Fin 3 → Nat :=
  let c0_i32_648 : BitVec 32 := 0#32
  let v1298 : Index := Scalar.indexCast c0_i32_648
  let c61_i32_649 : BitVec 32 := 61#32
  let v1299 : Index := Scalar.indexCast c61_i32_649
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1300 : Index := Scalar.indexCast v857
  ![0, 61, v1300.toNat]
def k0_off66 (k0_t2 : Fin k0_t2_loop.trips) : Fin 3 → Nat :=
  let c0_i32_650 : BitVec 32 := 0#32
  let v1302 : Index := Scalar.indexCast c0_i32_650
  let c62_i32_651 : BitVec 32 := 62#32
  let v1303 : Index := Scalar.indexCast c62_i32_651
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1304 : Index := Scalar.indexCast v857
  ![0, 62, v1304.toNat]
def k0_off67 (k0_t2 : Fin k0_t2_loop.trips) : Fin 3 → Nat :=
  let c0_i32_652 : BitVec 32 := 0#32
  let v1306 : Index := Scalar.indexCast c0_i32_652
  let c63_i32_653 : BitVec 32 := 63#32
  let v1307 : Index := Scalar.indexCast c63_i32_653
  let c0_i32_41 : BitVec 32 := 0#32
  let c1_i32_42 : BitVec 32 := 1#32
  let arg11 : BitVec 32 := Scf.iv c0_i32_41 c1_i32_42 k0_t2
  let c16_i32_460 : BitVec 32 := 16#32
  let v856 : BitVec 32 := Scalar.muli arg11 c16_i32_460
  let v857 : BitVec 32 := v856
  let v1308 : Index := Scalar.indexCast v857
  ![0, 63, v1308.toNat]
def k0_off68 (k0_t1 : Fin k0_t1_loop.trips) : Fin 1 → Nat :=
  let c0_i32_13 : BitVec 32 := 0#32
  let c1_i32_14 : BitVec 32 := 1#32
  let arg10 : BitVec 32 := Scf.iv c0_i32_13 c1_i32_14 k0_t1
  let c2_i32_36 : BitVec 32 := 2#32
  let v50 : BitVec 32 := Scalar.muli arg10 c2_i32_36
  let c0_i32_37 : BitVec 32 := 0#32
  let v51 : BitVec 32 := Scalar.addi v50 c0_i32_37
  let c200_i32_44 : BitVec 32 := 200#32
  let v56 : BitVec 32 := Scalar.muli v51 c200_i32_44
  let c184_i32 : BitVec 32 := 184#32
  let v57 : BitVec 32 := Scalar.addi v56 c184_i32
  let v58 : Index := Scalar.indexCast v57
  ![v58.toNat]

def k0_chk65 (v61 : IVec S16 32) : Prop :=
  (∀ a x, ((![v61] : Fin 1 → IVec S16 32) a x).toNat < S64000.size a)
instance k0_chk65.dec : ∀ (v61 : IVec S16 32), Decidable (k0_chk65 v61) := fun v61 => decidable_of_iff' _ (Iff.of_eq (k0_chk65.eq_1 v61))
theorem k0_idx65_inb : ∀ (v61 : IVec S16 32) (k0_hw65 : k0_chk65 v61), ∀ a x, ((![v61] : Fin 1 → IVec S16 32) a x).toNat < S64000.size a := fun v61 k0_hw65 => k0_hw65

def k0_chk66 (v64 : IVec S16 32) : Prop :=
  (∀ a x, ((![v64] : Fin 1 → IVec S16 32) a x).toNat < S64000.size a)
instance k0_chk66.dec : ∀ (v64 : IVec S16 32), Decidable (k0_chk66 v64) := fun v64 => decidable_of_iff' _ (Iff.of_eq (k0_chk66.eq_1 v64))
theorem k0_idx66_inb : ∀ (v64 : IVec S16 32) (k0_hw66 : k0_chk66 v64), ∀ a x, ((![v64] : Fin 1 → IVec S16 32) a x).toNat < S64000.size a := fun v64 k0_hw66 => k0_hw66

def k0_chk67 (v67 : IVec S16 32) : Prop :=
  (∀ a x, ((![v67] : Fin 1 → IVec S16 32) a x).toNat < S64000.size a)
instance k0_chk67.dec : ∀ (v67 : IVec S16 32), Decidable (k0_chk67 v67) := fun v67 => decidable_of_iff' _ (Iff.of_eq (k0_chk67.eq_1 v67))
theorem k0_idx67_inb : ∀ (v67 : IVec S16 32) (k0_hw67 : k0_chk67 v67), ∀ a x, ((![v67] : Fin 1 → IVec S16 32) a x).toNat < S64000.size a := fun v67 k0_hw67 => k0_hw67

def k0_chk68 (v70 : IVec S16 32) : Prop :=
  (∀ a x, ((![v70] : Fin 1 → IVec S16 32) a x).toNat < S64000.size a)
instance k0_chk68.dec : ∀ (v70 : IVec S16 32), Decidable (k0_chk68 v70) := fun v70 => decidable_of_iff' _ (Iff.of_eq (k0_chk68.eq_1 v70))
theorem k0_idx68_inb : ∀ (v70 : IVec S16 32) (k0_hw68 : k0_chk68 v70), ∀ a x, ((![v70] : Fin 1 → IVec S16 32) a x).toNat < S64000.size a := fun v70 k0_hw68 => k0_hw68

def k0_chk69 (v73 : IVec S16 32) : Prop :=
  (∀ a x, ((![v73] : Fin 1 → IVec S16 32) a x).toNat < S64000.size a)
instance k0_chk69.dec : ∀ (v73 : IVec S16 32), Decidable (k0_chk69 v73) := fun v73 => decidable_of_iff' _ (Iff.of_eq (k0_chk69.eq_1 v73))
theorem k0_idx69_inb : ∀ (v73 : IVec S16 32) (k0_hw69 : k0_chk69 v73), ∀ a x, ((![v73] : Fin 1 → IVec S16 32) a x).toNat < S64000.size a := fun v73 k0_hw69 => k0_hw69

def k0_chk70 (v76 : IVec S16 32) : Prop :=
  (∀ a x, ((![v76] : Fin 1 → IVec S16 32) a x).toNat < S64000.size a)
instance k0_chk70.dec : ∀ (v76 : IVec S16 32), Decidable (k0_chk70 v76) := fun v76 => decidable_of_iff' _ (Iff.of_eq (k0_chk70.eq_1 v76))
theorem k0_idx70_inb : ∀ (v76 : IVec S16 32) (k0_hw70 : k0_chk70 v76), ∀ a x, ((![v76] : Fin 1 → IVec S16 32) a x).toNat < S64000.size a := fun v76 k0_hw70 => k0_hw70

def k0_chk71 (v79 : IVec S16 32) : Prop :=
  (∀ a x, ((![v79] : Fin 1 → IVec S16 32) a x).toNat < S64000.size a)
instance k0_chk71.dec : ∀ (v79 : IVec S16 32), Decidable (k0_chk71 v79) := fun v79 => decidable_of_iff' _ (Iff.of_eq (k0_chk71.eq_1 v79))
theorem k0_idx71_inb : ∀ (v79 : IVec S16 32) (k0_hw71 : k0_chk71 v79), ∀ a x, ((![v79] : Fin 1 → IVec S16 32) a x).toNat < S64000.size a := fun v79 k0_hw71 => k0_hw71

def k0_chk72 (v82 : IVec S16 32) : Prop :=
  (∀ a x, ((![v82] : Fin 1 → IVec S16 32) a x).toNat < S64000.size a)
instance k0_chk72.dec : ∀ (v82 : IVec S16 32), Decidable (k0_chk72 v82) := fun v82 => decidable_of_iff' _ (Iff.of_eq (k0_chk72.eq_1 v82))
theorem k0_idx72_inb : ∀ (v82 : IVec S16 32) (k0_hw72 : k0_chk72 v82), ∀ a x, ((![v82] : Fin 1 → IVec S16 32) a x).toNat < S64000.size a := fun v82 k0_hw72 => k0_hw72

def k0_chk73 (v85 : IVec S16 32) : Prop :=
  (∀ a x, ((![v85] : Fin 1 → IVec S16 32) a x).toNat < S64000.size a)
instance k0_chk73.dec : ∀ (v85 : IVec S16 32), Decidable (k0_chk73 v85) := fun v85 => decidable_of_iff' _ (Iff.of_eq (k0_chk73.eq_1 v85))
theorem k0_idx73_inb : ∀ (v85 : IVec S16 32) (k0_hw73 : k0_chk73 v85), ∀ a x, ((![v85] : Fin 1 → IVec S16 32) a x).toNat < S64000.size a := fun v85 k0_hw73 => k0_hw73

def k0_chk74 (v91 : IVec S16 32) : Prop :=
  (∀ a x, ((![v91] : Fin 1 → IVec S16 32) a x).toNat < S64000.size a)
instance k0_chk74.dec : ∀ (v91 : IVec S16 32), Decidable (k0_chk74 v91) := fun v91 => decidable_of_iff' _ (Iff.of_eq (k0_chk74.eq_1 v91))
theorem k0_idx74_inb : ∀ (v91 : IVec S16 32) (k0_hw74 : k0_chk74 v91), ∀ a x, ((![v91] : Fin 1 → IVec S16 32) a x).toNat < S64000.size a := fun v91 k0_hw74 => k0_hw74

def k0_chk75 (v97 : IVec S16 32) : Prop :=
  (∀ a x, ((![v97] : Fin 1 → IVec S16 32) a x).toNat < S64000.size a)
instance k0_chk75.dec : ∀ (v97 : IVec S16 32), Decidable (k0_chk75 v97) := fun v97 => decidable_of_iff' _ (Iff.of_eq (k0_chk75.eq_1 v97))
theorem k0_idx75_inb : ∀ (v97 : IVec S16 32) (k0_hw75 : k0_chk75 v97), ∀ a x, ((![v97] : Fin 1 → IVec S16 32) a x).toNat < S64000.size a := fun v97 k0_hw75 => k0_hw75

def k0_chk76 (v103 : IVec S16 32) : Prop :=
  (∀ a x, ((![v103] : Fin 1 → IVec S16 32) a x).toNat < S64000.size a)
instance k0_chk76.dec : ∀ (v103 : IVec S16 32), Decidable (k0_chk76 v103) := fun v103 => decidable_of_iff' _ (Iff.of_eq (k0_chk76.eq_1 v103))
theorem k0_idx76_inb : ∀ (v103 : IVec S16 32) (k0_hw76 : k0_chk76 v103), ∀ a x, ((![v103] : Fin 1 → IVec S16 32) a x).toNat < S64000.size a := fun v103 k0_hw76 => k0_hw76

def k0_chk77 (v109 : IVec S16 32) : Prop :=
  (∀ a x, ((![v109] : Fin 1 → IVec S16 32) a x).toNat < S64000.size a)
instance k0_chk77.dec : ∀ (v109 : IVec S16 32), Decidable (k0_chk77 v109) := fun v109 => decidable_of_iff' _ (Iff.of_eq (k0_chk77.eq_1 v109))
theorem k0_idx77_inb : ∀ (v109 : IVec S16 32) (k0_hw77 : k0_chk77 v109), ∀ a x, ((![v109] : Fin 1 → IVec S16 32) a x).toNat < S64000.size a := fun v109 k0_hw77 => k0_hw77

def k0_chk78 (v115 : IVec S16 32) : Prop :=
  (∀ a x, ((![v115] : Fin 1 → IVec S16 32) a x).toNat < S64000.size a)
instance k0_chk78.dec : ∀ (v115 : IVec S16 32), Decidable (k0_chk78 v115) := fun v115 => decidable_of_iff' _ (Iff.of_eq (k0_chk78.eq_1 v115))
theorem k0_idx78_inb : ∀ (v115 : IVec S16 32) (k0_hw78 : k0_chk78 v115), ∀ a x, ((![v115] : Fin 1 → IVec S16 32) a x).toNat < S64000.size a := fun v115 k0_hw78 => k0_hw78

def k0_chk79 (v121 : IVec S16 32) : Prop :=
  (∀ a x, ((![v121] : Fin 1 → IVec S16 32) a x).toNat < S64000.size a)
instance k0_chk79.dec : ∀ (v121 : IVec S16 32), Decidable (k0_chk79 v121) := fun v121 => decidable_of_iff' _ (Iff.of_eq (k0_chk79.eq_1 v121))
theorem k0_idx79_inb : ∀ (v121 : IVec S16 32) (k0_hw79 : k0_chk79 v121), ∀ a x, ((![v121] : Fin 1 → IVec S16 32) a x).toNat < S64000.size a := fun v121 k0_hw79 => k0_hw79

def k0_chk80 (v127 : IVec S16 32) : Prop :=
  (∀ a x, ((![v127] : Fin 1 → IVec S16 32) a x).toNat < S64000.size a)
instance k0_chk80.dec : ∀ (v127 : IVec S16 32), Decidable (k0_chk80 v127) := fun v127 => decidable_of_iff' _ (Iff.of_eq (k0_chk80.eq_1 v127))
theorem k0_idx80_inb : ∀ (v127 : IVec S16 32) (k0_hw80 : k0_chk80 v127), ∀ a x, ((![v127] : Fin 1 → IVec S16 32) a x).toNat < S64000.size a := fun v127 k0_hw80 => k0_hw80

def k0_chk81 (v133 : IVec S16 32) : Prop :=
  (∀ a x, ((![v133] : Fin 1 → IVec S16 32) a x).toNat < S64000.size a)
instance k0_chk81.dec : ∀ (v133 : IVec S16 32), Decidable (k0_chk81 v133) := fun v133 => decidable_of_iff' _ (Iff.of_eq (k0_chk81.eq_1 v133))
theorem k0_idx81_inb : ∀ (v133 : IVec S16 32) (k0_hw81 : k0_chk81 v133), ∀ a x, ((![v133] : Fin 1 → IVec S16 32) a x).toNat < S64000.size a := fun v133 k0_hw81 => k0_hw81

def k0_chk82 (v139 : IVec S16 32) : Prop :=
  (∀ a x, ((![v139] : Fin 1 → IVec S16 32) a x).toNat < S64000.size a)
instance k0_chk82.dec : ∀ (v139 : IVec S16 32), Decidable (k0_chk82 v139) := fun v139 => decidable_of_iff' _ (Iff.of_eq (k0_chk82.eq_1 v139))
theorem k0_idx82_inb : ∀ (v139 : IVec S16 32) (k0_hw82 : k0_chk82 v139), ∀ a x, ((![v139] : Fin 1 → IVec S16 32) a x).toNat < S64000.size a := fun v139 k0_hw82 => k0_hw82

def k0_chk83 (v145 : IVec S16 32) : Prop :=
  (∀ a x, ((![v145] : Fin 1 → IVec S16 32) a x).toNat < S64000.size a)
instance k0_chk83.dec : ∀ (v145 : IVec S16 32), Decidable (k0_chk83 v145) := fun v145 => decidable_of_iff' _ (Iff.of_eq (k0_chk83.eq_1 v145))
theorem k0_idx83_inb : ∀ (v145 : IVec S16 32) (k0_hw83 : k0_chk83 v145), ∀ a x, ((![v145] : Fin 1 → IVec S16 32) a x).toNat < S64000.size a := fun v145 k0_hw83 => k0_hw83

def k0_chk84 (v151 : IVec S16 32) : Prop :=
  (∀ a x, ((![v151] : Fin 1 → IVec S16 32) a x).toNat < S64000.size a)
instance k0_chk84.dec : ∀ (v151 : IVec S16 32), Decidable (k0_chk84 v151) := fun v151 => decidable_of_iff' _ (Iff.of_eq (k0_chk84.eq_1 v151))
theorem k0_idx84_inb : ∀ (v151 : IVec S16 32) (k0_hw84 : k0_chk84 v151), ∀ a x, ((![v151] : Fin 1 → IVec S16 32) a x).toNat < S64000.size a := fun v151 k0_hw84 => k0_hw84

def k0_chk85 (v157 : IVec S16 32) : Prop :=
  (∀ a x, ((![v157] : Fin 1 → IVec S16 32) a x).toNat < S64000.size a)
instance k0_chk85.dec : ∀ (v157 : IVec S16 32), Decidable (k0_chk85 v157) := fun v157 => decidable_of_iff' _ (Iff.of_eq (k0_chk85.eq_1 v157))
theorem k0_idx85_inb : ∀ (v157 : IVec S16 32) (k0_hw85 : k0_chk85 v157), ∀ a x, ((![v157] : Fin 1 → IVec S16 32) a x).toNat < S64000.size a := fun v157 k0_hw85 => k0_hw85

def k0_chk86 (v163 : IVec S16 32) : Prop :=
  (∀ a x, ((![v163] : Fin 1 → IVec S16 32) a x).toNat < S64000.size a)
instance k0_chk86.dec : ∀ (v163 : IVec S16 32), Decidable (k0_chk86 v163) := fun v163 => decidable_of_iff' _ (Iff.of_eq (k0_chk86.eq_1 v163))
theorem k0_idx86_inb : ∀ (v163 : IVec S16 32) (k0_hw86 : k0_chk86 v163), ∀ a x, ((![v163] : Fin 1 → IVec S16 32) a x).toNat < S64000.size a := fun v163 k0_hw86 => k0_hw86

def k0_chk87 (v169 : IVec S16 32) : Prop :=
  (∀ a x, ((![v169] : Fin 1 → IVec S16 32) a x).toNat < S64000.size a)
instance k0_chk87.dec : ∀ (v169 : IVec S16 32), Decidable (k0_chk87 v169) := fun v169 => decidable_of_iff' _ (Iff.of_eq (k0_chk87.eq_1 v169))
theorem k0_idx87_inb : ∀ (v169 : IVec S16 32) (k0_hw87 : k0_chk87 v169), ∀ a x, ((![v169] : Fin 1 → IVec S16 32) a x).toNat < S64000.size a := fun v169 k0_hw87 => k0_hw87

def k0_chk88 (v175 : IVec S16 32) : Prop :=
  (∀ a x, ((![v175] : Fin 1 → IVec S16 32) a x).toNat < S64000.size a)
instance k0_chk88.dec : ∀ (v175 : IVec S16 32), Decidable (k0_chk88 v175) := fun v175 => decidable_of_iff' _ (Iff.of_eq (k0_chk88.eq_1 v175))
theorem k0_idx88_inb : ∀ (v175 : IVec S16 32) (k0_hw88 : k0_chk88 v175), ∀ a x, ((![v175] : Fin 1 → IVec S16 32) a x).toNat < S64000.size a := fun v175 k0_hw88 => k0_hw88

def k0_chk89 (v181 : IVec S16 32) : Prop :=
  (∀ a x, ((![v181] : Fin 1 → IVec S16 32) a x).toNat < S64000.size a)
instance k0_chk89.dec : ∀ (v181 : IVec S16 32), Decidable (k0_chk89 v181) := fun v181 => decidable_of_iff' _ (Iff.of_eq (k0_chk89.eq_1 v181))
theorem k0_idx89_inb : ∀ (v181 : IVec S16 32) (k0_hw89 : k0_chk89 v181), ∀ a x, ((![v181] : Fin 1 → IVec S16 32) a x).toNat < S64000.size a := fun v181 k0_hw89 => k0_hw89

def k0_chk90 (v187 : IVec S16 32) : Prop :=
  (∀ a x, ((![v187] : Fin 1 → IVec S16 32) a x).toNat < S64000.size a)
instance k0_chk90.dec : ∀ (v187 : IVec S16 32), Decidable (k0_chk90 v187) := fun v187 => decidable_of_iff' _ (Iff.of_eq (k0_chk90.eq_1 v187))
theorem k0_idx90_inb : ∀ (v187 : IVec S16 32) (k0_hw90 : k0_chk90 v187), ∀ a x, ((![v187] : Fin 1 → IVec S16 32) a x).toNat < S64000.size a := fun v187 k0_hw90 => k0_hw90

def k0_chk91 (v193 : IVec S16 32) : Prop :=
  (∀ a x, ((![v193] : Fin 1 → IVec S16 32) a x).toNat < S64000.size a)
instance k0_chk91.dec : ∀ (v193 : IVec S16 32), Decidable (k0_chk91 v193) := fun v193 => decidable_of_iff' _ (Iff.of_eq (k0_chk91.eq_1 v193))
theorem k0_idx91_inb : ∀ (v193 : IVec S16 32) (k0_hw91 : k0_chk91 v193), ∀ a x, ((![v193] : Fin 1 → IVec S16 32) a x).toNat < S64000.size a := fun v193 k0_hw91 => k0_hw91

def k0_chk92 (v199 : IVec S16 32) : Prop :=
  (∀ a x, ((![v199] : Fin 1 → IVec S16 32) a x).toNat < S64000.size a)
instance k0_chk92.dec : ∀ (v199 : IVec S16 32), Decidable (k0_chk92 v199) := fun v199 => decidable_of_iff' _ (Iff.of_eq (k0_chk92.eq_1 v199))
theorem k0_idx92_inb : ∀ (v199 : IVec S16 32) (k0_hw92 : k0_chk92 v199), ∀ a x, ((![v199] : Fin 1 → IVec S16 32) a x).toNat < S64000.size a := fun v199 k0_hw92 => k0_hw92

def k0_chk93 (v205 : IVec S16 32) : Prop :=
  (∀ a x, ((![v205] : Fin 1 → IVec S16 32) a x).toNat < S64000.size a)
instance k0_chk93.dec : ∀ (v205 : IVec S16 32), Decidable (k0_chk93 v205) := fun v205 => decidable_of_iff' _ (Iff.of_eq (k0_chk93.eq_1 v205))
theorem k0_idx93_inb : ∀ (v205 : IVec S16 32) (k0_hw93 : k0_chk93 v205), ∀ a x, ((![v205] : Fin 1 → IVec S16 32) a x).toNat < S64000.size a := fun v205 k0_hw93 => k0_hw93

def k0_chk94 (v211 : IVec S16 32) : Prop :=
  (∀ a x, ((![v211] : Fin 1 → IVec S16 32) a x).toNat < S64000.size a)
instance k0_chk94.dec : ∀ (v211 : IVec S16 32), Decidable (k0_chk94 v211) := fun v211 => decidable_of_iff' _ (Iff.of_eq (k0_chk94.eq_1 v211))
theorem k0_idx94_inb : ∀ (v211 : IVec S16 32) (k0_hw94 : k0_chk94 v211), ∀ a x, ((![v211] : Fin 1 → IVec S16 32) a x).toNat < S64000.size a := fun v211 k0_hw94 => k0_hw94

def k0_chk95 (v217 : IVec S16 32) : Prop :=
  (∀ a x, ((![v217] : Fin 1 → IVec S16 32) a x).toNat < S64000.size a)
instance k0_chk95.dec : ∀ (v217 : IVec S16 32), Decidable (k0_chk95 v217) := fun v217 => decidable_of_iff' _ (Iff.of_eq (k0_chk95.eq_1 v217))
theorem k0_idx95_inb : ∀ (v217 : IVec S16 32) (k0_hw95 : k0_chk95 v217), ∀ a x, ((![v217] : Fin 1 → IVec S16 32) a x).toNat < S64000.size a := fun v217 k0_hw95 => k0_hw95

def k0_chk96 (v223 : IVec S16 32) : Prop :=
  (∀ a x, ((![v223] : Fin 1 → IVec S16 32) a x).toNat < S64000.size a)
instance k0_chk96.dec : ∀ (v223 : IVec S16 32), Decidable (k0_chk96 v223) := fun v223 => decidable_of_iff' _ (Iff.of_eq (k0_chk96.eq_1 v223))
theorem k0_idx96_inb : ∀ (v223 : IVec S16 32) (k0_hw96 : k0_chk96 v223), ∀ a x, ((![v223] : Fin 1 → IVec S16 32) a x).toNat < S64000.size a := fun v223 k0_hw96 => k0_hw96

def k0_chk97 (v229 : IVec S16 32) : Prop :=
  (∀ a x, ((![v229] : Fin 1 → IVec S16 32) a x).toNat < S64000.size a)
instance k0_chk97.dec : ∀ (v229 : IVec S16 32), Decidable (k0_chk97 v229) := fun v229 => decidable_of_iff' _ (Iff.of_eq (k0_chk97.eq_1 v229))
theorem k0_idx97_inb : ∀ (v229 : IVec S16 32) (k0_hw97 : k0_chk97 v229), ∀ a x, ((![v229] : Fin 1 → IVec S16 32) a x).toNat < S64000.size a := fun v229 k0_hw97 => k0_hw97

def k0_chk98 (v235 : IVec S16 32) : Prop :=
  (∀ a x, ((![v235] : Fin 1 → IVec S16 32) a x).toNat < S64000.size a)
instance k0_chk98.dec : ∀ (v235 : IVec S16 32), Decidable (k0_chk98 v235) := fun v235 => decidable_of_iff' _ (Iff.of_eq (k0_chk98.eq_1 v235))
theorem k0_idx98_inb : ∀ (v235 : IVec S16 32) (k0_hw98 : k0_chk98 v235), ∀ a x, ((![v235] : Fin 1 → IVec S16 32) a x).toNat < S64000.size a := fun v235 k0_hw98 => k0_hw98

def k0_chk99 (v241 : IVec S16 32) : Prop :=
  (∀ a x, ((![v241] : Fin 1 → IVec S16 32) a x).toNat < S64000.size a)
instance k0_chk99.dec : ∀ (v241 : IVec S16 32), Decidable (k0_chk99 v241) := fun v241 => decidable_of_iff' _ (Iff.of_eq (k0_chk99.eq_1 v241))
theorem k0_idx99_inb : ∀ (v241 : IVec S16 32) (k0_hw99 : k0_chk99 v241), ∀ a x, ((![v241] : Fin 1 → IVec S16 32) a x).toNat < S64000.size a := fun v241 k0_hw99 => k0_hw99

def k0_chk100 (v247 : IVec S16 32) : Prop :=
  (∀ a x, ((![v247] : Fin 1 → IVec S16 32) a x).toNat < S64000.size a)
instance k0_chk100.dec : ∀ (v247 : IVec S16 32), Decidable (k0_chk100 v247) := fun v247 => decidable_of_iff' _ (Iff.of_eq (k0_chk100.eq_1 v247))
theorem k0_idx100_inb : ∀ (v247 : IVec S16 32) (k0_hw100 : k0_chk100 v247), ∀ a x, ((![v247] : Fin 1 → IVec S16 32) a x).toNat < S64000.size a := fun v247 k0_hw100 => k0_hw100

def k0_chk101 (v253 : IVec S16 32) : Prop :=
  (∀ a x, ((![v253] : Fin 1 → IVec S16 32) a x).toNat < S64000.size a)
instance k0_chk101.dec : ∀ (v253 : IVec S16 32), Decidable (k0_chk101 v253) := fun v253 => decidable_of_iff' _ (Iff.of_eq (k0_chk101.eq_1 v253))
theorem k0_idx101_inb : ∀ (v253 : IVec S16 32) (k0_hw101 : k0_chk101 v253), ∀ a x, ((![v253] : Fin 1 → IVec S16 32) a x).toNat < S64000.size a := fun v253 k0_hw101 => k0_hw101

def k0_chk102 (v259 : IVec S16 32) : Prop :=
  (∀ a x, ((![v259] : Fin 1 → IVec S16 32) a x).toNat < S64000.size a)
instance k0_chk102.dec : ∀ (v259 : IVec S16 32), Decidable (k0_chk102 v259) := fun v259 => decidable_of_iff' _ (Iff.of_eq (k0_chk102.eq_1 v259))
theorem k0_idx102_inb : ∀ (v259 : IVec S16 32) (k0_hw102 : k0_chk102 v259), ∀ a x, ((![v259] : Fin 1 → IVec S16 32) a x).toNat < S64000.size a := fun v259 k0_hw102 => k0_hw102

def k0_chk103 (v265 : IVec S16 32) : Prop :=
  (∀ a x, ((![v265] : Fin 1 → IVec S16 32) a x).toNat < S64000.size a)
instance k0_chk103.dec : ∀ (v265 : IVec S16 32), Decidable (k0_chk103 v265) := fun v265 => decidable_of_iff' _ (Iff.of_eq (k0_chk103.eq_1 v265))
theorem k0_idx103_inb : ∀ (v265 : IVec S16 32) (k0_hw103 : k0_chk103 v265), ∀ a x, ((![v265] : Fin 1 → IVec S16 32) a x).toNat < S64000.size a := fun v265 k0_hw103 => k0_hw103

def k0_chk104 (v271 : IVec S16 32) : Prop :=
  (∀ a x, ((![v271] : Fin 1 → IVec S16 32) a x).toNat < S64000.size a)
instance k0_chk104.dec : ∀ (v271 : IVec S16 32), Decidable (k0_chk104 v271) := fun v271 => decidable_of_iff' _ (Iff.of_eq (k0_chk104.eq_1 v271))
theorem k0_idx104_inb : ∀ (v271 : IVec S16 32) (k0_hw104 : k0_chk104 v271), ∀ a x, ((![v271] : Fin 1 → IVec S16 32) a x).toNat < S64000.size a := fun v271 k0_hw104 => k0_hw104

def k0_chk105 (v277 : IVec S16 32) : Prop :=
  (∀ a x, ((![v277] : Fin 1 → IVec S16 32) a x).toNat < S64000.size a)
instance k0_chk105.dec : ∀ (v277 : IVec S16 32), Decidable (k0_chk105 v277) := fun v277 => decidable_of_iff' _ (Iff.of_eq (k0_chk105.eq_1 v277))
theorem k0_idx105_inb : ∀ (v277 : IVec S16 32) (k0_hw105 : k0_chk105 v277), ∀ a x, ((![v277] : Fin 1 → IVec S16 32) a x).toNat < S64000.size a := fun v277 k0_hw105 => k0_hw105

def k0_chk106 (v283 : IVec S16 32) : Prop :=
  (∀ a x, ((![v283] : Fin 1 → IVec S16 32) a x).toNat < S64000.size a)
instance k0_chk106.dec : ∀ (v283 : IVec S16 32), Decidable (k0_chk106 v283) := fun v283 => decidable_of_iff' _ (Iff.of_eq (k0_chk106.eq_1 v283))
theorem k0_idx106_inb : ∀ (v283 : IVec S16 32) (k0_hw106 : k0_chk106 v283), ∀ a x, ((![v283] : Fin 1 → IVec S16 32) a x).toNat < S64000.size a := fun v283 k0_hw106 => k0_hw106

def k0_chk107 (v289 : IVec S16 32) : Prop :=
  (∀ a x, ((![v289] : Fin 1 → IVec S16 32) a x).toNat < S64000.size a)
instance k0_chk107.dec : ∀ (v289 : IVec S16 32), Decidable (k0_chk107 v289) := fun v289 => decidable_of_iff' _ (Iff.of_eq (k0_chk107.eq_1 v289))
theorem k0_idx107_inb : ∀ (v289 : IVec S16 32) (k0_hw107 : k0_chk107 v289), ∀ a x, ((![v289] : Fin 1 → IVec S16 32) a x).toNat < S64000.size a := fun v289 k0_hw107 => k0_hw107

def k0_chk108 (v295 : IVec S16 32) : Prop :=
  (∀ a x, ((![v295] : Fin 1 → IVec S16 32) a x).toNat < S64000.size a)
instance k0_chk108.dec : ∀ (v295 : IVec S16 32), Decidable (k0_chk108 v295) := fun v295 => decidable_of_iff' _ (Iff.of_eq (k0_chk108.eq_1 v295))
theorem k0_idx108_inb : ∀ (v295 : IVec S16 32) (k0_hw108 : k0_chk108 v295), ∀ a x, ((![v295] : Fin 1 → IVec S16 32) a x).toNat < S64000.size a := fun v295 k0_hw108 => k0_hw108

def k0_chk109 (v301 : IVec S16 32) : Prop :=
  (∀ a x, ((![v301] : Fin 1 → IVec S16 32) a x).toNat < S64000.size a)
instance k0_chk109.dec : ∀ (v301 : IVec S16 32), Decidable (k0_chk109 v301) := fun v301 => decidable_of_iff' _ (Iff.of_eq (k0_chk109.eq_1 v301))
theorem k0_idx109_inb : ∀ (v301 : IVec S16 32) (k0_hw109 : k0_chk109 v301), ∀ a x, ((![v301] : Fin 1 → IVec S16 32) a x).toNat < S64000.size a := fun v301 k0_hw109 => k0_hw109

def k0_chk110 (v307 : IVec S16 32) : Prop :=
  (∀ a x, ((![v307] : Fin 1 → IVec S16 32) a x).toNat < S64000.size a)
instance k0_chk110.dec : ∀ (v307 : IVec S16 32), Decidable (k0_chk110 v307) := fun v307 => decidable_of_iff' _ (Iff.of_eq (k0_chk110.eq_1 v307))
theorem k0_idx110_inb : ∀ (v307 : IVec S16 32) (k0_hw110 : k0_chk110 v307), ∀ a x, ((![v307] : Fin 1 → IVec S16 32) a x).toNat < S64000.size a := fun v307 k0_hw110 => k0_hw110

def k0_chk111 (v313 : IVec S16 32) : Prop :=
  (∀ a x, ((![v313] : Fin 1 → IVec S16 32) a x).toNat < S64000.size a)
instance k0_chk111.dec : ∀ (v313 : IVec S16 32), Decidable (k0_chk111 v313) := fun v313 => decidable_of_iff' _ (Iff.of_eq (k0_chk111.eq_1 v313))
theorem k0_idx111_inb : ∀ (v313 : IVec S16 32) (k0_hw111 : k0_chk111 v313), ∀ a x, ((![v313] : Fin 1 → IVec S16 32) a x).toNat < S64000.size a := fun v313 k0_hw111 => k0_hw111

def k0_chk112 (v319 : IVec S16 32) : Prop :=
  (∀ a x, ((![v319] : Fin 1 → IVec S16 32) a x).toNat < S64000.size a)
instance k0_chk112.dec : ∀ (v319 : IVec S16 32), Decidable (k0_chk112 v319) := fun v319 => decidable_of_iff' _ (Iff.of_eq (k0_chk112.eq_1 v319))
theorem k0_idx112_inb : ∀ (v319 : IVec S16 32) (k0_hw112 : k0_chk112 v319), ∀ a x, ((![v319] : Fin 1 → IVec S16 32) a x).toNat < S64000.size a := fun v319 k0_hw112 => k0_hw112

def k0_chk113 (v325 : IVec S16 32) : Prop :=
  (∀ a x, ((![v325] : Fin 1 → IVec S16 32) a x).toNat < S64000.size a)
instance k0_chk113.dec : ∀ (v325 : IVec S16 32), Decidable (k0_chk113 v325) := fun v325 => decidable_of_iff' _ (Iff.of_eq (k0_chk113.eq_1 v325))
theorem k0_idx113_inb : ∀ (v325 : IVec S16 32) (k0_hw113 : k0_chk113 v325), ∀ a x, ((![v325] : Fin 1 → IVec S16 32) a x).toNat < S64000.size a := fun v325 k0_hw113 => k0_hw113

def k0_chk114 (v331 : IVec S16 32) : Prop :=
  (∀ a x, ((![v331] : Fin 1 → IVec S16 32) a x).toNat < S64000.size a)
instance k0_chk114.dec : ∀ (v331 : IVec S16 32), Decidable (k0_chk114 v331) := fun v331 => decidable_of_iff' _ (Iff.of_eq (k0_chk114.eq_1 v331))
theorem k0_idx114_inb : ∀ (v331 : IVec S16 32) (k0_hw114 : k0_chk114 v331), ∀ a x, ((![v331] : Fin 1 → IVec S16 32) a x).toNat < S64000.size a := fun v331 k0_hw114 => k0_hw114

def k0_chk115 (v337 : IVec S16 32) : Prop :=
  (∀ a x, ((![v337] : Fin 1 → IVec S16 32) a x).toNat < S64000.size a)
instance k0_chk115.dec : ∀ (v337 : IVec S16 32), Decidable (k0_chk115 v337) := fun v337 => decidable_of_iff' _ (Iff.of_eq (k0_chk115.eq_1 v337))
theorem k0_idx115_inb : ∀ (v337 : IVec S16 32) (k0_hw115 : k0_chk115 v337), ∀ a x, ((![v337] : Fin 1 → IVec S16 32) a x).toNat < S64000.size a := fun v337 k0_hw115 => k0_hw115

def k0_chk116 (v343 : IVec S16 32) : Prop :=
  (∀ a x, ((![v343] : Fin 1 → IVec S16 32) a x).toNat < S64000.size a)
instance k0_chk116.dec : ∀ (v343 : IVec S16 32), Decidable (k0_chk116 v343) := fun v343 => decidable_of_iff' _ (Iff.of_eq (k0_chk116.eq_1 v343))
theorem k0_idx116_inb : ∀ (v343 : IVec S16 32) (k0_hw116 : k0_chk116 v343), ∀ a x, ((![v343] : Fin 1 → IVec S16 32) a x).toNat < S64000.size a := fun v343 k0_hw116 => k0_hw116

def k0_chk117 (v349 : IVec S16 32) : Prop :=
  (∀ a x, ((![v349] : Fin 1 → IVec S16 32) a x).toNat < S64000.size a)
instance k0_chk117.dec : ∀ (v349 : IVec S16 32), Decidable (k0_chk117 v349) := fun v349 => decidable_of_iff' _ (Iff.of_eq (k0_chk117.eq_1 v349))
theorem k0_idx117_inb : ∀ (v349 : IVec S16 32) (k0_hw117 : k0_chk117 v349), ∀ a x, ((![v349] : Fin 1 → IVec S16 32) a x).toNat < S64000.size a := fun v349 k0_hw117 => k0_hw117

def k0_chk118 (v355 : IVec S16 32) : Prop :=
  (∀ a x, ((![v355] : Fin 1 → IVec S16 32) a x).toNat < S64000.size a)
instance k0_chk118.dec : ∀ (v355 : IVec S16 32), Decidable (k0_chk118 v355) := fun v355 => decidable_of_iff' _ (Iff.of_eq (k0_chk118.eq_1 v355))
theorem k0_idx118_inb : ∀ (v355 : IVec S16 32) (k0_hw118 : k0_chk118 v355), ∀ a x, ((![v355] : Fin 1 → IVec S16 32) a x).toNat < S64000.size a := fun v355 k0_hw118 => k0_hw118

def k0_chk119 (v361 : IVec S16 32) : Prop :=
  (∀ a x, ((![v361] : Fin 1 → IVec S16 32) a x).toNat < S64000.size a)
instance k0_chk119.dec : ∀ (v361 : IVec S16 32), Decidable (k0_chk119 v361) := fun v361 => decidable_of_iff' _ (Iff.of_eq (k0_chk119.eq_1 v361))
theorem k0_idx119_inb : ∀ (v361 : IVec S16 32) (k0_hw119 : k0_chk119 v361), ∀ a x, ((![v361] : Fin 1 → IVec S16 32) a x).toNat < S64000.size a := fun v361 k0_hw119 => k0_hw119

def k0_chk120 (v367 : IVec S16 32) : Prop :=
  (∀ a x, ((![v367] : Fin 1 → IVec S16 32) a x).toNat < S64000.size a)
instance k0_chk120.dec : ∀ (v367 : IVec S16 32), Decidable (k0_chk120 v367) := fun v367 => decidable_of_iff' _ (Iff.of_eq (k0_chk120.eq_1 v367))
theorem k0_idx120_inb : ∀ (v367 : IVec S16 32) (k0_hw120 : k0_chk120 v367), ∀ a x, ((![v367] : Fin 1 → IVec S16 32) a x).toNat < S64000.size a := fun v367 k0_hw120 => k0_hw120

def k0_chk121 (v373 : IVec S16 32) : Prop :=
  (∀ a x, ((![v373] : Fin 1 → IVec S16 32) a x).toNat < S64000.size a)
instance k0_chk121.dec : ∀ (v373 : IVec S16 32), Decidable (k0_chk121 v373) := fun v373 => decidable_of_iff' _ (Iff.of_eq (k0_chk121.eq_1 v373))
theorem k0_idx121_inb : ∀ (v373 : IVec S16 32) (k0_hw121 : k0_chk121 v373), ∀ a x, ((![v373] : Fin 1 → IVec S16 32) a x).toNat < S64000.size a := fun v373 k0_hw121 => k0_hw121

def k0_chk122 (v379 : IVec S16 32) : Prop :=
  (∀ a x, ((![v379] : Fin 1 → IVec S16 32) a x).toNat < S64000.size a)
instance k0_chk122.dec : ∀ (v379 : IVec S16 32), Decidable (k0_chk122 v379) := fun v379 => decidable_of_iff' _ (Iff.of_eq (k0_chk122.eq_1 v379))
theorem k0_idx122_inb : ∀ (v379 : IVec S16 32) (k0_hw122 : k0_chk122 v379), ∀ a x, ((![v379] : Fin 1 → IVec S16 32) a x).toNat < S64000.size a := fun v379 k0_hw122 => k0_hw122

def k0_chk123 (v385 : IVec S16 32) : Prop :=
  (∀ a x, ((![v385] : Fin 1 → IVec S16 32) a x).toNat < S64000.size a)
instance k0_chk123.dec : ∀ (v385 : IVec S16 32), Decidable (k0_chk123 v385) := fun v385 => decidable_of_iff' _ (Iff.of_eq (k0_chk123.eq_1 v385))
theorem k0_idx123_inb : ∀ (v385 : IVec S16 32) (k0_hw123 : k0_chk123 v385), ∀ a x, ((![v385] : Fin 1 → IVec S16 32) a x).toNat < S64000.size a := fun v385 k0_hw123 => k0_hw123

def k0_chk124 (v391 : IVec S16 32) : Prop :=
  (∀ a x, ((![v391] : Fin 1 → IVec S16 32) a x).toNat < S64000.size a)
instance k0_chk124.dec : ∀ (v391 : IVec S16 32), Decidable (k0_chk124 v391) := fun v391 => decidable_of_iff' _ (Iff.of_eq (k0_chk124.eq_1 v391))
theorem k0_idx124_inb : ∀ (v391 : IVec S16 32) (k0_hw124 : k0_chk124 v391), ∀ a x, ((![v391] : Fin 1 → IVec S16 32) a x).toNat < S64000.size a := fun v391 k0_hw124 => k0_hw124

def k0_chk125 (v397 : IVec S16 32) : Prop :=
  (∀ a x, ((![v397] : Fin 1 → IVec S16 32) a x).toNat < S64000.size a)
instance k0_chk125.dec : ∀ (v397 : IVec S16 32), Decidable (k0_chk125 v397) := fun v397 => decidable_of_iff' _ (Iff.of_eq (k0_chk125.eq_1 v397))
theorem k0_idx125_inb : ∀ (v397 : IVec S16 32) (k0_hw125 : k0_chk125 v397), ∀ a x, ((![v397] : Fin 1 → IVec S16 32) a x).toNat < S64000.size a := fun v397 k0_hw125 => k0_hw125

def k0_chk126 (v403 : IVec S16 32) : Prop :=
  (∀ a x, ((![v403] : Fin 1 → IVec S16 32) a x).toNat < S64000.size a)
instance k0_chk126.dec : ∀ (v403 : IVec S16 32), Decidable (k0_chk126 v403) := fun v403 => decidable_of_iff' _ (Iff.of_eq (k0_chk126.eq_1 v403))
theorem k0_idx126_inb : ∀ (v403 : IVec S16 32) (k0_hw126 : k0_chk126 v403), ∀ a x, ((![v403] : Fin 1 → IVec S16 32) a x).toNat < S64000.size a := fun v403 k0_hw126 => k0_hw126

def k0_chk127 (v409 : IVec S16 32) : Prop :=
  (∀ a x, ((![v409] : Fin 1 → IVec S16 32) a x).toNat < S64000.size a)
instance k0_chk127.dec : ∀ (v409 : IVec S16 32), Decidable (k0_chk127 v409) := fun v409 => decidable_of_iff' _ (Iff.of_eq (k0_chk127.eq_1 v409))
theorem k0_idx127_inb : ∀ (v409 : IVec S16 32) (k0_hw127 : k0_chk127 v409), ∀ a x, ((![v409] : Fin 1 → IVec S16 32) a x).toNat < S64000.size a := fun v409 k0_hw127 => k0_hw127

def k0_chk128 (v415 : IVec S16 32) : Prop :=
  (∀ a x, ((![v415] : Fin 1 → IVec S16 32) a x).toNat < S64000.size a)
instance k0_chk128.dec : ∀ (v415 : IVec S16 32), Decidable (k0_chk128 v415) := fun v415 => decidable_of_iff' _ (Iff.of_eq (k0_chk128.eq_1 v415))
theorem k0_idx128_inb : ∀ (v415 : IVec S16 32) (k0_hw128 : k0_chk128 v415), ∀ a x, ((![v415] : Fin 1 → IVec S16 32) a x).toNat < S64000.size a := fun v415 k0_hw128 => k0_hw128
def k0_off69 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c64_i32_11 : BitVec 32 := 64#32
  let v30 : BitVec 32 := Scalar.muli v28 c64_i32_11
  let c0_i32_13 : BitVec 32 := 0#32
  let c1_i32_14 : BitVec 32 := 1#32
  let arg10 : BitVec 32 := Scf.iv c0_i32_13 c1_i32_14 k0_t1
  let c2_i32_36 : BitVec 32 := 2#32
  let v50 : BitVec 32 := Scalar.muli arg10 c2_i32_36
  let c0_i32_37 : BitVec 32 := 0#32
  let v51 : BitVec 32 := Scalar.addi v50 c0_i32_37
  let v444 : BitVec 32 := Scalar.addi v30 v51
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c64_i32 : BitVec 32 := 64#32
  let v29 : BitVec 32 := Scalar.muli v11 c64_i32
  let c0_i32_182 : BitVec 32 := 0#32
  ![v444.toNat, v29.toNat, 0]
@[reducible] def k0_t3_loop : Scf.Loop 32 :=
  let c0_i32_191 : BitVec 32 := 0#32
  let c12_i32_192 : BitVec 32 := 12#32
  let v458 : BitVec 32 := Scalar.addi c0_i32_191 c12_i32_192
  let c1_i32_193 : BitVec 32 := 1#32
  ⟨c0_i32_191, v458, c1_i32_193⟩
def k0_mult2 (k0_t3 : Fin k0_t3_loop.trips) : BitVec 32 :=
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  v856
def k0_off70 (k0_t1 : Fin k0_t1_loop.trips) (k0_t3 : Fin k0_t3_loop.trips) : Fin 1 → Nat :=
  let c0_i32_13 : BitVec 32 := 0#32
  let c1_i32_14 : BitVec 32 := 1#32
  let arg10 : BitVec 32 := Scf.iv c0_i32_13 c1_i32_14 k0_t1
  let c2_i32_186 : BitVec 32 := 2#32
  let v453 : BitVec 32 := Scalar.muli arg10 c2_i32_186
  let c1_i32_187 : BitVec 32 := 1#32
  let v454 : BitVec 32 := Scalar.addi v453 c1_i32_187
  let c200_i32_461 : BitVec 32 := 200#32
  let v858 : BitVec 32 := Scalar.muli v454 c200_i32_461
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v859 : BitVec 32 := Scalar.addi v858 v857
  let v860 : Index := Scalar.indexCast v859
  ![v860.toNat]

def k0_chk129 (v863 : IVec S16 32) : Prop :=
  (∀ a x, ((![v863] : Fin 1 → IVec S16 32) a x).toNat < S64000.size a)
instance k0_chk129.dec : ∀ (v863 : IVec S16 32), Decidable (k0_chk129 v863) := fun v863 => decidable_of_iff' _ (Iff.of_eq (k0_chk129.eq_1 v863))
theorem k0_idx129_inb : ∀ (v863 : IVec S16 32) (k0_hw129 : k0_chk129 v863), ∀ a x, ((![v863] : Fin 1 → IVec S16 32) a x).toNat < S64000.size a := fun v863 k0_hw129 => k0_hw129

def k0_chk130 (v866 : IVec S16 32) : Prop :=
  (∀ a x, ((![v866] : Fin 1 → IVec S16 32) a x).toNat < S64000.size a)
instance k0_chk130.dec : ∀ (v866 : IVec S16 32), Decidable (k0_chk130 v866) := fun v866 => decidable_of_iff' _ (Iff.of_eq (k0_chk130.eq_1 v866))
theorem k0_idx130_inb : ∀ (v866 : IVec S16 32) (k0_hw130 : k0_chk130 v866), ∀ a x, ((![v866] : Fin 1 → IVec S16 32) a x).toNat < S64000.size a := fun v866 k0_hw130 => k0_hw130

def k0_chk131 (v869 : IVec S16 32) : Prop :=
  (∀ a x, ((![v869] : Fin 1 → IVec S16 32) a x).toNat < S64000.size a)
instance k0_chk131.dec : ∀ (v869 : IVec S16 32), Decidable (k0_chk131 v869) := fun v869 => decidable_of_iff' _ (Iff.of_eq (k0_chk131.eq_1 v869))
theorem k0_idx131_inb : ∀ (v869 : IVec S16 32) (k0_hw131 : k0_chk131 v869), ∀ a x, ((![v869] : Fin 1 → IVec S16 32) a x).toNat < S64000.size a := fun v869 k0_hw131 => k0_hw131

def k0_chk132 (v872 : IVec S16 32) : Prop :=
  (∀ a x, ((![v872] : Fin 1 → IVec S16 32) a x).toNat < S64000.size a)
instance k0_chk132.dec : ∀ (v872 : IVec S16 32), Decidable (k0_chk132 v872) := fun v872 => decidable_of_iff' _ (Iff.of_eq (k0_chk132.eq_1 v872))
theorem k0_idx132_inb : ∀ (v872 : IVec S16 32) (k0_hw132 : k0_chk132 v872), ∀ a x, ((![v872] : Fin 1 → IVec S16 32) a x).toNat < S64000.size a := fun v872 k0_hw132 => k0_hw132

def k0_chk133 (v875 : IVec S16 32) : Prop :=
  (∀ a x, ((![v875] : Fin 1 → IVec S16 32) a x).toNat < S64000.size a)
instance k0_chk133.dec : ∀ (v875 : IVec S16 32), Decidable (k0_chk133 v875) := fun v875 => decidable_of_iff' _ (Iff.of_eq (k0_chk133.eq_1 v875))
theorem k0_idx133_inb : ∀ (v875 : IVec S16 32) (k0_hw133 : k0_chk133 v875), ∀ a x, ((![v875] : Fin 1 → IVec S16 32) a x).toNat < S64000.size a := fun v875 k0_hw133 => k0_hw133

def k0_chk134 (v878 : IVec S16 32) : Prop :=
  (∀ a x, ((![v878] : Fin 1 → IVec S16 32) a x).toNat < S64000.size a)
instance k0_chk134.dec : ∀ (v878 : IVec S16 32), Decidable (k0_chk134 v878) := fun v878 => decidable_of_iff' _ (Iff.of_eq (k0_chk134.eq_1 v878))
theorem k0_idx134_inb : ∀ (v878 : IVec S16 32) (k0_hw134 : k0_chk134 v878), ∀ a x, ((![v878] : Fin 1 → IVec S16 32) a x).toNat < S64000.size a := fun v878 k0_hw134 => k0_hw134

def k0_chk135 (v881 : IVec S16 32) : Prop :=
  (∀ a x, ((![v881] : Fin 1 → IVec S16 32) a x).toNat < S64000.size a)
instance k0_chk135.dec : ∀ (v881 : IVec S16 32), Decidable (k0_chk135 v881) := fun v881 => decidable_of_iff' _ (Iff.of_eq (k0_chk135.eq_1 v881))
theorem k0_idx135_inb : ∀ (v881 : IVec S16 32) (k0_hw135 : k0_chk135 v881), ∀ a x, ((![v881] : Fin 1 → IVec S16 32) a x).toNat < S64000.size a := fun v881 k0_hw135 => k0_hw135

def k0_chk136 (v884 : IVec S16 32) : Prop :=
  (∀ a x, ((![v884] : Fin 1 → IVec S16 32) a x).toNat < S64000.size a)
instance k0_chk136.dec : ∀ (v884 : IVec S16 32), Decidable (k0_chk136 v884) := fun v884 => decidable_of_iff' _ (Iff.of_eq (k0_chk136.eq_1 v884))
theorem k0_idx136_inb : ∀ (v884 : IVec S16 32) (k0_hw136 : k0_chk136 v884), ∀ a x, ((![v884] : Fin 1 → IVec S16 32) a x).toNat < S64000.size a := fun v884 k0_hw136 => k0_hw136

def k0_chk137 (v887 : IVec S16 32) : Prop :=
  (∀ a x, ((![v887] : Fin 1 → IVec S16 32) a x).toNat < S64000.size a)
instance k0_chk137.dec : ∀ (v887 : IVec S16 32), Decidable (k0_chk137 v887) := fun v887 => decidable_of_iff' _ (Iff.of_eq (k0_chk137.eq_1 v887))
theorem k0_idx137_inb : ∀ (v887 : IVec S16 32) (k0_hw137 : k0_chk137 v887), ∀ a x, ((![v887] : Fin 1 → IVec S16 32) a x).toNat < S64000.size a := fun v887 k0_hw137 => k0_hw137
def k0_off71 (k0_t3 : Fin k0_t3_loop.trips) : Fin 3 → Nat :=
  let c1_i32_471 : BitVec 32 := 1#32
  let v889 : Index := Scalar.indexCast c1_i32_471
  let c0_i32_472 : BitVec 32 := 0#32
  let v890 : Index := Scalar.indexCast c0_i32_472
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v891 : Index := Scalar.indexCast v857
  ![1, 0, v891.toNat]

def k0_chk138 (v894 : IVec S16 32) : Prop :=
  (∀ a x, ((![v894] : Fin 1 → IVec S16 32) a x).toNat < S64000.size a)
instance k0_chk138.dec : ∀ (v894 : IVec S16 32), Decidable (k0_chk138 v894) := fun v894 => decidable_of_iff' _ (Iff.of_eq (k0_chk138.eq_1 v894))
theorem k0_idx138_inb : ∀ (v894 : IVec S16 32) (k0_hw138 : k0_chk138 v894), ∀ a x, ((![v894] : Fin 1 → IVec S16 32) a x).toNat < S64000.size a := fun v894 k0_hw138 => k0_hw138
def k0_off72 (k0_t3 : Fin k0_t3_loop.trips) : Fin 3 → Nat :=
  let c1_i32_474 : BitVec 32 := 1#32
  let v896 : Index := Scalar.indexCast c1_i32_474
  let c1_i32_475 : BitVec 32 := 1#32
  let v897 : Index := Scalar.indexCast c1_i32_475
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v898 : Index := Scalar.indexCast v857
  ![1, 1, v898.toNat]

def k0_chk139 (v901 : IVec S16 32) : Prop :=
  (∀ a x, ((![v901] : Fin 1 → IVec S16 32) a x).toNat < S64000.size a)
instance k0_chk139.dec : ∀ (v901 : IVec S16 32), Decidable (k0_chk139 v901) := fun v901 => decidable_of_iff' _ (Iff.of_eq (k0_chk139.eq_1 v901))
theorem k0_idx139_inb : ∀ (v901 : IVec S16 32) (k0_hw139 : k0_chk139 v901), ∀ a x, ((![v901] : Fin 1 → IVec S16 32) a x).toNat < S64000.size a := fun v901 k0_hw139 => k0_hw139
def k0_off73 (k0_t3 : Fin k0_t3_loop.trips) : Fin 3 → Nat :=
  let c1_i32_477 : BitVec 32 := 1#32
  let v903 : Index := Scalar.indexCast c1_i32_477
  let c2_i32_478 : BitVec 32 := 2#32
  let v904 : Index := Scalar.indexCast c2_i32_478
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v905 : Index := Scalar.indexCast v857
  ![1, 2, v905.toNat]

def k0_chk140 (v908 : IVec S16 32) : Prop :=
  (∀ a x, ((![v908] : Fin 1 → IVec S16 32) a x).toNat < S64000.size a)
instance k0_chk140.dec : ∀ (v908 : IVec S16 32), Decidable (k0_chk140 v908) := fun v908 => decidable_of_iff' _ (Iff.of_eq (k0_chk140.eq_1 v908))
theorem k0_idx140_inb : ∀ (v908 : IVec S16 32) (k0_hw140 : k0_chk140 v908), ∀ a x, ((![v908] : Fin 1 → IVec S16 32) a x).toNat < S64000.size a := fun v908 k0_hw140 => k0_hw140
def k0_off74 (k0_t3 : Fin k0_t3_loop.trips) : Fin 3 → Nat :=
  let c1_i32_480 : BitVec 32 := 1#32
  let v910 : Index := Scalar.indexCast c1_i32_480
  let c3_i32_481 : BitVec 32 := 3#32
  let v911 : Index := Scalar.indexCast c3_i32_481
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v912 : Index := Scalar.indexCast v857
  ![1, 3, v912.toNat]

def k0_chk141 (v915 : IVec S16 32) : Prop :=
  (∀ a x, ((![v915] : Fin 1 → IVec S16 32) a x).toNat < S64000.size a)
instance k0_chk141.dec : ∀ (v915 : IVec S16 32), Decidable (k0_chk141 v915) := fun v915 => decidable_of_iff' _ (Iff.of_eq (k0_chk141.eq_1 v915))
theorem k0_idx141_inb : ∀ (v915 : IVec S16 32) (k0_hw141 : k0_chk141 v915), ∀ a x, ((![v915] : Fin 1 → IVec S16 32) a x).toNat < S64000.size a := fun v915 k0_hw141 => k0_hw141
def k0_off75 (k0_t3 : Fin k0_t3_loop.trips) : Fin 3 → Nat :=
  let c1_i32_483 : BitVec 32 := 1#32
  let v917 : Index := Scalar.indexCast c1_i32_483
  let c4_i32_484 : BitVec 32 := 4#32
  let v918 : Index := Scalar.indexCast c4_i32_484
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v919 : Index := Scalar.indexCast v857
  ![1, 4, v919.toNat]

def k0_chk142 (v922 : IVec S16 32) : Prop :=
  (∀ a x, ((![v922] : Fin 1 → IVec S16 32) a x).toNat < S64000.size a)
instance k0_chk142.dec : ∀ (v922 : IVec S16 32), Decidable (k0_chk142 v922) := fun v922 => decidable_of_iff' _ (Iff.of_eq (k0_chk142.eq_1 v922))
theorem k0_idx142_inb : ∀ (v922 : IVec S16 32) (k0_hw142 : k0_chk142 v922), ∀ a x, ((![v922] : Fin 1 → IVec S16 32) a x).toNat < S64000.size a := fun v922 k0_hw142 => k0_hw142
def k0_off76 (k0_t3 : Fin k0_t3_loop.trips) : Fin 3 → Nat :=
  let c1_i32_486 : BitVec 32 := 1#32
  let v924 : Index := Scalar.indexCast c1_i32_486
  let c5_i32_487 : BitVec 32 := 5#32
  let v925 : Index := Scalar.indexCast c5_i32_487
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v926 : Index := Scalar.indexCast v857
  ![1, 5, v926.toNat]

def k0_chk143 (v929 : IVec S16 32) : Prop :=
  (∀ a x, ((![v929] : Fin 1 → IVec S16 32) a x).toNat < S64000.size a)
instance k0_chk143.dec : ∀ (v929 : IVec S16 32), Decidable (k0_chk143 v929) := fun v929 => decidable_of_iff' _ (Iff.of_eq (k0_chk143.eq_1 v929))
theorem k0_idx143_inb : ∀ (v929 : IVec S16 32) (k0_hw143 : k0_chk143 v929), ∀ a x, ((![v929] : Fin 1 → IVec S16 32) a x).toNat < S64000.size a := fun v929 k0_hw143 => k0_hw143
def k0_off77 (k0_t3 : Fin k0_t3_loop.trips) : Fin 3 → Nat :=
  let c1_i32_489 : BitVec 32 := 1#32
  let v931 : Index := Scalar.indexCast c1_i32_489
  let c6_i32_490 : BitVec 32 := 6#32
  let v932 : Index := Scalar.indexCast c6_i32_490
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v933 : Index := Scalar.indexCast v857
  ![1, 6, v933.toNat]

def k0_chk144 (v936 : IVec S16 32) : Prop :=
  (∀ a x, ((![v936] : Fin 1 → IVec S16 32) a x).toNat < S64000.size a)
instance k0_chk144.dec : ∀ (v936 : IVec S16 32), Decidable (k0_chk144 v936) := fun v936 => decidable_of_iff' _ (Iff.of_eq (k0_chk144.eq_1 v936))
theorem k0_idx144_inb : ∀ (v936 : IVec S16 32) (k0_hw144 : k0_chk144 v936), ∀ a x, ((![v936] : Fin 1 → IVec S16 32) a x).toNat < S64000.size a := fun v936 k0_hw144 => k0_hw144
def k0_off78 (k0_t3 : Fin k0_t3_loop.trips) : Fin 3 → Nat :=
  let c1_i32_492 : BitVec 32 := 1#32
  let v938 : Index := Scalar.indexCast c1_i32_492
  let c7_i32_493 : BitVec 32 := 7#32
  let v939 : Index := Scalar.indexCast c7_i32_493
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v940 : Index := Scalar.indexCast v857
  ![1, 7, v940.toNat]

def k0_chk145 (v943 : IVec S16 32) : Prop :=
  (∀ a x, ((![v943] : Fin 1 → IVec S16 32) a x).toNat < S64000.size a)
instance k0_chk145.dec : ∀ (v943 : IVec S16 32), Decidable (k0_chk145 v943) := fun v943 => decidable_of_iff' _ (Iff.of_eq (k0_chk145.eq_1 v943))
theorem k0_idx145_inb : ∀ (v943 : IVec S16 32) (k0_hw145 : k0_chk145 v943), ∀ a x, ((![v943] : Fin 1 → IVec S16 32) a x).toNat < S64000.size a := fun v943 k0_hw145 => k0_hw145
def k0_off79 (k0_t3 : Fin k0_t3_loop.trips) : Fin 3 → Nat :=
  let c1_i32_495 : BitVec 32 := 1#32
  let v945 : Index := Scalar.indexCast c1_i32_495
  let c8_i32_496 : BitVec 32 := 8#32
  let v946 : Index := Scalar.indexCast c8_i32_496
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v947 : Index := Scalar.indexCast v857
  ![1, 8, v947.toNat]

def k0_chk146 (v950 : IVec S16 32) : Prop :=
  (∀ a x, ((![v950] : Fin 1 → IVec S16 32) a x).toNat < S64000.size a)
instance k0_chk146.dec : ∀ (v950 : IVec S16 32), Decidable (k0_chk146 v950) := fun v950 => decidable_of_iff' _ (Iff.of_eq (k0_chk146.eq_1 v950))
theorem k0_idx146_inb : ∀ (v950 : IVec S16 32) (k0_hw146 : k0_chk146 v950), ∀ a x, ((![v950] : Fin 1 → IVec S16 32) a x).toNat < S64000.size a := fun v950 k0_hw146 => k0_hw146
def k0_off80 (k0_t3 : Fin k0_t3_loop.trips) : Fin 3 → Nat :=
  let c1_i32_498 : BitVec 32 := 1#32
  let v952 : Index := Scalar.indexCast c1_i32_498
  let c9_i32_499 : BitVec 32 := 9#32
  let v953 : Index := Scalar.indexCast c9_i32_499
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v954 : Index := Scalar.indexCast v857
  ![1, 9, v954.toNat]

def k0_chk147 (v957 : IVec S16 32) : Prop :=
  (∀ a x, ((![v957] : Fin 1 → IVec S16 32) a x).toNat < S64000.size a)
instance k0_chk147.dec : ∀ (v957 : IVec S16 32), Decidable (k0_chk147 v957) := fun v957 => decidable_of_iff' _ (Iff.of_eq (k0_chk147.eq_1 v957))
theorem k0_idx147_inb : ∀ (v957 : IVec S16 32) (k0_hw147 : k0_chk147 v957), ∀ a x, ((![v957] : Fin 1 → IVec S16 32) a x).toNat < S64000.size a := fun v957 k0_hw147 => k0_hw147
def k0_off81 (k0_t3 : Fin k0_t3_loop.trips) : Fin 3 → Nat :=
  let c1_i32_501 : BitVec 32 := 1#32
  let v959 : Index := Scalar.indexCast c1_i32_501
  let c10_i32_502 : BitVec 32 := 10#32
  let v960 : Index := Scalar.indexCast c10_i32_502
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v961 : Index := Scalar.indexCast v857
  ![1, 10, v961.toNat]

def k0_chk148 (v964 : IVec S16 32) : Prop :=
  (∀ a x, ((![v964] : Fin 1 → IVec S16 32) a x).toNat < S64000.size a)
instance k0_chk148.dec : ∀ (v964 : IVec S16 32), Decidable (k0_chk148 v964) := fun v964 => decidable_of_iff' _ (Iff.of_eq (k0_chk148.eq_1 v964))
theorem k0_idx148_inb : ∀ (v964 : IVec S16 32) (k0_hw148 : k0_chk148 v964), ∀ a x, ((![v964] : Fin 1 → IVec S16 32) a x).toNat < S64000.size a := fun v964 k0_hw148 => k0_hw148
def k0_off82 (k0_t3 : Fin k0_t3_loop.trips) : Fin 3 → Nat :=
  let c1_i32_504 : BitVec 32 := 1#32
  let v966 : Index := Scalar.indexCast c1_i32_504
  let c11_i32_505 : BitVec 32 := 11#32
  let v967 : Index := Scalar.indexCast c11_i32_505
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v968 : Index := Scalar.indexCast v857
  ![1, 11, v968.toNat]

def k0_chk149 (v971 : IVec S16 32) : Prop :=
  (∀ a x, ((![v971] : Fin 1 → IVec S16 32) a x).toNat < S64000.size a)
instance k0_chk149.dec : ∀ (v971 : IVec S16 32), Decidable (k0_chk149 v971) := fun v971 => decidable_of_iff' _ (Iff.of_eq (k0_chk149.eq_1 v971))
theorem k0_idx149_inb : ∀ (v971 : IVec S16 32) (k0_hw149 : k0_chk149 v971), ∀ a x, ((![v971] : Fin 1 → IVec S16 32) a x).toNat < S64000.size a := fun v971 k0_hw149 => k0_hw149
def k0_off83 (k0_t3 : Fin k0_t3_loop.trips) : Fin 3 → Nat :=
  let c1_i32_507 : BitVec 32 := 1#32
  let v973 : Index := Scalar.indexCast c1_i32_507
  let c12_i32_508 : BitVec 32 := 12#32
  let v974 : Index := Scalar.indexCast c12_i32_508
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v975 : Index := Scalar.indexCast v857
  ![1, 12, v975.toNat]

def k0_chk150 (v978 : IVec S16 32) : Prop :=
  (∀ a x, ((![v978] : Fin 1 → IVec S16 32) a x).toNat < S64000.size a)
instance k0_chk150.dec : ∀ (v978 : IVec S16 32), Decidable (k0_chk150 v978) := fun v978 => decidable_of_iff' _ (Iff.of_eq (k0_chk150.eq_1 v978))
theorem k0_idx150_inb : ∀ (v978 : IVec S16 32) (k0_hw150 : k0_chk150 v978), ∀ a x, ((![v978] : Fin 1 → IVec S16 32) a x).toNat < S64000.size a := fun v978 k0_hw150 => k0_hw150
def k0_off84 (k0_t3 : Fin k0_t3_loop.trips) : Fin 3 → Nat :=
  let c1_i32_510 : BitVec 32 := 1#32
  let v980 : Index := Scalar.indexCast c1_i32_510
  let c13_i32_511 : BitVec 32 := 13#32
  let v981 : Index := Scalar.indexCast c13_i32_511
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v982 : Index := Scalar.indexCast v857
  ![1, 13, v982.toNat]

def k0_chk151 (v985 : IVec S16 32) : Prop :=
  (∀ a x, ((![v985] : Fin 1 → IVec S16 32) a x).toNat < S64000.size a)
instance k0_chk151.dec : ∀ (v985 : IVec S16 32), Decidable (k0_chk151 v985) := fun v985 => decidable_of_iff' _ (Iff.of_eq (k0_chk151.eq_1 v985))
theorem k0_idx151_inb : ∀ (v985 : IVec S16 32) (k0_hw151 : k0_chk151 v985), ∀ a x, ((![v985] : Fin 1 → IVec S16 32) a x).toNat < S64000.size a := fun v985 k0_hw151 => k0_hw151
def k0_off85 (k0_t3 : Fin k0_t3_loop.trips) : Fin 3 → Nat :=
  let c1_i32_513 : BitVec 32 := 1#32
  let v987 : Index := Scalar.indexCast c1_i32_513
  let c14_i32_514 : BitVec 32 := 14#32
  let v988 : Index := Scalar.indexCast c14_i32_514
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v989 : Index := Scalar.indexCast v857
  ![1, 14, v989.toNat]

def k0_chk152 (v992 : IVec S16 32) : Prop :=
  (∀ a x, ((![v992] : Fin 1 → IVec S16 32) a x).toNat < S64000.size a)
instance k0_chk152.dec : ∀ (v992 : IVec S16 32), Decidable (k0_chk152 v992) := fun v992 => decidable_of_iff' _ (Iff.of_eq (k0_chk152.eq_1 v992))
theorem k0_idx152_inb : ∀ (v992 : IVec S16 32) (k0_hw152 : k0_chk152 v992), ∀ a x, ((![v992] : Fin 1 → IVec S16 32) a x).toNat < S64000.size a := fun v992 k0_hw152 => k0_hw152
def k0_off86 (k0_t3 : Fin k0_t3_loop.trips) : Fin 3 → Nat :=
  let c1_i32_516 : BitVec 32 := 1#32
  let v994 : Index := Scalar.indexCast c1_i32_516
  let c15_i32_517 : BitVec 32 := 15#32
  let v995 : Index := Scalar.indexCast c15_i32_517
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v996 : Index := Scalar.indexCast v857
  ![1, 15, v996.toNat]

def k0_chk153 (v999 : IVec S16 32) : Prop :=
  (∀ a x, ((![v999] : Fin 1 → IVec S16 32) a x).toNat < S64000.size a)
instance k0_chk153.dec : ∀ (v999 : IVec S16 32), Decidable (k0_chk153 v999) := fun v999 => decidable_of_iff' _ (Iff.of_eq (k0_chk153.eq_1 v999))
theorem k0_idx153_inb : ∀ (v999 : IVec S16 32) (k0_hw153 : k0_chk153 v999), ∀ a x, ((![v999] : Fin 1 → IVec S16 32) a x).toNat < S64000.size a := fun v999 k0_hw153 => k0_hw153
def k0_off87 (k0_t3 : Fin k0_t3_loop.trips) : Fin 3 → Nat :=
  let c1_i32_519 : BitVec 32 := 1#32
  let v1001 : Index := Scalar.indexCast c1_i32_519
  let c16_i32_520 : BitVec 32 := 16#32
  let v1002 : Index := Scalar.indexCast c16_i32_520
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1003 : Index := Scalar.indexCast v857
  ![1, 16, v1003.toNat]

def k0_chk154 (v1006 : IVec S16 32) : Prop :=
  (∀ a x, ((![v1006] : Fin 1 → IVec S16 32) a x).toNat < S64000.size a)
instance k0_chk154.dec : ∀ (v1006 : IVec S16 32), Decidable (k0_chk154 v1006) := fun v1006 => decidable_of_iff' _ (Iff.of_eq (k0_chk154.eq_1 v1006))
theorem k0_idx154_inb : ∀ (v1006 : IVec S16 32) (k0_hw154 : k0_chk154 v1006), ∀ a x, ((![v1006] : Fin 1 → IVec S16 32) a x).toNat < S64000.size a := fun v1006 k0_hw154 => k0_hw154
def k0_off88 (k0_t3 : Fin k0_t3_loop.trips) : Fin 3 → Nat :=
  let c1_i32_522 : BitVec 32 := 1#32
  let v1008 : Index := Scalar.indexCast c1_i32_522
  let c17_i32_523 : BitVec 32 := 17#32
  let v1009 : Index := Scalar.indexCast c17_i32_523
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1010 : Index := Scalar.indexCast v857
  ![1, 17, v1010.toNat]

def k0_chk155 (v1013 : IVec S16 32) : Prop :=
  (∀ a x, ((![v1013] : Fin 1 → IVec S16 32) a x).toNat < S64000.size a)
instance k0_chk155.dec : ∀ (v1013 : IVec S16 32), Decidable (k0_chk155 v1013) := fun v1013 => decidable_of_iff' _ (Iff.of_eq (k0_chk155.eq_1 v1013))
theorem k0_idx155_inb : ∀ (v1013 : IVec S16 32) (k0_hw155 : k0_chk155 v1013), ∀ a x, ((![v1013] : Fin 1 → IVec S16 32) a x).toNat < S64000.size a := fun v1013 k0_hw155 => k0_hw155
def k0_off89 (k0_t3 : Fin k0_t3_loop.trips) : Fin 3 → Nat :=
  let c1_i32_525 : BitVec 32 := 1#32
  let v1015 : Index := Scalar.indexCast c1_i32_525
  let c18_i32_526 : BitVec 32 := 18#32
  let v1016 : Index := Scalar.indexCast c18_i32_526
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1017 : Index := Scalar.indexCast v857
  ![1, 18, v1017.toNat]

def k0_chk156 (v1020 : IVec S16 32) : Prop :=
  (∀ a x, ((![v1020] : Fin 1 → IVec S16 32) a x).toNat < S64000.size a)
instance k0_chk156.dec : ∀ (v1020 : IVec S16 32), Decidable (k0_chk156 v1020) := fun v1020 => decidable_of_iff' _ (Iff.of_eq (k0_chk156.eq_1 v1020))
theorem k0_idx156_inb : ∀ (v1020 : IVec S16 32) (k0_hw156 : k0_chk156 v1020), ∀ a x, ((![v1020] : Fin 1 → IVec S16 32) a x).toNat < S64000.size a := fun v1020 k0_hw156 => k0_hw156
def k0_off90 (k0_t3 : Fin k0_t3_loop.trips) : Fin 3 → Nat :=
  let c1_i32_528 : BitVec 32 := 1#32
  let v1022 : Index := Scalar.indexCast c1_i32_528
  let c19_i32_529 : BitVec 32 := 19#32
  let v1023 : Index := Scalar.indexCast c19_i32_529
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1024 : Index := Scalar.indexCast v857
  ![1, 19, v1024.toNat]

def k0_chk157 (v1027 : IVec S16 32) : Prop :=
  (∀ a x, ((![v1027] : Fin 1 → IVec S16 32) a x).toNat < S64000.size a)
instance k0_chk157.dec : ∀ (v1027 : IVec S16 32), Decidable (k0_chk157 v1027) := fun v1027 => decidable_of_iff' _ (Iff.of_eq (k0_chk157.eq_1 v1027))
theorem k0_idx157_inb : ∀ (v1027 : IVec S16 32) (k0_hw157 : k0_chk157 v1027), ∀ a x, ((![v1027] : Fin 1 → IVec S16 32) a x).toNat < S64000.size a := fun v1027 k0_hw157 => k0_hw157
def k0_off91 (k0_t3 : Fin k0_t3_loop.trips) : Fin 3 → Nat :=
  let c1_i32_531 : BitVec 32 := 1#32
  let v1029 : Index := Scalar.indexCast c1_i32_531
  let c20_i32_532 : BitVec 32 := 20#32
  let v1030 : Index := Scalar.indexCast c20_i32_532
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1031 : Index := Scalar.indexCast v857
  ![1, 20, v1031.toNat]

def k0_chk158 (v1034 : IVec S16 32) : Prop :=
  (∀ a x, ((![v1034] : Fin 1 → IVec S16 32) a x).toNat < S64000.size a)
instance k0_chk158.dec : ∀ (v1034 : IVec S16 32), Decidable (k0_chk158 v1034) := fun v1034 => decidable_of_iff' _ (Iff.of_eq (k0_chk158.eq_1 v1034))
theorem k0_idx158_inb : ∀ (v1034 : IVec S16 32) (k0_hw158 : k0_chk158 v1034), ∀ a x, ((![v1034] : Fin 1 → IVec S16 32) a x).toNat < S64000.size a := fun v1034 k0_hw158 => k0_hw158
def k0_off92 (k0_t3 : Fin k0_t3_loop.trips) : Fin 3 → Nat :=
  let c1_i32_534 : BitVec 32 := 1#32
  let v1036 : Index := Scalar.indexCast c1_i32_534
  let c21_i32_535 : BitVec 32 := 21#32
  let v1037 : Index := Scalar.indexCast c21_i32_535
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1038 : Index := Scalar.indexCast v857
  ![1, 21, v1038.toNat]

def k0_chk159 (v1041 : IVec S16 32) : Prop :=
  (∀ a x, ((![v1041] : Fin 1 → IVec S16 32) a x).toNat < S64000.size a)
instance k0_chk159.dec : ∀ (v1041 : IVec S16 32), Decidable (k0_chk159 v1041) := fun v1041 => decidable_of_iff' _ (Iff.of_eq (k0_chk159.eq_1 v1041))
theorem k0_idx159_inb : ∀ (v1041 : IVec S16 32) (k0_hw159 : k0_chk159 v1041), ∀ a x, ((![v1041] : Fin 1 → IVec S16 32) a x).toNat < S64000.size a := fun v1041 k0_hw159 => k0_hw159
def k0_off93 (k0_t3 : Fin k0_t3_loop.trips) : Fin 3 → Nat :=
  let c1_i32_537 : BitVec 32 := 1#32
  let v1043 : Index := Scalar.indexCast c1_i32_537
  let c22_i32_538 : BitVec 32 := 22#32
  let v1044 : Index := Scalar.indexCast c22_i32_538
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1045 : Index := Scalar.indexCast v857
  ![1, 22, v1045.toNat]

def k0_chk160 (v1048 : IVec S16 32) : Prop :=
  (∀ a x, ((![v1048] : Fin 1 → IVec S16 32) a x).toNat < S64000.size a)
instance k0_chk160.dec : ∀ (v1048 : IVec S16 32), Decidable (k0_chk160 v1048) := fun v1048 => decidable_of_iff' _ (Iff.of_eq (k0_chk160.eq_1 v1048))
theorem k0_idx160_inb : ∀ (v1048 : IVec S16 32) (k0_hw160 : k0_chk160 v1048), ∀ a x, ((![v1048] : Fin 1 → IVec S16 32) a x).toNat < S64000.size a := fun v1048 k0_hw160 => k0_hw160
def k0_off94 (k0_t3 : Fin k0_t3_loop.trips) : Fin 3 → Nat :=
  let c1_i32_540 : BitVec 32 := 1#32
  let v1050 : Index := Scalar.indexCast c1_i32_540
  let c23_i32_541 : BitVec 32 := 23#32
  let v1051 : Index := Scalar.indexCast c23_i32_541
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1052 : Index := Scalar.indexCast v857
  ![1, 23, v1052.toNat]

def k0_chk161 (v1055 : IVec S16 32) : Prop :=
  (∀ a x, ((![v1055] : Fin 1 → IVec S16 32) a x).toNat < S64000.size a)
instance k0_chk161.dec : ∀ (v1055 : IVec S16 32), Decidable (k0_chk161 v1055) := fun v1055 => decidable_of_iff' _ (Iff.of_eq (k0_chk161.eq_1 v1055))
theorem k0_idx161_inb : ∀ (v1055 : IVec S16 32) (k0_hw161 : k0_chk161 v1055), ∀ a x, ((![v1055] : Fin 1 → IVec S16 32) a x).toNat < S64000.size a := fun v1055 k0_hw161 => k0_hw161
def k0_off95 (k0_t3 : Fin k0_t3_loop.trips) : Fin 3 → Nat :=
  let c1_i32_543 : BitVec 32 := 1#32
  let v1057 : Index := Scalar.indexCast c1_i32_543
  let c24_i32_544 : BitVec 32 := 24#32
  let v1058 : Index := Scalar.indexCast c24_i32_544
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1059 : Index := Scalar.indexCast v857
  ![1, 24, v1059.toNat]

def k0_chk162 (v1062 : IVec S16 32) : Prop :=
  (∀ a x, ((![v1062] : Fin 1 → IVec S16 32) a x).toNat < S64000.size a)
instance k0_chk162.dec : ∀ (v1062 : IVec S16 32), Decidable (k0_chk162 v1062) := fun v1062 => decidable_of_iff' _ (Iff.of_eq (k0_chk162.eq_1 v1062))
theorem k0_idx162_inb : ∀ (v1062 : IVec S16 32) (k0_hw162 : k0_chk162 v1062), ∀ a x, ((![v1062] : Fin 1 → IVec S16 32) a x).toNat < S64000.size a := fun v1062 k0_hw162 => k0_hw162
def k0_off96 (k0_t3 : Fin k0_t3_loop.trips) : Fin 3 → Nat :=
  let c1_i32_546 : BitVec 32 := 1#32
  let v1064 : Index := Scalar.indexCast c1_i32_546
  let c25_i32_547 : BitVec 32 := 25#32
  let v1065 : Index := Scalar.indexCast c25_i32_547
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1066 : Index := Scalar.indexCast v857
  ![1, 25, v1066.toNat]

def k0_chk163 (v1069 : IVec S16 32) : Prop :=
  (∀ a x, ((![v1069] : Fin 1 → IVec S16 32) a x).toNat < S64000.size a)
instance k0_chk163.dec : ∀ (v1069 : IVec S16 32), Decidable (k0_chk163 v1069) := fun v1069 => decidable_of_iff' _ (Iff.of_eq (k0_chk163.eq_1 v1069))
theorem k0_idx163_inb : ∀ (v1069 : IVec S16 32) (k0_hw163 : k0_chk163 v1069), ∀ a x, ((![v1069] : Fin 1 → IVec S16 32) a x).toNat < S64000.size a := fun v1069 k0_hw163 => k0_hw163
def k0_off97 (k0_t3 : Fin k0_t3_loop.trips) : Fin 3 → Nat :=
  let c1_i32_549 : BitVec 32 := 1#32
  let v1071 : Index := Scalar.indexCast c1_i32_549
  let c26_i32_550 : BitVec 32 := 26#32
  let v1072 : Index := Scalar.indexCast c26_i32_550
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1073 : Index := Scalar.indexCast v857
  ![1, 26, v1073.toNat]

def k0_chk164 (v1076 : IVec S16 32) : Prop :=
  (∀ a x, ((![v1076] : Fin 1 → IVec S16 32) a x).toNat < S64000.size a)
instance k0_chk164.dec : ∀ (v1076 : IVec S16 32), Decidable (k0_chk164 v1076) := fun v1076 => decidable_of_iff' _ (Iff.of_eq (k0_chk164.eq_1 v1076))
theorem k0_idx164_inb : ∀ (v1076 : IVec S16 32) (k0_hw164 : k0_chk164 v1076), ∀ a x, ((![v1076] : Fin 1 → IVec S16 32) a x).toNat < S64000.size a := fun v1076 k0_hw164 => k0_hw164
def k0_off98 (k0_t3 : Fin k0_t3_loop.trips) : Fin 3 → Nat :=
  let c1_i32_552 : BitVec 32 := 1#32
  let v1078 : Index := Scalar.indexCast c1_i32_552
  let c27_i32_553 : BitVec 32 := 27#32
  let v1079 : Index := Scalar.indexCast c27_i32_553
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1080 : Index := Scalar.indexCast v857
  ![1, 27, v1080.toNat]

def k0_chk165 (v1083 : IVec S16 32) : Prop :=
  (∀ a x, ((![v1083] : Fin 1 → IVec S16 32) a x).toNat < S64000.size a)
instance k0_chk165.dec : ∀ (v1083 : IVec S16 32), Decidable (k0_chk165 v1083) := fun v1083 => decidable_of_iff' _ (Iff.of_eq (k0_chk165.eq_1 v1083))
theorem k0_idx165_inb : ∀ (v1083 : IVec S16 32) (k0_hw165 : k0_chk165 v1083), ∀ a x, ((![v1083] : Fin 1 → IVec S16 32) a x).toNat < S64000.size a := fun v1083 k0_hw165 => k0_hw165
def k0_off99 (k0_t3 : Fin k0_t3_loop.trips) : Fin 3 → Nat :=
  let c1_i32_555 : BitVec 32 := 1#32
  let v1085 : Index := Scalar.indexCast c1_i32_555
  let c28_i32_556 : BitVec 32 := 28#32
  let v1086 : Index := Scalar.indexCast c28_i32_556
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1087 : Index := Scalar.indexCast v857
  ![1, 28, v1087.toNat]

def k0_chk166 (v1090 : IVec S16 32) : Prop :=
  (∀ a x, ((![v1090] : Fin 1 → IVec S16 32) a x).toNat < S64000.size a)
instance k0_chk166.dec : ∀ (v1090 : IVec S16 32), Decidable (k0_chk166 v1090) := fun v1090 => decidable_of_iff' _ (Iff.of_eq (k0_chk166.eq_1 v1090))
theorem k0_idx166_inb : ∀ (v1090 : IVec S16 32) (k0_hw166 : k0_chk166 v1090), ∀ a x, ((![v1090] : Fin 1 → IVec S16 32) a x).toNat < S64000.size a := fun v1090 k0_hw166 => k0_hw166
def k0_off100 (k0_t3 : Fin k0_t3_loop.trips) : Fin 3 → Nat :=
  let c1_i32_558 : BitVec 32 := 1#32
  let v1092 : Index := Scalar.indexCast c1_i32_558
  let c29_i32_559 : BitVec 32 := 29#32
  let v1093 : Index := Scalar.indexCast c29_i32_559
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1094 : Index := Scalar.indexCast v857
  ![1, 29, v1094.toNat]

def k0_chk167 (v1097 : IVec S16 32) : Prop :=
  (∀ a x, ((![v1097] : Fin 1 → IVec S16 32) a x).toNat < S64000.size a)
instance k0_chk167.dec : ∀ (v1097 : IVec S16 32), Decidable (k0_chk167 v1097) := fun v1097 => decidable_of_iff' _ (Iff.of_eq (k0_chk167.eq_1 v1097))
theorem k0_idx167_inb : ∀ (v1097 : IVec S16 32) (k0_hw167 : k0_chk167 v1097), ∀ a x, ((![v1097] : Fin 1 → IVec S16 32) a x).toNat < S64000.size a := fun v1097 k0_hw167 => k0_hw167
def k0_off101 (k0_t3 : Fin k0_t3_loop.trips) : Fin 3 → Nat :=
  let c1_i32_561 : BitVec 32 := 1#32
  let v1099 : Index := Scalar.indexCast c1_i32_561
  let c30_i32_562 : BitVec 32 := 30#32
  let v1100 : Index := Scalar.indexCast c30_i32_562
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1101 : Index := Scalar.indexCast v857
  ![1, 30, v1101.toNat]

def k0_chk168 (v1104 : IVec S16 32) : Prop :=
  (∀ a x, ((![v1104] : Fin 1 → IVec S16 32) a x).toNat < S64000.size a)
instance k0_chk168.dec : ∀ (v1104 : IVec S16 32), Decidable (k0_chk168 v1104) := fun v1104 => decidable_of_iff' _ (Iff.of_eq (k0_chk168.eq_1 v1104))
theorem k0_idx168_inb : ∀ (v1104 : IVec S16 32) (k0_hw168 : k0_chk168 v1104), ∀ a x, ((![v1104] : Fin 1 → IVec S16 32) a x).toNat < S64000.size a := fun v1104 k0_hw168 => k0_hw168
def k0_off102 (k0_t3 : Fin k0_t3_loop.trips) : Fin 3 → Nat :=
  let c1_i32_564 : BitVec 32 := 1#32
  let v1106 : Index := Scalar.indexCast c1_i32_564
  let c31_i32_565 : BitVec 32 := 31#32
  let v1107 : Index := Scalar.indexCast c31_i32_565
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1108 : Index := Scalar.indexCast v857
  ![1, 31, v1108.toNat]

def k0_chk169 (v1111 : IVec S16 32) : Prop :=
  (∀ a x, ((![v1111] : Fin 1 → IVec S16 32) a x).toNat < S64000.size a)
instance k0_chk169.dec : ∀ (v1111 : IVec S16 32), Decidable (k0_chk169 v1111) := fun v1111 => decidable_of_iff' _ (Iff.of_eq (k0_chk169.eq_1 v1111))
theorem k0_idx169_inb : ∀ (v1111 : IVec S16 32) (k0_hw169 : k0_chk169 v1111), ∀ a x, ((![v1111] : Fin 1 → IVec S16 32) a x).toNat < S64000.size a := fun v1111 k0_hw169 => k0_hw169
def k0_off103 (k0_t3 : Fin k0_t3_loop.trips) : Fin 3 → Nat :=
  let c1_i32_567 : BitVec 32 := 1#32
  let v1113 : Index := Scalar.indexCast c1_i32_567
  let c32_i32_568 : BitVec 32 := 32#32
  let v1114 : Index := Scalar.indexCast c32_i32_568
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1115 : Index := Scalar.indexCast v857
  ![1, 32, v1115.toNat]

def k0_chk170 (v1118 : IVec S16 32) : Prop :=
  (∀ a x, ((![v1118] : Fin 1 → IVec S16 32) a x).toNat < S64000.size a)
instance k0_chk170.dec : ∀ (v1118 : IVec S16 32), Decidable (k0_chk170 v1118) := fun v1118 => decidable_of_iff' _ (Iff.of_eq (k0_chk170.eq_1 v1118))
theorem k0_idx170_inb : ∀ (v1118 : IVec S16 32) (k0_hw170 : k0_chk170 v1118), ∀ a x, ((![v1118] : Fin 1 → IVec S16 32) a x).toNat < S64000.size a := fun v1118 k0_hw170 => k0_hw170
def k0_off104 (k0_t3 : Fin k0_t3_loop.trips) : Fin 3 → Nat :=
  let c1_i32_570 : BitVec 32 := 1#32
  let v1120 : Index := Scalar.indexCast c1_i32_570
  let c33_i32_571 : BitVec 32 := 33#32
  let v1121 : Index := Scalar.indexCast c33_i32_571
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1122 : Index := Scalar.indexCast v857
  ![1, 33, v1122.toNat]

def k0_chk171 (v1125 : IVec S16 32) : Prop :=
  (∀ a x, ((![v1125] : Fin 1 → IVec S16 32) a x).toNat < S64000.size a)
instance k0_chk171.dec : ∀ (v1125 : IVec S16 32), Decidable (k0_chk171 v1125) := fun v1125 => decidable_of_iff' _ (Iff.of_eq (k0_chk171.eq_1 v1125))
theorem k0_idx171_inb : ∀ (v1125 : IVec S16 32) (k0_hw171 : k0_chk171 v1125), ∀ a x, ((![v1125] : Fin 1 → IVec S16 32) a x).toNat < S64000.size a := fun v1125 k0_hw171 => k0_hw171
def k0_off105 (k0_t3 : Fin k0_t3_loop.trips) : Fin 3 → Nat :=
  let c1_i32_573 : BitVec 32 := 1#32
  let v1127 : Index := Scalar.indexCast c1_i32_573
  let c34_i32_574 : BitVec 32 := 34#32
  let v1128 : Index := Scalar.indexCast c34_i32_574
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1129 : Index := Scalar.indexCast v857
  ![1, 34, v1129.toNat]

def k0_chk172 (v1132 : IVec S16 32) : Prop :=
  (∀ a x, ((![v1132] : Fin 1 → IVec S16 32) a x).toNat < S64000.size a)
instance k0_chk172.dec : ∀ (v1132 : IVec S16 32), Decidable (k0_chk172 v1132) := fun v1132 => decidable_of_iff' _ (Iff.of_eq (k0_chk172.eq_1 v1132))
theorem k0_idx172_inb : ∀ (v1132 : IVec S16 32) (k0_hw172 : k0_chk172 v1132), ∀ a x, ((![v1132] : Fin 1 → IVec S16 32) a x).toNat < S64000.size a := fun v1132 k0_hw172 => k0_hw172
def k0_off106 (k0_t3 : Fin k0_t3_loop.trips) : Fin 3 → Nat :=
  let c1_i32_576 : BitVec 32 := 1#32
  let v1134 : Index := Scalar.indexCast c1_i32_576
  let c35_i32_577 : BitVec 32 := 35#32
  let v1135 : Index := Scalar.indexCast c35_i32_577
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1136 : Index := Scalar.indexCast v857
  ![1, 35, v1136.toNat]

def k0_chk173 (v1139 : IVec S16 32) : Prop :=
  (∀ a x, ((![v1139] : Fin 1 → IVec S16 32) a x).toNat < S64000.size a)
instance k0_chk173.dec : ∀ (v1139 : IVec S16 32), Decidable (k0_chk173 v1139) := fun v1139 => decidable_of_iff' _ (Iff.of_eq (k0_chk173.eq_1 v1139))
theorem k0_idx173_inb : ∀ (v1139 : IVec S16 32) (k0_hw173 : k0_chk173 v1139), ∀ a x, ((![v1139] : Fin 1 → IVec S16 32) a x).toNat < S64000.size a := fun v1139 k0_hw173 => k0_hw173
def k0_off107 (k0_t3 : Fin k0_t3_loop.trips) : Fin 3 → Nat :=
  let c1_i32_579 : BitVec 32 := 1#32
  let v1141 : Index := Scalar.indexCast c1_i32_579
  let c36_i32_580 : BitVec 32 := 36#32
  let v1142 : Index := Scalar.indexCast c36_i32_580
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1143 : Index := Scalar.indexCast v857
  ![1, 36, v1143.toNat]

def k0_chk174 (v1146 : IVec S16 32) : Prop :=
  (∀ a x, ((![v1146] : Fin 1 → IVec S16 32) a x).toNat < S64000.size a)
instance k0_chk174.dec : ∀ (v1146 : IVec S16 32), Decidable (k0_chk174 v1146) := fun v1146 => decidable_of_iff' _ (Iff.of_eq (k0_chk174.eq_1 v1146))
theorem k0_idx174_inb : ∀ (v1146 : IVec S16 32) (k0_hw174 : k0_chk174 v1146), ∀ a x, ((![v1146] : Fin 1 → IVec S16 32) a x).toNat < S64000.size a := fun v1146 k0_hw174 => k0_hw174
def k0_off108 (k0_t3 : Fin k0_t3_loop.trips) : Fin 3 → Nat :=
  let c1_i32_582 : BitVec 32 := 1#32
  let v1148 : Index := Scalar.indexCast c1_i32_582
  let c37_i32_583 : BitVec 32 := 37#32
  let v1149 : Index := Scalar.indexCast c37_i32_583
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1150 : Index := Scalar.indexCast v857
  ![1, 37, v1150.toNat]

def k0_chk175 (v1153 : IVec S16 32) : Prop :=
  (∀ a x, ((![v1153] : Fin 1 → IVec S16 32) a x).toNat < S64000.size a)
instance k0_chk175.dec : ∀ (v1153 : IVec S16 32), Decidable (k0_chk175 v1153) := fun v1153 => decidable_of_iff' _ (Iff.of_eq (k0_chk175.eq_1 v1153))
theorem k0_idx175_inb : ∀ (v1153 : IVec S16 32) (k0_hw175 : k0_chk175 v1153), ∀ a x, ((![v1153] : Fin 1 → IVec S16 32) a x).toNat < S64000.size a := fun v1153 k0_hw175 => k0_hw175
def k0_off109 (k0_t3 : Fin k0_t3_loop.trips) : Fin 3 → Nat :=
  let c1_i32_585 : BitVec 32 := 1#32
  let v1155 : Index := Scalar.indexCast c1_i32_585
  let c38_i32_586 : BitVec 32 := 38#32
  let v1156 : Index := Scalar.indexCast c38_i32_586
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1157 : Index := Scalar.indexCast v857
  ![1, 38, v1157.toNat]

def k0_chk176 (v1160 : IVec S16 32) : Prop :=
  (∀ a x, ((![v1160] : Fin 1 → IVec S16 32) a x).toNat < S64000.size a)
instance k0_chk176.dec : ∀ (v1160 : IVec S16 32), Decidable (k0_chk176 v1160) := fun v1160 => decidable_of_iff' _ (Iff.of_eq (k0_chk176.eq_1 v1160))
theorem k0_idx176_inb : ∀ (v1160 : IVec S16 32) (k0_hw176 : k0_chk176 v1160), ∀ a x, ((![v1160] : Fin 1 → IVec S16 32) a x).toNat < S64000.size a := fun v1160 k0_hw176 => k0_hw176
def k0_off110 (k0_t3 : Fin k0_t3_loop.trips) : Fin 3 → Nat :=
  let c1_i32_588 : BitVec 32 := 1#32
  let v1162 : Index := Scalar.indexCast c1_i32_588
  let c39_i32_589 : BitVec 32 := 39#32
  let v1163 : Index := Scalar.indexCast c39_i32_589
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1164 : Index := Scalar.indexCast v857
  ![1, 39, v1164.toNat]

def k0_chk177 (v1167 : IVec S16 32) : Prop :=
  (∀ a x, ((![v1167] : Fin 1 → IVec S16 32) a x).toNat < S64000.size a)
instance k0_chk177.dec : ∀ (v1167 : IVec S16 32), Decidable (k0_chk177 v1167) := fun v1167 => decidable_of_iff' _ (Iff.of_eq (k0_chk177.eq_1 v1167))
theorem k0_idx177_inb : ∀ (v1167 : IVec S16 32) (k0_hw177 : k0_chk177 v1167), ∀ a x, ((![v1167] : Fin 1 → IVec S16 32) a x).toNat < S64000.size a := fun v1167 k0_hw177 => k0_hw177
def k0_off111 (k0_t3 : Fin k0_t3_loop.trips) : Fin 3 → Nat :=
  let c1_i32_591 : BitVec 32 := 1#32
  let v1169 : Index := Scalar.indexCast c1_i32_591
  let c40_i32_592 : BitVec 32 := 40#32
  let v1170 : Index := Scalar.indexCast c40_i32_592
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1171 : Index := Scalar.indexCast v857
  ![1, 40, v1171.toNat]

def k0_chk178 (v1174 : IVec S16 32) : Prop :=
  (∀ a x, ((![v1174] : Fin 1 → IVec S16 32) a x).toNat < S64000.size a)
instance k0_chk178.dec : ∀ (v1174 : IVec S16 32), Decidable (k0_chk178 v1174) := fun v1174 => decidable_of_iff' _ (Iff.of_eq (k0_chk178.eq_1 v1174))
theorem k0_idx178_inb : ∀ (v1174 : IVec S16 32) (k0_hw178 : k0_chk178 v1174), ∀ a x, ((![v1174] : Fin 1 → IVec S16 32) a x).toNat < S64000.size a := fun v1174 k0_hw178 => k0_hw178
def k0_off112 (k0_t3 : Fin k0_t3_loop.trips) : Fin 3 → Nat :=
  let c1_i32_594 : BitVec 32 := 1#32
  let v1176 : Index := Scalar.indexCast c1_i32_594
  let c41_i32_595 : BitVec 32 := 41#32
  let v1177 : Index := Scalar.indexCast c41_i32_595
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1178 : Index := Scalar.indexCast v857
  ![1, 41, v1178.toNat]

def k0_chk179 (v1181 : IVec S16 32) : Prop :=
  (∀ a x, ((![v1181] : Fin 1 → IVec S16 32) a x).toNat < S64000.size a)
instance k0_chk179.dec : ∀ (v1181 : IVec S16 32), Decidable (k0_chk179 v1181) := fun v1181 => decidable_of_iff' _ (Iff.of_eq (k0_chk179.eq_1 v1181))
theorem k0_idx179_inb : ∀ (v1181 : IVec S16 32) (k0_hw179 : k0_chk179 v1181), ∀ a x, ((![v1181] : Fin 1 → IVec S16 32) a x).toNat < S64000.size a := fun v1181 k0_hw179 => k0_hw179
def k0_off113 (k0_t3 : Fin k0_t3_loop.trips) : Fin 3 → Nat :=
  let c1_i32_597 : BitVec 32 := 1#32
  let v1183 : Index := Scalar.indexCast c1_i32_597
  let c42_i32_598 : BitVec 32 := 42#32
  let v1184 : Index := Scalar.indexCast c42_i32_598
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1185 : Index := Scalar.indexCast v857
  ![1, 42, v1185.toNat]

def k0_chk180 (v1188 : IVec S16 32) : Prop :=
  (∀ a x, ((![v1188] : Fin 1 → IVec S16 32) a x).toNat < S64000.size a)
instance k0_chk180.dec : ∀ (v1188 : IVec S16 32), Decidable (k0_chk180 v1188) := fun v1188 => decidable_of_iff' _ (Iff.of_eq (k0_chk180.eq_1 v1188))
theorem k0_idx180_inb : ∀ (v1188 : IVec S16 32) (k0_hw180 : k0_chk180 v1188), ∀ a x, ((![v1188] : Fin 1 → IVec S16 32) a x).toNat < S64000.size a := fun v1188 k0_hw180 => k0_hw180
def k0_off114 (k0_t3 : Fin k0_t3_loop.trips) : Fin 3 → Nat :=
  let c1_i32_600 : BitVec 32 := 1#32
  let v1190 : Index := Scalar.indexCast c1_i32_600
  let c43_i32_601 : BitVec 32 := 43#32
  let v1191 : Index := Scalar.indexCast c43_i32_601
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1192 : Index := Scalar.indexCast v857
  ![1, 43, v1192.toNat]

def k0_chk181 (v1195 : IVec S16 32) : Prop :=
  (∀ a x, ((![v1195] : Fin 1 → IVec S16 32) a x).toNat < S64000.size a)
instance k0_chk181.dec : ∀ (v1195 : IVec S16 32), Decidable (k0_chk181 v1195) := fun v1195 => decidable_of_iff' _ (Iff.of_eq (k0_chk181.eq_1 v1195))
theorem k0_idx181_inb : ∀ (v1195 : IVec S16 32) (k0_hw181 : k0_chk181 v1195), ∀ a x, ((![v1195] : Fin 1 → IVec S16 32) a x).toNat < S64000.size a := fun v1195 k0_hw181 => k0_hw181
def k0_off115 (k0_t3 : Fin k0_t3_loop.trips) : Fin 3 → Nat :=
  let c1_i32_603 : BitVec 32 := 1#32
  let v1197 : Index := Scalar.indexCast c1_i32_603
  let c44_i32_604 : BitVec 32 := 44#32
  let v1198 : Index := Scalar.indexCast c44_i32_604
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1199 : Index := Scalar.indexCast v857
  ![1, 44, v1199.toNat]

def k0_chk182 (v1202 : IVec S16 32) : Prop :=
  (∀ a x, ((![v1202] : Fin 1 → IVec S16 32) a x).toNat < S64000.size a)
instance k0_chk182.dec : ∀ (v1202 : IVec S16 32), Decidable (k0_chk182 v1202) := fun v1202 => decidable_of_iff' _ (Iff.of_eq (k0_chk182.eq_1 v1202))
theorem k0_idx182_inb : ∀ (v1202 : IVec S16 32) (k0_hw182 : k0_chk182 v1202), ∀ a x, ((![v1202] : Fin 1 → IVec S16 32) a x).toNat < S64000.size a := fun v1202 k0_hw182 => k0_hw182
def k0_off116 (k0_t3 : Fin k0_t3_loop.trips) : Fin 3 → Nat :=
  let c1_i32_606 : BitVec 32 := 1#32
  let v1204 : Index := Scalar.indexCast c1_i32_606
  let c45_i32_607 : BitVec 32 := 45#32
  let v1205 : Index := Scalar.indexCast c45_i32_607
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1206 : Index := Scalar.indexCast v857
  ![1, 45, v1206.toNat]

def k0_chk183 (v1209 : IVec S16 32) : Prop :=
  (∀ a x, ((![v1209] : Fin 1 → IVec S16 32) a x).toNat < S64000.size a)
instance k0_chk183.dec : ∀ (v1209 : IVec S16 32), Decidable (k0_chk183 v1209) := fun v1209 => decidable_of_iff' _ (Iff.of_eq (k0_chk183.eq_1 v1209))
theorem k0_idx183_inb : ∀ (v1209 : IVec S16 32) (k0_hw183 : k0_chk183 v1209), ∀ a x, ((![v1209] : Fin 1 → IVec S16 32) a x).toNat < S64000.size a := fun v1209 k0_hw183 => k0_hw183
def k0_off117 (k0_t3 : Fin k0_t3_loop.trips) : Fin 3 → Nat :=
  let c1_i32_609 : BitVec 32 := 1#32
  let v1211 : Index := Scalar.indexCast c1_i32_609
  let c46_i32_610 : BitVec 32 := 46#32
  let v1212 : Index := Scalar.indexCast c46_i32_610
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1213 : Index := Scalar.indexCast v857
  ![1, 46, v1213.toNat]

def k0_chk184 (v1216 : IVec S16 32) : Prop :=
  (∀ a x, ((![v1216] : Fin 1 → IVec S16 32) a x).toNat < S64000.size a)
instance k0_chk184.dec : ∀ (v1216 : IVec S16 32), Decidable (k0_chk184 v1216) := fun v1216 => decidable_of_iff' _ (Iff.of_eq (k0_chk184.eq_1 v1216))
theorem k0_idx184_inb : ∀ (v1216 : IVec S16 32) (k0_hw184 : k0_chk184 v1216), ∀ a x, ((![v1216] : Fin 1 → IVec S16 32) a x).toNat < S64000.size a := fun v1216 k0_hw184 => k0_hw184
def k0_off118 (k0_t3 : Fin k0_t3_loop.trips) : Fin 3 → Nat :=
  let c1_i32_612 : BitVec 32 := 1#32
  let v1218 : Index := Scalar.indexCast c1_i32_612
  let c47_i32_613 : BitVec 32 := 47#32
  let v1219 : Index := Scalar.indexCast c47_i32_613
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1220 : Index := Scalar.indexCast v857
  ![1, 47, v1220.toNat]

def k0_chk185 (v1223 : IVec S16 32) : Prop :=
  (∀ a x, ((![v1223] : Fin 1 → IVec S16 32) a x).toNat < S64000.size a)
instance k0_chk185.dec : ∀ (v1223 : IVec S16 32), Decidable (k0_chk185 v1223) := fun v1223 => decidable_of_iff' _ (Iff.of_eq (k0_chk185.eq_1 v1223))
theorem k0_idx185_inb : ∀ (v1223 : IVec S16 32) (k0_hw185 : k0_chk185 v1223), ∀ a x, ((![v1223] : Fin 1 → IVec S16 32) a x).toNat < S64000.size a := fun v1223 k0_hw185 => k0_hw185
def k0_off119 (k0_t3 : Fin k0_t3_loop.trips) : Fin 3 → Nat :=
  let c1_i32_615 : BitVec 32 := 1#32
  let v1225 : Index := Scalar.indexCast c1_i32_615
  let c48_i32_616 : BitVec 32 := 48#32
  let v1226 : Index := Scalar.indexCast c48_i32_616
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1227 : Index := Scalar.indexCast v857
  ![1, 48, v1227.toNat]

def k0_chk186 (v1230 : IVec S16 32) : Prop :=
  (∀ a x, ((![v1230] : Fin 1 → IVec S16 32) a x).toNat < S64000.size a)
instance k0_chk186.dec : ∀ (v1230 : IVec S16 32), Decidable (k0_chk186 v1230) := fun v1230 => decidable_of_iff' _ (Iff.of_eq (k0_chk186.eq_1 v1230))
theorem k0_idx186_inb : ∀ (v1230 : IVec S16 32) (k0_hw186 : k0_chk186 v1230), ∀ a x, ((![v1230] : Fin 1 → IVec S16 32) a x).toNat < S64000.size a := fun v1230 k0_hw186 => k0_hw186
def k0_off120 (k0_t3 : Fin k0_t3_loop.trips) : Fin 3 → Nat :=
  let c1_i32_618 : BitVec 32 := 1#32
  let v1232 : Index := Scalar.indexCast c1_i32_618
  let c49_i32_619 : BitVec 32 := 49#32
  let v1233 : Index := Scalar.indexCast c49_i32_619
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1234 : Index := Scalar.indexCast v857
  ![1, 49, v1234.toNat]

def k0_chk187 (v1237 : IVec S16 32) : Prop :=
  (∀ a x, ((![v1237] : Fin 1 → IVec S16 32) a x).toNat < S64000.size a)
instance k0_chk187.dec : ∀ (v1237 : IVec S16 32), Decidable (k0_chk187 v1237) := fun v1237 => decidable_of_iff' _ (Iff.of_eq (k0_chk187.eq_1 v1237))
theorem k0_idx187_inb : ∀ (v1237 : IVec S16 32) (k0_hw187 : k0_chk187 v1237), ∀ a x, ((![v1237] : Fin 1 → IVec S16 32) a x).toNat < S64000.size a := fun v1237 k0_hw187 => k0_hw187
def k0_off121 (k0_t3 : Fin k0_t3_loop.trips) : Fin 3 → Nat :=
  let c1_i32_621 : BitVec 32 := 1#32
  let v1239 : Index := Scalar.indexCast c1_i32_621
  let c50_i32_622 : BitVec 32 := 50#32
  let v1240 : Index := Scalar.indexCast c50_i32_622
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1241 : Index := Scalar.indexCast v857
  ![1, 50, v1241.toNat]

def k0_chk188 (v1244 : IVec S16 32) : Prop :=
  (∀ a x, ((![v1244] : Fin 1 → IVec S16 32) a x).toNat < S64000.size a)
instance k0_chk188.dec : ∀ (v1244 : IVec S16 32), Decidable (k0_chk188 v1244) := fun v1244 => decidable_of_iff' _ (Iff.of_eq (k0_chk188.eq_1 v1244))
theorem k0_idx188_inb : ∀ (v1244 : IVec S16 32) (k0_hw188 : k0_chk188 v1244), ∀ a x, ((![v1244] : Fin 1 → IVec S16 32) a x).toNat < S64000.size a := fun v1244 k0_hw188 => k0_hw188
def k0_off122 (k0_t3 : Fin k0_t3_loop.trips) : Fin 3 → Nat :=
  let c1_i32_624 : BitVec 32 := 1#32
  let v1246 : Index := Scalar.indexCast c1_i32_624
  let c51_i32_625 : BitVec 32 := 51#32
  let v1247 : Index := Scalar.indexCast c51_i32_625
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1248 : Index := Scalar.indexCast v857
  ![1, 51, v1248.toNat]

def k0_chk189 (v1251 : IVec S16 32) : Prop :=
  (∀ a x, ((![v1251] : Fin 1 → IVec S16 32) a x).toNat < S64000.size a)
instance k0_chk189.dec : ∀ (v1251 : IVec S16 32), Decidable (k0_chk189 v1251) := fun v1251 => decidable_of_iff' _ (Iff.of_eq (k0_chk189.eq_1 v1251))
theorem k0_idx189_inb : ∀ (v1251 : IVec S16 32) (k0_hw189 : k0_chk189 v1251), ∀ a x, ((![v1251] : Fin 1 → IVec S16 32) a x).toNat < S64000.size a := fun v1251 k0_hw189 => k0_hw189
def k0_off123 (k0_t3 : Fin k0_t3_loop.trips) : Fin 3 → Nat :=
  let c1_i32_627 : BitVec 32 := 1#32
  let v1253 : Index := Scalar.indexCast c1_i32_627
  let c52_i32_628 : BitVec 32 := 52#32
  let v1254 : Index := Scalar.indexCast c52_i32_628
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1255 : Index := Scalar.indexCast v857
  ![1, 52, v1255.toNat]

def k0_chk190 (v1258 : IVec S16 32) : Prop :=
  (∀ a x, ((![v1258] : Fin 1 → IVec S16 32) a x).toNat < S64000.size a)
instance k0_chk190.dec : ∀ (v1258 : IVec S16 32), Decidable (k0_chk190 v1258) := fun v1258 => decidable_of_iff' _ (Iff.of_eq (k0_chk190.eq_1 v1258))
theorem k0_idx190_inb : ∀ (v1258 : IVec S16 32) (k0_hw190 : k0_chk190 v1258), ∀ a x, ((![v1258] : Fin 1 → IVec S16 32) a x).toNat < S64000.size a := fun v1258 k0_hw190 => k0_hw190
def k0_off124 (k0_t3 : Fin k0_t3_loop.trips) : Fin 3 → Nat :=
  let c1_i32_630 : BitVec 32 := 1#32
  let v1260 : Index := Scalar.indexCast c1_i32_630
  let c53_i32_631 : BitVec 32 := 53#32
  let v1261 : Index := Scalar.indexCast c53_i32_631
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1262 : Index := Scalar.indexCast v857
  ![1, 53, v1262.toNat]

def k0_chk191 (v1265 : IVec S16 32) : Prop :=
  (∀ a x, ((![v1265] : Fin 1 → IVec S16 32) a x).toNat < S64000.size a)
instance k0_chk191.dec : ∀ (v1265 : IVec S16 32), Decidable (k0_chk191 v1265) := fun v1265 => decidable_of_iff' _ (Iff.of_eq (k0_chk191.eq_1 v1265))
theorem k0_idx191_inb : ∀ (v1265 : IVec S16 32) (k0_hw191 : k0_chk191 v1265), ∀ a x, ((![v1265] : Fin 1 → IVec S16 32) a x).toNat < S64000.size a := fun v1265 k0_hw191 => k0_hw191
def k0_off125 (k0_t3 : Fin k0_t3_loop.trips) : Fin 3 → Nat :=
  let c1_i32_633 : BitVec 32 := 1#32
  let v1267 : Index := Scalar.indexCast c1_i32_633
  let c54_i32_634 : BitVec 32 := 54#32
  let v1268 : Index := Scalar.indexCast c54_i32_634
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1269 : Index := Scalar.indexCast v857
  ![1, 54, v1269.toNat]

def k0_chk192 (v1272 : IVec S16 32) : Prop :=
  (∀ a x, ((![v1272] : Fin 1 → IVec S16 32) a x).toNat < S64000.size a)
instance k0_chk192.dec : ∀ (v1272 : IVec S16 32), Decidable (k0_chk192 v1272) := fun v1272 => decidable_of_iff' _ (Iff.of_eq (k0_chk192.eq_1 v1272))
theorem k0_idx192_inb : ∀ (v1272 : IVec S16 32) (k0_hw192 : k0_chk192 v1272), ∀ a x, ((![v1272] : Fin 1 → IVec S16 32) a x).toNat < S64000.size a := fun v1272 k0_hw192 => k0_hw192
def k0_off126 (k0_t3 : Fin k0_t3_loop.trips) : Fin 3 → Nat :=
  let c1_i32_636 : BitVec 32 := 1#32
  let v1274 : Index := Scalar.indexCast c1_i32_636
  let c55_i32_637 : BitVec 32 := 55#32
  let v1275 : Index := Scalar.indexCast c55_i32_637
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1276 : Index := Scalar.indexCast v857
  ![1, 55, v1276.toNat]
def k0_off127 (k0_t3 : Fin k0_t3_loop.trips) : Fin 3 → Nat :=
  let c1_i32_638 : BitVec 32 := 1#32
  let v1278 : Index := Scalar.indexCast c1_i32_638
  let c56_i32_639 : BitVec 32 := 56#32
  let v1279 : Index := Scalar.indexCast c56_i32_639
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1280 : Index := Scalar.indexCast v857
  ![1, 56, v1280.toNat]
def k0_off128 (k0_t3 : Fin k0_t3_loop.trips) : Fin 3 → Nat :=
  let c1_i32_640 : BitVec 32 := 1#32
  let v1282 : Index := Scalar.indexCast c1_i32_640
  let c57_i32_641 : BitVec 32 := 57#32
  let v1283 : Index := Scalar.indexCast c57_i32_641
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1284 : Index := Scalar.indexCast v857
  ![1, 57, v1284.toNat]
def k0_off129 (k0_t3 : Fin k0_t3_loop.trips) : Fin 3 → Nat :=
  let c1_i32_642 : BitVec 32 := 1#32
  let v1286 : Index := Scalar.indexCast c1_i32_642
  let c58_i32_643 : BitVec 32 := 58#32
  let v1287 : Index := Scalar.indexCast c58_i32_643
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1288 : Index := Scalar.indexCast v857
  ![1, 58, v1288.toNat]
def k0_off130 (k0_t3 : Fin k0_t3_loop.trips) : Fin 3 → Nat :=
  let c1_i32_644 : BitVec 32 := 1#32
  let v1290 : Index := Scalar.indexCast c1_i32_644
  let c59_i32_645 : BitVec 32 := 59#32
  let v1291 : Index := Scalar.indexCast c59_i32_645
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1292 : Index := Scalar.indexCast v857
  ![1, 59, v1292.toNat]
def k0_off131 (k0_t3 : Fin k0_t3_loop.trips) : Fin 3 → Nat :=
  let c1_i32_646 : BitVec 32 := 1#32
  let v1294 : Index := Scalar.indexCast c1_i32_646
  let c60_i32_647 : BitVec 32 := 60#32
  let v1295 : Index := Scalar.indexCast c60_i32_647
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1296 : Index := Scalar.indexCast v857
  ![1, 60, v1296.toNat]
def k0_off132 (k0_t3 : Fin k0_t3_loop.trips) : Fin 3 → Nat :=
  let c1_i32_648 : BitVec 32 := 1#32
  let v1298 : Index := Scalar.indexCast c1_i32_648
  let c61_i32_649 : BitVec 32 := 61#32
  let v1299 : Index := Scalar.indexCast c61_i32_649
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1300 : Index := Scalar.indexCast v857
  ![1, 61, v1300.toNat]
def k0_off133 (k0_t3 : Fin k0_t3_loop.trips) : Fin 3 → Nat :=
  let c1_i32_650 : BitVec 32 := 1#32
  let v1302 : Index := Scalar.indexCast c1_i32_650
  let c62_i32_651 : BitVec 32 := 62#32
  let v1303 : Index := Scalar.indexCast c62_i32_651
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1304 : Index := Scalar.indexCast v857
  ![1, 62, v1304.toNat]
def k0_off134 (k0_t3 : Fin k0_t3_loop.trips) : Fin 3 → Nat :=
  let c1_i32_652 : BitVec 32 := 1#32
  let v1306 : Index := Scalar.indexCast c1_i32_652
  let c63_i32_653 : BitVec 32 := 63#32
  let v1307 : Index := Scalar.indexCast c63_i32_653
  let c0_i32_191 : BitVec 32 := 0#32
  let c1_i32_193 : BitVec 32 := 1#32
  let arg11 : BitVec 32 := Scf.iv c0_i32_191 c1_i32_193 k0_t3
  let c16_i32_460 : BitVec 32 := 16#32
  let v856 : BitVec 32 := Scalar.muli arg11 c16_i32_460
  let v857 : BitVec 32 := v856
  let v1308 : Index := Scalar.indexCast v857
  ![1, 63, v1308.toNat]
def k0_off135 (k0_t1 : Fin k0_t1_loop.trips) : Fin 1 → Nat :=
  let c0_i32_13 : BitVec 32 := 0#32
  let c1_i32_14 : BitVec 32 := 1#32
  let arg10 : BitVec 32 := Scf.iv c0_i32_13 c1_i32_14 k0_t1
  let c2_i32_186 : BitVec 32 := 2#32
  let v453 : BitVec 32 := Scalar.muli arg10 c2_i32_186
  let c1_i32_187 : BitVec 32 := 1#32
  let v454 : BitVec 32 := Scalar.addi v453 c1_i32_187
  let c200_i32_195 : BitVec 32 := 200#32
  let v459 : BitVec 32 := Scalar.muli v454 c200_i32_195
  let c184_i32_196 : BitVec 32 := 184#32
  let v460 : BitVec 32 := Scalar.addi v459 c184_i32_196
  let v461 : Index := Scalar.indexCast v460
  ![v461.toNat]

def k0_chk193 (v464 : IVec S16 32) : Prop :=
  (∀ a x, ((![v464] : Fin 1 → IVec S16 32) a x).toNat < S64000.size a)
instance k0_chk193.dec : ∀ (v464 : IVec S16 32), Decidable (k0_chk193 v464) := fun v464 => decidable_of_iff' _ (Iff.of_eq (k0_chk193.eq_1 v464))
theorem k0_idx193_inb : ∀ (v464 : IVec S16 32) (k0_hw193 : k0_chk193 v464), ∀ a x, ((![v464] : Fin 1 → IVec S16 32) a x).toNat < S64000.size a := fun v464 k0_hw193 => k0_hw193

def k0_chk194 (v467 : IVec S16 32) : Prop :=
  (∀ a x, ((![v467] : Fin 1 → IVec S16 32) a x).toNat < S64000.size a)
instance k0_chk194.dec : ∀ (v467 : IVec S16 32), Decidable (k0_chk194 v467) := fun v467 => decidable_of_iff' _ (Iff.of_eq (k0_chk194.eq_1 v467))
theorem k0_idx194_inb : ∀ (v467 : IVec S16 32) (k0_hw194 : k0_chk194 v467), ∀ a x, ((![v467] : Fin 1 → IVec S16 32) a x).toNat < S64000.size a := fun v467 k0_hw194 => k0_hw194

def k0_chk195 (v470 : IVec S16 32) : Prop :=
  (∀ a x, ((![v470] : Fin 1 → IVec S16 32) a x).toNat < S64000.size a)
instance k0_chk195.dec : ∀ (v470 : IVec S16 32), Decidable (k0_chk195 v470) := fun v470 => decidable_of_iff' _ (Iff.of_eq (k0_chk195.eq_1 v470))
theorem k0_idx195_inb : ∀ (v470 : IVec S16 32) (k0_hw195 : k0_chk195 v470), ∀ a x, ((![v470] : Fin 1 → IVec S16 32) a x).toNat < S64000.size a := fun v470 k0_hw195 => k0_hw195

def k0_chk196 (v473 : IVec S16 32) : Prop :=
  (∀ a x, ((![v473] : Fin 1 → IVec S16 32) a x).toNat < S64000.size a)
instance k0_chk196.dec : ∀ (v473 : IVec S16 32), Decidable (k0_chk196 v473) := fun v473 => decidable_of_iff' _ (Iff.of_eq (k0_chk196.eq_1 v473))
theorem k0_idx196_inb : ∀ (v473 : IVec S16 32) (k0_hw196 : k0_chk196 v473), ∀ a x, ((![v473] : Fin 1 → IVec S16 32) a x).toNat < S64000.size a := fun v473 k0_hw196 => k0_hw196

def k0_chk197 (v476 : IVec S16 32) : Prop :=
  (∀ a x, ((![v476] : Fin 1 → IVec S16 32) a x).toNat < S64000.size a)
instance k0_chk197.dec : ∀ (v476 : IVec S16 32), Decidable (k0_chk197 v476) := fun v476 => decidable_of_iff' _ (Iff.of_eq (k0_chk197.eq_1 v476))
theorem k0_idx197_inb : ∀ (v476 : IVec S16 32) (k0_hw197 : k0_chk197 v476), ∀ a x, ((![v476] : Fin 1 → IVec S16 32) a x).toNat < S64000.size a := fun v476 k0_hw197 => k0_hw197

def k0_chk198 (v479 : IVec S16 32) : Prop :=
  (∀ a x, ((![v479] : Fin 1 → IVec S16 32) a x).toNat < S64000.size a)
instance k0_chk198.dec : ∀ (v479 : IVec S16 32), Decidable (k0_chk198 v479) := fun v479 => decidable_of_iff' _ (Iff.of_eq (k0_chk198.eq_1 v479))
theorem k0_idx198_inb : ∀ (v479 : IVec S16 32) (k0_hw198 : k0_chk198 v479), ∀ a x, ((![v479] : Fin 1 → IVec S16 32) a x).toNat < S64000.size a := fun v479 k0_hw198 => k0_hw198

def k0_chk199 (v482 : IVec S16 32) : Prop :=
  (∀ a x, ((![v482] : Fin 1 → IVec S16 32) a x).toNat < S64000.size a)
instance k0_chk199.dec : ∀ (v482 : IVec S16 32), Decidable (k0_chk199 v482) := fun v482 => decidable_of_iff' _ (Iff.of_eq (k0_chk199.eq_1 v482))
theorem k0_idx199_inb : ∀ (v482 : IVec S16 32) (k0_hw199 : k0_chk199 v482), ∀ a x, ((![v482] : Fin 1 → IVec S16 32) a x).toNat < S64000.size a := fun v482 k0_hw199 => k0_hw199

def k0_chk200 (v485 : IVec S16 32) : Prop :=
  (∀ a x, ((![v485] : Fin 1 → IVec S16 32) a x).toNat < S64000.size a)
instance k0_chk200.dec : ∀ (v485 : IVec S16 32), Decidable (k0_chk200 v485) := fun v485 => decidable_of_iff' _ (Iff.of_eq (k0_chk200.eq_1 v485))
theorem k0_idx200_inb : ∀ (v485 : IVec S16 32) (k0_hw200 : k0_chk200 v485), ∀ a x, ((![v485] : Fin 1 → IVec S16 32) a x).toNat < S64000.size a := fun v485 k0_hw200 => k0_hw200

def k0_chk201 (v488 : IVec S16 32) : Prop :=
  (∀ a x, ((![v488] : Fin 1 → IVec S16 32) a x).toNat < S64000.size a)
instance k0_chk201.dec : ∀ (v488 : IVec S16 32), Decidable (k0_chk201 v488) := fun v488 => decidable_of_iff' _ (Iff.of_eq (k0_chk201.eq_1 v488))
theorem k0_idx201_inb : ∀ (v488 : IVec S16 32) (k0_hw201 : k0_chk201 v488), ∀ a x, ((![v488] : Fin 1 → IVec S16 32) a x).toNat < S64000.size a := fun v488 k0_hw201 => k0_hw201

def k0_chk202 (v494 : IVec S16 32) : Prop :=
  (∀ a x, ((![v494] : Fin 1 → IVec S16 32) a x).toNat < S64000.size a)
instance k0_chk202.dec : ∀ (v494 : IVec S16 32), Decidable (k0_chk202 v494) := fun v494 => decidable_of_iff' _ (Iff.of_eq (k0_chk202.eq_1 v494))
theorem k0_idx202_inb : ∀ (v494 : IVec S16 32) (k0_hw202 : k0_chk202 v494), ∀ a x, ((![v494] : Fin 1 → IVec S16 32) a x).toNat < S64000.size a := fun v494 k0_hw202 => k0_hw202

def k0_chk203 (v500 : IVec S16 32) : Prop :=
  (∀ a x, ((![v500] : Fin 1 → IVec S16 32) a x).toNat < S64000.size a)
instance k0_chk203.dec : ∀ (v500 : IVec S16 32), Decidable (k0_chk203 v500) := fun v500 => decidable_of_iff' _ (Iff.of_eq (k0_chk203.eq_1 v500))
theorem k0_idx203_inb : ∀ (v500 : IVec S16 32) (k0_hw203 : k0_chk203 v500), ∀ a x, ((![v500] : Fin 1 → IVec S16 32) a x).toNat < S64000.size a := fun v500 k0_hw203 => k0_hw203

def k0_chk204 (v506 : IVec S16 32) : Prop :=
  (∀ a x, ((![v506] : Fin 1 → IVec S16 32) a x).toNat < S64000.size a)
instance k0_chk204.dec : ∀ (v506 : IVec S16 32), Decidable (k0_chk204 v506) := fun v506 => decidable_of_iff' _ (Iff.of_eq (k0_chk204.eq_1 v506))
theorem k0_idx204_inb : ∀ (v506 : IVec S16 32) (k0_hw204 : k0_chk204 v506), ∀ a x, ((![v506] : Fin 1 → IVec S16 32) a x).toNat < S64000.size a := fun v506 k0_hw204 => k0_hw204

def k0_chk205 (v512 : IVec S16 32) : Prop :=
  (∀ a x, ((![v512] : Fin 1 → IVec S16 32) a x).toNat < S64000.size a)
instance k0_chk205.dec : ∀ (v512 : IVec S16 32), Decidable (k0_chk205 v512) := fun v512 => decidable_of_iff' _ (Iff.of_eq (k0_chk205.eq_1 v512))
theorem k0_idx205_inb : ∀ (v512 : IVec S16 32) (k0_hw205 : k0_chk205 v512), ∀ a x, ((![v512] : Fin 1 → IVec S16 32) a x).toNat < S64000.size a := fun v512 k0_hw205 => k0_hw205

def k0_chk206 (v518 : IVec S16 32) : Prop :=
  (∀ a x, ((![v518] : Fin 1 → IVec S16 32) a x).toNat < S64000.size a)
instance k0_chk206.dec : ∀ (v518 : IVec S16 32), Decidable (k0_chk206 v518) := fun v518 => decidable_of_iff' _ (Iff.of_eq (k0_chk206.eq_1 v518))
theorem k0_idx206_inb : ∀ (v518 : IVec S16 32) (k0_hw206 : k0_chk206 v518), ∀ a x, ((![v518] : Fin 1 → IVec S16 32) a x).toNat < S64000.size a := fun v518 k0_hw206 => k0_hw206

def k0_chk207 (v524 : IVec S16 32) : Prop :=
  (∀ a x, ((![v524] : Fin 1 → IVec S16 32) a x).toNat < S64000.size a)
instance k0_chk207.dec : ∀ (v524 : IVec S16 32), Decidable (k0_chk207 v524) := fun v524 => decidable_of_iff' _ (Iff.of_eq (k0_chk207.eq_1 v524))
theorem k0_idx207_inb : ∀ (v524 : IVec S16 32) (k0_hw207 : k0_chk207 v524), ∀ a x, ((![v524] : Fin 1 → IVec S16 32) a x).toNat < S64000.size a := fun v524 k0_hw207 => k0_hw207

def k0_chk208 (v530 : IVec S16 32) : Prop :=
  (∀ a x, ((![v530] : Fin 1 → IVec S16 32) a x).toNat < S64000.size a)
instance k0_chk208.dec : ∀ (v530 : IVec S16 32), Decidable (k0_chk208 v530) := fun v530 => decidable_of_iff' _ (Iff.of_eq (k0_chk208.eq_1 v530))
theorem k0_idx208_inb : ∀ (v530 : IVec S16 32) (k0_hw208 : k0_chk208 v530), ∀ a x, ((![v530] : Fin 1 → IVec S16 32) a x).toNat < S64000.size a := fun v530 k0_hw208 => k0_hw208

def k0_chk209 (v536 : IVec S16 32) : Prop :=
  (∀ a x, ((![v536] : Fin 1 → IVec S16 32) a x).toNat < S64000.size a)
instance k0_chk209.dec : ∀ (v536 : IVec S16 32), Decidable (k0_chk209 v536) := fun v536 => decidable_of_iff' _ (Iff.of_eq (k0_chk209.eq_1 v536))
theorem k0_idx209_inb : ∀ (v536 : IVec S16 32) (k0_hw209 : k0_chk209 v536), ∀ a x, ((![v536] : Fin 1 → IVec S16 32) a x).toNat < S64000.size a := fun v536 k0_hw209 => k0_hw209

def k0_chk210 (v542 : IVec S16 32) : Prop :=
  (∀ a x, ((![v542] : Fin 1 → IVec S16 32) a x).toNat < S64000.size a)
instance k0_chk210.dec : ∀ (v542 : IVec S16 32), Decidable (k0_chk210 v542) := fun v542 => decidable_of_iff' _ (Iff.of_eq (k0_chk210.eq_1 v542))
theorem k0_idx210_inb : ∀ (v542 : IVec S16 32) (k0_hw210 : k0_chk210 v542), ∀ a x, ((![v542] : Fin 1 → IVec S16 32) a x).toNat < S64000.size a := fun v542 k0_hw210 => k0_hw210

def k0_chk211 (v548 : IVec S16 32) : Prop :=
  (∀ a x, ((![v548] : Fin 1 → IVec S16 32) a x).toNat < S64000.size a)
instance k0_chk211.dec : ∀ (v548 : IVec S16 32), Decidable (k0_chk211 v548) := fun v548 => decidable_of_iff' _ (Iff.of_eq (k0_chk211.eq_1 v548))
theorem k0_idx211_inb : ∀ (v548 : IVec S16 32) (k0_hw211 : k0_chk211 v548), ∀ a x, ((![v548] : Fin 1 → IVec S16 32) a x).toNat < S64000.size a := fun v548 k0_hw211 => k0_hw211

def k0_chk212 (v554 : IVec S16 32) : Prop :=
  (∀ a x, ((![v554] : Fin 1 → IVec S16 32) a x).toNat < S64000.size a)
instance k0_chk212.dec : ∀ (v554 : IVec S16 32), Decidable (k0_chk212 v554) := fun v554 => decidable_of_iff' _ (Iff.of_eq (k0_chk212.eq_1 v554))
theorem k0_idx212_inb : ∀ (v554 : IVec S16 32) (k0_hw212 : k0_chk212 v554), ∀ a x, ((![v554] : Fin 1 → IVec S16 32) a x).toNat < S64000.size a := fun v554 k0_hw212 => k0_hw212

def k0_chk213 (v560 : IVec S16 32) : Prop :=
  (∀ a x, ((![v560] : Fin 1 → IVec S16 32) a x).toNat < S64000.size a)
instance k0_chk213.dec : ∀ (v560 : IVec S16 32), Decidable (k0_chk213 v560) := fun v560 => decidable_of_iff' _ (Iff.of_eq (k0_chk213.eq_1 v560))
theorem k0_idx213_inb : ∀ (v560 : IVec S16 32) (k0_hw213 : k0_chk213 v560), ∀ a x, ((![v560] : Fin 1 → IVec S16 32) a x).toNat < S64000.size a := fun v560 k0_hw213 => k0_hw213

def k0_chk214 (v566 : IVec S16 32) : Prop :=
  (∀ a x, ((![v566] : Fin 1 → IVec S16 32) a x).toNat < S64000.size a)
instance k0_chk214.dec : ∀ (v566 : IVec S16 32), Decidable (k0_chk214 v566) := fun v566 => decidable_of_iff' _ (Iff.of_eq (k0_chk214.eq_1 v566))
theorem k0_idx214_inb : ∀ (v566 : IVec S16 32) (k0_hw214 : k0_chk214 v566), ∀ a x, ((![v566] : Fin 1 → IVec S16 32) a x).toNat < S64000.size a := fun v566 k0_hw214 => k0_hw214

def k0_chk215 (v572 : IVec S16 32) : Prop :=
  (∀ a x, ((![v572] : Fin 1 → IVec S16 32) a x).toNat < S64000.size a)
instance k0_chk215.dec : ∀ (v572 : IVec S16 32), Decidable (k0_chk215 v572) := fun v572 => decidable_of_iff' _ (Iff.of_eq (k0_chk215.eq_1 v572))
theorem k0_idx215_inb : ∀ (v572 : IVec S16 32) (k0_hw215 : k0_chk215 v572), ∀ a x, ((![v572] : Fin 1 → IVec S16 32) a x).toNat < S64000.size a := fun v572 k0_hw215 => k0_hw215

def k0_chk216 (v578 : IVec S16 32) : Prop :=
  (∀ a x, ((![v578] : Fin 1 → IVec S16 32) a x).toNat < S64000.size a)
instance k0_chk216.dec : ∀ (v578 : IVec S16 32), Decidable (k0_chk216 v578) := fun v578 => decidable_of_iff' _ (Iff.of_eq (k0_chk216.eq_1 v578))
theorem k0_idx216_inb : ∀ (v578 : IVec S16 32) (k0_hw216 : k0_chk216 v578), ∀ a x, ((![v578] : Fin 1 → IVec S16 32) a x).toNat < S64000.size a := fun v578 k0_hw216 => k0_hw216

def k0_chk217 (v584 : IVec S16 32) : Prop :=
  (∀ a x, ((![v584] : Fin 1 → IVec S16 32) a x).toNat < S64000.size a)
instance k0_chk217.dec : ∀ (v584 : IVec S16 32), Decidable (k0_chk217 v584) := fun v584 => decidable_of_iff' _ (Iff.of_eq (k0_chk217.eq_1 v584))
theorem k0_idx217_inb : ∀ (v584 : IVec S16 32) (k0_hw217 : k0_chk217 v584), ∀ a x, ((![v584] : Fin 1 → IVec S16 32) a x).toNat < S64000.size a := fun v584 k0_hw217 => k0_hw217

def k0_chk218 (v590 : IVec S16 32) : Prop :=
  (∀ a x, ((![v590] : Fin 1 → IVec S16 32) a x).toNat < S64000.size a)
instance k0_chk218.dec : ∀ (v590 : IVec S16 32), Decidable (k0_chk218 v590) := fun v590 => decidable_of_iff' _ (Iff.of_eq (k0_chk218.eq_1 v590))
theorem k0_idx218_inb : ∀ (v590 : IVec S16 32) (k0_hw218 : k0_chk218 v590), ∀ a x, ((![v590] : Fin 1 → IVec S16 32) a x).toNat < S64000.size a := fun v590 k0_hw218 => k0_hw218

def k0_chk219 (v596 : IVec S16 32) : Prop :=
  (∀ a x, ((![v596] : Fin 1 → IVec S16 32) a x).toNat < S64000.size a)
instance k0_chk219.dec : ∀ (v596 : IVec S16 32), Decidable (k0_chk219 v596) := fun v596 => decidable_of_iff' _ (Iff.of_eq (k0_chk219.eq_1 v596))
theorem k0_idx219_inb : ∀ (v596 : IVec S16 32) (k0_hw219 : k0_chk219 v596), ∀ a x, ((![v596] : Fin 1 → IVec S16 32) a x).toNat < S64000.size a := fun v596 k0_hw219 => k0_hw219

def k0_chk220 (v602 : IVec S16 32) : Prop :=
  (∀ a x, ((![v602] : Fin 1 → IVec S16 32) a x).toNat < S64000.size a)
instance k0_chk220.dec : ∀ (v602 : IVec S16 32), Decidable (k0_chk220 v602) := fun v602 => decidable_of_iff' _ (Iff.of_eq (k0_chk220.eq_1 v602))
theorem k0_idx220_inb : ∀ (v602 : IVec S16 32) (k0_hw220 : k0_chk220 v602), ∀ a x, ((![v602] : Fin 1 → IVec S16 32) a x).toNat < S64000.size a := fun v602 k0_hw220 => k0_hw220

def k0_chk221 (v608 : IVec S16 32) : Prop :=
  (∀ a x, ((![v608] : Fin 1 → IVec S16 32) a x).toNat < S64000.size a)
instance k0_chk221.dec : ∀ (v608 : IVec S16 32), Decidable (k0_chk221 v608) := fun v608 => decidable_of_iff' _ (Iff.of_eq (k0_chk221.eq_1 v608))
theorem k0_idx221_inb : ∀ (v608 : IVec S16 32) (k0_hw221 : k0_chk221 v608), ∀ a x, ((![v608] : Fin 1 → IVec S16 32) a x).toNat < S64000.size a := fun v608 k0_hw221 => k0_hw221

def k0_chk222 (v614 : IVec S16 32) : Prop :=
  (∀ a x, ((![v614] : Fin 1 → IVec S16 32) a x).toNat < S64000.size a)
instance k0_chk222.dec : ∀ (v614 : IVec S16 32), Decidable (k0_chk222 v614) := fun v614 => decidable_of_iff' _ (Iff.of_eq (k0_chk222.eq_1 v614))
theorem k0_idx222_inb : ∀ (v614 : IVec S16 32) (k0_hw222 : k0_chk222 v614), ∀ a x, ((![v614] : Fin 1 → IVec S16 32) a x).toNat < S64000.size a := fun v614 k0_hw222 => k0_hw222

def k0_chk223 (v620 : IVec S16 32) : Prop :=
  (∀ a x, ((![v620] : Fin 1 → IVec S16 32) a x).toNat < S64000.size a)
instance k0_chk223.dec : ∀ (v620 : IVec S16 32), Decidable (k0_chk223 v620) := fun v620 => decidable_of_iff' _ (Iff.of_eq (k0_chk223.eq_1 v620))
theorem k0_idx223_inb : ∀ (v620 : IVec S16 32) (k0_hw223 : k0_chk223 v620), ∀ a x, ((![v620] : Fin 1 → IVec S16 32) a x).toNat < S64000.size a := fun v620 k0_hw223 => k0_hw223

def k0_chk224 (v626 : IVec S16 32) : Prop :=
  (∀ a x, ((![v626] : Fin 1 → IVec S16 32) a x).toNat < S64000.size a)
instance k0_chk224.dec : ∀ (v626 : IVec S16 32), Decidable (k0_chk224 v626) := fun v626 => decidable_of_iff' _ (Iff.of_eq (k0_chk224.eq_1 v626))
theorem k0_idx224_inb : ∀ (v626 : IVec S16 32) (k0_hw224 : k0_chk224 v626), ∀ a x, ((![v626] : Fin 1 → IVec S16 32) a x).toNat < S64000.size a := fun v626 k0_hw224 => k0_hw224

def k0_chk225 (v632 : IVec S16 32) : Prop :=
  (∀ a x, ((![v632] : Fin 1 → IVec S16 32) a x).toNat < S64000.size a)
instance k0_chk225.dec : ∀ (v632 : IVec S16 32), Decidable (k0_chk225 v632) := fun v632 => decidable_of_iff' _ (Iff.of_eq (k0_chk225.eq_1 v632))
theorem k0_idx225_inb : ∀ (v632 : IVec S16 32) (k0_hw225 : k0_chk225 v632), ∀ a x, ((![v632] : Fin 1 → IVec S16 32) a x).toNat < S64000.size a := fun v632 k0_hw225 => k0_hw225

def k0_chk226 (v638 : IVec S16 32) : Prop :=
  (∀ a x, ((![v638] : Fin 1 → IVec S16 32) a x).toNat < S64000.size a)
instance k0_chk226.dec : ∀ (v638 : IVec S16 32), Decidable (k0_chk226 v638) := fun v638 => decidable_of_iff' _ (Iff.of_eq (k0_chk226.eq_1 v638))
theorem k0_idx226_inb : ∀ (v638 : IVec S16 32) (k0_hw226 : k0_chk226 v638), ∀ a x, ((![v638] : Fin 1 → IVec S16 32) a x).toNat < S64000.size a := fun v638 k0_hw226 => k0_hw226

def k0_chk227 (v644 : IVec S16 32) : Prop :=
  (∀ a x, ((![v644] : Fin 1 → IVec S16 32) a x).toNat < S64000.size a)
instance k0_chk227.dec : ∀ (v644 : IVec S16 32), Decidable (k0_chk227 v644) := fun v644 => decidable_of_iff' _ (Iff.of_eq (k0_chk227.eq_1 v644))
theorem k0_idx227_inb : ∀ (v644 : IVec S16 32) (k0_hw227 : k0_chk227 v644), ∀ a x, ((![v644] : Fin 1 → IVec S16 32) a x).toNat < S64000.size a := fun v644 k0_hw227 => k0_hw227

def k0_chk228 (v650 : IVec S16 32) : Prop :=
  (∀ a x, ((![v650] : Fin 1 → IVec S16 32) a x).toNat < S64000.size a)
instance k0_chk228.dec : ∀ (v650 : IVec S16 32), Decidable (k0_chk228 v650) := fun v650 => decidable_of_iff' _ (Iff.of_eq (k0_chk228.eq_1 v650))
theorem k0_idx228_inb : ∀ (v650 : IVec S16 32) (k0_hw228 : k0_chk228 v650), ∀ a x, ((![v650] : Fin 1 → IVec S16 32) a x).toNat < S64000.size a := fun v650 k0_hw228 => k0_hw228

def k0_chk229 (v656 : IVec S16 32) : Prop :=
  (∀ a x, ((![v656] : Fin 1 → IVec S16 32) a x).toNat < S64000.size a)
instance k0_chk229.dec : ∀ (v656 : IVec S16 32), Decidable (k0_chk229 v656) := fun v656 => decidable_of_iff' _ (Iff.of_eq (k0_chk229.eq_1 v656))
theorem k0_idx229_inb : ∀ (v656 : IVec S16 32) (k0_hw229 : k0_chk229 v656), ∀ a x, ((![v656] : Fin 1 → IVec S16 32) a x).toNat < S64000.size a := fun v656 k0_hw229 => k0_hw229

def k0_chk230 (v662 : IVec S16 32) : Prop :=
  (∀ a x, ((![v662] : Fin 1 → IVec S16 32) a x).toNat < S64000.size a)
instance k0_chk230.dec : ∀ (v662 : IVec S16 32), Decidable (k0_chk230 v662) := fun v662 => decidable_of_iff' _ (Iff.of_eq (k0_chk230.eq_1 v662))
theorem k0_idx230_inb : ∀ (v662 : IVec S16 32) (k0_hw230 : k0_chk230 v662), ∀ a x, ((![v662] : Fin 1 → IVec S16 32) a x).toNat < S64000.size a := fun v662 k0_hw230 => k0_hw230

def k0_chk231 (v668 : IVec S16 32) : Prop :=
  (∀ a x, ((![v668] : Fin 1 → IVec S16 32) a x).toNat < S64000.size a)
instance k0_chk231.dec : ∀ (v668 : IVec S16 32), Decidable (k0_chk231 v668) := fun v668 => decidable_of_iff' _ (Iff.of_eq (k0_chk231.eq_1 v668))
theorem k0_idx231_inb : ∀ (v668 : IVec S16 32) (k0_hw231 : k0_chk231 v668), ∀ a x, ((![v668] : Fin 1 → IVec S16 32) a x).toNat < S64000.size a := fun v668 k0_hw231 => k0_hw231

def k0_chk232 (v674 : IVec S16 32) : Prop :=
  (∀ a x, ((![v674] : Fin 1 → IVec S16 32) a x).toNat < S64000.size a)
instance k0_chk232.dec : ∀ (v674 : IVec S16 32), Decidable (k0_chk232 v674) := fun v674 => decidable_of_iff' _ (Iff.of_eq (k0_chk232.eq_1 v674))
theorem k0_idx232_inb : ∀ (v674 : IVec S16 32) (k0_hw232 : k0_chk232 v674), ∀ a x, ((![v674] : Fin 1 → IVec S16 32) a x).toNat < S64000.size a := fun v674 k0_hw232 => k0_hw232

def k0_chk233 (v680 : IVec S16 32) : Prop :=
  (∀ a x, ((![v680] : Fin 1 → IVec S16 32) a x).toNat < S64000.size a)
instance k0_chk233.dec : ∀ (v680 : IVec S16 32), Decidable (k0_chk233 v680) := fun v680 => decidable_of_iff' _ (Iff.of_eq (k0_chk233.eq_1 v680))
theorem k0_idx233_inb : ∀ (v680 : IVec S16 32) (k0_hw233 : k0_chk233 v680), ∀ a x, ((![v680] : Fin 1 → IVec S16 32) a x).toNat < S64000.size a := fun v680 k0_hw233 => k0_hw233

def k0_chk234 (v686 : IVec S16 32) : Prop :=
  (∀ a x, ((![v686] : Fin 1 → IVec S16 32) a x).toNat < S64000.size a)
instance k0_chk234.dec : ∀ (v686 : IVec S16 32), Decidable (k0_chk234 v686) := fun v686 => decidable_of_iff' _ (Iff.of_eq (k0_chk234.eq_1 v686))
theorem k0_idx234_inb : ∀ (v686 : IVec S16 32) (k0_hw234 : k0_chk234 v686), ∀ a x, ((![v686] : Fin 1 → IVec S16 32) a x).toNat < S64000.size a := fun v686 k0_hw234 => k0_hw234

def k0_chk235 (v692 : IVec S16 32) : Prop :=
  (∀ a x, ((![v692] : Fin 1 → IVec S16 32) a x).toNat < S64000.size a)
instance k0_chk235.dec : ∀ (v692 : IVec S16 32), Decidable (k0_chk235 v692) := fun v692 => decidable_of_iff' _ (Iff.of_eq (k0_chk235.eq_1 v692))
theorem k0_idx235_inb : ∀ (v692 : IVec S16 32) (k0_hw235 : k0_chk235 v692), ∀ a x, ((![v692] : Fin 1 → IVec S16 32) a x).toNat < S64000.size a := fun v692 k0_hw235 => k0_hw235

def k0_chk236 (v698 : IVec S16 32) : Prop :=
  (∀ a x, ((![v698] : Fin 1 → IVec S16 32) a x).toNat < S64000.size a)
instance k0_chk236.dec : ∀ (v698 : IVec S16 32), Decidable (k0_chk236 v698) := fun v698 => decidable_of_iff' _ (Iff.of_eq (k0_chk236.eq_1 v698))
theorem k0_idx236_inb : ∀ (v698 : IVec S16 32) (k0_hw236 : k0_chk236 v698), ∀ a x, ((![v698] : Fin 1 → IVec S16 32) a x).toNat < S64000.size a := fun v698 k0_hw236 => k0_hw236

def k0_chk237 (v704 : IVec S16 32) : Prop :=
  (∀ a x, ((![v704] : Fin 1 → IVec S16 32) a x).toNat < S64000.size a)
instance k0_chk237.dec : ∀ (v704 : IVec S16 32), Decidable (k0_chk237 v704) := fun v704 => decidable_of_iff' _ (Iff.of_eq (k0_chk237.eq_1 v704))
theorem k0_idx237_inb : ∀ (v704 : IVec S16 32) (k0_hw237 : k0_chk237 v704), ∀ a x, ((![v704] : Fin 1 → IVec S16 32) a x).toNat < S64000.size a := fun v704 k0_hw237 => k0_hw237

def k0_chk238 (v710 : IVec S16 32) : Prop :=
  (∀ a x, ((![v710] : Fin 1 → IVec S16 32) a x).toNat < S64000.size a)
instance k0_chk238.dec : ∀ (v710 : IVec S16 32), Decidable (k0_chk238 v710) := fun v710 => decidable_of_iff' _ (Iff.of_eq (k0_chk238.eq_1 v710))
theorem k0_idx238_inb : ∀ (v710 : IVec S16 32) (k0_hw238 : k0_chk238 v710), ∀ a x, ((![v710] : Fin 1 → IVec S16 32) a x).toNat < S64000.size a := fun v710 k0_hw238 => k0_hw238

def k0_chk239 (v716 : IVec S16 32) : Prop :=
  (∀ a x, ((![v716] : Fin 1 → IVec S16 32) a x).toNat < S64000.size a)
instance k0_chk239.dec : ∀ (v716 : IVec S16 32), Decidable (k0_chk239 v716) := fun v716 => decidable_of_iff' _ (Iff.of_eq (k0_chk239.eq_1 v716))
theorem k0_idx239_inb : ∀ (v716 : IVec S16 32) (k0_hw239 : k0_chk239 v716), ∀ a x, ((![v716] : Fin 1 → IVec S16 32) a x).toNat < S64000.size a := fun v716 k0_hw239 => k0_hw239

def k0_chk240 (v722 : IVec S16 32) : Prop :=
  (∀ a x, ((![v722] : Fin 1 → IVec S16 32) a x).toNat < S64000.size a)
instance k0_chk240.dec : ∀ (v722 : IVec S16 32), Decidable (k0_chk240 v722) := fun v722 => decidable_of_iff' _ (Iff.of_eq (k0_chk240.eq_1 v722))
theorem k0_idx240_inb : ∀ (v722 : IVec S16 32) (k0_hw240 : k0_chk240 v722), ∀ a x, ((![v722] : Fin 1 → IVec S16 32) a x).toNat < S64000.size a := fun v722 k0_hw240 => k0_hw240

def k0_chk241 (v728 : IVec S16 32) : Prop :=
  (∀ a x, ((![v728] : Fin 1 → IVec S16 32) a x).toNat < S64000.size a)
instance k0_chk241.dec : ∀ (v728 : IVec S16 32), Decidable (k0_chk241 v728) := fun v728 => decidable_of_iff' _ (Iff.of_eq (k0_chk241.eq_1 v728))
theorem k0_idx241_inb : ∀ (v728 : IVec S16 32) (k0_hw241 : k0_chk241 v728), ∀ a x, ((![v728] : Fin 1 → IVec S16 32) a x).toNat < S64000.size a := fun v728 k0_hw241 => k0_hw241

def k0_chk242 (v734 : IVec S16 32) : Prop :=
  (∀ a x, ((![v734] : Fin 1 → IVec S16 32) a x).toNat < S64000.size a)
instance k0_chk242.dec : ∀ (v734 : IVec S16 32), Decidable (k0_chk242 v734) := fun v734 => decidable_of_iff' _ (Iff.of_eq (k0_chk242.eq_1 v734))
theorem k0_idx242_inb : ∀ (v734 : IVec S16 32) (k0_hw242 : k0_chk242 v734), ∀ a x, ((![v734] : Fin 1 → IVec S16 32) a x).toNat < S64000.size a := fun v734 k0_hw242 => k0_hw242

def k0_chk243 (v740 : IVec S16 32) : Prop :=
  (∀ a x, ((![v740] : Fin 1 → IVec S16 32) a x).toNat < S64000.size a)
instance k0_chk243.dec : ∀ (v740 : IVec S16 32), Decidable (k0_chk243 v740) := fun v740 => decidable_of_iff' _ (Iff.of_eq (k0_chk243.eq_1 v740))
theorem k0_idx243_inb : ∀ (v740 : IVec S16 32) (k0_hw243 : k0_chk243 v740), ∀ a x, ((![v740] : Fin 1 → IVec S16 32) a x).toNat < S64000.size a := fun v740 k0_hw243 => k0_hw243

def k0_chk244 (v746 : IVec S16 32) : Prop :=
  (∀ a x, ((![v746] : Fin 1 → IVec S16 32) a x).toNat < S64000.size a)
instance k0_chk244.dec : ∀ (v746 : IVec S16 32), Decidable (k0_chk244 v746) := fun v746 => decidable_of_iff' _ (Iff.of_eq (k0_chk244.eq_1 v746))
theorem k0_idx244_inb : ∀ (v746 : IVec S16 32) (k0_hw244 : k0_chk244 v746), ∀ a x, ((![v746] : Fin 1 → IVec S16 32) a x).toNat < S64000.size a := fun v746 k0_hw244 => k0_hw244

def k0_chk245 (v752 : IVec S16 32) : Prop :=
  (∀ a x, ((![v752] : Fin 1 → IVec S16 32) a x).toNat < S64000.size a)
instance k0_chk245.dec : ∀ (v752 : IVec S16 32), Decidable (k0_chk245 v752) := fun v752 => decidable_of_iff' _ (Iff.of_eq (k0_chk245.eq_1 v752))
theorem k0_idx245_inb : ∀ (v752 : IVec S16 32) (k0_hw245 : k0_chk245 v752), ∀ a x, ((![v752] : Fin 1 → IVec S16 32) a x).toNat < S64000.size a := fun v752 k0_hw245 => k0_hw245

def k0_chk246 (v758 : IVec S16 32) : Prop :=
  (∀ a x, ((![v758] : Fin 1 → IVec S16 32) a x).toNat < S64000.size a)
instance k0_chk246.dec : ∀ (v758 : IVec S16 32), Decidable (k0_chk246 v758) := fun v758 => decidable_of_iff' _ (Iff.of_eq (k0_chk246.eq_1 v758))
theorem k0_idx246_inb : ∀ (v758 : IVec S16 32) (k0_hw246 : k0_chk246 v758), ∀ a x, ((![v758] : Fin 1 → IVec S16 32) a x).toNat < S64000.size a := fun v758 k0_hw246 => k0_hw246

def k0_chk247 (v764 : IVec S16 32) : Prop :=
  (∀ a x, ((![v764] : Fin 1 → IVec S16 32) a x).toNat < S64000.size a)
instance k0_chk247.dec : ∀ (v764 : IVec S16 32), Decidable (k0_chk247 v764) := fun v764 => decidable_of_iff' _ (Iff.of_eq (k0_chk247.eq_1 v764))
theorem k0_idx247_inb : ∀ (v764 : IVec S16 32) (k0_hw247 : k0_chk247 v764), ∀ a x, ((![v764] : Fin 1 → IVec S16 32) a x).toNat < S64000.size a := fun v764 k0_hw247 => k0_hw247

def k0_chk248 (v770 : IVec S16 32) : Prop :=
  (∀ a x, ((![v770] : Fin 1 → IVec S16 32) a x).toNat < S64000.size a)
instance k0_chk248.dec : ∀ (v770 : IVec S16 32), Decidable (k0_chk248 v770) := fun v770 => decidable_of_iff' _ (Iff.of_eq (k0_chk248.eq_1 v770))
theorem k0_idx248_inb : ∀ (v770 : IVec S16 32) (k0_hw248 : k0_chk248 v770), ∀ a x, ((![v770] : Fin 1 → IVec S16 32) a x).toNat < S64000.size a := fun v770 k0_hw248 => k0_hw248

def k0_chk249 (v776 : IVec S16 32) : Prop :=
  (∀ a x, ((![v776] : Fin 1 → IVec S16 32) a x).toNat < S64000.size a)
instance k0_chk249.dec : ∀ (v776 : IVec S16 32), Decidable (k0_chk249 v776) := fun v776 => decidable_of_iff' _ (Iff.of_eq (k0_chk249.eq_1 v776))
theorem k0_idx249_inb : ∀ (v776 : IVec S16 32) (k0_hw249 : k0_chk249 v776), ∀ a x, ((![v776] : Fin 1 → IVec S16 32) a x).toNat < S64000.size a := fun v776 k0_hw249 => k0_hw249

def k0_chk250 (v782 : IVec S16 32) : Prop :=
  (∀ a x, ((![v782] : Fin 1 → IVec S16 32) a x).toNat < S64000.size a)
instance k0_chk250.dec : ∀ (v782 : IVec S16 32), Decidable (k0_chk250 v782) := fun v782 => decidable_of_iff' _ (Iff.of_eq (k0_chk250.eq_1 v782))
theorem k0_idx250_inb : ∀ (v782 : IVec S16 32) (k0_hw250 : k0_chk250 v782), ∀ a x, ((![v782] : Fin 1 → IVec S16 32) a x).toNat < S64000.size a := fun v782 k0_hw250 => k0_hw250

def k0_chk251 (v788 : IVec S16 32) : Prop :=
  (∀ a x, ((![v788] : Fin 1 → IVec S16 32) a x).toNat < S64000.size a)
instance k0_chk251.dec : ∀ (v788 : IVec S16 32), Decidable (k0_chk251 v788) := fun v788 => decidable_of_iff' _ (Iff.of_eq (k0_chk251.eq_1 v788))
theorem k0_idx251_inb : ∀ (v788 : IVec S16 32) (k0_hw251 : k0_chk251 v788), ∀ a x, ((![v788] : Fin 1 → IVec S16 32) a x).toNat < S64000.size a := fun v788 k0_hw251 => k0_hw251

def k0_chk252 (v794 : IVec S16 32) : Prop :=
  (∀ a x, ((![v794] : Fin 1 → IVec S16 32) a x).toNat < S64000.size a)
instance k0_chk252.dec : ∀ (v794 : IVec S16 32), Decidable (k0_chk252 v794) := fun v794 => decidable_of_iff' _ (Iff.of_eq (k0_chk252.eq_1 v794))
theorem k0_idx252_inb : ∀ (v794 : IVec S16 32) (k0_hw252 : k0_chk252 v794), ∀ a x, ((![v794] : Fin 1 → IVec S16 32) a x).toNat < S64000.size a := fun v794 k0_hw252 => k0_hw252

def k0_chk253 (v800 : IVec S16 32) : Prop :=
  (∀ a x, ((![v800] : Fin 1 → IVec S16 32) a x).toNat < S64000.size a)
instance k0_chk253.dec : ∀ (v800 : IVec S16 32), Decidable (k0_chk253 v800) := fun v800 => decidable_of_iff' _ (Iff.of_eq (k0_chk253.eq_1 v800))
theorem k0_idx253_inb : ∀ (v800 : IVec S16 32) (k0_hw253 : k0_chk253 v800), ∀ a x, ((![v800] : Fin 1 → IVec S16 32) a x).toNat < S64000.size a := fun v800 k0_hw253 => k0_hw253

def k0_chk254 (v806 : IVec S16 32) : Prop :=
  (∀ a x, ((![v806] : Fin 1 → IVec S16 32) a x).toNat < S64000.size a)
instance k0_chk254.dec : ∀ (v806 : IVec S16 32), Decidable (k0_chk254 v806) := fun v806 => decidable_of_iff' _ (Iff.of_eq (k0_chk254.eq_1 v806))
theorem k0_idx254_inb : ∀ (v806 : IVec S16 32) (k0_hw254 : k0_chk254 v806), ∀ a x, ((![v806] : Fin 1 → IVec S16 32) a x).toNat < S64000.size a := fun v806 k0_hw254 => k0_hw254

def k0_chk255 (v812 : IVec S16 32) : Prop :=
  (∀ a x, ((![v812] : Fin 1 → IVec S16 32) a x).toNat < S64000.size a)
instance k0_chk255.dec : ∀ (v812 : IVec S16 32), Decidable (k0_chk255 v812) := fun v812 => decidable_of_iff' _ (Iff.of_eq (k0_chk255.eq_1 v812))
theorem k0_idx255_inb : ∀ (v812 : IVec S16 32) (k0_hw255 : k0_chk255 v812), ∀ a x, ((![v812] : Fin 1 → IVec S16 32) a x).toNat < S64000.size a := fun v812 k0_hw255 => k0_hw255

def k0_chk256 (v818 : IVec S16 32) : Prop :=
  (∀ a x, ((![v818] : Fin 1 → IVec S16 32) a x).toNat < S64000.size a)
instance k0_chk256.dec : ∀ (v818 : IVec S16 32), Decidable (k0_chk256 v818) := fun v818 => decidable_of_iff' _ (Iff.of_eq (k0_chk256.eq_1 v818))
theorem k0_idx256_inb : ∀ (v818 : IVec S16 32) (k0_hw256 : k0_chk256 v818), ∀ a x, ((![v818] : Fin 1 → IVec S16 32) a x).toNat < S64000.size a := fun v818 k0_hw256 => k0_hw256
def k0_off136 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c64_i32_11 : BitVec 32 := 64#32
  let v30 : BitVec 32 := Scalar.muli v28 c64_i32_11
  let c0_i32_13 : BitVec 32 := 0#32
  let c1_i32_14 : BitVec 32 := 1#32
  let arg10 : BitVec 32 := Scf.iv c0_i32_13 c1_i32_14 k0_t1
  let c2_i32_186 : BitVec 32 := 2#32
  let v453 : BitVec 32 := Scalar.muli arg10 c2_i32_186
  let c1_i32_187 : BitVec 32 := 1#32
  let v454 : BitVec 32 := Scalar.addi v453 c1_i32_187
  let v847 : BitVec 32 := Scalar.addi v30 v454
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c64_i32 : BitVec 32 := 64#32
  let v29 : BitVec 32 := Scalar.muli v11 c64_i32
  let c0_i32_456 : BitVec 32 := 0#32
  ![v847.toNat, v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000x128_S128x1000_1_0 : S1000x128.Transposes [1, 0] S128x1000
  shapeCasts_S128x1000_S128000 : S128x1000.ShapeCasts S128000
  shapeCasts_S1024x200_S204800 : S1024x200.ShapeCasts S204800
  inb_S2x64x200_S1x64x200_0_0_0 : ∀ a, (![0, 0, 0] : Fin 3 → Nat) a + S1x64x200.size a ≤ S2x64x200.size a
  squeezes_S1x64x200_S64x200 : S1x64x200.Squeezes S64x200
  inb_S1024x128x200_S1x64x200_0_0_0 : ∀ a, (![0, 0, 0] : Fin 3 → Nat) a + S1x64x200.size a ≤ S1024x128x200.size a
  h_S16 : 0 < S16.numel
  h_S64000 : 0 < S64000.numel
  h_S1x1x16 : 0 < S1x1x16.numel
  shapeCasts_S1x1x16_S16 : S1x1x16.ShapeCasts S16
  shapeCasts_S16_S1x1x16 : S16.ShapeCasts S1x1x16
  inb_S2x64x200_S1x1x16_0_0_184 : ∀ a, (![0, 0, 184] : Fin 3 → Nat) a + S1x1x16.size a ≤ S2x64x200.size a
  inb_S2x64x200_S1x1x16_0_1_184 : ∀ a, (![0, 1, 184] : Fin 3 → Nat) a + S1x1x16.size a ≤ S2x64x200.size a
  inb_S2x64x200_S1x1x16_0_2_184 : ∀ a, (![0, 2, 184] : Fin 3 → Nat) a + S1x1x16.size a ≤ S2x64x200.size a
  inb_S2x64x200_S1x1x16_0_3_184 : ∀ a, (![0, 3, 184] : Fin 3 → Nat) a + S1x1x16.size a ≤ S2x64x200.size a
  inb_S2x64x200_S1x1x16_0_4_184 : ∀ a, (![0, 4, 184] : Fin 3 → Nat) a + S1x1x16.size a ≤ S2x64x200.size a
  inb_S2x64x200_S1x1x16_0_5_184 : ∀ a, (![0, 5, 184] : Fin 3 → Nat) a + S1x1x16.size a ≤ S2x64x200.size a
  inb_S2x64x200_S1x1x16_0_6_184 : ∀ a, (![0, 6, 184] : Fin 3 → Nat) a + S1x1x16.size a ≤ S2x64x200.size a
  inb_S2x64x200_S1x1x16_0_7_184 : ∀ a, (![0, 7, 184] : Fin 3 → Nat) a + S1x1x16.size a ≤ S2x64x200.size a
  inb_S2x64x200_S1x1x16_0_8_184 : ∀ a, (![0, 8, 184] : Fin 3 → Nat) a + S1x1x16.size a ≤ S2x64x200.size a
  inb_S2x64x200_S1x1x16_0_9_184 : ∀ a, (![0, 9, 184] : Fin 3 → Nat) a + S1x1x16.size a ≤ S2x64x200.size a
  inb_S2x64x200_S1x1x16_0_10_184 : ∀ a, (![0, 10, 184] : Fin 3 → Nat) a + S1x1x16.size a ≤ S2x64x200.size a
  inb_S2x64x200_S1x1x16_0_11_184 : ∀ a, (![0, 11, 184] : Fin 3 → Nat) a + S1x1x16.size a ≤ S2x64x200.size a
  inb_S2x64x200_S1x1x16_0_12_184 : ∀ a, (![0, 12, 184] : Fin 3 → Nat) a + S1x1x16.size a ≤ S2x64x200.size a
  inb_S2x64x200_S1x1x16_0_13_184 : ∀ a, (![0, 13, 184] : Fin 3 → Nat) a + S1x1x16.size a ≤ S2x64x200.size a
  inb_S2x64x200_S1x1x16_0_14_184 : ∀ a, (![0, 14, 184] : Fin 3 → Nat) a + S1x1x16.size a ≤ S2x64x200.size a
  inb_S2x64x200_S1x1x16_0_15_184 : ∀ a, (![0, 15, 184] : Fin 3 → Nat) a + S1x1x16.size a ≤ S2x64x200.size a
  inb_S2x64x200_S1x1x16_0_16_184 : ∀ a, (![0, 16, 184] : Fin 3 → Nat) a + S1x1x16.size a ≤ S2x64x200.size a
  inb_S2x64x200_S1x1x16_0_17_184 : ∀ a, (![0, 17, 184] : Fin 3 → Nat) a + S1x1x16.size a ≤ S2x64x200.size a
  inb_S2x64x200_S1x1x16_0_18_184 : ∀ a, (![0, 18, 184] : Fin 3 → Nat) a + S1x1x16.size a ≤ S2x64x200.size a
  inb_S2x64x200_S1x1x16_0_19_184 : ∀ a, (![0, 19, 184] : Fin 3 → Nat) a + S1x1x16.size a ≤ S2x64x200.size a
  inb_S2x64x200_S1x1x16_0_20_184 : ∀ a, (![0, 20, 184] : Fin 3 → Nat) a + S1x1x16.size a ≤ S2x64x200.size a
  inb_S2x64x200_S1x1x16_0_21_184 : ∀ a, (![0, 21, 184] : Fin 3 → Nat) a + S1x1x16.size a ≤ S2x64x200.size a
  inb_S2x64x200_S1x1x16_0_22_184 : ∀ a, (![0, 22, 184] : Fin 3 → Nat) a + S1x1x16.size a ≤ S2x64x200.size a
  inb_S2x64x200_S1x1x16_0_23_184 : ∀ a, (![0, 23, 184] : Fin 3 → Nat) a + S1x1x16.size a ≤ S2x64x200.size a
  inb_S2x64x200_S1x1x16_0_24_184 : ∀ a, (![0, 24, 184] : Fin 3 → Nat) a + S1x1x16.size a ≤ S2x64x200.size a
  inb_S2x64x200_S1x1x16_0_25_184 : ∀ a, (![0, 25, 184] : Fin 3 → Nat) a + S1x1x16.size a ≤ S2x64x200.size a
  inb_S2x64x200_S1x1x16_0_26_184 : ∀ a, (![0, 26, 184] : Fin 3 → Nat) a + S1x1x16.size a ≤ S2x64x200.size a
  inb_S2x64x200_S1x1x16_0_27_184 : ∀ a, (![0, 27, 184] : Fin 3 → Nat) a + S1x1x16.size a ≤ S2x64x200.size a
  inb_S2x64x200_S1x1x16_0_28_184 : ∀ a, (![0, 28, 184] : Fin 3 → Nat) a + S1x1x16.size a ≤ S2x64x200.size a
  inb_S2x64x200_S1x1x16_0_29_184 : ∀ a, (![0, 29, 184] : Fin 3 → Nat) a + S1x1x16.size a ≤ S2x64x200.size a
  inb_S2x64x200_S1x1x16_0_30_184 : ∀ a, (![0, 30, 184] : Fin 3 → Nat) a + S1x1x16.size a ≤ S2x64x200.size a
  inb_S2x64x200_S1x1x16_0_31_184 : ∀ a, (![0, 31, 184] : Fin 3 → Nat) a + S1x1x16.size a ≤ S2x64x200.size a
  inb_S2x64x200_S1x1x16_0_32_184 : ∀ a, (![0, 32, 184] : Fin 3 → Nat) a + S1x1x16.size a ≤ S2x64x200.size a
  inb_S2x64x200_S1x1x16_0_33_184 : ∀ a, (![0, 33, 184] : Fin 3 → Nat) a + S1x1x16.size a ≤ S2x64x200.size a
  inb_S2x64x200_S1x1x16_0_34_184 : ∀ a, (![0, 34, 184] : Fin 3 → Nat) a + S1x1x16.size a ≤ S2x64x200.size a
  inb_S2x64x200_S1x1x16_0_35_184 : ∀ a, (![0, 35, 184] : Fin 3 → Nat) a + S1x1x16.size a ≤ S2x64x200.size a
  inb_S2x64x200_S1x1x16_0_36_184 : ∀ a, (![0, 36, 184] : Fin 3 → Nat) a + S1x1x16.size a ≤ S2x64x200.size a
  inb_S2x64x200_S1x1x16_0_37_184 : ∀ a, (![0, 37, 184] : Fin 3 → Nat) a + S1x1x16.size a ≤ S2x64x200.size a
  inb_S2x64x200_S1x1x16_0_38_184 : ∀ a, (![0, 38, 184] : Fin 3 → Nat) a + S1x1x16.size a ≤ S2x64x200.size a
  inb_S2x64x200_S1x1x16_0_39_184 : ∀ a, (![0, 39, 184] : Fin 3 → Nat) a + S1x1x16.size a ≤ S2x64x200.size a
  inb_S2x64x200_S1x1x16_0_40_184 : ∀ a, (![0, 40, 184] : Fin 3 → Nat) a + S1x1x16.size a ≤ S2x64x200.size a
  inb_S2x64x200_S1x1x16_0_41_184 : ∀ a, (![0, 41, 184] : Fin 3 → Nat) a + S1x1x16.size a ≤ S2x64x200.size a
  inb_S2x64x200_S1x1x16_0_42_184 : ∀ a, (![0, 42, 184] : Fin 3 → Nat) a + S1x1x16.size a ≤ S2x64x200.size a
  inb_S2x64x200_S1x1x16_0_43_184 : ∀ a, (![0, 43, 184] : Fin 3 → Nat) a + S1x1x16.size a ≤ S2x64x200.size a
  inb_S2x64x200_S1x1x16_0_44_184 : ∀ a, (![0, 44, 184] : Fin 3 → Nat) a + S1x1x16.size a ≤ S2x64x200.size a
  inb_S2x64x200_S1x1x16_0_45_184 : ∀ a, (![0, 45, 184] : Fin 3 → Nat) a + S1x1x16.size a ≤ S2x64x200.size a
  inb_S2x64x200_S1x1x16_0_46_184 : ∀ a, (![0, 46, 184] : Fin 3 → Nat) a + S1x1x16.size a ≤ S2x64x200.size a
  inb_S2x64x200_S1x1x16_0_47_184 : ∀ a, (![0, 47, 184] : Fin 3 → Nat) a + S1x1x16.size a ≤ S2x64x200.size a
  inb_S2x64x200_S1x1x16_0_48_184 : ∀ a, (![0, 48, 184] : Fin 3 → Nat) a + S1x1x16.size a ≤ S2x64x200.size a
  inb_S2x64x200_S1x1x16_0_49_184 : ∀ a, (![0, 49, 184] : Fin 3 → Nat) a + S1x1x16.size a ≤ S2x64x200.size a
  inb_S2x64x200_S1x1x16_0_50_184 : ∀ a, (![0, 50, 184] : Fin 3 → Nat) a + S1x1x16.size a ≤ S2x64x200.size a
  inb_S2x64x200_S1x1x16_0_51_184 : ∀ a, (![0, 51, 184] : Fin 3 → Nat) a + S1x1x16.size a ≤ S2x64x200.size a
  inb_S2x64x200_S1x1x16_0_52_184 : ∀ a, (![0, 52, 184] : Fin 3 → Nat) a + S1x1x16.size a ≤ S2x64x200.size a
  inb_S2x64x200_S1x1x16_0_53_184 : ∀ a, (![0, 53, 184] : Fin 3 → Nat) a + S1x1x16.size a ≤ S2x64x200.size a
  inb_S2x64x200_S1x1x16_0_54_184 : ∀ a, (![0, 54, 184] : Fin 3 → Nat) a + S1x1x16.size a ≤ S2x64x200.size a
  inb_S2x64x200_S1x1x16_0_55_184 : ∀ a, (![0, 55, 184] : Fin 3 → Nat) a + S1x1x16.size a ≤ S2x64x200.size a
  inb_S2x64x200_S1x1x16_0_56_184 : ∀ a, (![0, 56, 184] : Fin 3 → Nat) a + S1x1x16.size a ≤ S2x64x200.size a
  inb_S2x64x200_S1x1x16_0_57_184 : ∀ a, (![0, 57, 184] : Fin 3 → Nat) a + S1x1x16.size a ≤ S2x64x200.size a
  inb_S2x64x200_S1x1x16_0_58_184 : ∀ a, (![0, 58, 184] : Fin 3 → Nat) a + S1x1x16.size a ≤ S2x64x200.size a
  inb_S2x64x200_S1x1x16_0_59_184 : ∀ a, (![0, 59, 184] : Fin 3 → Nat) a + S1x1x16.size a ≤ S2x64x200.size a
  inb_S2x64x200_S1x1x16_0_60_184 : ∀ a, (![0, 60, 184] : Fin 3 → Nat) a + S1x1x16.size a ≤ S2x64x200.size a
  inb_S2x64x200_S1x1x16_0_61_184 : ∀ a, (![0, 61, 184] : Fin 3 → Nat) a + S1x1x16.size a ≤ S2x64x200.size a
  inb_S2x64x200_S1x1x16_0_62_184 : ∀ a, (![0, 62, 184] : Fin 3 → Nat) a + S1x1x16.size a ≤ S2x64x200.size a
  inb_S2x64x200_S1x1x16_0_63_184 : ∀ a, (![0, 63, 184] : Fin 3 → Nat) a + S1x1x16.size a ≤ S2x64x200.size a
  inb_S2x64x200_S1x64x200_1_0_0 : ∀ a, (![1, 0, 0] : Fin 3 → Nat) a + S1x64x200.size a ≤ S2x64x200.size a
  inb_S2x64x200_S1x1x16_1_0_184 : ∀ a, (![1, 0, 184] : Fin 3 → Nat) a + S1x1x16.size a ≤ S2x64x200.size a
  inb_S2x64x200_S1x1x16_1_1_184 : ∀ a, (![1, 1, 184] : Fin 3 → Nat) a + S1x1x16.size a ≤ S2x64x200.size a
  inb_S2x64x200_S1x1x16_1_2_184 : ∀ a, (![1, 2, 184] : Fin 3 → Nat) a + S1x1x16.size a ≤ S2x64x200.size a
  inb_S2x64x200_S1x1x16_1_3_184 : ∀ a, (![1, 3, 184] : Fin 3 → Nat) a + S1x1x16.size a ≤ S2x64x200.size a
  inb_S2x64x200_S1x1x16_1_4_184 : ∀ a, (![1, 4, 184] : Fin 3 → Nat) a + S1x1x16.size a ≤ S2x64x200.size a
  inb_S2x64x200_S1x1x16_1_5_184 : ∀ a, (![1, 5, 184] : Fin 3 → Nat) a + S1x1x16.size a ≤ S2x64x200.size a
  inb_S2x64x200_S1x1x16_1_6_184 : ∀ a, (![1, 6, 184] : Fin 3 → Nat) a + S1x1x16.size a ≤ S2x64x200.size a
  inb_S2x64x200_S1x1x16_1_7_184 : ∀ a, (![1, 7, 184] : Fin 3 → Nat) a + S1x1x16.size a ≤ S2x64x200.size a
  inb_S2x64x200_S1x1x16_1_8_184 : ∀ a, (![1, 8, 184] : Fin 3 → Nat) a + S1x1x16.size a ≤ S2x64x200.size a
  inb_S2x64x200_S1x1x16_1_9_184 : ∀ a, (![1, 9, 184] : Fin 3 → Nat) a + S1x1x16.size a ≤ S2x64x200.size a
  inb_S2x64x200_S1x1x16_1_10_184 : ∀ a, (![1, 10, 184] : Fin 3 → Nat) a + S1x1x16.size a ≤ S2x64x200.size a
  inb_S2x64x200_S1x1x16_1_11_184 : ∀ a, (![1, 11, 184] : Fin 3 → Nat) a + S1x1x16.size a ≤ S2x64x200.size a
  inb_S2x64x200_S1x1x16_1_12_184 : ∀ a, (![1, 12, 184] : Fin 3 → Nat) a + S1x1x16.size a ≤ S2x64x200.size a
  inb_S2x64x200_S1x1x16_1_13_184 : ∀ a, (![1, 13, 184] : Fin 3 → Nat) a + S1x1x16.size a ≤ S2x64x200.size a
  inb_S2x64x200_S1x1x16_1_14_184 : ∀ a, (![1, 14, 184] : Fin 3 → Nat) a + S1x1x16.size a ≤ S2x64x200.size a
  inb_S2x64x200_S1x1x16_1_15_184 : ∀ a, (![1, 15, 184] : Fin 3 → Nat) a + S1x1x16.size a ≤ S2x64x200.size a
  inb_S2x64x200_S1x1x16_1_16_184 : ∀ a, (![1, 16, 184] : Fin 3 → Nat) a + S1x1x16.size a ≤ S2x64x200.size a
  inb_S2x64x200_S1x1x16_1_17_184 : ∀ a, (![1, 17, 184] : Fin 3 → Nat) a + S1x1x16.size a ≤ S2x64x200.size a
  inb_S2x64x200_S1x1x16_1_18_184 : ∀ a, (![1, 18, 184] : Fin 3 → Nat) a + S1x1x16.size a ≤ S2x64x200.size a
  inb_S2x64x200_S1x1x16_1_19_184 : ∀ a, (![1, 19, 184] : Fin 3 → Nat) a + S1x1x16.size a ≤ S2x64x200.size a
  inb_S2x64x200_S1x1x16_1_20_184 : ∀ a, (![1, 20, 184] : Fin 3 → Nat) a + S1x1x16.size a ≤ S2x64x200.size a
  inb_S2x64x200_S1x1x16_1_21_184 : ∀ a, (![1, 21, 184] : Fin 3 → Nat) a + S1x1x16.size a ≤ S2x64x200.size a
  inb_S2x64x200_S1x1x16_1_22_184 : ∀ a, (![1, 22, 184] : Fin 3 → Nat) a + S1x1x16.size a ≤ S2x64x200.size a
  inb_S2x64x200_S1x1x16_1_23_184 : ∀ a, (![1, 23, 184] : Fin 3 → Nat) a + S1x1x16.size a ≤ S2x64x200.size a
  inb_S2x64x200_S1x1x16_1_24_184 : ∀ a, (![1, 24, 184] : Fin 3 → Nat) a + S1x1x16.size a ≤ S2x64x200.size a
  inb_S2x64x200_S1x1x16_1_25_184 : ∀ a, (![1, 25, 184] : Fin 3 → Nat) a + S1x1x16.size a ≤ S2x64x200.size a
  inb_S2x64x200_S1x1x16_1_26_184 : ∀ a, (![1, 26, 184] : Fin 3 → Nat) a + S1x1x16.size a ≤ S2x64x200.size a
  inb_S2x64x200_S1x1x16_1_27_184 : ∀ a, (![1, 27, 184] : Fin 3 → Nat) a + S1x1x16.size a ≤ S2x64x200.size a
  inb_S2x64x200_S1x1x16_1_28_184 : ∀ a, (![1, 28, 184] : Fin 3 → Nat) a + S1x1x16.size a ≤ S2x64x200.size a
  inb_S2x64x200_S1x1x16_1_29_184 : ∀ a, (![1, 29, 184] : Fin 3 → Nat) a + S1x1x16.size a ≤ S2x64x200.size a
  inb_S2x64x200_S1x1x16_1_30_184 : ∀ a, (![1, 30, 184] : Fin 3 → Nat) a + S1x1x16.size a ≤ S2x64x200.size a
  inb_S2x64x200_S1x1x16_1_31_184 : ∀ a, (![1, 31, 184] : Fin 3 → Nat) a + S1x1x16.size a ≤ S2x64x200.size a
  inb_S2x64x200_S1x1x16_1_32_184 : ∀ a, (![1, 32, 184] : Fin 3 → Nat) a + S1x1x16.size a ≤ S2x64x200.size a
  inb_S2x64x200_S1x1x16_1_33_184 : ∀ a, (![1, 33, 184] : Fin 3 → Nat) a + S1x1x16.size a ≤ S2x64x200.size a
  inb_S2x64x200_S1x1x16_1_34_184 : ∀ a, (![1, 34, 184] : Fin 3 → Nat) a + S1x1x16.size a ≤ S2x64x200.size a
  inb_S2x64x200_S1x1x16_1_35_184 : ∀ a, (![1, 35, 184] : Fin 3 → Nat) a + S1x1x16.size a ≤ S2x64x200.size a
  inb_S2x64x200_S1x1x16_1_36_184 : ∀ a, (![1, 36, 184] : Fin 3 → Nat) a + S1x1x16.size a ≤ S2x64x200.size a
  inb_S2x64x200_S1x1x16_1_37_184 : ∀ a, (![1, 37, 184] : Fin 3 → Nat) a + S1x1x16.size a ≤ S2x64x200.size a
  inb_S2x64x200_S1x1x16_1_38_184 : ∀ a, (![1, 38, 184] : Fin 3 → Nat) a + S1x1x16.size a ≤ S2x64x200.size a
  inb_S2x64x200_S1x1x16_1_39_184 : ∀ a, (![1, 39, 184] : Fin 3 → Nat) a + S1x1x16.size a ≤ S2x64x200.size a
  inb_S2x64x200_S1x1x16_1_40_184 : ∀ a, (![1, 40, 184] : Fin 3 → Nat) a + S1x1x16.size a ≤ S2x64x200.size a
  inb_S2x64x200_S1x1x16_1_41_184 : ∀ a, (![1, 41, 184] : Fin 3 → Nat) a + S1x1x16.size a ≤ S2x64x200.size a
  inb_S2x64x200_S1x1x16_1_42_184 : ∀ a, (![1, 42, 184] : Fin 3 → Nat) a + S1x1x16.size a ≤ S2x64x200.size a
  inb_S2x64x200_S1x1x16_1_43_184 : ∀ a, (![1, 43, 184] : Fin 3 → Nat) a + S1x1x16.size a ≤ S2x64x200.size a
  inb_S2x64x200_S1x1x16_1_44_184 : ∀ a, (![1, 44, 184] : Fin 3 → Nat) a + S1x1x16.size a ≤ S2x64x200.size a
  inb_S2x64x200_S1x1x16_1_45_184 : ∀ a, (![1, 45, 184] : Fin 3 → Nat) a + S1x1x16.size a ≤ S2x64x200.size a
  inb_S2x64x200_S1x1x16_1_46_184 : ∀ a, (![1, 46, 184] : Fin 3 → Nat) a + S1x1x16.size a ≤ S2x64x200.size a
  inb_S2x64x200_S1x1x16_1_47_184 : ∀ a, (![1, 47, 184] : Fin 3 → Nat) a + S1x1x16.size a ≤ S2x64x200.size a
  inb_S2x64x200_S1x1x16_1_48_184 : ∀ a, (![1, 48, 184] : Fin 3 → Nat) a + S1x1x16.size a ≤ S2x64x200.size a
  inb_S2x64x200_S1x1x16_1_49_184 : ∀ a, (![1, 49, 184] : Fin 3 → Nat) a + S1x1x16.size a ≤ S2x64x200.size a
  inb_S2x64x200_S1x1x16_1_50_184 : ∀ a, (![1, 50, 184] : Fin 3 → Nat) a + S1x1x16.size a ≤ S2x64x200.size a
  inb_S2x64x200_S1x1x16_1_51_184 : ∀ a, (![1, 51, 184] : Fin 3 → Nat) a + S1x1x16.size a ≤ S2x64x200.size a
  inb_S2x64x200_S1x1x16_1_52_184 : ∀ a, (![1, 52, 184] : Fin 3 → Nat) a + S1x1x16.size a ≤ S2x64x200.size a
  inb_S2x64x200_S1x1x16_1_53_184 : ∀ a, (![1, 53, 184] : Fin 3 → Nat) a + S1x1x16.size a ≤ S2x64x200.size a
  inb_S2x64x200_S1x1x16_1_54_184 : ∀ a, (![1, 54, 184] : Fin 3 → Nat) a + S1x1x16.size a ≤ S2x64x200.size a
  inb_S2x64x200_S1x1x16_1_55_184 : ∀ a, (![1, 55, 184] : Fin 3 → Nat) a + S1x1x16.size a ≤ S2x64x200.size a
  inb_S2x64x200_S1x1x16_1_56_184 : ∀ a, (![1, 56, 184] : Fin 3 → Nat) a + S1x1x16.size a ≤ S2x64x200.size a
  inb_S2x64x200_S1x1x16_1_57_184 : ∀ a, (![1, 57, 184] : Fin 3 → Nat) a + S1x1x16.size a ≤ S2x64x200.size a
  inb_S2x64x200_S1x1x16_1_58_184 : ∀ a, (![1, 58, 184] : Fin 3 → Nat) a + S1x1x16.size a ≤ S2x64x200.size a
  inb_S2x64x200_S1x1x16_1_59_184 : ∀ a, (![1, 59, 184] : Fin 3 → Nat) a + S1x1x16.size a ≤ S2x64x200.size a
  inb_S2x64x200_S1x1x16_1_60_184 : ∀ a, (![1, 60, 184] : Fin 3 → Nat) a + S1x1x16.size a ≤ S2x64x200.size a
  inb_S2x64x200_S1x1x16_1_61_184 : ∀ a, (![1, 61, 184] : Fin 3 → Nat) a + S1x1x16.size a ≤ S2x64x200.size a
  inb_S2x64x200_S1x1x16_1_62_184 : ∀ a, (![1, 62, 184] : Fin 3 → Nat) a + S1x1x16.size a ≤ S2x64x200.size a
  inb_S2x64x200_S1x1x16_1_63_184 : ∀ a, (![1, 63, 184] : Fin 3 → Nat) a + S1x1x16.size a ≤ S2x64x200.size a
  hcc0_scratch3 : 0 + S_.numel ≤ 4
  hcc0_scratch4 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64000.size a ≤ S128000.size a
  k0_off2_inb : ∀ i : grid0.Coords, ∀ a, (k0_off2 i) a + S12800.size a ≤ S204800.size a
  k0_t1_ok : k0_t1_loop.OK
  k0_t2_ok : k0_t2_loop.OK
  k0_mult1_dvd : ∀ k0_t2 : Fin k0_t2_loop.trips, 16 ∣ (k0_mult1 k0_t2).toNat
  k0_off3_inb : ∀ (k0_t1 : Fin k0_t1_loop.trips) (k0_t2 : Fin k0_t2_loop.trips), ∀ a, (k0_off3 k0_t1 k0_t2) a + S16.size a ≤ S12800.size a
  k0_off4_inb : ∀ k0_t2 : Fin k0_t2_loop.trips, ∀ a, (k0_off4 k0_t2) a + S1x1x16.size a ≤ S2x64x200.size a
  k0_off5_inb : ∀ k0_t2 : Fin k0_t2_loop.trips, ∀ a, (k0_off5 k0_t2) a + S1x1x16.size a ≤ S2x64x200.size a
  k0_off6_inb : ∀ k0_t2 : Fin k0_t2_loop.trips, ∀ a, (k0_off6 k0_t2) a + S1x1x16.size a ≤ S2x64x200.size a
  k0_off7_inb : ∀ k0_t2 : Fin k0_t2_loop.trips, ∀ a, (k0_off7 k0_t2) a + S1x1x16.size a ≤ S2x64x200.size a
  k0_off8_inb : ∀ k0_t2 : Fin k0_t2_loop.trips, ∀ a, (k0_off8 k0_t2) a + S1x1x16.size a ≤ S2x64x200.size a
  k0_off9_inb : ∀ k0_t2 : Fin k0_t2_loop.trips, ∀ a, (k0_off9 k0_t2) a + S1x1x16.size a ≤ S2x64x200.size a
  k0_off10_inb : ∀ k0_t2 : Fin k0_t2_loop.trips, ∀ a, (k0_off10 k0_t2) a + S1x1x16.size a ≤ S2x64x200.size a
  k0_off11_inb : ∀ k0_t2 : Fin k0_t2_loop.trips, ∀ a, (k0_off11 k0_t2) a + S1x1x16.size a ≤ S2x64x200.size a
  k0_off12_inb : ∀ k0_t2 : Fin k0_t2_loop.trips, ∀ a, (k0_off12 k0_t2) a + S1x1x16.size a ≤ S2x64x200.size a
  k0_off13_inb : ∀ k0_t2 : Fin k0_t2_loop.trips, ∀ a, (k0_off13 k0_t2) a + S1x1x16.size a ≤ S2x64x200.size a
  k0_off14_inb : ∀ k0_t2 : Fin k0_t2_loop.trips, ∀ a, (k0_off14 k0_t2) a + S1x1x16.size a ≤ S2x64x200.size a
  k0_off15_inb : ∀ k0_t2 : Fin k0_t2_loop.trips, ∀ a, (k0_off15 k0_t2) a + S1x1x16.size a ≤ S2x64x200.size a
  k0_off16_inb : ∀ k0_t2 : Fin k0_t2_loop.trips, ∀ a, (k0_off16 k0_t2) a + S1x1x16.size a ≤ S2x64x200.size a
  k0_off17_inb : ∀ k0_t2 : Fin k0_t2_loop.trips, ∀ a, (k0_off17 k0_t2) a + S1x1x16.size a ≤ S2x64x200.size a
  k0_off18_inb : ∀ k0_t2 : Fin k0_t2_loop.trips, ∀ a, (k0_off18 k0_t2) a + S1x1x16.size a ≤ S2x64x200.size a
  k0_off19_inb : ∀ k0_t2 : Fin k0_t2_loop.trips, ∀ a, (k0_off19 k0_t2) a + S1x1x16.size a ≤ S2x64x200.size a
  k0_off20_inb : ∀ k0_t2 : Fin k0_t2_loop.trips, ∀ a, (k0_off20 k0_t2) a + S1x1x16.size a ≤ S2x64x200.size a
  k0_off21_inb : ∀ k0_t2 : Fin k0_t2_loop.trips, ∀ a, (k0_off21 k0_t2) a + S1x1x16.size a ≤ S2x64x200.size a
  k0_off22_inb : ∀ k0_t2 : Fin k0_t2_loop.trips, ∀ a, (k0_off22 k0_t2) a + S1x1x16.size a ≤ S2x64x200.size a
  k0_off23_inb : ∀ k0_t2 : Fin k0_t2_loop.trips, ∀ a, (k0_off23 k0_t2) a + S1x1x16.size a ≤ S2x64x200.size a
  k0_off24_inb : ∀ k0_t2 : Fin k0_t2_loop.trips, ∀ a, (k0_off24 k0_t2) a + S1x1x16.size a ≤ S2x64x200.size a
  k0_off25_inb : ∀ k0_t2 : Fin k0_t2_loop.trips, ∀ a, (k0_off25 k0_t2) a + S1x1x16.size a ≤ S2x64x200.size a
  k0_off26_inb : ∀ k0_t2 : Fin k0_t2_loop.trips, ∀ a, (k0_off26 k0_t2) a + S1x1x16.size a ≤ S2x64x200.size a
  k0_off27_inb : ∀ k0_t2 : Fin k0_t2_loop.trips, ∀ a, (k0_off27 k0_t2) a + S1x1x16.size a ≤ S2x64x200.size a
  k0_off28_inb : ∀ k0_t2 : Fin k0_t2_loop.trips, ∀ a, (k0_off28 k0_t2) a + S1x1x16.size a ≤ S2x64x200.size a
  k0_off29_inb : ∀ k0_t2 : Fin k0_t2_loop.trips, ∀ a, (k0_off29 k0_t2) a + S1x1x16.size a ≤ S2x64x200.size a
  k0_off30_inb : ∀ k0_t2 : Fin k0_t2_loop.trips, ∀ a, (k0_off30 k0_t2) a + S1x1x16.size a ≤ S2x64x200.size a
  k0_off31_inb : ∀ k0_t2 : Fin k0_t2_loop.trips, ∀ a, (k0_off31 k0_t2) a + S1x1x16.size a ≤ S2x64x200.size a
  k0_off32_inb : ∀ k0_t2 : Fin k0_t2_loop.trips, ∀ a, (k0_off32 k0_t2) a + S1x1x16.size a ≤ S2x64x200.size a
  k0_off33_inb : ∀ k0_t2 : Fin k0_t2_loop.trips, ∀ a, (k0_off33 k0_t2) a + S1x1x16.size a ≤ S2x64x200.size a
  k0_off34_inb : ∀ k0_t2 : Fin k0_t2_loop.trips, ∀ a, (k0_off34 k0_t2) a + S1x1x16.size a ≤ S2x64x200.size a
  k0_off35_inb : ∀ k0_t2 : Fin k0_t2_loop.trips, ∀ a, (k0_off35 k0_t2) a + S1x1x16.size a ≤ S2x64x200.size a
  k0_off36_inb : ∀ k0_t2 : Fin k0_t2_loop.trips, ∀ a, (k0_off36 k0_t2) a + S1x1x16.size a ≤ S2x64x200.size a
  k0_off37_inb : ∀ k0_t2 : Fin k0_t2_loop.trips, ∀ a, (k0_off37 k0_t2) a + S1x1x16.size a ≤ S2x64x200.size a
  k0_off38_inb : ∀ k0_t2 : Fin k0_t2_loop.trips, ∀ a, (k0_off38 k0_t2) a + S1x1x16.size a ≤ S2x64x200.size a
  k0_off39_inb : ∀ k0_t2 : Fin k0_t2_loop.trips, ∀ a, (k0_off39 k0_t2) a + S1x1x16.size a ≤ S2x64x200.size a
  k0_off40_inb : ∀ k0_t2 : Fin k0_t2_loop.trips, ∀ a, (k0_off40 k0_t2) a + S1x1x16.size a ≤ S2x64x200.size a
  k0_off41_inb : ∀ k0_t2 : Fin k0_t2_loop.trips, ∀ a, (k0_off41 k0_t2) a + S1x1x16.size a ≤ S2x64x200.size a
  k0_off42_inb : ∀ k0_t2 : Fin k0_t2_loop.trips, ∀ a, (k0_off42 k0_t2) a + S1x1x16.size a ≤ S2x64x200.size a
  k0_off43_inb : ∀ k0_t2 : Fin k0_t2_loop.trips, ∀ a, (k0_off43 k0_t2) a + S1x1x16.size a ≤ S2x64x200.size a
  k0_off44_inb : ∀ k0_t2 : Fin k0_t2_loop.trips, ∀ a, (k0_off44 k0_t2) a + S1x1x16.size a ≤ S2x64x200.size a
  k0_off45_inb : ∀ k0_t2 : Fin k0_t2_loop.trips, ∀ a, (k0_off45 k0_t2) a + S1x1x16.size a ≤ S2x64x200.size a
  k0_off46_inb : ∀ k0_t2 : Fin k0_t2_loop.trips, ∀ a, (k0_off46 k0_t2) a + S1x1x16.size a ≤ S2x64x200.size a
  k0_off47_inb : ∀ k0_t2 : Fin k0_t2_loop.trips, ∀ a, (k0_off47 k0_t2) a + S1x1x16.size a ≤ S2x64x200.size a
  k0_off48_inb : ∀ k0_t2 : Fin k0_t2_loop.trips, ∀ a, (k0_off48 k0_t2) a + S1x1x16.size a ≤ S2x64x200.size a
  k0_off49_inb : ∀ k0_t2 : Fin k0_t2_loop.trips, ∀ a, (k0_off49 k0_t2) a + S1x1x16.size a ≤ S2x64x200.size a
  k0_off50_inb : ∀ k0_t2 : Fin k0_t2_loop.trips, ∀ a, (k0_off50 k0_t2) a + S1x1x16.size a ≤ S2x64x200.size a
  k0_off51_inb : ∀ k0_t2 : Fin k0_t2_loop.trips, ∀ a, (k0_off51 k0_t2) a + S1x1x16.size a ≤ S2x64x200.size a
  k0_off52_inb : ∀ k0_t2 : Fin k0_t2_loop.trips, ∀ a, (k0_off52 k0_t2) a + S1x1x16.size a ≤ S2x64x200.size a
  k0_off53_inb : ∀ k0_t2 : Fin k0_t2_loop.trips, ∀ a, (k0_off53 k0_t2) a + S1x1x16.size a ≤ S2x64x200.size a
  k0_off54_inb : ∀ k0_t2 : Fin k0_t2_loop.trips, ∀ a, (k0_off54 k0_t2) a + S1x1x16.size a ≤ S2x64x200.size a
  k0_off55_inb : ∀ k0_t2 : Fin k0_t2_loop.trips, ∀ a, (k0_off55 k0_t2) a + S1x1x16.size a ≤ S2x64x200.size a
  k0_off56_inb : ∀ k0_t2 : Fin k0_t2_loop.trips, ∀ a, (k0_off56 k0_t2) a + S1x1x16.size a ≤ S2x64x200.size a
  k0_off57_inb : ∀ k0_t2 : Fin k0_t2_loop.trips, ∀ a, (k0_off57 k0_t2) a + S1x1x16.size a ≤ S2x64x200.size a
  k0_off58_inb : ∀ k0_t2 : Fin k0_t2_loop.trips, ∀ a, (k0_off58 k0_t2) a + S1x1x16.size a ≤ S2x64x200.size a
  k0_off59_inb : ∀ k0_t2 : Fin k0_t2_loop.trips, ∀ a, (k0_off59 k0_t2) a + S1x1x16.size a ≤ S2x64x200.size a
  k0_off60_inb : ∀ k0_t2 : Fin k0_t2_loop.trips, ∀ a, (k0_off60 k0_t2) a + S1x1x16.size a ≤ S2x64x200.size a
  k0_off61_inb : ∀ k0_t2 : Fin k0_t2_loop.trips, ∀ a, (k0_off61 k0_t2) a + S1x1x16.size a ≤ S2x64x200.size a
  k0_off62_inb : ∀ k0_t2 : Fin k0_t2_loop.trips, ∀ a, (k0_off62 k0_t2) a + S1x1x16.size a ≤ S2x64x200.size a
  k0_off63_inb : ∀ k0_t2 : Fin k0_t2_loop.trips, ∀ a, (k0_off63 k0_t2) a + S1x1x16.size a ≤ S2x64x200.size a
  k0_off64_inb : ∀ k0_t2 : Fin k0_t2_loop.trips, ∀ a, (k0_off64 k0_t2) a + S1x1x16.size a ≤ S2x64x200.size a
  k0_off65_inb : ∀ k0_t2 : Fin k0_t2_loop.trips, ∀ a, (k0_off65 k0_t2) a + S1x1x16.size a ≤ S2x64x200.size a
  k0_off66_inb : ∀ k0_t2 : Fin k0_t2_loop.trips, ∀ a, (k0_off66 k0_t2) a + S1x1x16.size a ≤ S2x64x200.size a
  k0_off67_inb : ∀ k0_t2 : Fin k0_t2_loop.trips, ∀ a, (k0_off67 k0_t2) a + S1x1x16.size a ≤ S2x64x200.size a
  k0_off68_inb : ∀ k0_t1 : Fin k0_t1_loop.trips, ∀ a, (k0_off68 k0_t1) a + S16.size a ≤ S12800.size a
  k0_off69_inb : ∀ (i : grid0.Coords) (k0_t1 : Fin k0_t1_loop.trips), ∀ a, (k0_off69 i k0_t1) a + S1x64x200.size a ≤ S1024x128x200.size a
  k0_t3_ok : k0_t3_loop.OK
  k0_mult2_dvd : ∀ k0_t3 : Fin k0_t3_loop.trips, 16 ∣ (k0_mult2 k0_t3).toNat
  k0_off70_inb : ∀ (k0_t1 : Fin k0_t1_loop.trips) (k0_t3 : Fin k0_t3_loop.trips), ∀ a, (k0_off70 k0_t1 k0_t3) a + S16.size a ≤ S12800.size a
  k0_off71_inb : ∀ k0_t3 : Fin k0_t3_loop.trips, ∀ a, (k0_off71 k0_t3) a + S1x1x16.size a ≤ S2x64x200.size a
  k0_off72_inb : ∀ k0_t3 : Fin k0_t3_loop.trips, ∀ a, (k0_off72 k0_t3) a + S1x1x16.size a ≤ S2x64x200.size a
  k0_off73_inb : ∀ k0_t3 : Fin k0_t3_loop.trips, ∀ a, (k0_off73 k0_t3) a + S1x1x16.size a ≤ S2x64x200.size a
  k0_off74_inb : ∀ k0_t3 : Fin k0_t3_loop.trips, ∀ a, (k0_off74 k0_t3) a + S1x1x16.size a ≤ S2x64x200.size a
  k0_off75_inb : ∀ k0_t3 : Fin k0_t3_loop.trips, ∀ a, (k0_off75 k0_t3) a + S1x1x16.size a ≤ S2x64x200.size a
  k0_off76_inb : ∀ k0_t3 : Fin k0_t3_loop.trips, ∀ a, (k0_off76 k0_t3) a + S1x1x16.size a ≤ S2x64x200.size a
  k0_off77_inb : ∀ k0_t3 : Fin k0_t3_loop.trips, ∀ a, (k0_off77 k0_t3) a + S1x1x16.size a ≤ S2x64x200.size a
  k0_off78_inb : ∀ k0_t3 : Fin k0_t3_loop.trips, ∀ a, (k0_off78 k0_t3) a + S1x1x16.size a ≤ S2x64x200.size a
  k0_off79_inb : ∀ k0_t3 : Fin k0_t3_loop.trips, ∀ a, (k0_off79 k0_t3) a + S1x1x16.size a ≤ S2x64x200.size a
  k0_off80_inb : ∀ k0_t3 : Fin k0_t3_loop.trips, ∀ a, (k0_off80 k0_t3) a + S1x1x16.size a ≤ S2x64x200.size a
  k0_off81_inb : ∀ k0_t3 : Fin k0_t3_loop.trips, ∀ a, (k0_off81 k0_t3) a + S1x1x16.size a ≤ S2x64x200.size a
  k0_off82_inb : ∀ k0_t3 : Fin k0_t3_loop.trips, ∀ a, (k0_off82 k0_t3) a + S1x1x16.size a ≤ S2x64x200.size a
  k0_off83_inb : ∀ k0_t3 : Fin k0_t3_loop.trips, ∀ a, (k0_off83 k0_t3) a + S1x1x16.size a ≤ S2x64x200.size a
  k0_off84_inb : ∀ k0_t3 : Fin k0_t3_loop.trips, ∀ a, (k0_off84 k0_t3) a + S1x1x16.size a ≤ S2x64x200.size a
  k0_off85_inb : ∀ k0_t3 : Fin k0_t3_loop.trips, ∀ a, (k0_off85 k0_t3) a + S1x1x16.size a ≤ S2x64x200.size a
  k0_off86_inb : ∀ k0_t3 : Fin k0_t3_loop.trips, ∀ a, (k0_off86 k0_t3) a + S1x1x16.size a ≤ S2x64x200.size a
  k0_off87_inb : ∀ k0_t3 : Fin k0_t3_loop.trips, ∀ a, (k0_off87 k0_t3) a + S1x1x16.size a ≤ S2x64x200.size a
  k0_off88_inb : ∀ k0_t3 : Fin k0_t3_loop.trips, ∀ a, (k0_off88 k0_t3) a + S1x1x16.size a ≤ S2x64x200.size a
  k0_off89_inb : ∀ k0_t3 : Fin k0_t3_loop.trips, ∀ a, (k0_off89 k0_t3) a + S1x1x16.size a ≤ S2x64x200.size a
  k0_off90_inb : ∀ k0_t3 : Fin k0_t3_loop.trips, ∀ a, (k0_off90 k0_t3) a + S1x1x16.size a ≤ S2x64x200.size a
  k0_off91_inb : ∀ k0_t3 : Fin k0_t3_loop.trips, ∀ a, (k0_off91 k0_t3) a + S1x1x16.size a ≤ S2x64x200.size a
  k0_off92_inb : ∀ k0_t3 : Fin k0_t3_loop.trips, ∀ a, (k0_off92 k0_t3) a + S1x1x16.size a ≤ S2x64x200.size a
  k0_off93_inb : ∀ k0_t3 : Fin k0_t3_loop.trips, ∀ a, (k0_off93 k0_t3) a + S1x1x16.size a ≤ S2x64x200.size a
  k0_off94_inb : ∀ k0_t3 : Fin k0_t3_loop.trips, ∀ a, (k0_off94 k0_t3) a + S1x1x16.size a ≤ S2x64x200.size a
  k0_off95_inb : ∀ k0_t3 : Fin k0_t3_loop.trips, ∀ a, (k0_off95 k0_t3) a + S1x1x16.size a ≤ S2x64x200.size a
  k0_off96_inb : ∀ k0_t3 : Fin k0_t3_loop.trips, ∀ a, (k0_off96 k0_t3) a + S1x1x16.size a ≤ S2x64x200.size a
  k0_off97_inb : ∀ k0_t3 : Fin k0_t3_loop.trips, ∀ a, (k0_off97 k0_t3) a + S1x1x16.size a ≤ S2x64x200.size a
  k0_off98_inb : ∀ k0_t3 : Fin k0_t3_loop.trips, ∀ a, (k0_off98 k0_t3) a + S1x1x16.size a ≤ S2x64x200.size a
  k0_off99_inb : ∀ k0_t3 : Fin k0_t3_loop.trips, ∀ a, (k0_off99 k0_t3) a + S1x1x16.size a ≤ S2x64x200.size a
  k0_off100_inb : ∀ k0_t3 : Fin k0_t3_loop.trips, ∀ a, (k0_off100 k0_t3) a + S1x1x16.size a ≤ S2x64x200.size a
  k0_off101_inb : ∀ k0_t3 : Fin k0_t3_loop.trips, ∀ a, (k0_off101 k0_t3) a + S1x1x16.size a ≤ S2x64x200.size a
  k0_off102_inb : ∀ k0_t3 : Fin k0_t3_loop.trips, ∀ a, (k0_off102 k0_t3) a + S1x1x16.size a ≤ S2x64x200.size a
  k0_off103_inb : ∀ k0_t3 : Fin k0_t3_loop.trips, ∀ a, (k0_off103 k0_t3) a + S1x1x16.size a ≤ S2x64x200.size a
  k0_off104_inb : ∀ k0_t3 : Fin k0_t3_loop.trips, ∀ a, (k0_off104 k0_t3) a + S1x1x16.size a ≤ S2x64x200.size a
  k0_off105_inb : ∀ k0_t3 : Fin k0_t3_loop.trips, ∀ a, (k0_off105 k0_t3) a + S1x1x16.size a ≤ S2x64x200.size a
  k0_off106_inb : ∀ k0_t3 : Fin k0_t3_loop.trips, ∀ a, (k0_off106 k0_t3) a + S1x1x16.size a ≤ S2x64x200.size a
  k0_off107_inb : ∀ k0_t3 : Fin k0_t3_loop.trips, ∀ a, (k0_off107 k0_t3) a + S1x1x16.size a ≤ S2x64x200.size a
  k0_off108_inb : ∀ k0_t3 : Fin k0_t3_loop.trips, ∀ a, (k0_off108 k0_t3) a + S1x1x16.size a ≤ S2x64x200.size a
  k0_off109_inb : ∀ k0_t3 : Fin k0_t3_loop.trips, ∀ a, (k0_off109 k0_t3) a + S1x1x16.size a ≤ S2x64x200.size a
  k0_off110_inb : ∀ k0_t3 : Fin k0_t3_loop.trips, ∀ a, (k0_off110 k0_t3) a + S1x1x16.size a ≤ S2x64x200.size a
  k0_off111_inb : ∀ k0_t3 : Fin k0_t3_loop.trips, ∀ a, (k0_off111 k0_t3) a + S1x1x16.size a ≤ S2x64x200.size a
  k0_off112_inb : ∀ k0_t3 : Fin k0_t3_loop.trips, ∀ a, (k0_off112 k0_t3) a + S1x1x16.size a ≤ S2x64x200.size a
  k0_off113_inb : ∀ k0_t3 : Fin k0_t3_loop.trips, ∀ a, (k0_off113 k0_t3) a + S1x1x16.size a ≤ S2x64x200.size a
  k0_off114_inb : ∀ k0_t3 : Fin k0_t3_loop.trips, ∀ a, (k0_off114 k0_t3) a + S1x1x16.size a ≤ S2x64x200.size a
  k0_off115_inb : ∀ k0_t3 : Fin k0_t3_loop.trips, ∀ a, (k0_off115 k0_t3) a + S1x1x16.size a ≤ S2x64x200.size a
  k0_off116_inb : ∀ k0_t3 : Fin k0_t3_loop.trips, ∀ a, (k0_off116 k0_t3) a + S1x1x16.size a ≤ S2x64x200.size a
  k0_off117_inb : ∀ k0_t3 : Fin k0_t3_loop.trips, ∀ a, (k0_off117 k0_t3) a + S1x1x16.size a ≤ S2x64x200.size a
  k0_off118_inb : ∀ k0_t3 : Fin k0_t3_loop.trips, ∀ a, (k0_off118 k0_t3) a + S1x1x16.size a ≤ S2x64x200.size a
  k0_off119_inb : ∀ k0_t3 : Fin k0_t3_loop.trips, ∀ a, (k0_off119 k0_t3) a + S1x1x16.size a ≤ S2x64x200.size a
  k0_off120_inb : ∀ k0_t3 : Fin k0_t3_loop.trips, ∀ a, (k0_off120 k0_t3) a + S1x1x16.size a ≤ S2x64x200.size a
  k0_off121_inb : ∀ k0_t3 : Fin k0_t3_loop.trips, ∀ a, (k0_off121 k0_t3) a + S1x1x16.size a ≤ S2x64x200.size a
  k0_off122_inb : ∀ k0_t3 : Fin k0_t3_loop.trips, ∀ a, (k0_off122 k0_t3) a + S1x1x16.size a ≤ S2x64x200.size a
  k0_off123_inb : ∀ k0_t3 : Fin k0_t3_loop.trips, ∀ a, (k0_off123 k0_t3) a + S1x1x16.size a ≤ S2x64x200.size a
  k0_off124_inb : ∀ k0_t3 : Fin k0_t3_loop.trips, ∀ a, (k0_off124 k0_t3) a + S1x1x16.size a ≤ S2x64x200.size a
  k0_off125_inb : ∀ k0_t3 : Fin k0_t3_loop.trips, ∀ a, (k0_off125 k0_t3) a + S1x1x16.size a ≤ S2x64x200.size a
  k0_off126_inb : ∀ k0_t3 : Fin k0_t3_loop.trips, ∀ a, (k0_off126 k0_t3) a + S1x1x16.size a ≤ S2x64x200.size a
  k0_off127_inb : ∀ k0_t3 : Fin k0_t3_loop.trips, ∀ a, (k0_off127 k0_t3) a + S1x1x16.size a ≤ S2x64x200.size a
  k0_off128_inb : ∀ k0_t3 : Fin k0_t3_loop.trips, ∀ a, (k0_off128 k0_t3) a + S1x1x16.size a ≤ S2x64x200.size a
  k0_off129_inb : ∀ k0_t3 : Fin k0_t3_loop.trips, ∀ a, (k0_off129 k0_t3) a + S1x1x16.size a ≤ S2x64x200.size a
  k0_off130_inb : ∀ k0_t3 : Fin k0_t3_loop.trips, ∀ a, (k0_off130 k0_t3) a + S1x1x16.size a ≤ S2x64x200.size a
  k0_off131_inb : ∀ k0_t3 : Fin k0_t3_loop.trips, ∀ a, (k0_off131 k0_t3) a + S1x1x16.size a ≤ S2x64x200.size a
  k0_off132_inb : ∀ k0_t3 : Fin k0_t3_loop.trips, ∀ a, (k0_off132 k0_t3) a + S1x1x16.size a ≤ S2x64x200.size a
  k0_off133_inb : ∀ k0_t3 : Fin k0_t3_loop.trips, ∀ a, (k0_off133 k0_t3) a + S1x1x16.size a ≤ S2x64x200.size a
  k0_off134_inb : ∀ k0_t3 : Fin k0_t3_loop.trips, ∀ a, (k0_off134 k0_t3) a + S1x1x16.size a ≤ S2x64x200.size a
  k0_off135_inb : ∀ k0_t1 : Fin k0_t1_loop.trips, ∀ a, (k0_off135 k0_t1) a + S16.size a ≤ S12800.size a
  k0_off136_inb : ∀ (i : grid0.Coords) (k0_t1 : Fin k0_t1_loop.trips), ∀ a, (k0_off136 i k0_t1) a + S1x64x200.size a ≤ S1024x128x200.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S1024x200 : Shape := ⟨2, ![1024, 200]⟩
abbrev S1000x128 : Shape := ⟨2, ![1000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x128x200 : Shape := ⟨3, ![1024, 128, 200]⟩

abbrev nBuf : Space → Nat
  | .hbm => 26
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | .hbm, ⟨25, _⟩ => ⟨S1024x128x200, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  transposes_S1024x200x128_S1024x128x200_0_2_1 : S1024x200x128.Transposes [0, 2, 1] S1024x128x200
  gather_S1000x128_S1024x200x1_S1024x200x128_2_0_n_n_0_2_1128_wf : GatherDims.WF S1000x128 S1024x200x1 S1024x200x128 [2] [0] [] [0] [] 2 ![1, 128]

variable [Facts₀]

def gather_S1000x128_S1024x200x1_S1024x200x128_2_0_n_n_0_2_1128 : GatherDims S1000x128 S1024x200x1 S1024x200x128 where
  offsetDims := [2]
  collapsedSliceDims := [0]
  operandBatchingDims := []
  startIndicesBatchingDims := []
  startIndexMap := [0]
  indexVectorDim := 2
  sliceSizes := ![1, 128]
  wf := gather_S1000x128_S1024x200x1_S1024x200x128_2_0_n_n_0_2_1128_wf

class Facts : Prop extends Facts₀ where

variable [Facts]
-- ==== Proof.Spec.lean ====
/-
  The function both programs compute: an embedding lookup written transposed.
  For a token array `inp` of shape [1024, 200] and a table `emb` of shape [1000, 128], the result has shape
  [1024, 128, 200] and holds, at (b, d, t), the entry (inp[b, t], d) of the table. A token word names a row by
  its value as a natural number (taken modulo the table's height so that the function is total; under the
  precondition every token is below 1000 and the reduction does nothing).
-/
import Idealize.ShloMosaic.Lib.ValueIdx

noncomputable section

namespace Cert.Spec

open Idealize.ShloMosaic Idealize.ShloMosaic.ValueIdx

/-- The tokens' shape, the table's, the result's. -/
abbrev SI : Shape := ⟨2, ![1024, 200]⟩
abbrev SE : Shape := ⟨2, ![1000, 128]⟩
abbrev SO : Shape := ⟨3, ![1024, 128, 200]⟩

/-- The table row a token word names. -/
def rowOf (w : BitVec 32) : Fin 1000 := ⟨w.toNat % 1000, Nat.mod_lt _ (by decide)⟩

theorem rowOf_val_of_lt {w : BitVec 32} (h : w.toNat < 1000) : (rowOf w).val = w.toNat := Nat.mod_eq_of_lt h

/-- The lookup, transposed: entry (b, d, t) of the result is entry (inp[b, t], d) of the table. -/
def lookupT {F : FTy → Type} (inp : IVec SI 32) (emb : FVec F SE .f32) : FVec F SO .f32 :=
  fun i => emb (ix2 (n0 := 1000) (n1 := 128) (rowOf (inp (ix2 (n0 := 1024) (n1 := 200) (i 0) (i 2)))) (i 1))

theorem lookupT_apply {F : FTy → Type} (inp : IVec SI 32) (emb : FVec F SE .f32) (b : Fin 1024) (d : Fin 128) (t : Fin 200) :
    lookupT inp emb (ix3 b d t) = emb (ix2 (rowOf (inp (ix2 b t))) d) := rfl

/-- Every token names a row of the table. -/
def InRange (inp : IVec SI 32) : Prop := ∀ j, (inp j).toNat < 1000

end Cert.Spec

end
-- ==== Proof.KI.Setup.lean ====
/-
  The lookup kernel's program as the launch theorem sees it, the resources its threads hold, and what the
  launch hands each vector subcore.

  Thirty-two vector subcores (two SparseCores of sixteen) each serve sixty-four rows of the token array and one half of
  the table's columns: subcore (c, s) copies columns [64 c, 64 c + 64) of the flattened transposed table (a run of
  64000 words) and tokens of rows [64 s, 64 s + 64) (12800 words) into its own memory, and for every one of its rows
  b = 64 s + r fills a 64 x 200 staging slot with table entries and copies the slot out to the window
  out[b, 64 c .. 64 c + 64, 0 .. 200) of the result. The windows of different (b, c) are disjoint and cover the
  result; the two flat arrays are only read, by every subcore, under read shares.
-/
import proofs.«218643_g31147102830872_cont_9to1_1815_7_alg».proof.Proof.Gen.KernelIdeal
import proofs.«218643_g31147102830872_cont_9to1_1815_7_alg».proof.Proof.Gen.KernelIdeal.Skeleton
import proofs.«218643_g31147102830872_cont_9to1_1815_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens, the table, the transposed table, the flat transposed table, the flat tokens, the result: as locations of
    device `d`. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The vector subcore a grid point names. -/
abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

/-! ## The printed offset chains that read the grid point, in closed form -/

theorem k0_off1_eq : ∀ i : grid0.Coords, k0_off1 i = ![64000 * (i 0).val] := by decide +kernel
theorem k0_off2_eq : ∀ i : grid0.Coords, k0_off2 i = ![12800 * (i 1).val] := by decide +kernel
theorem k0_off69_eq : ∀ (i : grid0.Coords) (k1 : Fin k0_t1_loop.trips), k0_off69 i k1 = ![64 * (i 1).val + 2 * k1.val, 64 * (i 0).val, 0] := by decide +kernel
theorem k0_off136_eq : ∀ (i : grid0.Coords) (k1 : Fin k0_t1_loop.trips), k0_off136 i k1 = ![64 * (i 1).val + 2 * k1.val + 1, 64 * (i 0).val, 0] := by decide +kernel

/-! ## The result's windows -/

theorem win_inb (b : Fin 1024) (c : Fin 2) : ∀ a, (![b.val, 64 * c.val, 0] : Fin 3 → Nat) a + S1x64x200.size a ≤ S1024x128x200.size a := by
  intro a
  have hb := b.isLt
  have hc := c.isLt
  match a with
  | ⟨0, _⟩ => show b.val + 1 ≤ 1024; omega
  | ⟨1, _⟩ => show 64 * c.val + 64 ≤ 128; omega
  | ⟨2, _⟩ => show 0 + 200 ≤ 200; omega

/-- The window of the result that holds row `b` of the tokens at the columns of half `c`: out[b, 64 c .. 64 c + 64, :]. -/
abbrev winR (b : Fin 1024) (c : Fin 2) : Rect S1024x128x200 := Rect.unit (s := S1024x128x200) ![b.val, 64 * c.val, 0] S1x64x200.size (win_inb b c)
abbrev winSet (b : Fin 1024) (c : Fin 2) : Finset S1024x128x200.Idx := (winR b c).set

/-- Row `64 s + r` of the tokens, for vector subcore `s`'s local row `r`. -/
def rowB (s : Fin 16) (r : Fin 64) : Fin 1024 := ⟨64 * s.val + r.val, by have := s.isLt; have := r.isLt; omega⟩

/-! ## What the launch hands a vector subcore, and what comes back -/

section Pay

variable (f1 : (d : Dev nD) → Buf (Elt F) (v1Loc d)) (f2 : (d : Dev nD) → Buf (Elt F) (v2Loc d))
  (f3 G : (d : Dev nD) → Buf (Elt F) (v3Loc d))

/-- The read share of SparseCore `c`, and of its vector subcore `s`. -/
abbrev shC (c : Fin 2) : PosShare TreeShare := Transfers.shareTok fullShare 2 c
abbrev shV (c : Fin 2) (s : Fin 16) : PosShare TreeShare := Transfers.shareTok (shC c) 16 s

/-- A vector subcore's task: a read share of the two flat arrays, and its sixty-four windows of the result, at contents
    `g` (the launch contents going in, the lookup coming back). -/
def tileRes (g : (d : Dev nD) → Buf (Elt F) (v3Loc d)) (d : Dev nD) (c : Fin 2) (s : Fin 16) : sProp 𝕄 :=
  iprop((v1Loc d ↦{shV c s} f1 d) ∗ (v2Loc d ↦{shV c s} f2 d)
    ∗ bigSep (Finset.univ : Finset (Fin 64)) fun r => v3Loc d ↦[winSet (rowB s r) c]{fullShare} g d)

/-- A SparseCore's share of the call: a read share of the two flat arrays, and its half of the result's columns. -/
def coreRes (g : (d : Dev nD) → Buf (Elt F) (v3Loc d)) (d : Dev nD) (c : Fin 2) : sProp 𝕄 :=
  iprop((v1Loc d ↦{shC c} f1 d) ∗ (v2Loc d ↦{shC c} f2 d)
    ∗ bigSep (Finset.univ : Finset (Fin 1024)) fun b => v3Loc d ↦[winSet b c]{fullShare} g d)

def P : (K (F := F)).Pay (nD := nD) (Val := Elt F) (Name := ℕ) (U := UU) where
  st := fun q d c => match q with | 0 => coreRes f1 f2 f3 d (Fin.cast nCore_zero c)
  dn := fun q d c => match q with | 0 => coreRes f1 f2 G d (Fin.cast nCore_zero c)
  go := fun q d c s => match q with | 0 => tileRes f1 f2 f3 d (Fin.cast nCore_zero c) (Fin.cast nSub_zero s)
  td := fun q d c s => match q with | 0 => tileRes f1 f2 G d (Fin.cast nCore_zero c) (Fin.cast nSub_zero s)
  x := fun _ _ => iprop(emp)

instance P_storable : (P (F := F) f1 f2 f3 G).IsStorable where
  st q d c := match q with | 0 => by unfold P coreRes; infer_instance
  dn q d c := match q with | 0 => by unfold P coreRes; infer_instance
  go q d c s := match q with | 0 => by unfold P tileRes; infer_instance
  td q d c s := match q with | 0 => by unfold P tileRes; infer_instance

/-- What the kernel's proof asks of the two flat arrays and the lookup `G`: every token names a row of the table, and
    the lookup at (b, j, t) is the flat table at word `1000 j + token`, the token the flat tokens' word `200 b + t`. -/
structure Good (d : Dev nD) : Prop where
  range : ∀ j, (f2 d j).toNat < 1000
  look : ∀ (b : Fin 1024) (j : Fin 128) (t : Fin 200),
    G d (ValueIdx.ix3 b j t)
      = f1 d (ValueIdx.ix1 (n := 128000) ⟨1000 * j.val + (f2 d (ValueIdx.ix1 (n := 204800) ⟨200 * b.val + t.val, by have := b.isLt; have := t.isLt; omega⟩)).toNat % 1000,
          by have := j.isLt; omega⟩)

end Pay

end Cert.KI

end
-- ==== Proof.KI.Split.lean ====
/-
  A SparseCore's share of the call splits into its sixteen vector subcores' tasks and comes back: each read share
  into sixteen tokens (the remainder waits inside the wand), and the 1024 windows of a column half regrouped by the
  subcore that serves their row, row b = 64 s + r going to subcore s as its local row r.
-/
import proofs.«218643_g31147102830872_cont_9to1_1815_7_alg».proof.Proof.KI.Setup

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows by subcore -/

theorem rowB_inj : Function.Injective (fun p : Fin 16 × Fin 64 => rowB p.1 p.2) := by
  rintro ⟨s, r⟩ ⟨s', r'⟩ h
  have h' : 64 * s.val + r.val = 64 * s'.val + r'.val := congrArg Fin.val h
  clear h
  have := r.isLt; have := r'.isLt
  exact Prod.ext (Fin.ext (show s.val = s'.val by omega)) (Fin.ext (show r.val = r'.val by omega))

theorem rowB_surj : Function.Surjective (fun p : Fin 16 × Fin 64 => rowB p.1 p.2) := by
  intro b
  have hb := b.isLt
  exact ⟨(⟨b.val / 64, by omega⟩, ⟨b.val % 64, Nat.mod_lt _ (by decide)⟩), Fin.ext (by show 64 * (b.val / 64) + b.val % 64 = b.val; omega)⟩

/-- A product over the 1024 rows is the product over the subcores of the products over their sixty-four rows. -/
theorem bigSep_rows (Φ : Fin 1024 → sProp 𝕄) :
    bigSep Finset.univ Φ = bigSep Finset.univ fun s : Fin 16 => bigSep Finset.univ fun r : Fin 64 => Φ (rowB s r) := by
  rw [← Finset.image_univ_of_surjective rowB_surj, SparseCore.bigSep_image_of_injOn (rowB_inj.injOn) Φ,
    ← Finset.univ_product_univ, SparseCore.bigSep_product]

/-- A product over the call's grid of subcores is the product over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

section Pay

variable (f1 : (d : Dev nD) → Buf (Elt F) (v1Loc d)) (f2 : (d : Dev nD) → Buf (Elt F) (v2Loc d))
  (f3 G : (d : Dev nD) → Buf (Elt F) (v3Loc d))

/-! ## The payload's fields as equations -/

theorem P_st (d : Dev nD) (c : Fin ((K (F := F)).nCore 0)) : (P f1 f2 f3 G).st 0 d c = coreRes f1 f2 f3 d (Fin.cast nCore_zero c) := rfl
theorem P_dn (d : Dev nD) (c : Fin ((K (F := F)).nCore 0)) : (P f1 f2 f3 G).dn 0 d c = coreRes f1 f2 G d (Fin.cast nCore_zero c) := rfl
theorem P_go (d : Dev nD) (c : Fin ((K (F := F)).nCore 0)) (i : Fin ((K (F := F)).nSub 0)) :
    (P f1 f2 f3 G).go 0 d c i = tileRes f1 f2 f3 d (Fin.cast nCore_zero c) (Fin.cast nSub_zero i) := rfl
theorem P_td (d : Dev nD) (c : Fin ((K (F := F)).nCore 0)) (i : Fin ((K (F := F)).nSub 0)) :
    (P f1 f2 f3 G).td 0 d c i = tileRes f1 f2 G d (Fin.cast nCore_zero c) (Fin.cast nSub_zero i) := rfl

/-- The sixteen tasks of a SparseCore, gathered: the sixteen tokens of each read share and the column half's windows. -/
theorem tiles_eq (g : (d : Dev nD) → Buf (Elt F) (v3Loc d)) (d : Dev nD) (c : Fin 2) :
    (bigSep Finset.univ fun s : Fin 16 => tileRes f1 f2 g d c s)
      = iprop((bigSep Finset.univ fun s : Fin 16 => v1Loc d ↦{shV c s} f1 d)
          ∗ (bigSep Finset.univ fun s : Fin 16 => v2Loc d ↦{shV c s} f2 d)
          ∗ bigSep Finset.univ fun b : Fin 1024 => v3Loc d ↦[winSet b c]{fullShare} g d) := by
  unfold tileRes
  rw [bigSep_sep', bigSep_sep', bigSep_rows (F := F) fun b => v3Loc d ↦[winSet b c]{fullShare} g d]

theorem vecSplit : (K (F := F)).VecSplit' (P f1 f2 f3 G) 0 := by
  intro d c
  rw [P_st, P_dn]
  simp only [P_go, P_td]
  rw [bigSep_tasks (F := F) (fun s => tileRes f1 f2 f3 d (Fin.cast nCore_zero c) s),
    bigSep_tasks (F := F) (fun s => tileRes f1 f2 G d (Fin.cast nCore_zero c) s), tiles_eq, tiles_eq]
  generalize Fin.cast nCore_zero c = c'
  unfold coreRes
  iintro ⟨H1, H2, H3⟩
  ihave H1' := (Transfers.pointsTo_toks_split (shC c') 16) $$ H1
  ihave H2' := (Transfers.pointsTo_toks_split (shC c') 16) $$ H2
  icases H1' with ⟨H1d, H1t⟩
  icases H2' with ⟨H2d, H2t⟩
  imodintro
  isplitl [H1t H2t H3]
  · isplitl [H1t]; · iexact H1t
    isplitl [H2t]; · iexact H2t
    iexact H3
  iintro ⟨G1, G2, G3⟩
  isplitl [H1d G1]
  · iapply (Transfers.pointsTo_toks_join (shC c') 16)
    isplitl [H1d]; · iexact H1d
    iexact G1
  isplitl [H2d G2]
  · iapply (Transfers.pointsTo_toks_join (shC c') 16)
    isplitl [H2d]; · iexact H2d
    iexact G2
  iexact G3

end Pay

end Cert.KI

end
-- ==== Proof.KI.Windows.lean ====
/-
  The result as its windows: out[b, 64 c .. 64 c + 64, :] over the 1024 rows b and the two column halves c are pairwise
  disjoint and cover the array, an element (b', j, t) lying in the window of b = b' and c = j / 64. With it, the two
  SparseCores' shares of the call as one product.
-/
import proofs.«218643_g31147102830872_cont_9to1_1815_7_alg».proof.Proof.KI.Setup

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Membership in a window -/

theorem mem_winSet {b : Fin 1024} {c : Fin 2} {i : S1024x128x200.Idx} :
    i ∈ winSet b c ↔ (i 0).val = b.val ∧ (i 1).val / 64 = c.val := by
  show i ∈ (Rect.unit (s := S1024x128x200) ![b.val, 64 * c.val, 0] S1x64x200.size (win_inb b c)).set ↔ _
  rw [Rect.mem_set_unit]
  constructor
  · intro h
    have h0 : b.val ≤ (i 0).val ∧ (i 0).val < b.val + 1 := h 0
    have h1 : 64 * c.val ≤ (i 1).val ∧ (i 1).val < 64 * c.val + 64 := h 1
    exact ⟨by omega, by omega⟩
  · rintro ⟨h0, h1⟩ a
    have h2 : (i 2).val < 200 := (i 2).isLt
    have h3 : (i 1).val < 128 := (i 1).isLt
    match a with
    | ⟨0, _⟩ => show b.val ≤ (i 0).val ∧ (i 0).val < b.val + 1; omega
    | ⟨1, _⟩ => show 64 * c.val ≤ (i 1).val ∧ (i 1).val < 64 * c.val + 64; omega
    | ⟨2, _⟩ => show 0 ≤ (i 2).val ∧ (i 2).val < 0 + 200; omega

theorem win_disjoint : ∀ p ∈ (Finset.univ : Finset (Fin 2 × Fin 1024)), ∀ p' ∈ (Finset.univ : Finset (Fin 2 × Fin 1024)), p ≠ p' →
    Disjoint (winSet p.2 p.1) (winSet p'.2 p'.1) := by
  rintro ⟨c, b⟩ _ ⟨c', b'⟩ _ hne
  refine Finset.disjoint_left.mpr fun i hi hi' => hne ?_
  have h : (i 0).val = b.val ∧ (i 1).val / 64 = c.val := mem_winSet.mp hi
  have h' : (i 0).val = b'.val ∧ (i 1).val / 64 = c'.val := mem_winSet.mp hi'
  exact Prod.ext (Fin.ext (show c.val = c'.val by omega)) (Fin.ext (show b.val = b'.val by omega))

theorem win_cover : (Finset.univ : Finset (Fin 2 × Fin 1024)).biUnion (fun p => winSet p.2 p.1) = Finset.univ := by
  ext i
  simp only [Finset.mem_biUnion, Finset.mem_univ, true_and, iff_true]
  have h0 : (i 0).val < 1024 := (i 0).isLt
  have h1 : (i 1).val < 128 := (i 1).isLt
  exact ⟨(⟨(i 1).val / 64, by omega⟩, ⟨(i 0).val, h0⟩), mem_winSet.mpr ⟨rfl, rfl⟩⟩

/-- The result whole is its 2048 windows. -/
theorem v3_windows (d : Dev nD) (g : Buf (Elt F) (v3Loc d)) :
    (v3Loc d ↦{fullShare} g : sProp 𝕄)
      = bigSep Finset.univ fun c : Fin 2 => bigSep Finset.univ fun b : Fin 1024 => v3Loc d ↦[winSet b c]{fullShare} g := by
  rw [← SparseCore.bigSep_product Finset.univ Finset.univ (fun p : Fin 2 × Fin 1024 => (v3Loc d ↦[winSet p.2 p.1]{fullShare} g : sProp 𝕄)),
    Finset.univ_product_univ, ← pointsTo_biUnion Finset.univ (ℓ := v3Loc d) (fun p : Fin 2 × Fin 1024 => winSet p.2 p.1) win_disjoint, win_cover]

/-! ## The two SparseCores' shares -/

/-- A product over the call's grid of SparseCores is the product over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Pay

variable (f1 : (d : Dev nD) → Buf (Elt F) (v1Loc d)) (f2 : (d : Dev nD) → Buf (Elt F) (v2Loc d))
  (f3 G : (d : Dev nD) → Buf (Elt F) (v3Loc d))

/-- The two SparseCores' shares, gathered: the two tokens of each read share and the result's windows. -/
theorem cores_eq (g : (d : Dev nD) → Buf (Elt F) (v3Loc d)) (d : Dev nD) :
    (bigSep Finset.univ fun c : Fin 2 => coreRes f1 f2 g d c)
      = iprop((bigSep Finset.univ fun c : Fin 2 => v1Loc d ↦{shC c} f1 d)
          ∗ (bigSep Finset.univ fun c : Fin 2 => v2Loc d ↦{shC c} f2 d)
          ∗ v3Loc d ↦{fullShare} g d) := by
  unfold coreRes
  rw [bigSep_sep', bigSep_sep', v3_windows]

theorem st0_eq (d : Dev nD) :
    (bigSep Finset.univ fun c : Fin ((K (F := F)).nCore 0) => (P f1 f2 f3 G).st 0 d c)
      = iprop((bigSep Finset.univ fun c : Fin 2 => v1Loc d ↦{shC c} f1 d)
          ∗ (bigSep Finset.univ fun c : Fin 2 => v2Loc d ↦{shC c} f2 d)
          ∗ v3Loc d ↦{fullShare} f3 d) := by
  rw [← cores_eq]
  exact bigSep_cores (F := F) (fun c => coreRes f1 f2 f3 d c)

theorem dn0_eq (d : Dev nD) :
    (bigSep Finset.univ fun c : Fin ((K (F := F)).nCore 0) => (P f1 f2 f3 G).dn 0 d c)
      = iprop((bigSep Finset.univ fun c : Fin 2 => v1Loc d ↦{shC c} f1 d)
          ∗ (bigSep Finset.univ fun c : Fin 2 => v2Loc d ↦{shC c} f2 d)
          ∗ v3Loc d ↦{fullShare} G d) := by
  rw [← cores_eq]
  exact bigSep_cores (F := F) (fun c => coreRes f1 f2 G d c)

end Pay

end Cert.KI

end
-- ==== Proof.KI.Host.lean ====
/-
  What the three host operations leave in the flat arrays, and why the lookup read through them is the lookup of the
  arguments: the flat table at word 1000 j + v is the table's entry (v, j), the flat tokens at word 200 b + t the token (b, t).
-/
import proofs.«218643_g31147102830872_cont_9to1_1815_7_alg».proof.Proof.KI.Setup
import Idealize.ShloMosaic.Lib.ValueLayout

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
variable {F : FTy → Type}

local notation "𝕄" => MT nD τ sig (HIx 1) (Elt F) ℕ UU ℕ

variable [FloatOps F]
variable (m : (ℓ : Loc nD τ sig) → Buf (Elt F) ℓ)

/-- The transposed table: what the first host operation leaves in its result. -/
def V0t (d : Dev nD) : Buf (Elt F) (v0Loc d) :=
  transpose S128x1000 [1, 0] (m (a1Loc d)) transposes_S1000x128_S128x1000_1_0

/-- The flat transposed table: what the second host operation leaves in its result. -/
def V1 (d : Dev nD) : Buf (Elt F) (v1Loc d) :=
  fun i => shapeCast S128000 (V0t m d) shapeCasts_S128x1000_S128000 i

/-- The flat tokens: what the third host operation leaves in its result. -/
def V2 (d : Dev nD) : Buf (Elt F) (v2Loc d) :=
  fun i => shapeCast S204800 (m (a0Loc d)) shapeCasts_S1024x200_S204800 i

/-- The lookup of the two arguments. -/
def Gm (d : Dev nD) : Buf (Elt F) (v3Loc d) := Cert.Spec.lookupT (m (a0Loc d)) (m (a1Loc d))

/-- The flat tokens at word 200 b + t are the token (b, t). -/
theorem V2_apply (d : Dev nD) (b : Fin 1024) (t : Fin 200) (h : 200 * b.val + t.val < 204800) :
    V2 m d (ix1 (n := 204800) ⟨200 * b.val + t.val, h⟩) = m (a0Loc d) (ix2 (n0 := 1024) (n1 := 200) b t) := by
  unfold V2
  refine shapeCast_apply _ _ _ _ ?_
  show ((⟨2, ![1024, 200]⟩ : Shape).rowMajor (ix2 b t)).val = ((⟨1, ![204800]⟩ : Shape).rowMajor (ix1 ⟨200 * b.val + t.val, h⟩)).val
  rw [Shape.rowMajor_val_two, Shape.rowMajor_val_one]
  show b.val * 200 + t.val = 200 * b.val + t.val
  omega

/-- The flat transposed table at word 1000 j + v is the table's entry (v, j). -/
theorem V1_apply (d : Dev nD) (j : Fin 128) (v : Fin 1000) (h : 1000 * j.val + v.val < 128000) :
    V1 m d (ix1 (n := 128000) ⟨1000 * j.val + v.val, h⟩) = m (a1Loc d) (ix2 (n0 := 1000) (n1 := 128) v j) := by
  unfold V1
  rw [shapeCast_apply (V0t m d) shapeCasts_S128x1000_S128000 _ (ix2 (n0 := 128) (n1 := 1000) j v)
    (by
      show ((⟨2, ![128, 1000]⟩ : Shape).rowMajor (ix2 j v)).val = ((⟨1, ![128000]⟩ : Shape).rowMajor (ix1 ⟨1000 * j.val + v.val, h⟩)).val
      rw [Shape.rowMajor_val_two, Shape.rowMajor_val_one]
      show j.val * 1000 + v.val = 1000 * j.val + v.val
      omega)]
  unfold V0t
  exact transpose_ix2_apply (m (a1Loc d)) transposes_S1000x128_S128x1000_1_0 j v

theorem good (d : Dev nD) (hr : Cert.Spec.InRange (m (a0Loc d))) : Good (V1 m) (V2 m) (Gm m) d where
  range := fun j => by
    unfold V2 shapeCast
    exact hr _
  look := fun b j t => by
    have key : ∀ (x : BitVec 32) (_ : x = m (a0Loc d) (ix2 (n0 := 1024) (n1 := 200) b t)) (h : 1000 * j.val + x.toNat % 1000 < 128000),
        V1 m d (ix1 (n := 128000) ⟨1000 * j.val + x.toNat % 1000, h⟩)
          = m (a1Loc d) (ix2 (n0 := 1000) (n1 := 128) (Cert.Spec.rowOf (m (a0Loc d) (ix2 (n0 := 1024) (n1 := 200) b t))) j) := by
      intro x hx h
      subst hx
      exact V1_apply m d j (Cert.Spec.rowOf _) h
    refine (Cert.Spec.lookupT_apply (m (a0Loc d)) (m (a1Loc d)) b j t).trans ?_
    exact (key _ (V2_apply m d b t _) _).symm

end Cert.KI

end
-- ==== Proof.KI.Launch.lean ====
/-
  The launch of the lookup kernel: the handshakes' ghost state, @main on the TensorCore (the three host operations,
  then the call: each SparseCore is handed a read share of the two flat arrays and its column half of the result), and
  the program's run.
-/
import proofs.«218643_g31147102830872_cont_9to1_1815_7_alg».proof.Proof.KI.Split
import proofs.«218643_g31147102830872_cont_9to1_1815_7_alg».proof.Proof.KI.Windows
import proofs.«218643_g31147102830872_cont_9to1_1815_7_alg».proof.Proof.KI.Host

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
variable {F : FTy → Type}

local notation "𝕄" => MT nD τ sig (HIx 1) (Elt F) ℕ UU ℕ

variable [FloatOps F]
variable (m : (ℓ : Loc nD τ sig) → Buf (Elt F) ℓ) (ρ : Dev nD → PrngReg)

/-- The payloads at the launch memory: the flat arrays as the host operations leave them, the result from its launch
    contents to the lookup. -/
abbrev PM : (K (F := F)).Pay (nD := nD) (Val := Elt F) (Name := ℕ) (U := UU) :=
  P (V1 m) (V2 m) (fun d => m (v3Loc d)) (Gm m)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PM m).x q thr) = (iprop(emp) : sProp 𝕄) from by
    rw [show (fun thr : Thread nD τ => bigSep Finset.univ fun q : Fin 1 => (PM m).x q thr) = fun _ => (iprop(emp) : sProp 𝕄) from
      funext fun _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations: the table transposed, the transpose flattened, the tokens flattened. -/
abbrev opT : HloOp τ sig (Elt F) :=
  StableHlo.unary main_arg1 main_v0 ((transpose S128x1000 [1, 0] · transposes_S1000x128_S128x1000_1_0) : (⟨S1000x128, .f32⟩ : BufTy).Contents (Elt F) → (⟨S128x1000, .f32⟩ : BufTy).Contents (Elt F))
abbrev opR1 : HloOp τ sig (Elt F) := StableHlo.reshape main_v0 main_v1 rfl shapeCasts_S128x1000_S128000
abbrev opR2 : HloOp τ sig (Elt F) := StableHlo.reshape main_arg0 main_v2 rfl shapeCasts_S1024x200_S204800

/-- The TensorCore's arrays, all unscoped. -/
abbrev S6 : Finset (DevRef τ sig) := {a0', a1', v0', v1', v2', v3'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ (v0Loc d ↦{fullShare} W v0')
          ∗ (v1Loc d ↦{fullShare} W v1') ∗ (v2Loc d ↦{fullShare} W v2') ∗ (v3Loc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0)
          ∗ (v1Loc d ↦{fullShare} W main_v1) ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the arrays after the three host operations. -/
def W0 (d : Dev nD) : Valuation τ sig (Elt F) := fun b => m (d, b)
def W3 (d : Dev nD) : Valuation τ sig (Elt F) := StableHlo.after [opT, opR1, opR2] (W0 m d)

omit [FloatOps F] in
theorem unscoped_held (d : Dev nD) : (unscopedBufs d (fun b => m ((SparseCore.T d).loc b)) : sProp 𝕄) = held (T d) S6 (W0 m d) := by
  rw [unscopedBufs_eq, held_S6]; rfl

theorem W3_a0 (d : Dev nD) : W3 m d a0' = m (a0Loc d) := by
  unfold W3; after_results; rfl
theorem W3_a1 (d : Dev nD) : W3 m d a1' = m (a1Loc d) := by
  unfold W3; after_results; rfl
theorem W3_v1 (d : Dev nD) : W3 m d v1' = V1 m d := by
  unfold W3; after_results; rfl
theorem W3_v2 (d : Dev nD) : W3 m d v2' = V2 m d := by
  unfold W3; after_results; rfl
theorem W3_v3 (d : Dev nD) : W3 m d v3' = m (v3Loc d) := by
  unfold W3; after_results; rfl

theorem hT : (opT (F := F)).bufs ⊆ S6 := show ({a1', v0'} : Finset (DevRef τ sig)) ⊆ S6 by decide
theorem hR1 : (opR1 (F := F)).bufs ⊆ S6 := show ({v0', v1'} : Finset (DevRef τ sig)) ⊆ S6 by decide
theorem hR2 : (opR2 (F := F)).bufs ⊆ S6 := show ({a0', v2'} : Finset (DevRef τ sig)) ⊆ S6 by decide

/-- What @main leaves the claim: the two arguments at their launch contents, the result at the lookup. -/
abbrev FIN (d : Dev nD) : sProp 𝕄 :=
  iprop((a0Loc d ↦{fullShare} m (a0Loc d)) ∗ (a1Loc d ↦{fullShare} m (a1Loc d)) ∗ (v3Loc d ↦{fullShare} Gm m d))

/-- The arrays after the three host operations. -/
theorem held_W3 (d : Dev nD) :
    (held (T d) S6 ((opR2 (F := F)).result ((opR1 (F := F)).result ((opT (F := F)).result (W0 m d)))) : sProp 𝕄)
      = iprop((a0Loc d ↦{fullShare} m (a0Loc d)) ∗ (a1Loc d ↦{fullShare} m (a1Loc d)) ∗ (v0Loc d ↦{fullShare} W3 m d v0')
          ∗ (v1Loc d ↦{fullShare} V1 m d) ∗ (v2Loc d ↦{fullShare} V2 m d) ∗ (v3Loc d ↦{fullShare} m (v3Loc d))) := by
  show (held (T d) S6 (W3 m d) : sProp 𝕄) = _
  rw [held_S6, W3_a0, W3_a1, W3_v1, W3_v2, W3_v3]

/-- @main on device `d`'s TensorCore: the three host operations over the six arrays held whole; then the call, each
    SparseCore handed one of the two read tokens of each flat array and the result whole as its windows, and the lookup
    back; the arguments kept. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := S6) hT (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S6) hR1 (V := (opT (F := F)).result (W0 m d))) $$ [Hb Hheld]
  · isplitl [Hb]; · iexact Hb
    iexact Hheld
  iintro ⟨Hb, Hheld⟩
  rw [wp_ret]; imodintro
  iapply (wp_hlo_within 𝒱 (SparseCore.T d) none Set.univ (op := opR2) (S := S6) hR2 (V := (opR1 (F := F)).result ((opT (F := F)).result (W0 m d)))) $$ [Hb Hheld]
  · isplitl [Hb]; · iexact Hb
    iexact Hheld
  iintro ⟨Hb, Hheld⟩
  rw [wp_ret]; imodintro
  ihave Hh := (Entails.of_eq (held_W3 (F := F) m d)) $$ Hheld
  icases Hh with ⟨H0, H1, -, Hv1, Hv2, Hv3⟩
  ihave Hv1' := (Transfers.pointsTo_toks_split fullShare 2) $$ Hv1
  ihave Hv2' := (Transfers.pointsTo_toks_split fullShare 2) $$ Hv2
  icases Hv1' with ⟨-, Hv1t⟩
  icases Hv2' with ⟨-, Hv2t⟩
  iapply ((K (F := F)).wp_run (D (F := F)) 𝒱 (EH := EH) (P := PM m) κ d 0) $$ [Hst H0 H1 Hv1t Hv2t Hv3]
  isplitr; · iexact Hctx
  isplitl [Hst]; · iexact Hst
  isplitl [Hv1t Hv2t Hv3]
  · rw [st0_eq]
    isplitl [Hv1t]; · iexact Hv1t
    isplitl [Hv2t]; · iexact Hv2t
    iexact Hv3
  iintro ⟨Hst, Hdn⟩
  ihave Hdn' := (Entails.of_eq (dn0_eq (F := F) (V1 m) (V2 m) (fun d => m (v3Loc d)) (Gm m) d)) $$ Hdn
  icases Hdn' with ⟨-, -, G3⟩
  imodintro
  isplitl [Hst]; · iexact Hst
  isplitl [H0]; · iexact H0
  isplitl [H1]; · iexact H1
  iexact G3

def fq (d : Dev nD) (s' : Phys nD τ sig (Elt F)) : Prop :=
  s'.mem.mem (v3Loc d) = Gm m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v3Loc d) (I := Finset.univ) (q := fullShare) (f := Gm m d)) $$ [HSI H3]
  · isplitl [HSI] <;> iassumption
  icases H with %h3
  ipureintro
  exact ⟨funext fun i => h3 i (Finset.mem_univ i), funext fun i => h0 i (Finset.mem_univ i), funext fun i => h1 i (Finset.mem_univ i)⟩

/-! ## The program's run -/

def QC : PUnit × MemSt nD τ sig (Elt F) → Prop := fun r =>
  ∀ c : Dev nD, r.2.mem (v3Loc c) = Gm m c ∧ r.2.mem (a0Loc c) = m (a0Loc c) ∧ r.2.mem (a1Loc c) = m (a1Loc c)

theorem run_main [∀ e, Nonempty (Elt F e)]
    (htile : (K (F := F)).TileObl (D (F := F)) 𝒱 (P (V1 m) (V2 m) (fun d => m (v3Loc d)) (Gm m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => htile)
    (fun q _ => match q with | 0 => SparseCore.Cfg.VecSplit.of_plain (vecSplit _ _ _ _))
    m ρ main (fun _ => iprop(emp)) (FIN m) (u₀ (F := F)) (sep_elim_left.trans (hu₀ m)) (hmain m ρ) (fq m) (hfin m) (QC m) (fun _ h => h)

end Cert.KI

end
-- ==== Proof.KI.Vals.lean ====
/-
  What a staging slot must hold, and what one chunk of sixteen tokens changes in it.

  The staging buffer has two slots of 64 x 200 words. For the local token row `bl` (a row of the subcore's 64 x 200
  token block `fi`, flat) the slot is to hold, at (j, t), the word `1000 j + fi[200 bl + t]` of the subcore's copy `ft` of
  its half of the flat transposed table. One chunk of the kernel's inner work fills sixteen consecutive columns of all
  sixty-four rows of one slot with these words and leaves every other word of the buffer as it was.
-/
import proofs.«218643_g31147102830872_cont_9to1_1815_7_alg».proof.Proof.KI.Setup

noncomputable section

namespace Cert.KI

open Cert.KernelIdeal Cert.KernelIdeal.Gen
open Idealize.ShloMosaic Idealize.ShloMosaic.ValueIdx

variable {F : FTy → Type}

/-- The two slots of the staging buffer, as the kernel's copies out of it name them. -/
abbrev slotM0 : Memref sig .scVector .vmem S64x200 .f32 :=
  ((Memref.whole cc0_scratch2 : Memref sig .scVector .vmem S2x64x200 .f32).slice (Rect.unit (s := S2x64x200) ![0, 0, 0] S1x64x200.size inb_S2x64x200_S1x64x200_0_0_0) (fun _ => rfl)).squeeze S64x200 squeezes_S1x64x200_S64x200
abbrev slotM1 : Memref sig .scVector .vmem S64x200 .f32 :=
  ((Memref.whole cc0_scratch2 : Memref sig .scVector .vmem S2x64x200 .f32).slice (Rect.unit (s := S2x64x200) ![1, 0, 0] S1x64x200.size inb_S2x64x200_S1x64x200_1_0_0) (fun _ => rfl)).squeeze S64x200 squeezes_S1x64x200_S64x200

/-- The word a slot holds at `y = (slot, j, t)` for local token row `bl`: the table copy at `1000 j + token`, the token
    the word `200 bl + t` of the token block (reduced so that the function is total; under the range fact the
    reductions do nothing). -/
def stageVal (ft : S64000.Idx → Elt F .f32) (fi : S12800.Idx → Elt F .i32) (bl : ℕ) : S2x64x200.Idx → Elt F .f32 :=
  fun y => ft (ix1 (n := 64000) ⟨1000 * (y 1).val + (fi (ix1 (n := 12800) ⟨(200 * bl + (y 2).val) % 12800, Nat.mod_lt _ (by decide)⟩)).toNat % 1000,
    by have h1 : (y 1).val < 64 := (y 1).isLt
       have h2 := Nat.mod_lt (fi (ix1 (n := 12800) ⟨(200 * bl + (y 2).val) % 12800, Nat.mod_lt _ (by decide)⟩)).toNat (show 0 < 1000 by decide)
       omega⟩)

/-- `fs'` is `fs` with columns [c0, c0 + 16) of slot `k` set to `sv`. -/
def ChunkSet (sv : S2x64x200.Idx → Elt F .f32) (k c0 : ℕ) (fs fs' : S2x64x200.Idx → Elt F .f32) : Prop :=
  ∀ y, fs' y = if (y 0).val = k ∧ c0 ≤ (y 2).val ∧ (y 2).val < c0 + 16 then sv y else fs y

/-- Slot `k` of `fs` holds `sv` on its columns below `n`. -/
def SlotDone (sv : S2x64x200.Idx → Elt F .f32) (k n : ℕ) (fs : S2x64x200.Idx → Elt F .f32) : Prop :=
  ∀ y, (y 0).val = k → (y 2).val < n → fs y = sv y

theorem SlotDone.zero (sv : S2x64x200.Idx → Elt F .f32) (k : ℕ) (fs : S2x64x200.Idx → Elt F .f32) : SlotDone sv k 0 fs :=
  fun _ _ h => absurd h (Nat.not_lt_zero _)

/-- A chunk at the columns right after those done extends them by sixteen. -/
theorem SlotDone.chunk {sv : S2x64x200.Idx → Elt F .f32} {k n : ℕ} {fs fs' : S2x64x200.Idx → Elt F .f32}
    (h : SlotDone sv k n fs) (hc : ChunkSet sv k n fs fs') : SlotDone sv k (n + 16) fs' := by
  intro y hy0 hy2
  rw [hc y]
  split
  · rfl
  · next hn =>
    exact h y hy0 (by omega)

/-- A chunk that overlaps columns already done (the last chunk starts at column 184 after twelve chunks reached 192)
    keeps them done and completes the slot. -/
theorem SlotDone.chunk_overlap {sv : S2x64x200.Idx → Elt F .f32} {k n c0 : ℕ} {fs fs' : S2x64x200.Idx → Elt F .f32}
    (h : SlotDone sv k n fs) (hc : ChunkSet sv k c0 fs fs') (hle : c0 ≤ n) : SlotDone sv k (c0 + 16) fs' := by
  intro y hy0 hy2
  rw [hc y]
  split
  · rfl
  · next hn =>
    exact h y hy0 (by omega)

/-- A chunk in one slot leaves the other slot's columns as they were. -/
theorem SlotDone.other {sv sv' : S2x64x200.Idx → Elt F .f32} {k k' n c0 : ℕ} {fs fs' : S2x64x200.Idx → Elt F .f32}
    (h : SlotDone sv k n fs) (hc : ChunkSet sv' k' c0 fs fs') (hk : k ≠ k') : SlotDone sv k n fs' := by
  intro y hy0 hy2
  rw [hc y, if_neg (fun hh => hk (hy0 ▸ hh.1))]
  exact h y hy0 hy2

end Cert.KI

end
-- ==== Proof.KI.Sets.lean ====
/-
  The element sets of the views the lookup kernel's copies go through: each of the two staging slots is the set of
  indices of the staging buffer with that slot number, the two are complementary, and the view of the result a copy
  lands in is the window out[b, 64 c .. 64 c + 64, :] of the token row b the copy serves.
-/
import proofs.«218643_g31147102830872_cont_9to1_1815_7_alg».proof.Proof.KI.Setup
import proofs.«218643_g31147102830872_cont_9to1_1815_7_alg».proof.Proof.KI.Vals

noncomputable section

namespace Cert.KI

open Cert.KernelIdeal Cert.KernelIdeal.Gen

open Idealize.ShloMosaic Idealize.ShloMosaic.ValueIdx
open Idealize.ShloMosaic.SparseCore (S V T)

variable {F : FTy → Type}

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

theorem bound_zero : grid0.bound 0 = 2 := rfl
theorem bound_one : grid0.bound 1 = 16 := rfl
/-- The SparseCore and the vector subcore of a grid point, as numbers below 2 and 16. -/
abbrev cL (L : grid0.Coords) : Fin 2 := Fin.cast bound_zero (L 0)
abbrev sL (L : grid0.Coords) : Fin 16 := Fin.cast bound_one (L 1)

/-! ## The two staging slots -/

/-- The first slot is the rectangle of the staging buffer with slot number 0. -/
theorem set_slotM0 : (slotM0).view.set
    = (Rect.unit (s := S2x64x200) ![0, 0, 0] S1x64x200.size inb_S2x64x200_S1x64x200_0_0_0).set := by
  show (((View.whole (cc0_scratch2 : Ref sig .scVector)).slice
      (Rect.unit (s := S2x64x200) ![0, 0, 0] S1x64x200.size inb_S2x64x200_S1x64x200_0_0_0)).reshape S64x200
        squeezes_S1x64x200_S64x200.numel_eq).set = _
  rw [View.set_reshape, View.set_slice]; exact Finset.map_refl

theorem set_slotM1 : (slotM1).view.set
    = (Rect.unit (s := S2x64x200) ![1, 0, 0] S1x64x200.size inb_S2x64x200_S1x64x200_1_0_0).set := by
  show (((View.whole (cc0_scratch2 : Ref sig .scVector)).slice
      (Rect.unit (s := S2x64x200) ![1, 0, 0] S1x64x200.size inb_S2x64x200_S1x64x200_1_0_0)).reshape S64x200
        squeezes_S1x64x200_S64x200.numel_eq).set = _
  rw [View.set_reshape, View.set_slice]; exact Finset.map_refl

/-- An index of the staging buffer lies in the first slot exactly when its slot number is 0. -/
theorem mem_slotM0 (y : S2x64x200.Idx) : y ∈ (slotM0).view.set ↔ (y 0).val = 0 := by
  rw [set_slotM0, Rect.mem_set_unit]
  constructor
  · intro h
    have h0 := h 0
    have e : (![0, 0, 0] : Fin 3 → Nat) 0 + S1x64x200.size 0 = 1 := rfl
    have e' : (![0, 0, 0] : Fin 3 → Nat) 0 = 0 := rfl
    omega
  · intro h a
    have h1 : (y 1).val < 64 := (y 1).isLt
    have h2 : (y 2).val < 200 := (y 2).isLt
    match a with
    | ⟨0, _⟩ => exact ⟨Nat.zero_le _, show (y 0).val < 0 + 1 by omega⟩
    | ⟨1, _⟩ => exact ⟨Nat.zero_le _, show (y 1).val < 0 + 64 by omega⟩
    | ⟨2, _⟩ => exact ⟨Nat.zero_le _, show (y 2).val < 0 + 200 by omega⟩

/-- An index of the staging buffer lies in the second slot exactly when its slot number is 1. -/
theorem mem_slotM1 (y : S2x64x200.Idx) : y ∈ (slotM1).view.set ↔ (y 0).val = 1 := by
  rw [set_slotM1, Rect.mem_set_unit]
  constructor
  · intro h
    have h0 := h 0
    have e : (![1, 0, 0] : Fin 3 → Nat) 0 + S1x64x200.size 0 = 2 := rfl
    have e' : (![1, 0, 0] : Fin 3 → Nat) 0 = 1 := rfl
    omega
  · intro h a
    have h1 : (y 1).val < 64 := (y 1).isLt
    have h2 : (y 2).val < 200 := (y 2).isLt
    match a with
    | ⟨0, _⟩ => exact ⟨show 1 ≤ (y 0).val by omega, show (y 0).val < 1 + 1 by omega⟩
    | ⟨1, _⟩ => exact ⟨Nat.zero_le _, show (y 1).val < 0 + 64 by omega⟩
    | ⟨2, _⟩ => exact ⟨Nat.zero_le _, show (y 2).val < 0 + 200 by omega⟩

/-- The two slots are complementary: what is not in the first is the second, -/
theorem compl_slotM0 : (Finset.univ : Finset S2x64x200.Idx) \ (slotM0).view.set = (slotM1).view.set := by
  ext y
  have h0 : (y 0).val < 2 := (y 0).isLt
  rw [Finset.mem_sdiff, mem_slotM0, mem_slotM1]
  simp only [Finset.mem_univ, true_and]
  omega

/-- and what is not in the second is the first. -/
theorem compl_slotM1 : (Finset.univ : Finset S2x64x200.Idx) \ (slotM1).view.set = (slotM0).view.set := by
  ext y
  have h0 : (y 0).val < 2 := (y 0).isLt
  rw [Finset.mem_sdiff, mem_slotM0, mem_slotM1]
  simp only [Finset.mem_univ, true_and]
  omega

/-! ## The views of the result the copies land in -/

theorem t1_trips : k0_t1_loop.trips = 32 := by decide

/-- The view of the result the copy out of the first slot goes through, at trip `k1` of the row loop, -/
abbrev outW0 (L : grid0.Coords) (k1 : Fin k0_t1_loop.trips) : Memref sig .scVector .hbm S64x200 .f32 :=
  ((v3W).slice (Rect.unit (s := S1024x128x200) (k0_off69 L k1) S1x64x200.size (k0_off69_inb L k1)) (fun _ => rfl)).squeeze S64x200 squeezes_S1x64x200_S64x200
/-- and the one the copy out of the second slot goes through. -/
abbrev outW1 (L : grid0.Coords) (k1 : Fin k0_t1_loop.trips) : Memref sig .scVector .hbm S64x200 .f32 :=
  ((v3W).slice (Rect.unit (s := S1024x128x200) (k0_off136 L k1) S1x64x200.size (k0_off136_inb L k1)) (fun _ => rfl)).squeeze S64x200 squeezes_S1x64x200_S64x200

/-- The local token rows trip `k1` serves: `2 k1` through the first slot, `2 k1 + 1` through the second. -/
theorem t1_lt (k1 : Fin k0_t1_loop.trips) : k1.val < 32 := lt_of_lt_of_eq k1.isLt t1_trips
abbrev rowE (k1 : Fin k0_t1_loop.trips) : Fin 64 := ⟨2 * k1.val, by have := t1_lt k1; omega⟩
abbrev rowO (k1 : Fin k0_t1_loop.trips) : Fin 64 := ⟨2 * k1.val + 1, by have := t1_lt k1; omega⟩
theorem rowE_val (k1 : Fin k0_t1_loop.trips) : (rowE k1).val = 2 * k1.val := rfl
theorem rowO_val (k1 : Fin k0_t1_loop.trips) : (rowO k1).val = 2 * k1.val + 1 := rfl

/-- The rectangle the first copy's offsets name is the window of token row `64 s + 2 k1` at the columns of half `c`. -/
theorem rect_outW0 (L : grid0.Coords) (k1 : Fin k0_t1_loop.trips) :
    Rect.unit (s := S1024x128x200) (k0_off69 L k1) S1x64x200.size (k0_off69_inb L k1) = winR (rowB (sL L) (rowE k1)) (cL L) :=
  Rect.unit_congr ((k0_off69_eq L k1).trans rfl) _ _

theorem rect_outW1 (L : grid0.Coords) (k1 : Fin k0_t1_loop.trips) :
    Rect.unit (s := S1024x128x200) (k0_off136 L k1) S1x64x200.size (k0_off136_inb L k1) = winR (rowB (sL L) (rowO k1)) (cL L) :=
  Rect.unit_congr ((k0_off136_eq L k1).trans rfl) _ _

/-- The first copy lands in the window of token row `64 s + 2 k1`, -/
theorem set_outW0 (L : grid0.Coords) (k1 : Fin k0_t1_loop.trips) :
    (outW0 L k1).view.set = winSet (rowB (sL L) (rowE k1)) (cL L) := by
  show (((View.whole (main_v3_scv : Ref sig .scVector)).slice
      (Rect.unit (s := S1024x128x200) (k0_off69 L k1) S1x64x200.size (k0_off69_inb L k1))).reshape S64x200
        squeezes_S1x64x200_S64x200.numel_eq).set = _
  rw [View.set_reshape, View.set_slice]
  exact Finset.map_refl.trans (congrArg (fun r : Rect S1024x128x200 => r.toLoadRect.set) (rect_outW0 L k1))

/-- the second in the window of token row `64 s + 2 k1 + 1`. -/
theorem set_outW1 (L : grid0.Coords) (k1 : Fin k0_t1_loop.trips) :
    (outW1 L k1).view.set = winSet (rowB (sL L) (rowO k1)) (cL L) := by
  show (((View.whole (main_v3_scv : Ref sig .scVector)).slice
      (Rect.unit (s := S1024x128x200) (k0_off136 L k1) S1x64x200.size (k0_off136_inb L k1))).reshape S64x200
        squeezes_S1x64x200_S64x200.numel_eq).set = _
  rw [View.set_reshape, View.set_slice]
  exact Finset.map_refl.trans (congrArg (fun r : Rect S1024x128x200 => r.toLoadRect.set) (rect_outW1 L k1))

end Cert.KI

end
-- ==== Proof.KI.Rows.lean ====
/-
  Runs of rows of the result at one column half: the elements (b, j, t) with j in half c and lo ≤ b < hi. A run splits
  at any row between its ends, the empty run holds nothing, a run of one row is that row's window, and the sixty-four
  windows of a vector subcore are the run of its rows.
-/
import proofs.«218643_g31147102830872_cont_9to1_1815_7_alg».proof.Proof.KI.Setup
import proofs.«218643_g31147102830872_cont_9to1_1815_7_alg».proof.Proof.KI.Windows

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sets -/

/-- The rows `lo ≤ b < hi` of the result at the columns of half `c`. -/
def rowsSet (c : Fin 2) (lo hi : ℕ) : Finset S1024x128x200.Idx :=
  Finset.univ.filter fun i => (i 1).val / 64 = c.val ∧ lo ≤ (i 0).val ∧ (i 0).val < hi

theorem mem_rowsSet {c : Fin 2} {lo hi : ℕ} {i : S1024x128x200.Idx} :
    i ∈ rowsSet c lo hi ↔ (i 1).val / 64 = c.val ∧ lo ≤ (i 0).val ∧ (i 0).val < hi := by
  unfold rowsSet
  rw [Finset.mem_filter]
  exact and_iff_right (Finset.mem_univ _)

theorem rowsSet_empty (c : Fin 2) (lo hi : ℕ) (h : hi ≤ lo) : rowsSet c lo hi = ∅ := by
  ext i
  simp only [mem_rowsSet, Finset.notMem_empty, iff_false]
  rintro ⟨_, h1, h2⟩
  omega

theorem rowsSet_one (c : Fin 2) (b : Fin 1024) : rowsSet c b.val (b.val + 1) = winSet b c := by
  ext i
  rw [mem_rowsSet, mem_winSet]
  constructor
  · rintro ⟨hc, h1, h2⟩
    exact ⟨by omega, hc⟩
  · rintro ⟨h0, hc⟩
    exact ⟨hc, by omega, by omega⟩

theorem rowsSet_union (c : Fin 2) {lo mid hi : ℕ} (h1 : lo ≤ mid) (h2 : mid ≤ hi) :
    rowsSet c lo hi = rowsSet c lo mid ∪ rowsSet c mid hi := by
  ext i
  simp only [Finset.mem_union, mem_rowsSet]
  constructor
  · rintro ⟨hc, hl, hh⟩
    by_cases hm : (i 0).val < mid
    · exact Or.inl ⟨hc, hl, hm⟩
    · exact Or.inr ⟨hc, by omega, hh⟩
  · rintro (⟨hc, hl, hh⟩ | ⟨hc, hl, hh⟩)
    · exact ⟨hc, hl, by omega⟩
    · exact ⟨hc, by omega, hh⟩

theorem rowsSet_disjoint (c : Fin 2) (lo mid hi : ℕ) : Disjoint (rowsSet c lo mid) (rowsSet c mid hi) := by
  refine Finset.disjoint_left.mpr fun i hi hi' => ?_
  have h := (mem_rowsSet.mp hi).2.2
  have h' := (mem_rowsSet.mp hi').2.1
  omega

theorem rowB_val (s : Fin 16) (r : Fin 64) : (rowB s r).val = 64 * s.val + r.val := rfl

/-- A vector subcore's sixty-four windows are the run of its rows. -/
theorem tile_cover (s : Fin 16) (c : Fin 2) :
    (Finset.univ : Finset (Fin 64)).biUnion (fun r => winSet (rowB s r) c) = rowsSet c (64 * s.val) (64 * s.val + 64) := by
  ext i
  simp only [Finset.mem_biUnion, Finset.mem_univ, true_and, mem_winSet, mem_rowsSet, rowB_val]
  constructor
  · rintro ⟨r, h0, hc⟩
    have := r.isLt
    exact ⟨hc, by omega, by omega⟩
  · rintro ⟨hc, hl, hh⟩
    exact ⟨⟨(i 0).val - 64 * s.val, by omega⟩, by show (i 0).val = 64 * s.val + ((i 0).val - 64 * s.val); omega, hc⟩

theorem tile_disjoint (s : Fin 16) (c : Fin 2) : ∀ r ∈ (Finset.univ : Finset (Fin 64)), ∀ r' ∈ (Finset.univ : Finset (Fin 64)), r ≠ r' →
    Disjoint (winSet (rowB s r) c) (winSet (rowB s r') c) := by
  intro r _ r' _ hne
  refine Finset.disjoint_left.mpr fun i hi hi' => hne ?_
  have h : (i 0).val = 64 * s.val + r.val := (mem_winSet.mp hi).1
  have h' : (i 0).val = 64 * s.val + r'.val := (mem_winSet.mp hi').1
  exact Fin.ext (by omega)

/-! ## The points-to forms -/

section PointsTo

variable (d : Dev nD) (c : Fin 2) (f : Buf (Elt F) (v3Loc d))

/-- A run of rows is its two parts at any row between its ends: as an equation, -/
theorem rows_split_eq {lo mid hi : ℕ} (h1 : lo ≤ mid) (h2 : mid ≤ hi) :
    (v3Loc d ↦[rowsSet c lo hi]{fullShare} f : sProp 𝕄)
      = iprop((v3Loc d ↦[rowsSet c lo mid]{fullShare} f) ∗ (v3Loc d ↦[rowsSet c mid hi]{fullShare} f)) := by
  rw [rowsSet_union c h1 h2]
  have hu : (v3Loc d ↦[rowsSet c lo mid ∪ rowsSet c mid hi]{fullShare} f : sProp 𝕄)
      ⊣⊢ iprop((v3Loc d ↦[rowsSet c lo mid]{fullShare} f) ∗ (v3Loc d ↦[rowsSet c mid hi]{fullShare} f)) :=
    pointsTo_union (rowsSet_disjoint c lo mid hi)
  exact BI.equiv_iff.mp ⟨hu.1, hu.2⟩

/-- and as the two entailments. -/
theorem rows_split {lo mid hi : ℕ} (h1 : lo ≤ mid) (h2 : mid ≤ hi) :
    (v3Loc d ↦[rowsSet c lo hi]{fullShare} f : sProp 𝕄)
      ⊢ iprop((v3Loc d ↦[rowsSet c lo mid]{fullShare} f) ∗ (v3Loc d ↦[rowsSet c mid hi]{fullShare} f)) :=
  Entails.of_eq (rows_split_eq d c f h1 h2)

theorem rows_join {lo mid hi : ℕ} (h1 : lo ≤ mid) (h2 : mid ≤ hi) :
    iprop((v3Loc d ↦[rowsSet c lo mid]{fullShare} f) ∗ (v3Loc d ↦[rowsSet c mid hi]{fullShare} f))
      ⊢ (v3Loc d ↦[rowsSet c lo hi]{fullShare} f : sProp 𝕄) :=
  Entails.of_eq (rows_split_eq d c f h1 h2).symm

/-- The empty run holds nothing. -/
theorem rows_empty_eq (lo : ℕ) : (v3Loc d ↦[rowsSet c lo lo]{fullShare} f : sProp 𝕄) = iprop(emp) := by
  rw [rowsSet_empty c lo lo le_rfl, pointsTo_empty]

theorem rows_empty (lo : ℕ) : (iprop(emp) : sProp 𝕄) ⊢ v3Loc d ↦[rowsSet c lo lo]{fullShare} f :=
  Entails.of_eq (rows_empty_eq d c f lo).symm

theorem rows_empty_elim (lo : ℕ) : (v3Loc d ↦[rowsSet c lo lo]{fullShare} f : sProp 𝕄) ⊢ iprop(emp) :=
  Entails.of_eq (rows_empty_eq d c f lo)

/-- A run of one row is that row's window. -/
theorem rows_one (b : Fin 1024) :
    (v3Loc d ↦[rowsSet c b.val (b.val + 1)]{fullShare} f : sProp 𝕄) = (v3Loc d ↦[winSet b c]{fullShare} f) := by
  rw [rowsSet_one]

/-- A vector subcore's sixty-four windows as one points-to: as an equation, -/
theorem tile_rows_eq (s : Fin 16) :
    (bigSep (Finset.univ : Finset (Fin 64)) fun r => (v3Loc d ↦[winSet (rowB s r) c]{fullShare} f : sProp 𝕄))
      = (v3Loc d ↦[rowsSet c (64 * s.val) (64 * s.val + 64)]{fullShare} f) := by
  rw [← pointsTo_biUnion Finset.univ (ℓ := v3Loc d) (fun r : Fin 64 => winSet (rowB s r) c) (tile_disjoint s c), tile_cover]

/-- and as the two entailments. -/
theorem tile_rows (s : Fin 16) :
    (bigSep (Finset.univ : Finset (Fin 64)) fun r => (v3Loc d ↦[winSet (rowB s r) c]{fullShare} f : sProp 𝕄))
      ⊢ (v3Loc d ↦[rowsSet c (64 * s.val) (64 * s.val + 64)]{fullShare} f) :=
  Entails.of_eq (tile_rows_eq d c f s)

theorem tile_rows_back (s : Fin 16) :
    (v3Loc d ↦[rowsSet c (64 * s.val) (64 * s.val + 64)]{fullShare} f : sProp 𝕄)
      ⊢ bigSep (Finset.univ : Finset (Fin 64)) fun r => (v3Loc d ↦[winSet (rowB s r) c]{fullShare} f : sProp 𝕄) :=
  Entails.of_eq (tile_rows_eq d c f s).symm

/-- Contents that agree on a set are the same points-to there. -/
theorem rows_congr {A : Finset S1024x128x200.Idx} {g : Buf (Elt F) (v3Loc d)} (h : ∀ i ∈ A, f i = g i) :
    (v3Loc d ↦[A]{fullShare} f : sProp 𝕄) ⊢ (v3Loc d ↦[A]{fullShare} g) :=
  Entails.of_eq (pointsTo_congr h)

end PointsTo

end Cert.KI

end
-- ==== Proof.KI.ValsG.lean ====
/-
  The values the lookup kernel moves, against the lookup: the word a staging slot is to hold for a local token row is
  the lookup's entry for that row; the two copies at the start bring in the subcore's half of the flat transposed
  table and its block of the flat tokens; and a complete slot copied out leaves the lookup on its window of the result.
-/
import proofs.«218643_g31147102830872_cont_9to1_1815_7_alg».proof.Proof.KI.Sets
import Idealize.ShloMosaic.Lib.Writes
import Idealize.ShloMosaic.Lib.ValueIdx

noncomputable section

namespace Cert.KI

open Cert.KernelIdeal Cert.KernelIdeal.Gen

open Idealize.ShloMosaic Idealize.ShloMosaic.ValueIdx
open Idealize.ShloMosaic.SparseCore (S V T)

variable {F : FTy → Type}

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

/-! ## The word a slot is to hold is the lookup's -/

section Stage

variable (f1 : (d : Dev nD) → Buf (Elt F) (v1Loc d)) (f2 : (d : Dev nD) → Buf (Elt F) (v2Loc d))
  (G : (d : Dev nD) → Buf (Elt F) (v3Loc d)) (d : Dev nD) (L : grid0.Coords)

/-- The subcore's copy `ft` of the table is words [64000 c, 64000 c + 64000) of the flat transposed table. -/
abbrev TabIs (ft : S64000.Idx → Elt F .f32) : Prop :=
  ∀ j : Fin 64000, ft (ix1 j) = f1 d (ix1 (n := 128000) ⟨64000 * (cL L).val + j.val, by have := (cL L).isLt; have := j.isLt; omega⟩)

/-- The subcore's token block `fi` is words [12800 s, 12800 s + 12800) of the flat tokens. -/
abbrev TokIs (fi : S12800.Idx → Elt F .i32) : Prop :=
  ∀ j : Fin 12800, fi (ix1 j) = f2 d (ix1 (n := 204800) ⟨12800 * (sL L).val + j.val, by have := (sL L).isLt; have := j.isLt; omega⟩)

/-- For local token row `bl`, the word the slot is to hold at (j, t) is the lookup at (64 s + bl, 64 c + j, t):
    word 1000 j + token of the table copy is word 64000 c + 1000 j + token = 1000 (64 c + j) + token of the flat
    table, and word 200 bl + t of the token block is word 12800 s + 200 bl + t = 200 (64 s + bl) + t of the flat
    tokens. -/
theorem stageVal_eq_G (hg : Good f1 f2 G d) (ft : S64000.Idx → Elt F .f32) (fi : S12800.Idx → Elt F .i32)
    (hft : TabIs f1 d L ft) (hfi : TokIs f2 d L fi) (bl : Fin 64) (y : S2x64x200.Idx) :
    stageVal ft fi bl.val y
      = G d (ix3 (rowB (sL L) bl)
          (⟨64 * (cL L).val + (y 1).val, by have := (cL L).isLt; have h1 : (y 1).val < 64 := (y 1).isLt; omega⟩ : Fin 128)
          (⟨(y 2).val, (y 2).isLt⟩ : Fin 200)) := by
  have hb : bl.val < 64 := bl.isLt
  have h1 : (y 1).val < 64 := (y 1).isLt
  have h2 : (y 2).val < 200 := (y 2).isLt
  have hc : (cL L).val < 2 := (cL L).isLt
  have hs : (sL L).val < 16 := (sL L).isLt
  have hmod : (200 * bl.val + (y 2).val) % 12800 = 200 * bl.val + (y 2).val := Nat.mod_eq_of_lt (by omega)
  have htok : fi (ix1 (n := 12800) ⟨(200 * bl.val + (y 2).val) % 12800, Nat.mod_lt _ (by decide)⟩)
      = f2 d (ix1 (n := 204800) ⟨200 * (rowB (sL L) bl).val + (y 2).val, by
          have : (rowB (sL L) bl).val = 64 * (sL L).val + bl.val := rfl
          omega⟩) := by
    refine (hfi _).trans (congrArg (f2 d) (congrArg (ix1 (n := 204800)) (Fin.ext ?_)))
    show 12800 * (sL L).val + (200 * bl.val + (y 2).val) % 12800 = 200 * (64 * (sL L).val + bl.val) + (y 2).val
    omega
  refine Eq.trans ?_ (hg.look _ _ _).symm
  refine (hft _).trans (congrArg (f1 d) (congrArg (ix1 (n := 128000)) (Fin.ext ?_)))
  show 64000 * (cL L).val + (1000 * (y 1).val
        + (fi (ix1 (n := 12800) ⟨(200 * bl.val + (y 2).val) % 12800, Nat.mod_lt _ (by decide)⟩)).toNat % 1000)
      = 1000 * (64 * (cL L).val + (y 1).val)
        + (f2 d (ix1 (n := 204800) ⟨200 * (rowB (sL L) bl).val + (y 2).val, _⟩)).toNat % 1000
  rw [htok]
  omega

/-- Every token of the block names a row of the table when every flat token does. -/
theorem fi_range (hr : ∀ j, (f2 d j).toNat < 1000) (fi : S12800.Idx → Elt F .i32) (hfi : TokIs f2 d L fi) :
    ∀ j, (fi j).toNat < 1000 := by
  intro j
  have hj : fi j = f2 d _ := (congrArg fi (eq_ix1 (n := 12800) j)).trans (hfi (j 0))
  rw [hj]
  exact hr _

end Stage

/-! ## The two copies at the start -/

/-- After the copy of words [64000 c, 64000 c + 64000) of the flat transposed table `f1'` into the table copy, the
    table copy holds them. -/
theorem tab_copy (L : grid0.Coords) (f1' : S128000.Idx → Elt F .f32) (ft0 : S64000.Idx → Elt F .f32) (j : Fin 64000) :
    (tabW).view.write (Elt F) ft0
        ((ReadAs.same : ReadAs (Elt F) S64000 .f32 S64000 .f32).apply
          (((v1W).slice (Rect.unit (s := S128000) (k0_off1 L) S64000.size (k0_off1_inb L)) (fun _ => rfl)).view.read (Elt F) f1'))
        Finset.univ (ix1 j)
      = f1' (ix1 (n := 128000) ⟨64000 * (cL L).val + j.val, by have := (cL L).isLt; have := j.isLt; omega⟩) := by
  show (View.whole (cc0_scratch0 : Ref sig .scVector)).write (Elt F) ft0 _ Finset.univ (ix1 j) = _
  rw [View.write_whole_univ]
  show f1' ((Rect.unit (s := S128000) (k0_off1 L) S64000.size (k0_off1_inb L)).emb (ix1 j)) = _
  refine congrArg f1' ((eq_ix1 _).trans (congrArg (ix1 (n := 128000)) (Fin.ext ?_)))
  show (k0_off1 L) 0 + 1 * j.val = 64000 * (cL L).val + j.val
  rw [k0_off1_eq]
  show 64000 * (L 0).val + 1 * j.val = 64000 * (L 0).val + j.val
  omega

/-- After the copy of words [12800 s, 12800 s + 12800) of the flat tokens `f2'` into the token block, the token block
    holds them. -/
theorem tok_copy (L : grid0.Coords) (f2' : S204800.Idx → Elt F .i32) (fi0 : S12800.Idx → Elt F .i32) (j : Fin 12800) :
    (idxW).view.write (Elt F) fi0
        ((ReadAs.same : ReadAs (Elt F) S12800 .i32 S12800 .i32).apply
          (((v2W).slice (Rect.unit (s := S204800) (k0_off2 L) S12800.size (k0_off2_inb L)) (fun _ => rfl)).view.read (Elt F) f2'))
        Finset.univ (ix1 j)
      = f2' (ix1 (n := 204800) ⟨12800 * (sL L).val + j.val, by have := (sL L).isLt; have := j.isLt; omega⟩) := by
  show (View.whole (cc0_scratch1 : Ref sig .scVector)).write (Elt F) fi0 _ Finset.univ (ix1 j) = _
  rw [View.write_whole_univ]
  show f2' ((Rect.unit (s := S204800) (k0_off2 L) S12800.size (k0_off2_inb L)).emb (ix1 j)) = _
  refine congrArg f2' ((eq_ix1 _).trans (congrArg (ix1 (n := 204800)) (Fin.ext ?_)))
  show (k0_off2 L) 0 + 1 * j.val = 12800 * (sL L).val + j.val
  rw [k0_off2_eq]
  show 12800 * (L 1).val + 1 * j.val = 12800 * (L 1).val + j.val
  omega

/-! ## A complete slot copied out leaves the lookup on its window -/

/-- Where the first slot's (j, t) sits in the staging buffer: at (0, j, t); -/
theorem emb_slotM0 (x : S64x200.Idx) :
    (slotM0).view.emb x = ix3 (⟨0, by decide⟩ : Fin 2) (⟨(x 0).val, (x 0).isLt⟩ : Fin 64) (⟨(x 1).val, (x 1).isLt⟩ : Fin 200) := by
  show (Rect.unit (s := S2x64x200) ![0, 0, 0] S1x64x200.size inb_S2x64x200_S1x64x200_0_0_0).emb
      (Shape.reshapeEquiv squeezes_S1x64x200_S64x200.numel_eq x) = _
  rw [Shape.reshapeEquiv_cons_one]
  funext a
  refine Fin.ext ?_
  match a with
  | ⟨0, _⟩ => rfl
  | ⟨1, _⟩ => show 0 + 1 * (x 0).val = (x 0).val; omega
  | ⟨2, _⟩ => show 0 + 1 * (x 1).val = (x 1).val; omega

/-- the second slot's at (1, j, t). -/
theorem emb_slotM1 (x : S64x200.Idx) :
    (slotM1).view.emb x = ix3 (⟨1, by decide⟩ : Fin 2) (⟨(x 0).val, (x 0).isLt⟩ : Fin 64) (⟨(x 1).val, (x 1).isLt⟩ : Fin 200) := by
  show (Rect.unit (s := S2x64x200) ![1, 0, 0] S1x64x200.size inb_S2x64x200_S1x64x200_1_0_0).emb
      (Shape.reshapeEquiv squeezes_S1x64x200_S64x200.numel_eq x) = _
  rw [Shape.reshapeEquiv_cons_one]
  funext a
  refine Fin.ext ?_
  match a with
  | ⟨0, _⟩ => rfl
  | ⟨1, _⟩ => show 0 + 1 * (x 0).val = (x 0).val; omega
  | ⟨2, _⟩ => show 0 + 1 * (x 1).val = (x 1).val; omega

/-- Where (j, t) of the view the first copy lands in sits in the result: at (64 s + 2 k1, 64 c + j, t); -/
theorem emb_outW0 (L : grid0.Coords) (k1 : Fin k0_t1_loop.trips) (x : S64x200.Idx) :
    (outW0 L k1).view.emb x
      = ix3 (rowB (sL L) (rowE k1))
          (⟨64 * (cL L).val + (x 0).val, by have := (cL L).isLt; have h0 : (x 0).val < 64 := (x 0).isLt; omega⟩ : Fin 128)
          (⟨(x 1).val, (x 1).isLt⟩ : Fin 200) := by
  show (Rect.unit (s := S1024x128x200) (k0_off69 L k1) S1x64x200.size (k0_off69_inb L k1)).emb
      (Shape.reshapeEquiv squeezes_S1x64x200_S64x200.numel_eq x) = _
  rw [Shape.reshapeEquiv_cons_one]
  funext a
  refine Fin.ext ?_
  have e : k0_off69 L k1 a = (![64 * (L 1).val + 2 * k1.val, 64 * (L 0).val, 0] : Fin 3 → Nat) a := congrFun (k0_off69_eq L k1) a
  rw [Rect.emb_apply, Rect.off_unit, Rect.stride_unit, e]
  match a with
  | ⟨0, _⟩ => show 64 * (L 1).val + 2 * k1.val + 1 * 0 = 64 * (L 1).val + 2 * k1.val; omega
  | ⟨1, _⟩ => show 64 * (L 0).val + 1 * (x 0).val = 64 * (L 0).val + (x 0).val; omega
  | ⟨2, _⟩ => show 0 + 1 * (x 1).val = (x 1).val; omega

/-- of the view the second copy lands in, at (64 s + 2 k1 + 1, 64 c + j, t). -/
theorem emb_outW1 (L : grid0.Coords) (k1 : Fin k0_t1_loop.trips) (x : S64x200.Idx) :
    (outW1 L k1).view.emb x
      = ix3 (rowB (sL L) (rowO k1))
          (⟨64 * (cL L).val + (x 0).val, by have := (cL L).isLt; have h0 : (x 0).val < 64 := (x 0).isLt; omega⟩ : Fin 128)
          (⟨(x 1).val, (x 1).isLt⟩ : Fin 200) := by
  show (Rect.unit (s := S1024x128x200) (k0_off136 L k1) S1x64x200.size (k0_off136_inb L k1)).emb
      (Shape.reshapeEquiv squeezes_S1x64x200_S64x200.numel_eq x) = _
  rw [Shape.reshapeEquiv_cons_one]
  funext a
  refine Fin.ext ?_
  have e : k0_off136 L k1 a = (![64 * (L 1).val + 2 * k1.val + 1, 64 * (L 0).val, 0] : Fin 3 → Nat) a := congrFun (k0_off136_eq L k1) a
  rw [Rect.emb_apply, Rect.off_unit, Rect.stride_unit, e]
  match a with
  | ⟨0, _⟩ => show 64 * (L 1).val + 2 * k1.val + 1 + 1 * 0 = 64 * (L 1).val + (2 * k1.val + 1); omega
  | ⟨1, _⟩ => show 64 * (L 0).val + 1 * (x 0).val = 64 * (L 0).val + (x 0).val; omega
  | ⟨2, _⟩ => show 0 + 1 * (x 1).val = (x 1).val; omega

section Landed

variable (f1 : (d : Dev nD) → Buf (Elt F) (v1Loc d)) (f2 : (d : Dev nD) → Buf (Elt F) (v2Loc d))
  (G : (d : Dev nD) → Buf (Elt F) (v3Loc d)) (d : Dev nD) (L : grid0.Coords)

/-- The first slot, complete for local token row `2 k1`, copied whole through the view of the result the first copy
    lands in, leaves the lookup on that view's elements, whatever the result held. -/
theorem landed0 (hg : Good f1 f2 G d) (ft : S64000.Idx → Elt F .f32) (fi : S12800.Idx → Elt F .i32)
    (hft : TabIs f1 d L ft) (hfi : TokIs f2 d L fi) (k1 : Fin k0_t1_loop.trips)
    (fsA : S2x64x200.Idx → Elt F .f32) (hA : SlotDone (stageVal ft fi (2 * k1.val)) 0 200 fsA)
    (fo : Buf (Elt F) (v3Loc d)) :
    ∀ i ∈ (outW0 L k1).view.set,
      (outW0 L k1).view.writes (Elt F) fo
          [⟨Rect.whole S64x200, (ReadAs.same : ReadAs (Elt F) S64x200 .f32 S64x200 .f32).apply ((slotM0).view.read (Elt F) fsA)⟩] i
        = G d i := by
  intro i hi
  obtain ⟨x, -, rfl⟩ := Finset.mem_map.mp hi
  have hw := View.read_writes_cons_emb (outW0 L k1).view fo (Rect.whole S64x200)
    ((ReadAs.same : ReadAs (Elt F) S64x200 .f32 S64x200 .f32).apply ((slotM0).view.read (Elt F) fsA)) [] x
  rw [Rect.emb_whole_apply] at hw
  refine Eq.trans ?_ (hw.trans ?_)
  · rfl
  · show fsA ((slotM0).view.emb x) = G d ((outW0 L k1).view.emb x)
    rw [emb_slotM0, emb_outW0, hA _ rfl (x 1).isLt]
    exact stageVal_eq_G f1 f2 G d L hg ft fi hft hfi (rowE k1) _

/-- The same for the second slot, local token row `2 k1 + 1` and the second copy. -/
theorem landed1 (hg : Good f1 f2 G d) (ft : S64000.Idx → Elt F .f32) (fi : S12800.Idx → Elt F .i32)
    (hft : TabIs f1 d L ft) (hfi : TokIs f2 d L fi) (k1 : Fin k0_t1_loop.trips)
    (fsB : S2x64x200.Idx → Elt F .f32) (hB : SlotDone (stageVal ft fi (2 * k1.val + 1)) 1 200 fsB)
    (fo : Buf (Elt F) (v3Loc d)) :
    ∀ i ∈ (outW1 L k1).view.set,
      (outW1 L k1).view.writes (Elt F) fo
          [⟨Rect.whole S64x200, (ReadAs.same : ReadAs (Elt F) S64x200 .f32 S64x200 .f32).apply ((slotM1).view.read (Elt F) fsB)⟩] i
        = G d i := by
  intro i hi
  obtain ⟨x, -, rfl⟩ := Finset.mem_map.mp hi
  have hw := View.read_writes_cons_emb (outW1 L k1).view fo (Rect.whole S64x200)
    ((ReadAs.same : ReadAs (Elt F) S64x200 .f32 S64x200 .f32).apply ((slotM1).view.read (Elt F) fsB)) [] x
  rw [Rect.emb_whole_apply] at hw
  refine Eq.trans ?_ (hw.trans ?_)
  · rfl
  · show fsB ((slotM1).view.emb x) = G d ((outW1 L k1).view.emb x)
    rw [emb_slotM1, emb_outW1, hB _ rfl (x 1).isLt]
    exact stageVal_eq_G f1 f2 G d L hg ft fi hft hfi (rowO k1) _

end Landed

end Cert.KI

end
-- ==== Proof.KI.Chunk.lean ====
/-
  One chunk of the kernel's inner work, as a value.

  A chunk reads sixteen consecutive tokens of one row of the token block and, for each of the sixty-four table rows
  `g`, gathers the table copy at the sixteen words `token + 1000 g` and stores them as a box of sixteen words at
  (slot, g, column). Every token is below 1000, so `token + 1000 g` is below 64000: the gather's range check passes,
  the 32-bit sum does not wrap, and the gathered word is the word the slot must hold there (`stageVal`). The
  sixty-four boxes are the rows of one 64 x 16 block of the slot; after them the block holds `stageVal` and every other
  word of the buffer is as before (`ChunkSet`). The statement is about the buffer's contents as the list of stores
  leaves them, whatever part of the buffer is held.
-/
import proofs.«218643_g31147102830872_cont_9to1_1815_7_alg».proof.Proof.KI.Vals
import Idealize.ShloMosaic.Lib.Writes
import Idealize.ShloMosaic.Lib.WritesUnit
import Idealize.ShloMosaic.Lib.ValueIdx
import Idealize.ShloMosaic.Lib.Pipeline.Value
import Idealize.ShloMosaic.Lib.Exec.Geometry

noncomputable section

namespace Cert.KI

open Cert.KernelIdeal Cert.KernelIdeal.Gen
open Idealize.ShloMosaic Idealize.ShloMosaic.ValueIdx
open Idealize.ShloMosaic.SparseCore (S V T)

variable {F : FTy → Type}

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)

/-! ## The gather's range check -/

/-- Every word a load of the token block reads is a token: below 1000. -/
theorem read_lt (d : Dev nD) (L : grid0.Coords) (fi : Buf (Elt F) ((idxW).view.loc (V d (cV L) (jV L))))
    (hfi : ∀ j, (fi j).toNat < 1000) (r : LoadRect S12800) :
    ∀ x, ((View.readAt (Elt F) (idxW).view r fi) x).toNat < 1000 := by
  intro x
  simp only [View.readAt_apply, Memref.view_whole, View.read_whole]
  exact hfi _

/-- The range check of a gather whose index vector is sixteen tokens plus a row offset of at most 63000:
    every token is below 1000, so every lane is below 64000. -/
theorem chk_ok (d : Dev nD) (L : grid0.Coords) (fi : Buf (Elt F) ((idxW).view.loc (V d (cV L) (jV L))))
    (hfi : ∀ j, (fi j).toNat < 1000) (off : Fin 1 → Nat) (hoff : ∀ a, off a + S16.size a ≤ S12800.size a)
    (c : BitVec 32) (hc : c.toNat ≤ 63000) :
    ∀ a x, ((![addi (View.readAt (Elt F) (idxW).view (Rect.unit (s := S12800) off S16.size hoff).toLoadRect fi) (broadcast S16 c)]
      : Fin 1 → IVec S16 32) a x).toNat < S64000.size a := by
  intro a x
  obtain rfl : a = 0 := Subsingleton.elim _ _
  show (IntOp.addi (View.readAt (Elt F) (idxW).view (Rect.unit (s := S12800) off S16.size hoff).toLoadRect fi x) c).toNat < 64000
  unfold IntOp.addi
  rw [BitVec.toNat_add]
  have h := read_lt d L fi hfi (Rect.unit (s := S12800) off S16.size hoff).toLoadRect x
  omega

/-! ## One store of a chunk, and the list of its sixty-four stores -/

/-- Piece `p` is a store of sixteen consecutive words of row `g` of slot `k`, from column `c0`, and what it
    stores at each of them is `sv` there. The rectangle's offsets, sizes and strides are given by equations, so that
    offsets the program computes and their closed form both fit. -/
structure IsChunkPiece (sv : S2x64x200.Idx → Elt F .f32) (k c0 g : ℕ) (p : View.Piece (Elt F) S2x64x200 .f32) : Prop where
  off : p.1.off = ![k, g, c0]
  size : p.1.size = ![1, 1, 16]
  stride : ∀ a, p.1.stride a = 1
  val : ∀ x, p.2 x = sv (p.1.emb x)

/-- The words such a piece covers: row `g` of slot `k`, columns [c0, c0 + 16). -/
theorem IsChunkPiece.mem_iff {sv : S2x64x200.Idx → Elt F .f32} {k c0 g : ℕ} {p : View.Piece (Elt F) S2x64x200 .f32}
    (h : IsChunkPiece sv k c0 g p) (y : S2x64x200.Idx) :
    y ∈ p.1.set ↔ (y 0).val = k ∧ (y 1).val = g ∧ c0 ≤ (y 2).val ∧ (y 2).val < c0 + 16 := by
  rw [LoadRect.mem_set]
  constructor
  · intro hm
    obtain ⟨j0, hj0, e0⟩ := hm 0
    obtain ⟨j1, hj1, e1⟩ := hm 1
    obtain ⟨j2, hj2, e2⟩ := hm 2
    rw [h.off, h.stride] at e0 e1 e2
    rw [h.size] at hj0 hj1 hj2
    have hj0' : j0 < 1 := hj0
    have hj1' : j1 < 1 := hj1
    have hj2' : j2 < 16 := hj2
    have e0' : (y 0).val = k + 1 * j0 := e0
    have e1' : (y 1).val = g + 1 * j1 := e1
    have e2' : (y 2).val = c0 + 1 * j2 := e2
    omega
  · rintro ⟨e0, e1, l2, u2⟩ a
    rw [h.off, h.size, h.stride]
    match a with
    | ⟨0, _⟩ => exact ⟨0, Nat.one_pos, show (y 0).val = k + 1 * 0 by omega⟩
    | ⟨1, _⟩ => exact ⟨0, Nat.one_pos, show (y 1).val = g + 1 * 0 by omega⟩
    | ⟨2, _⟩ => exact ⟨(y 2).val - c0, show (y 2).val - c0 < 16 by omega, show (y 2).val = c0 + 1 * ((y 2).val - c0) by omega⟩

/-- After a list of stores each of which is such a piece of some row below 64, every row below 64 among them, the
    buffer holds `sv` on columns [c0, c0 + 16) of slot `k` and is unchanged elsewhere. -/
theorem chunkSet_of_pieces (sv : S2x64x200.Idx → Elt F .f32) (k c0 : ℕ) (fs : S2x64x200.Idx → Elt F .f32)
    (L : List (View.Piece (Elt F) S2x64x200 .f32))
    (hall : ∀ p ∈ L, ∃ g, g < 64 ∧ IsChunkPiece sv k c0 g p)
    (hcov : ∀ g, g < 64 → ∃ p ∈ L, IsChunkPiece sv k c0 g p) :
    ChunkSet sv k c0 fs ((stW).view.writes (Elt F) fs L) := by
  intro y
  show (stW).view.read (Elt F) ((stW).view.writes (Elt F) fs L) y = _
  by_cases hy : (y 0).val = k ∧ c0 ≤ (y 2).val ∧ (y 2).val < c0 + 16
  · rw [if_pos hy]
    obtain ⟨p, hp, hpc⟩ := hcov (y 1).val (y 1).isLt
    exact View.read_writes_apply_of_pieces (stW).view fs sv L
      (fun p hp x => by obtain ⟨g, _, hg⟩ := hall p hp; exact hg.val x) y
      ⟨p, hp, (hpc.mem_iff y).mpr ⟨hy.1, rfl, hy.2.1, hy.2.2⟩⟩
  · rw [if_neg hy]
    exact View.read_writes_apply_of_forall_not_mem (stW).view fs y L
      (fun p hp hm => by
        obtain ⟨g, _, hg⟩ := hall p hp
        have hh := (hg.mem_iff y).mp hm
        exact hy ⟨hh.1, hh.2.2.1, hh.2.2.2⟩)

/-- The stores of one chunk in program order, last store first: `ChunkPieces sv k c0 n L` says `L` lists the pieces of
    rows `n - 1, …, 1, 0`. -/
inductive ChunkPieces (sv : S2x64x200.Idx → Elt F .f32) (k c0 : ℕ) : ℕ → List (View.Piece (Elt F) S2x64x200 .f32) → Prop
  | nil : ChunkPieces sv k c0 0 []
  | cons {n : ℕ} {p : View.Piece (Elt F) S2x64x200 .f32} {L : List (View.Piece (Elt F) S2x64x200 .f32)} :
      IsChunkPiece sv k c0 n p → ChunkPieces sv k c0 n L → ChunkPieces sv k c0 (n + 1) (p :: L)

theorem ChunkPieces.all {sv : S2x64x200.Idx → Elt F .f32} {k c0 n : ℕ} {L : List (View.Piece (Elt F) S2x64x200 .f32)}
    (h : ChunkPieces sv k c0 n L) : ∀ p ∈ L, ∃ g, g < n ∧ IsChunkPiece sv k c0 g p := by
  induction h with
  | nil => intro p hp; exact absurd hp List.not_mem_nil
  | cons hp _ ih =>
    intro q hq
    rcases List.mem_cons.mp hq with rfl | hq
    · exact ⟨_, Nat.lt_succ_self _, hp⟩
    · obtain ⟨g, hg, hq'⟩ := ih q hq
      exact ⟨g, Nat.lt_succ_of_lt hg, hq'⟩

theorem ChunkPieces.cover {sv : S2x64x200.Idx → Elt F .f32} {k c0 n : ℕ} {L : List (View.Piece (Elt F) S2x64x200 .f32)}
    (h : ChunkPieces sv k c0 n L) : ∀ g, g < n → ∃ p ∈ L, IsChunkPiece sv k c0 g p := by
  induction h with
  | nil => intro g hg; exact absurd hg (Nat.not_lt_zero _)
  | cons hp _ ih =>
    intro g hg
    rcases Nat.lt_succ_iff_lt_or_eq.mp hg with hlt | rfl
    · obtain ⟨q, hq, hq'⟩ := ih g hlt
      exact ⟨q, List.mem_cons_of_mem _ hq, hq'⟩
    · exact ⟨_, List.mem_cons_self, hp⟩

/-- One chunk's sixty-four stores set columns [c0, c0 + 16) of slot `k` to `sv` and change nothing else. -/
theorem chunkSet_of_chunkPieces {sv : S2x64x200.Idx → Elt F .f32} {k c0 : ℕ} (fs : S2x64x200.Idx → Elt F .f32)
    {L : List (View.Piece (Elt F) S2x64x200 .f32)} (h : ChunkPieces sv k c0 64 L) :
    ChunkSet sv k c0 fs ((stW).view.writes (Elt F) fs L) :=
  chunkSet_of_pieces sv k c0 fs L h.all h.cover

/-- The piece the program stores for row `g`: a box of sixteen words at offsets equal to (k, g, c0), holding the gather of
    the table copy at sixteen tokens (the words of the token block from `200 bl + c0`) each plus `1000 g`. Every token
    is below 1000 and `g` below 64, so the 32-bit sum does not wrap and the gathered word is the one the slot must hold. -/
theorem isChunkPiece_gather (ft : S64000.Idx → Elt F .f32) (fi : S12800.Idx → Elt F .i32) (hfi : ∀ j, (fi j).toNat < 1000)
    (bl k c0 g tok : ℕ)
    (off : Fin 3 → ℕ) (inb : ∀ a, off a + S1x1x16.size a ≤ S2x64x200.size a)
    (offI : Fin 1 → ℕ) (inbI : ∀ a, offI a + S16.size a ≤ S12800.size a) (c : BitVec 32)
    (hchk : ∀ a x, ((![addi (View.readAt (Elt F) (idxW).view (Rect.unit (s := S12800) offI S16.size inbI).toLoadRect fi) (broadcast S16 c)]
      : Fin 1 → IVec S16 32) a x).toNat < S64000.size a)
    (hcast : S16.ShapeCasts S1x1x16)
    (hoff : off = ![k, g, c0]) (hoffI : offI = ![tok]) (htok : tok = 200 * bl + c0) (hc : c.toNat = 1000 * g) (hg : g < 64) :
    IsChunkPiece (stageVal ft fi bl) k c0 g
      ⟨Rect.unit (s := S2x64x200) off S1x1x16.size inb,
        shapeCast S1x1x16 (loadIdx (View.readAt (Elt F) (tabW).view (LoadRect.whole S64000) ft)
          ![addi (View.readAt (Elt F) (idxW).view (Rect.unit (s := S12800) offI S16.size inbI).toLoadRect fi) (broadcast S16 c)] hchk) hcast⟩ where
  off := hoff
  size := rfl
  stride := fun _ => rfl
  val := by
    intro x
    subst htok
    subst hoff hoffI
    have hx2 : (x 2).val < 16 := (x 2).isLt
    have hx1 : (x 1).val < 1 := (x 1).isLt
    have hx0 : (x 0).val < 1 := (x 0).isLt
    have hI : 200 * bl + c0 + 16 ≤ 12800 := inbI 0
    dsimp only
    refine (shapeCast_apply _ hcast x (ix1 (n := 16) ⟨(x 2).val, hx2⟩) ?_).trans ?_
    · rw [Shape.rowMajor_val_one, Shape.rowMajor_val_three]
      show (x 2).val = ((x 0).val * 1 + (x 1).val) * 16 + (x 2).val
      omega
    · have hL : ∀ i : S64000.Idx, (LoadRect.whole S64000).idx i = i := by
        intro i; funext a; refine Fin.ext ?_
        show 0 + 1 * (i a).val = (i a).val
        omega
      unfold loadIdx
      rw [View.readAt_apply, View.read_whole, hL]
      unfold stageVal
      refine congrArg ft (funext fun a => Fin.ext ?_)
      obtain rfl : a = (0 : Fin 1) := Subsingleton.elim (α := Fin 1) _ _
      unfold idxAt
      have hidx : (Rect.unit (s := S12800) ![200 * bl + c0] ![16] inbI).toLoadRect.idx (ix1 (n := 16) ⟨(x 2).val, hx2⟩)
          = ix1 (n := 12800) ⟨(200 * bl + ((Rect.unit (s := S2x64x200) ![k, g, c0] ![1, 1, 16] inb).emb x 2).val) % 12800,
              Nat.mod_lt _ (by decide)⟩ := by
        funext a
        obtain rfl : a = (0 : Fin 1) := Subsingleton.elim (α := Fin 1) _ _
        refine Fin.ext ?_
        show 200 * bl + c0 + 1 * (x 2).val = (200 * bl + (c0 + 1 * (x 2).val)) % 12800
        rw [Nat.mod_eq_of_lt (by omega)]; omega
      have h1 : ((Rect.unit (s := S2x64x200) ![k, g, c0] ![1, 1, 16] inb).emb x 1).val = g := by
        show g + 1 * (x 1).val = g
        omega
      show (IntOp.addi (fi ((Rect.unit (s := S12800) ![200 * bl + c0] ![16] inbI).toLoadRect.idx (ix1 (n := 16) ⟨(x 2).val, hx2⟩))) c).toNat = _
      rw [hidx]
      show _ = 1000 * ((Rect.unit (s := S2x64x200) ![k, g, c0] ![1, 1, 16] inb).emb x 1).val + _
      rw [h1]
      have htk := hfi (ix1 (n := 12800) ⟨(200 * bl + ((Rect.unit (s := S2x64x200) ![k, g, c0] ![1, 1, 16] inb).emb x 2).val) % 12800,
              Nat.mod_lt _ (by decide)⟩)
      unfold IntOp.addi
      rw [BitVec.toNat_add, hc]
      omega

/-! ## The pieces a symbolic run leaves

After a run of one chunk (the run's names opened) the buffer's contents are the list of the chunk's sixty-four stores,
row 63 first, each in the form `isChunkPiece_gather` reads. `chunk_piece hfi hI` proves one piece's `IsChunkPiece`
(`hfi` the range fact, `hI : offI = ![tok]` the closed form of the chunk's token offset; the row `g` is read off the
store's offsets, by their closed form or as literals); `chunk_pieces hfi hI` proves `ChunkPieces … 64 L` for the list. -/

/-- One printed piece: the row is read off the store's offsets. -/
macro "chunk_piece " hfi:term:max ppSpace hI:term:max : tactic => `(tactic|
  (refine isChunkPiece_gather _ _ $hfi _ _ _ _ _ _ _ _ _ _ _ _ ?hoff $hI ?htok ?hc ?hg
   case hoff => first | exact ClosedOff.eq | rfl
   case htok => omega
   case hc => rfl
   case hg => decide))

/-- The sixty-four printed pieces of one chunk, last store first. -/
macro "chunk_pieces " hfi:term:max ppSpace hI:term:max : tactic => `(tactic|
  (repeat (refine ChunkPieces.cons (by chunk_piece $hfi $hI) ?_)
   exact ChunkPieces.nil))

end Cert.KI

end
-- ==== Proof.KI.Inv.lean ====
/-
  The invariants of the lookup kernel's loops, for one vector subcore at a symbolic grid point.

  The outer loop serves two token rows per trip, row 2k into staging slot 0 and row 2k + 1 into slot 1, and copies each
  finished slot out to its window of the result while the other slot is being filled: before trip k > 0 the copies of
  rows 2k - 2 and 2k - 1 are still in flight, each holding its slot and its window; the windows of the rows below
  2k - 2 hold the lookup, those from 2k on the launch contents. Each inner loop fills one slot sixteen columns a trip.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

section Inv

variable (f3 G : (d : Dev nD) → Buf (Elt F) (v3Loc d)) (d : Dev nD) (L : grid0.Coords)
  (O : CellTallies nD τ sig (HIx 1)) (W : Waits sig (HIx 1))
  (ft : Buf (Elt F) ((tabW).view.loc (V d (cV L) (jV L)))) (fi : Buf (Elt F) ((idxW).view.loc (V d (cV L) (jV L))))

/-- The first row of the result this subcore serves. -/
abbrev row0 (L : grid0.Coords) : ℕ := 64 * (sL L).val

/-- The copy of slot 0 to row `b`'s window, in flight: its landing hands back the window at the lookup and the slot. -/
def flightA (b : ℕ) : sProp 𝕄 :=
  iprop(∃ f, Transfers.Flight countersEmb (V d (cV L) (jV L)) (SemLoc.dma cc0_scratch3.sem) (default : HIx 1) 409600
    iprop((v3Loc d ↦[rowsSet (cL L) b (b + 1)]{fullShare} G d)
      ∗ ((stW).view.loc (V d (cV L) (jV L)) ↦[(slotM0).view.set]{fullShare} f)))
/-- The copy of slot 1 likewise. -/
def flightB (b : ℕ) : sProp 𝕄 :=
  iprop(∃ f, Transfers.Flight countersEmb (V d (cV L) (jV L)) (SemLoc.dma cc0_scratch4.sem) (default : HIx 1) 409600
    iprop((v3Loc d ↦[rowsSet (cL L) b (b + 1)]{fullShare} G d)
      ∗ ((stW).view.loc (V d (cV L) (jV L)) ↦[(slotM1).view.set]{fullShare} f)))

/-- The staging buffer and the two copy semaphores before trip `k`: at rest before the first trip, both slots in flight
    to the previous trip's rows afterwards. -/
def stagePart (k : ℕ) : sProp 𝕄 :=
  if k = 0 then
    iprop((∃ f, (stW).view.loc (V d (cV L) (jV L)) ↦{fullShare} f)
      ∗ semVal (V d (cV L) (jV L), SemLoc.dma cc0_scratch3.sem) 0 ∗ semVal (V d (cV L) (jV L), SemLoc.dma cc0_scratch4.sem) 0)
  else iprop(flightA G d L (row0 L + (2 * k - 2)) ∗ flightB G d L (row0 L + (2 * k - 1)))

/-- Before trip `k` of the outer loop. -/
def inv (k : ℕ) (_ : PUnit) : sProp 𝕄 :=
  iprop(Transfers.MayWaits (V d (cV L) (jV L)) (none : HIx 1) O
    ∗ ((tabW).view.loc (V d (cV L) (jV L)) ↦{fullShare} ft) ∗ ((idxW).view.loc (V d (cV L) (jV L)) ↦{fullShare} fi)
    ∗ (v3Loc d ↦[rowsSet (cL L) (row0 L) (row0 L + (2 * k - 2))]{fullShare} G d)
    ∗ (v3Loc d ↦[rowsSet (cL L) (row0 L + 2 * k) (row0 L + 64)]{fullShare} f3 d)
    ∗ stagePart G d L k
    ∗ ∃ W', ⌜∀ p ∈ W', p ∈ W ∨ p.2 = none⌝ ∗ owes (V d (cV L) (jV L)) O W')

/-- Before trip `k` of the loop that fills slot 0 for local row `bl`: the table copy, the tokens, and the staging
    buffer less slot 1, slot 0 done on its columns below `16 k`. -/
def inv2 (bl : ℕ) (k : ℕ) (_ : Unit) : sProp 𝕄 :=
  iprop(((tabW).view.loc (V d (cV L) (jV L)) ↦{fullShare} ft) ∗ ((idxW).view.loc (V d (cV L) (jV L)) ↦{fullShare} fi)
    ∗ ∃ fs, ((stW).view.loc (V d (cV L) (jV L)) ↦[Finset.univ \ (slotM1).view.set]{fullShare} fs)
        ∗ ⌜SlotDone (stageVal ft fi bl) 0 (16 * k) fs⌝)
/-- The same for slot 1. -/
def inv3 (bl : ℕ) (k : ℕ) (_ : Unit) : sProp 𝕄 :=
  iprop(((tabW).view.loc (V d (cV L) (jV L)) ↦{fullShare} ft) ∗ ((idxW).view.loc (V d (cV L) (jV L)) ↦{fullShare} fi)
    ∗ ∃ fs, ((stW).view.loc (V d (cV L) (jV L)) ↦[Finset.univ \ (slotM0).view.set]{fullShare} fs)
        ∗ ⌜SlotDone (stageVal ft fi bl) 1 (16 * k) fs⌝)

end Inv

/-- The guard of the two conditional waits of trip `k1`: set exactly from the second trip on. -/
theorem cond_pos : ∀ k1 : Fin k0_t1_loop.trips, 0 < k1.val →
    Scalar.cmpi .ne (Scalar.extui (Scalar.cmpi .sgt (Scf.iv 0#32 1#32 k1) 0#32)) 0#32 = 1#1 := by decide +kernel
theorem cond_zero : ∀ k1 : Fin k0_t1_loop.trips, k1.val = 0 →
    ¬ Scalar.cmpi .ne (Scalar.extui (Scalar.cmpi .sgt (Scf.iv 0#32 1#32 k1) 0#32)) 0#32 = 1#1 := by decide +kernel

end Cert.KI

end
-- ==== Proof.KI.Trip2.lean ====
/-
  One trip of the first slot's chunk loop.

  The trip loads sixteen tokens of local row `2 k1` from column `16 k2`, gathers the sixty-four rows of the table copy at
  them and stores the sixty-four boxes into slot 0 at columns [16 k2, 16 k2 + 16). The table copy and the token block
  are only read; the staging buffer is held less the second slot, which the stores do not touch. What the stores leave
  is the list of the sixty-four pieces over the contents before, which is those contents with the block set to the words
  the slot must hold.
-/
import proofs.«218643_g31147102830872_cont_9to1_1815_7_alg».proof.Proof.KI.Chunk
import Idealize.ShloMosaic.Lib.SparseCore.Launch
import Idealize.ShloMosaic.Lib.SparseCore.Ops
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

set_option allowUnsafeReducibility true in
attribute [local reducible] Idealize.ShloMosaic.SparseCore.vectorLoadIdx

set_option maxHeartbeats 4000000 in
/-- One trip of the first slot's chunk loop: the chunk at columns `16 k2` of slot 0 for the local token row `2 k1`,
    run while the second slot is lent out. -/
theorem trip2 (d : Dev nD) (L : grid0.Coords) (k1 : Fin k0_t1_loop.trips) (v51 : BitVec 32) (k2 : Fin k0_t2_loop.trips)
    (ft : Buf (Elt F) ((tabW).view.loc (V d (cV L) (jV L)))) (fi : Buf (Elt F) ((idxW).view.loc (V d (cV L) (jV L))))
    (fs : Buf (Elt F) ((stW).view.loc (V d (cV L) (jV L)))) (hfi : ∀ j, (fi j).toNat < 1000) :
    iprop(((tabW).view.loc (V d (cV L) (jV L)) ↦{fullShare} ft) ∗ ((idxW).view.loc (V d (cV L) (jV L)) ↦{fullShare} fi)
        ∗ ((stW).view.loc (V d (cV L) (jV L)) ↦[Finset.univ \ (slotM1).view.set]{fullShare} fs) : sProp 𝕄)
      ⊢ wp frame (wpE (defs₀ (F := F)) 𝒱₀ (V d (cV L) (jV L)) none) Set.univ
          (k0_t2_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 0#32 1#32 k1 v51 k2 ())
          (fun _ => iprop(((tabW).view.loc (V d (cV L) (jV L)) ↦{fullShare} ft) ∗ ((idxW).view.loc (V d (cV L) (jV L)) ↦{fullShare} fi)
            ∗ ∃ fs' : Buf (Elt F) ((stW).view.loc (V d (cV L) (jV L))),
                ((stW).view.loc (V d (cV L) (jV L)) ↦[Finset.univ \ (slotM1).view.set]{fullShare} fs')
                  ∗ ⌜ChunkSet (stageVal ft fi (2 * k1.val)) 0 (16 * k2.val) fs fs'⌝)) := by
  iintro ⟨Ht, Hi, Hs⟩
  sl_unfold [k0_t2_body]
  sl_unfold [k0_part1, k0_part2, k0_part3, k0_part4, k0_part5, k0_part6, k0_part7, k0_part8, k0_part9, k0_part10, k0_part11, k0_part12, k0_part13, k0_part14, Idealize.ShloMosaic.SparseCore.vectorLoadIdx]
  sl_exec (disch := (sl_unfold_run_names; exact chk_ok d L fi hfi _ _ _ (by decide)))
  sl_step
  isplitl [Ht]
  · iexact Ht
  isplitl [Hi]
  · iexact Hi
  iexists _
  isplitl [Hs]
  · iexact Hs
  ipureintro
  sl_unfold_run_names
  exact chunkSet_of_chunkPieces fs (by chunk_pieces hfi (k0_off3_eq k1 k2))

end Cert.KI

end
-- ==== Proof.KI.Trip3.lean ====
/-
  One trip of the second slot's chunk loop.

  The trip loads sixteen tokens of local row `2 k1 + 1` from column `16 k3`, gathers the sixty-four rows of the table copy
  at them and stores the sixty-four boxes into slot 1 at columns [16 k3, 16 k3 + 16). The table copy and the token block
  are only read; the staging buffer is held less the first slot, which the stores do not touch. What the stores leave
  is the list of the sixty-four pieces over the contents before, which is those contents with the block set to the words
  the slot must hold.
-/
import proofs.«218643_g31147102830872_cont_9to1_1815_7_alg».proof.Proof.KI.Chunk
import Idealize.ShloMosaic.Lib.SparseCore.Launch
import Idealize.ShloMosaic.Lib.SparseCore.Ops
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

set_option allowUnsafeReducibility true in
attribute [local reducible] Idealize.ShloMosaic.SparseCore.vectorLoadIdx

set_option maxHeartbeats 4000000 in
/-- One trip of the second slot's chunk loop: the chunk at columns `16 k3` of slot 1 for the local token row
    `2 k1 + 1`, run while the first slot is lent out. -/
theorem trip3 (d : Dev nD) (L : grid0.Coords) (k1 : Fin k0_t1_loop.trips) (v30 arg10 v51 : BitVec 32)
    (v410 v416 : Vec F S16 .f32) (v454 : BitVec 32) (k3 : Fin k0_t3_loop.trips)
    (ft : Buf (Elt F) ((tabW).view.loc (V d (cV L) (jV L)))) (fi : Buf (Elt F) ((idxW).view.loc (V d (cV L) (jV L))))
    (fs : Buf (Elt F) ((stW).view.loc (V d (cV L) (jV L)))) (hfi : ∀ j, (fi j).toNat < 1000) :
    iprop(((tabW).view.loc (V d (cV L) (jV L)) ↦{fullShare} ft) ∗ ((idxW).view.loc (V d (cV L) (jV L)) ↦{fullShare} fi)
        ∗ ((stW).view.loc (V d (cV L) (jV L)) ↦[Finset.univ \ (slotM0).view.set]{fullShare} fs) : sProp 𝕄)
      ⊢ wp frame (wpE (defs₀ (F := F)) 𝒱₀ (V d (cV L) (jV L)) none) Set.univ
          (k0_t3_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 arg10 v51 v410 v416 v454 k3 ())
          (fun _ => iprop(((tabW).view.loc (V d (cV L) (jV L)) ↦{fullShare} ft) ∗ ((idxW).view.loc (V d (cV L) (jV L)) ↦{fullShare} fi)
            ∗ ∃ fs' : Buf (Elt F) ((stW).view.loc (V d (cV L) (jV L))),
                ((stW).view.loc (V d (cV L) (jV L)) ↦[Finset.univ \ (slotM0).view.set]{fullShare} fs')
                  ∗ ⌜ChunkSet (stageVal ft fi (2 * k1.val + 1)) 1 (16 * k3.val) fs fs'⌝)) := by
  iintro ⟨Ht, Hi, Hs⟩
  sl_unfold [k0_t3_body]
  sl_unfold [k0_part15, k0_part16, k0_part17, k0_part18, k0_part19, k0_part20, k0_part21, k0_part22, k0_part23, k0_part24, k0_part25, k0_part26, k0_part27, k0_part28, Idealize.ShloMosaic.SparseCore.vectorLoadIdx]
  sl_exec (disch := (sl_unfold_run_names; exact chk_ok d L fi hfi _ _ _ (by decide)))
  sl_step
  isplitl [Ht]
  · iexact Ht
  isplitl [Hi]
  · iexact Hi
  iexists _
  isplitl [Hs]
  · iexact Hs
  ipureintro
  sl_unfold_run_names
  exact chunkSet_of_chunkPieces fs (by chunk_pieces hfi (k0_off70_eq k1 k3))

end Cert.KI

end
-- ==== Proof.KI.TripL.lean ====
/-
  One trip of the lookup kernel's outer loop after the first, for one vector subcore at a symbolic grid point: the two
  copies of the previous trip land (each hands back its slot and its window at the lookup), slot 0 is filled for token
  row 2k and copied out, slot 1 for row 2k + 1 and copied out; the invariant moves from k to k + 1.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.Trip2
import proofs.«218643_g31147102830872_cont_9to1_1815_7_alg».proof.Proof.KI.Trip3

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

section Lemmas

variable (d : Dev nD) (L : grid0.Coords)

omit [FloatOps F] in
/-- A slot held by its own elements is the staging buffer less the other slot. -/
theorem slot0_as_rest (f : Buf (Elt F) ((stW).view.loc (V d (cV L) (jV L)))) :
    ((stW).view.loc (V d (cV L) (jV L)) ↦[(slotM0).view.set]{fullShare} f : sProp 𝕄)
      = ((stW).view.loc (V d (cV L) (jV L)) ↦[Finset.univ \ (slotM1).view.set]{fullShare} f) := by
  rw [compl_slotM1]
omit [FloatOps F] in
theorem slot1_as_rest (f : Buf (Elt F) ((stW).view.loc (V d (cV L) (jV L)))) :
    ((stW).view.loc (V d (cV L) (jV L)) ↦[(slotM1).view.set]{fullShare} f : sProp 𝕄)
      = ((stW).view.loc (V d (cV L) (jV L)) ↦[Finset.univ \ (slotM0).view.set]{fullShare} f) := by
  rw [compl_slotM0]

omit [FloatOps F] in
/-- The window the even row's copy writes, as the rows `[b, b + 1)` of the result at this subcore's columns. -/
theorem pts_outW0 (k1 : Fin k0_t1_loop.trips) (f : Buf (Elt F) (v3Loc d)) :
    ((outW0 L k1).view.loc (V d (cV L) (jV L)) ↦[(outW0 L k1).view.set]{fullShare} f : sProp 𝕄)
      = (v3Loc d ↦[rowsSet (cL L) (row0 L + 2 * k1.val) (row0 L + 2 * k1.val + 1)]{fullShare} f) := by
  rw [set_outW0]
  exact (rows_one (F := F) d (cL L) f (rowB (sL L) (rowE k1))).symm
omit [FloatOps F] in
theorem pts_outW1 (k1 : Fin k0_t1_loop.trips) (f : Buf (Elt F) (v3Loc d)) :
    ((outW1 L k1).view.loc (V d (cV L) (jV L)) ↦[(outW1 L k1).view.set]{fullShare} f : sProp 𝕄)
      = (v3Loc d ↦[rowsSet (cL L) (row0 L + 2 * k1.val + 1) (row0 L + 2 * k1.val + 1 + 1)]{fullShare} f) := by
  rw [set_outW1]
  exact (rows_one (F := F) d (cL L) f (rowB (sL L) (rowO k1))).symm

omit [FloatOps F] in
/-- Rows between equal bounds, respelt. -/
theorem rows_cast (c : Fin 2) (f : Buf (Elt F) (v3Loc d)) {lo hi lo' hi' : ℕ} (h1 : lo = lo') (h2 : hi = hi') :
    (v3Loc d ↦[rowsSet c lo hi]{fullShare} f : sProp 𝕄) ⊢ (v3Loc d ↦[rowsSet c lo' hi']{fullShare} f) := by
  subst h1; subst h2; exact BI.Entails.refl _

variable (ft : Buf (Elt F) ((tabW).view.loc (V d (cV L) (jV L)))) (fi : Buf (Elt F) ((idxW).view.loc (V d (cV L) (jV L))))

omit [FloatOps F] in
/-- After a chunk at the columns right after those done, the invariant of the slot-0 loop holds one trip on. -/
theorem post2 (bl k2 : ℕ) (fs : Buf (Elt F) ((stW).view.loc (V d (cV L) (jV L))))
    (hd : SlotDone (stageVal ft fi bl) 0 (16 * k2) fs) (acc : Unit) :
    iprop(((tabW).view.loc (V d (cV L) (jV L)) ↦{fullShare} ft) ∗ ((idxW).view.loc (V d (cV L) (jV L)) ↦{fullShare} fi)
        ∗ ∃ fs' : Buf (Elt F) ((stW).view.loc (V d (cV L) (jV L))),
            ((stW).view.loc (V d (cV L) (jV L)) ↦[Finset.univ \ (slotM1).view.set]{fullShare} fs')
              ∗ ⌜ChunkSet (stageVal ft fi bl) 0 (16 * k2) fs fs'⌝ : sProp 𝕄)
      ⊢ inv2 d L ft fi bl (k2 + 1) acc := by
  unfold inv2
  iintro ⟨Ht, Hi, %fs', Hs, %hc⟩
  isplitl [Ht]; · iexact Ht
  isplitl [Hi]; · iexact Hi
  iexists fs'
  isplitl [Hs]; · iexact Hs
  ipureintro
  have h := hd.chunk hc
  rwa [show 16 * (k2 + 1) = 16 * k2 + 16 by ring]
omit [FloatOps F] in
theorem post3 (bl k3 : ℕ) (fs : Buf (Elt F) ((stW).view.loc (V d (cV L) (jV L))))
    (hd : SlotDone (stageVal ft fi bl) 1 (16 * k3) fs) (acc : Unit) :
    iprop(((tabW).view.loc (V d (cV L) (jV L)) ↦{fullShare} ft) ∗ ((idxW).view.loc (V d (cV L) (jV L)) ↦{fullShare} fi)
        ∗ ∃ fs' : Buf (Elt F) ((stW).view.loc (V d (cV L) (jV L))),
            ((stW).view.loc (V d (cV L) (jV L)) ↦[Finset.univ \ (slotM0).view.set]{fullShare} fs')
              ∗ ⌜ChunkSet (stageVal ft fi bl) 1 (16 * k3) fs fs'⌝ : sProp 𝕄)
      ⊢ inv3 d L ft fi bl (k3 + 1) acc := by
  unfold inv3
  iintro ⟨Ht, Hi, %fs', Hs, %hc⟩
  isplitl [Ht]; · iexact Ht
  isplitl [Hi]; · iexact Hi
  iexists fs'
  isplitl [Hs]; · iexact Hs
  ipureintro
  have h := hd.chunk hc
  rwa [show 16 * (k3 + 1) = 16 * k3 + 16 by ring]

/-- One trip of the loop that fills slot 0. -/
theorem region2 (hfi : ∀ j, (fi j).toNat < 1000) (k1 : Fin k0_t1_loop.trips) (v51 : BitVec 32)
    (k2 : Fin k0_t2_loop.trips) (acc : Unit) :
    inv2 d L ft fi (2 * k1.val) k2.val acc
      ⊢ wp frame (wpE (defs₀ (F := F)) 𝒱₀ (V d (cV L) (jV L)) none) Set.univ
          (k0_t2_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 0#32 1#32 k1 v51 k2 acc)
          (inv2 d L ft fi (2 * k1.val) (k2.val + 1)) := by
  unfold inv2
  iintro ⟨Ht, Hi, %fs, Hs, %hd⟩
  iapply ((trip2 (F := F) d L k1 v51 k2 ft fi fs hfi).trans (wp_mono frame _ _ fun a => post2 (F := F) d L ft fi (2 * k1.val) k2.val fs hd a)) $$ [Ht Hi Hs]
  isplitl [Ht]; · iexact Ht
  isplitl [Hi]; · iexact Hi
  iexact Hs
theorem region3 (hfi : ∀ j, (fi j).toNat < 1000) (k1 : Fin k0_t1_loop.trips) (v30 arg10 v51 : BitVec 32)
    (v410 v416 : Vec F S16 .f32) (v454 : BitVec 32) (k3 : Fin k0_t3_loop.trips) (acc : Unit) :
    inv3 d L ft fi (2 * k1.val + 1) k3.val acc
      ⊢ wp frame (wpE (defs₀ (F := F)) 𝒱₀ (V d (cV L) (jV L)) none) Set.univ
          (k0_t3_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 arg10 v51 v410 v416 v454 k3 acc)
          (inv3 d L ft fi (2 * k1.val + 1) (k3.val + 1)) := by
  unfold inv3
  iintro ⟨Ht, Hi, %fs, Hs, %hd⟩
  iapply ((trip3 (F := F) d L k1 v30 arg10 v51 v410 v416 v454 k3 ft fi fs hfi).trans (wp_mono frame _ _ fun a => post3 (F := F) d L ft fi (2 * k1.val + 1) k3.val fs hd a)) $$ [Ht Hi Hs]
  isplitl [Ht]; · iexact Ht
  isplitl [Hi]; · iexact Hi
  iexact Hs

end Lemmas

end Cert.KI

end
-- ==== Proof.KI.TripC.lean ====
/-
  What a copy in flight hands back, restated for the outer loop's invariant: the window it lands in holds the lookup on
  its rows (the slot it was copied from was complete), and the slot comes back as it was lent.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.TripL

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

section Conv

omit [FloatOps F] in
theorem flight_conv0 (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w0 : Buf (Elt F) ((stW).view.loc (V d (cV L) (jV L))))
    (hA : SlotDone (stageVal ft fi (2 * k1.val)) 0 200 w0) (fo : Buf (Elt F) (v3Loc d)) (b : ℕ) (hb : b = row0 L + 2 * k1.val) :
    iprop(((outW0 L k1).view.loc (V d (cV L) (jV L)) ↦[(outW0 L k1).view.set]{fullShare}
          ((outW0 L k1).view.writes (Elt F) fo
            [⟨Rect.whole S64x200, (ReadAs.same : ReadAs (Elt F) S64x200 .f32 S64x200 .f32).apply ((slotM0).view.read (Elt F) w0)⟩]))
        ∗ ((stW).view.loc (V d (cV L) (jV L)) ↦[(slotM0).view.set]{fullShare} w0) : sProp 𝕄)
      ⊢ iprop((v3Loc d ↦[rowsSet (cL L) b (b + 1)]{fullShare} G d)
        ∗ ((stW).view.loc (V d (cV L) (jV L)) ↦[(slotM0).view.set]{fullShare} w0)) := by
  subst hb
  rw [pointsTo_congr (landed0 f1 f2 G d L hg ft fi hft hfiE k1 w0 hA fo), pts_outW0]

omit [FloatOps F] in
theorem flight_conv1 (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w1 : Buf (Elt F) ((stW).view.loc (V d (cV L) (jV L))))
    (hB : SlotDone (stageVal ft fi (2 * k1.val + 1)) 1 200 w1) (fo : Buf (Elt F) (v3Loc d)) (b : ℕ) (hb : b = row0 L + 2 * k1.val + 1) :
    iprop(((outW1 L k1).view.loc (V d (cV L) (jV L)) ↦[(outW1 L k1).view.set]{fullShare}
          ((outW1 L k1).view.writes (Elt F) fo
            [⟨Rect.whole S64x200, (ReadAs.same : ReadAs (Elt F) S64x200 .f32 S64x200 .f32).apply ((slotM1).view.read (Elt F) w1)⟩]))
        ∗ ((stW).view.loc (V d (cV L) (jV L)) ↦[(slotM1).view.set]{fullShare} w1) : sProp 𝕄)
      ⊢ iprop((v3Loc d ↦[rowsSet (cL L) b (b + 1)]{fullShare} G d)
        ∗ ((stW).view.loc (V d (cV L) (jV L)) ↦[(slotM1).view.set]{fullShare} w1)) := by
  subst hb
  rw [pointsTo_congr (landed1 f1 f2 G d L hg ft fi hft hfiE k1 w1 hB fo), pts_outW1]

end Conv

end Cert.KI

end
-- ==== Proof.KI.TripP.lean ====
/-
  One trip of the lookup kernel's outer loop after the first, for one vector subcore at a symbolic grid point: the two
  copies of the previous trip land (each hands back its slot and its window at the lookup), slot 0 is filled for token
  row 2k and copied out, slot 1 for row 2k + 1 and copied out; the invariant moves from k to k + 1.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.TripL
import proofs.«218643_g31147102830872_cont_9to1_1815_7_alg».proof.Proof.KI.TripC

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

set_option maxHeartbeats 32000000 in
theorem outer_trip_pos (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (hk : 0 < k1.val) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  have hfi : ∀ j, (fi j).toNat < 1000 := fi_range f2 d L hg.range fi hfiE
  have hk32 : k1.val < 32 := t1_lt k1
  have hc1 := cond_pos k1 hk
  unfold inv stagePart
  rw [if_neg (by omega : ¬ k1.val = 0), if_neg (by omega : ¬ k1.val + 1 = 0)]
  unfold flightA flightB
  iintro ⟨Hmw, Ht, Hi, Hdone, Htodo, ⟨⟨%fA, HFA⟩, ⟨%fB, HFB⟩⟩, %W', %hW', HO⟩
  -- this trip's two windows, off the rows still to serve
  ihave Hsp := (rows_split (F := F) d (cL L) (f3 d) (lo := row0 L + 2 * k1.val) (mid := row0 L + 2 * k1.val + 1) (hi := row0 L + 64) (by omega) (by omega)) $$ Htodo
  icases Hsp with ⟨Hw0, Htodo⟩
  ihave Hsp := (rows_split (F := F) d (cL L) (f3 d) (lo := row0 L + 2 * k1.val + 1) (mid := row0 L + 2 * k1.val + 1 + 1) (hi := row0 L + 64) (by omega) (by omega)) $$ Htodo
  icases Hsp with ⟨Hw1, Htodo⟩
  ihave Ho0 := (Entails.of_eq (pts_outW0 (F := F) d L k1 (f3 d)).symm) $$ Hw0
  ihave Ho1 := (Entails.of_eq (pts_outW1 (F := F) d L k1 (f3 d)).symm) $$ Hw1
  sl_unfold [k0_t1_body]
  sl_unfold [k0_part29]
  sl_unfold [k0_part30, k0_part31, k0_part32, k0_part33, k0_part34, k0_part35, k0_part36, k0_part37, k0_part38, k0_part39, k0_part40, k0_part41, k0_part42, k0_part44, k0_part45, k0_part46, k0_part47, k0_part48, k0_part49, k0_part50, k0_part51, k0_part52, k0_part53, k0_part54, k0_part55, k0_part56, k0_part57, Idealize.ShloMosaic.SparseCore.vectorLoadIdx]
  -- the previous copy out of slot 0 lands
  sl_exec (disch := first | (sl_unfold_run_names; exact chk_ok d L fi hfi _ _ _ (by decide)) | (sl_unfold_run_names; exact hc1))
  ihave Hs := (Entails.of_eq (slot0_as_rest (F := F) d L fA)) $$ HFA_src
  first
    | sl_for (inv2 d L ft fi (2 * k1.val)) $$ [Ht Hi Hs]
    | (sl_rw [Idealize.SL.Sem.Prog.bind_assoc]; sl_for (inv2 d L ft fi (2 * k1.val)) $$ [Ht Hi Hs])
  case region => intro k2 acc; exact region2 (F := F) d L ft fi hfi k1 _ k2 acc
  · unfold inv2
    isplitl [Ht]; · iexact Ht
    isplitl [Hi]; · iexact Hi
    iexists fA
    isplitl [Hs]; · iexact Hs
    ipureintro; exact SlotDone.zero _ _ _
  iintro %_ HI
  unfold inv2
  icases HI with ⟨Ht, Hi, %fs2, Hs, %hd2⟩
  have hd2' : SlotDone (stageVal ft fi (2 * k1.val)) 0 192 fs2 := hd2
  -- the last chunk of slot 0, its copy out, the previous copy out of slot 1 lands
  sl_exec (disch := first | (sl_unfold_run_names; exact chk_ok d L fi hfi _ _ _ (by decide)) | (sl_unfold_run_names; exact hc1))
  iclear Hs
  ihave Hs1 := (Entails.of_eq (slot1_as_rest (F := F) d L fB)) $$ HFB_src
  first
    | sl_for (inv3 d L ft fi (2 * k1.val + 1)) $$ [Ht Hi Hs1]
    | (sl_rw [Idealize.SL.Sem.Prog.bind_assoc]; sl_for (inv3 d L ft fi (2 * k1.val + 1)) $$ [Ht Hi Hs1])
  case region => intro k3 acc; exact region3 (F := F) d L ft fi hfi k1 0#32 0#32 0#32 (fun _ => ft (ValueIdx.ix1 (n := 64000) ⟨0, by decide⟩)) (fun _ => ft (ValueIdx.ix1 (n := 64000) ⟨0, by decide⟩)) _ k3 acc
  · unfold inv3
    isplitl [Ht]; · iexact Ht
    isplitl [Hi]; · iexact Hi
    iexists fB
    isplitl [Hs1]; · iexact Hs1
    ipureintro; exact SlotDone.zero _ _ _
  iintro %_ HI
  unfold inv3
  icases HI with ⟨Ht, Hi, %fs3, Hs1, %hd3⟩
  have hd3' : SlotDone (stageVal ft fi (2 * k1.val + 1)) 1 192 fs3 := hd3
  -- the last chunk of slot 1 and its copy out
  sl_exec (disch := first | (sl_unfold_run_names; exact chk_ok d L fi hfi _ _ _ (by decide)) | (sl_unfold_run_names; exact hc1))
  try sl_unfold [Idealize.ShloMosaic.SparseCore.vectorLoadIdx]
  sl_exec (disch := first | (sl_unfold_run_names; exact chk_ok d L fi hfi _ _ _ (by decide)) | (sl_unfold_run_names; exact hc1))
  sl_step
  iclear Hs1
  sl_unfold_run_names
  -- the two copies just issued, as the invariant states them: their slots were complete, so their windows land at the lookup
  ihave HA := (Transfers.Flight_mono countersEmb (V d (cV L) (jV L)) (flight_conv0 (F := F) f1 f2 G d L hg ft fi hft hfiE k1 _ ?hA (f3 d) (row0 L + (2 * (k1.val + 1) - 2)) ?hbA)) $$ HFA
  case hA => exact hd2'.chunk_overlap (chunkSet_of_chunkPieces fs2 (by chunk_pieces hfi (k0_off68_eq k1))) (by omega)
  case hbA => omega
  ihave HB := (Transfers.Flight_mono countersEmb (V d (cV L) (jV L)) (flight_conv1 (F := F) f1 f2 G d L hg ft fi hft hfiE k1 _ ?hB (f3 d) (row0 L + (2 * (k1.val + 1) - 1)) ?hbB)) $$ HFB
  case hB => exact hd3'.chunk_overlap (chunkSet_of_chunkPieces fs3 (by chunk_pieces hfi (k0_off135_eq k1))) (by omega)
  case hbB => omega
  isplitl [Hmw]; · iexact Hmw
  isplitl [Ht]; · iexact Ht
  isplitl [Hi]; · iexact Hi
  isplitl [Hdone HFA_dst HFB_dst]
  · -- the rows done: those before, and the two that have just landed
    ihave H1 := (rows_join (F := F) d (cL L) (G d) (lo := row0 L) (mid := row0 L + (2 * k1.val - 2)) (hi := row0 L + (2 * k1.val - 2) + 1) (by omega) (by omega)) $$ [Hdone HFA_dst]
    · isplitl [Hdone] <;> iassumption
    ihave HB' := (rows_cast (F := F) d (cL L) (G d) (lo := row0 L + (2 * k1.val - 1)) (hi := row0 L + (2 * k1.val - 1) + 1) (lo' := row0 L + (2 * k1.val - 2) + 1) (hi' := row0 L + (2 * k1.val - 2) + 1 + 1) (by omega) (by omega)) $$ HFB_dst
    ihave H2 := (rows_join (F := F) d (cL L) (G d) (lo := row0 L) (mid := row0 L + (2 * k1.val - 2) + 1) (hi := row0 L + (2 * k1.val - 2) + 1 + 1) (by omega) (by omega)) $$ [H1 HB']
    · isplitl [H1] <;> iassumption
    iapply (rows_cast (F := F) d (cL L) (G d) (lo := row0 L) (hi := row0 L + (2 * k1.val - 2) + 1 + 1) (lo' := row0 L) (hi' := row0 L + (2 * (k1.val + 1) - 2)) rfl (by omega))
    iexact H2
  isplitl [Htodo]
  · iapply (rows_cast (F := F) d (cL L) (f3 d) (lo := row0 L + 2 * k1.val + 1 + 1) (hi := row0 L + 64) (lo' := row0 L + 2 * (k1.val + 1)) (hi' := row0 L + 64) (by omega) rfl)
    iexact Htodo
  isplitl [HA HB]
  · isplitl [HA]
    · iexists _; iexact HA
    · iexists _; iexact HB
  iexists (insert (SemLoc.dma cc0_scratch4.sem, (default : HIx 1)) (insert (SemLoc.dma cc0_scratch3.sem, (default : HIx 1)) W'))
  isplitr
  · ipureintro
    intro p hp
    rcases Finset.mem_insert.mp hp with hp | hp
    · exact .inr (hp ▸ rfl)
    rcases Finset.mem_insert.mp hp with hp | hp
    · exact .inr (hp ▸ rfl)
    · exact hW' p hp
  · iexact HO

end Cert.KI

end
-- ==== Proof.KI.TripZ.lean ====
/-
  The first trip of the lookup kernel's outer loop, for one vector subcore at a symbolic grid point.

  Before the first trip nothing is in flight: the staging buffer is at rest and the two copy semaphores are at zero, so
  neither of the trip's two conditional waits is taken. The buffer is held as its two slots. Slot 0 is filled for token
  row 0 (twelve chunks by the first loop, the last chunk at column 184 overlapping the twelfth) and copied out to the
  window of row `row0`; slot 1 is filled for token row 1 in the same way and copied out to the window of row `row0 + 1`.
  Each copy is issued on a semaphore held at zero and stays in flight: its landing hands back its slot and its window,
  the window holding the lookup because the slot is complete for its row. No window is done yet, the windows from
  `row0 + 2` on still hold the launch contents, and no wait has been recorded: the invariant holds at 1.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.TripL
import proofs.«218643_g31147102830872_cont_9to1_1815_7_alg».proof.Proof.KI.TripC

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

omit [FloatOps F] in
/-- The copy of the first slot, complete for local token row `2 k1`, out to its window: in flight it is the first of the
    invariant's two flights, for the row `row0 + 2 k1`. -/
theorem flightA_intro (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w0 : Buf (Elt F) ((stW).view.loc (V d (cV L) (jV L))))
    (hA : SlotDone (stageVal ft fi (2 * k1.val)) 0 200 w0) (fo : Buf (Elt F) (v3Loc d)) (b : ℕ) (hb : b = row0 L + 2 * k1.val) :
    (Transfers.Flight countersEmb (V d (cV L) (jV L)) (SemLoc.dma cc0_scratch3.sem) (default : HIx 1) 409600
        iprop(((outW0 L k1).view.loc (V d (cV L) (jV L)) ↦[(outW0 L k1).view.set]{fullShare}
              ((outW0 L k1).view.writes (Elt F) fo
                [⟨Rect.whole S64x200, (ReadAs.same : ReadAs (Elt F) S64x200 .f32 S64x200 .f32).apply ((slotM0).view.read (Elt F) w0)⟩]))
            ∗ ((stW).view.loc (V d (cV L) (jV L)) ↦[(slotM0).view.set]{fullShare} w0)) : sProp 𝕄)
      ⊢ flightA G d L b := by
  unfold flightA
  iintro H
  iexists w0
  iapply (Transfers.Flight_mono countersEmb (V d (cV L) (jV L)) (flight_conv0 (F := F) f1 f2 G d L hg ft fi hft hfiE k1 w0 hA fo b hb)) $$ H

omit [FloatOps F] in
/-- The same for the second slot, local token row `2 k1 + 1`, and the invariant's second flight. -/
theorem flightB_intro (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w1 : Buf (Elt F) ((stW).view.loc (V d (cV L) (jV L))))
    (hB : SlotDone (stageVal ft fi (2 * k1.val + 1)) 1 200 w1) (fo : Buf (Elt F) (v3Loc d)) (b : ℕ) (hb : b = row0 L + 2 * k1.val + 1) :
    (Transfers.Flight countersEmb (V d (cV L) (jV L)) (SemLoc.dma cc0_scratch4.sem) (default : HIx 1) 409600
        iprop(((outW1 L k1).view.loc (V d (cV L) (jV L)) ↦[(outW1 L k1).view.set]{fullShare}
              ((outW1 L k1).view.writes (Elt F) fo
                [⟨Rect.whole S64x200, (ReadAs.same : ReadAs (Elt F) S64x200 .f32 S64x200 .f32).apply ((slotM1).view.read (Elt F) w1)⟩]))
            ∗ ((stW).view.loc (V d (cV L) (jV L)) ↦[(slotM1).view.set]{fullShare} w1)) : sProp 𝕄)
      ⊢ flightB G d L b := by
  unfold flightB
  iintro H
  iexists w1
  iapply (Transfers.Flight_mono countersEmb (V d (cV L) (jV L)) (flight_conv1 (F := F) f1 f2 G d L hg ft fi hft hfiE k1 w1 hB fo b hb)) $$ H

set_option maxHeartbeats 32000000 in
/-- The first trip of the outer loop: from the invariant at 0 (nothing in flight, the staging buffer at rest) to the
    invariant at 1 (the copies of rows `row0` and `row0 + 1` in flight). -/
theorem outer_trip_zero (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (h0 : k1.val = 0) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  have hfi : ∀ j, (fi j).toNat < 1000 := fi_range f2 d L hg.range fi hfiE
  have hlt : 0 < k0_t1_loop.trips := by decide
  obtain rfl : k1 = ⟨0, hlt⟩ := Fin.ext h0
  have hv : ((⟨0, hlt⟩ : Fin k0_t1_loop.trips) : ℕ) = 0 := rfl
  unfold inv stagePart
  rw [if_pos hv, if_neg (by omega : ¬ ((⟨0, hlt⟩ : Fin k0_t1_loop.trips) : ℕ) + 1 = 0)]
  iintro ⟨Hmw, Ht, Hi, Hdone, Htodo, ⟨⟨%f0, Hst⟩, Hs3, Hs4⟩, %W', %hW', HO⟩
  -- this trip's two windows, off the rows still to serve
  ihave Hsp := (rows_split (F := F) d (cL L) (f3 d) (lo := row0 L + 2 * ((⟨0, hlt⟩ : Fin k0_t1_loop.trips) : ℕ)) (mid := row0 L + 2 * ((⟨0, hlt⟩ : Fin k0_t1_loop.trips) : ℕ) + 1) (hi := row0 L + 64) (by omega) (by omega)) $$ Htodo
  icases Hsp with ⟨Hw0, Htodo⟩
  ihave Hsp := (rows_split (F := F) d (cL L) (f3 d) (lo := row0 L + 2 * ((⟨0, hlt⟩ : Fin k0_t1_loop.trips) : ℕ) + 1) (mid := row0 L + 2 * ((⟨0, hlt⟩ : Fin k0_t1_loop.trips) : ℕ) + 1 + 1) (hi := row0 L + 64) (by omega) (by omega)) $$ Htodo
  icases Hsp with ⟨Hw1, Htodo⟩
  ihave Ho0 := (Entails.of_eq (pts_outW0 (F := F) d L ⟨0, hlt⟩ (f3 d)).symm) $$ Hw0
  ihave Ho1 := (Entails.of_eq (pts_outW1 (F := F) d L ⟨0, hlt⟩ (f3 d)).symm) $$ Hw1
  -- the staging buffer at rest: the second slot's elements, and the rest
  ihave Hsp := (pointsTo_split_subset (I := (slotM1).view.set) (Finset.subset_univ _)).1 $$ Hst
  icases Hsp with ⟨Hs1, Hs⟩
  sl_unfold [k0_t1_body]
  sl_unfold [k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, Idealize.ShloMosaic.SparseCore.vectorLoadIdx]
  sl_exec (disch := (sl_unfold_run_names; exact chk_ok d L fi hfi _ _ _ (by decide)))
  first
    | sl_for (inv2 d L ft fi (2 * ((⟨0, hlt⟩ : Fin k0_t1_loop.trips) : ℕ))) $$ [Ht Hi Hs]
    | (sl_rw [Idealize.SL.Sem.Prog.bind_assoc]; sl_for (inv2 d L ft fi (2 * ((⟨0, hlt⟩ : Fin k0_t1_loop.trips) : ℕ))) $$ [Ht Hi Hs])
  case region => intro k2 acc; exact region2 (F := F) d L ft fi hfi ⟨0, hlt⟩ _ k2 acc
  · unfold inv2
    isplitl [Ht]; · iexact Ht
    isplitl [Hi]; · iexact Hi
    iexists f0
    isplitl [Hs]; · iexact Hs
    ipureintro; exact SlotDone.zero _ _ _
  iintro %_ HI
  unfold inv2
  icases HI with ⟨Ht, Hi, %fs2, Hs, %hd2⟩
  have hd2' : SlotDone (stageVal ft fi (2 * ((⟨0, hlt⟩ : Fin k0_t1_loop.trips) : ℕ))) 0 192 fs2 := hd2
  -- the last chunk of slot 0 and its copy out
  sl_exec (disch := (sl_unfold_run_names; exact chk_ok d L fi hfi _ _ _ (by decide)))
  -- nothing of the staging buffer is left outside the two slots
  iclear Hs
  -- the second slot's elements, as the staging buffer less the first slot
  ihave Hs1 := (Entails.of_eq (slot1_as_rest (F := F) d L f0)) $$ Hs1
  first
    | sl_for (inv3 d L ft fi (2 * ((⟨0, hlt⟩ : Fin k0_t1_loop.trips) : ℕ) + 1)) $$ [Ht Hi Hs1]
    | (sl_rw [Idealize.SL.Sem.Prog.bind_assoc]; sl_for (inv3 d L ft fi (2 * ((⟨0, hlt⟩ : Fin k0_t1_loop.trips) : ℕ) + 1)) $$ [Ht Hi Hs1])
  case region =>
    intro k3 acc
    exact region3 (F := F) d L ft fi hfi ⟨0, hlt⟩ 0#32 0#32 0#32 (fun _ => ft (ValueIdx.ix1 (n := 64000) ⟨0, by decide⟩)) (fun _ => ft (ValueIdx.ix1 (n := 64000) ⟨0, by decide⟩)) _ k3 acc
  · unfold inv3
    isplitl [Ht]; · iexact Ht
    isplitl [Hi]; · iexact Hi
    iexists f0
    isplitl [Hs1]; · iexact Hs1
    ipureintro; exact SlotDone.zero _ _ _
  iintro %_ HI
  unfold inv3
  icases HI with ⟨Ht, Hi, %fs3, Hs1, %hd3⟩
  have hd3' : SlotDone (stageVal ft fi (2 * ((⟨0, hlt⟩ : Fin k0_t1_loop.trips) : ℕ) + 1)) 1 192 fs3 := hd3
  -- the last chunk of slot 1 and its copy out
  sl_exec (disch := (sl_unfold_run_names; exact chk_ok d L fi hfi _ _ _ (by decide)))
  sl_step
  iclear Hs1
  sl_unfold_run_names
  isplitl [Hmw]
  · iexact Hmw
  isplitl [Ht]
  · iexact Ht
  isplitl [Hi]
  · iexact Hi
  isplitl [Hdone]
  · iapply (rows_cast (F := F) d (cL L) (G d) (lo := row0 L) (hi := row0 L + (2 * ((⟨0, hlt⟩ : Fin k0_t1_loop.trips) : ℕ) - 2)) (lo' := row0 L) (hi' := row0 L + (2 * (((⟨0, hlt⟩ : Fin k0_t1_loop.trips) : ℕ) + 1) - 2)) rfl (by omega)) $$ Hdone
  isplitl [Htodo]
  · iapply (rows_cast (F := F) d (cL L) (f3 d) (lo := row0 L + 2 * ((⟨0, hlt⟩ : Fin k0_t1_loop.trips) : ℕ) + 1 + 1) (hi := row0 L + 64) (lo' := row0 L + 2 * (((⟨0, hlt⟩ : Fin k0_t1_loop.trips) : ℕ) + 1)) (hi' := row0 L + 64) (by omega) rfl) $$ Htodo
  isplitl [Hs3 Hs4]
  · isplitl [Hs3]
    · istop
      refine flightA_intro (F := F) f1 f2 G d L hg ft fi hft hfiE ⟨0, hlt⟩ _ ?_ (f3 d) _ ?_
      · exact hd2'.chunk_overlap (chunkSet_of_chunkPieces fs2 (by chunk_pieces hfi (k0_off68_eq ⟨0, hlt⟩))) (by omega)
      · omega
    · istop
      refine flightB_intro (F := F) f1 f2 G d L hg ft fi hft hfiE ⟨0, hlt⟩ _ ?_ (f3 d) _ ?_
      · exact hd3'.chunk_overlap (chunkSet_of_chunkPieces fs3 (by chunk_pieces hfi (k0_off135_eq ⟨0, hlt⟩))) (by omega)
      · omega
  iexists W'
  isplitr [HO]
  · ipureintro
    exact hW'
  iexact HO

end Cert.KI

end
-- ==== Proof.KI.Trip.lean ====
/-
  One trip of the lookup kernel's outer loop: the first trip, which finds the staging buffer at rest, and every later
  one, which finds the previous trip's two copies in flight.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.Chunk
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.TripP
import proofs.«218643_g31147102830872_cont_9to1_1815_7_alg».proof.Proof.KI.TripZ

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

theorem outer_trip (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  rcases Nat.eq_zero_or_pos k1.val with h0 | hp
  · exact outer_trip_zero f1 f2 f3 G d L hg O W hO ft fi hft hfiE k1 h0 v30
  · exact outer_trip_pos f1 f2 f3 G d L hg O W hO ft fi hft hfiE k1 hp v30

end Cert.KI

end
-- ==== Proof.KI.Tile.lean ====
/-
  One vector subcore's task, run once at a symbolic grid point: from its read shares of the two flat arrays, its
  sixty-four windows of the result at the launch contents and its own scratch storage, the kernel's body runs to the
  same resources with every window holding the lookup. The two start copies fill the table copy and the token block;
  the row loop runs by its invariant, one trip the outer trip's lemma; the two last copies out are waited for and the
  windows, the staging buffer and the semaphores are put back together.
-/
import proofs.«218643_g31147102830872_cont_9to1_1815_7_alg».proof.Proof.KI.Setup
import proofs.«218643_g31147102830872_cont_9to1_1815_7_alg».proof.Proof.KI.Vals
import proofs.«218643_g31147102830872_cont_9to1_1815_7_alg».proof.Proof.KI.Sets
import proofs.«218643_g31147102830872_cont_9to1_1815_7_alg».proof.Proof.KI.Rows
import proofs.«218643_g31147102830872_cont_9to1_1815_7_alg».proof.Proof.KI.ValsG
import proofs.«218643_g31147102830872_cont_9to1_1815_7_alg».proof.Proof.KI.Inv
import proofs.«218643_g31147102830872_cont_9to1_1815_7_alg».proof.Proof.KI.Trip

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

/-! ## The subcore's own cells and buffers -/

section Own

variable (d : Dev nD) (L : grid0.Coords)

abbrev cA (d : Dev nD) (L : grid0.Coords) : GSem nD τ sig := (V d (cV L) (jV L), SemLoc.dma cc0_scratch3.sem)
abbrev cB (d : Dev nD) (L : grid0.Coords) : GSem nD τ sig := (V d (cV L) (jV L), SemLoc.dma cc0_scratch4.sem)
abbrev c0 (d : Dev nD) (L : grid0.Coords) : GSem nD τ sig := (V d (cV L) (jV L), SemLoc.dma cc0_scoped0.sem)
abbrev c1 (d : Dev nD) (L : grid0.Coords) : GSem nD τ sig := (V d (cV L) (jV L), SemLoc.dma cc0_scoped1.sem)

omit [FloatOps F] in
theorem cell_ne {thr : Thread nD τ} {a b : SemLoc sig} (h : a ≠ b) : ((thr, a) : GSem nD τ sig) ≠ (thr, b) :=
  fun e => h (Prod.mk.inj e).2

omit [FloatOps F] in
theorem mem_own (sm : SemLoc sig) (h : sm.isScoped .scVector = true) :
    ((V d (cV L) (jV L), sm) : GSem nD τ sig) ∈ ownCells (V d (cV L) (jV L)) :=
  (mem_ownCells (g := (V d (cV L) (jV L), sm))).mpr ⟨rfl, h⟩

omit [FloatOps F] in
/-- The four DMA semaphores are among the subcore's own cells: they are them, at zero, and the rest. -/
theorem ownSems0_V :
    (ownSems0 (V d (cV L) (jV L)) : sProp 𝕄)
      = iprop(semVal (cA d L) 0 ∗ semVal (cB d L) 0 ∗ semVal (c0 d L) 0 ∗ semVal (c1 d L) 0
          ∗ bigSep (((((ownCells (V d (cV L) (jV L))).erase (cA d L)).erase (cB d L)).erase (c0 d L)).erase (c1 d L))
              fun g => semVal g 0) := by
  unfold SparseCore.Cfg.ownSems0
  have hA := mem_own d L (SemLoc.dma cc0_scratch3.sem) (by decide)
  have hB := mem_own d L (SemLoc.dma cc0_scratch4.sem) (by decide)
  have h0 := mem_own d L (SemLoc.dma cc0_scoped0.sem) (by decide)
  have h1 := mem_own d L (SemLoc.dma cc0_scoped1.sem) (by decide)
  rw [SparseCore.bigSep_erase' hA,
    SparseCore.bigSep_erase' (Finset.mem_erase.mpr ⟨cell_ne (by decide), hB⟩),
    SparseCore.bigSep_erase' (Finset.mem_erase.mpr ⟨cell_ne (by decide), Finset.mem_erase.mpr ⟨cell_ne (by decide), h0⟩⟩),
    SparseCore.bigSep_erase' (Finset.mem_erase.mpr ⟨cell_ne (by decide), Finset.mem_erase.mpr ⟨cell_ne (by decide),
      Finset.mem_erase.mpr ⟨cell_ne (by decide), h1⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The arrays and the scratch buffers as the subcore's memrefs address them. -/
theorem pts_v1 (q : PosShare TreeShare) (f : Buf (Elt F) (v1Loc d)) :
    ((v1W).view.loc (V d (cV L) (jV L)) ↦{q} f : sProp 𝕄) = v1Loc d ↦{q} f := rfl
omit [FloatOps F] in
theorem pts_v2 (q : PosShare TreeShare) (f : Buf (Elt F) (v2Loc d)) :
    ((v2W).view.loc (V d (cV L) (jV L)) ↦{q} f : sProp 𝕄) = v2Loc d ↦{q} f := rfl
omit [FloatOps F] in
theorem pts_tab (f : Buf (Elt F) ((V d (cV L) (jV L)).loc cc0_scratch0)) :
    ((tabW).view.loc (V d (cV L) (jV L)) ↦{fullShare} f : sProp 𝕄) = (V d (cV L) (jV L)).loc cc0_scratch0 ↦{fullShare} f := rfl
omit [FloatOps F] in
theorem pts_idx (f : Buf (Elt F) ((V d (cV L) (jV L)).loc cc0_scratch1)) :
    ((idxW).view.loc (V d (cV L) (jV L)) ↦{fullShare} f : sProp 𝕄) = (V d (cV L) (jV L)).loc cc0_scratch1 ↦{fullShare} f := rfl
omit [FloatOps F] in
theorem pts_st (f : Buf (Elt F) ((V d (cV L) (jV L)).loc cc0_scratch2)) :
    ((stW).view.loc (V d (cV L) (jV L)) ↦{fullShare} f : sProp 𝕄) = (V d (cV L) (jV L)).loc cc0_scratch2 ↦{fullShare} f := rfl

end Own

/-! ## The start copies' contents as facts -/

theorem tab_intro (f1 : (d : Dev nD) → Buf (Elt F) (v1Loc d)) (d : Dev nD) (L : grid0.Coords)
    (X : Buf (Elt F) ((tabW).view.loc (V d (cV L) (jV L)))) (h : TabIs f1 d L X) :
    ((tabW).view.loc (V d (cV L) (jV L)) ↦{fullShare} X : sProp 𝕄)
      ⊢ iprop(∃ ft, ⌜TabIs f1 d L ft⌝ ∗ ((tabW).view.loc (V d (cV L) (jV L)) ↦{fullShare} ft)) := by
  iintro H
  iexists X
  isplitr
  · ipureintro; exact h
  · iexact H

theorem tok_intro (f2 : (d : Dev nD) → Buf (Elt F) (v2Loc d)) (d : Dev nD) (L : grid0.Coords)
    (X : Buf (Elt F) ((idxW).view.loc (V d (cV L) (jV L)))) (h : TokIs f2 d L X) :
    ((idxW).view.loc (V d (cV L) (jV L)) ↦{fullShare} X : sProp 𝕄)
      ⊢ iprop(∃ fi, ⌜TokIs f2 d L fi⌝ ∗ ((idxW).view.loc (V d (cV L) (jV L)) ↦{fullShare} fi)) := by
  iintro H
  iexists X
  isplitr
  · ipureintro; exact h
  · iexact H

/-! ## The invariant after the last trip -/

theorem inv_last (f3 G : (d : Dev nD) → Buf (Elt F) (v3Loc d)) (d : Dev nD) (L : grid0.Coords)
    (O : CellTallies nD τ sig (HIx 1)) (W : Waits sig (HIx 1))
    (ft : Buf (Elt F) ((tabW).view.loc (V d (cV L) (jV L)))) (fi : Buf (Elt F) ((idxW).view.loc (V d (cV L) (jV L)))) (acc : PUnit) :
    inv f3 G d L O W ft fi k0_t1_loop.trips acc
      = iprop(Transfers.MayWaits (V d (cV L) (jV L)) (none : HIx 1) O
        ∗ ((tabW).view.loc (V d (cV L) (jV L)) ↦{fullShare} ft) ∗ ((idxW).view.loc (V d (cV L) (jV L)) ↦{fullShare} fi)
        ∗ (v3Loc d ↦[rowsSet (cL L) (row0 L) (row0 L + 62)]{fullShare} G d)
        ∗ (v3Loc d ↦[rowsSet (cL L) (row0 L + 64) (row0 L + 64)]{fullShare} f3 d)
        ∗ ((∃ f, Transfers.Flight countersEmb (V d (cV L) (jV L)) (SemLoc.dma cc0_scratch3.sem) (default : HIx 1) 409600
              iprop((v3Loc d ↦[rowsSet (cL L) (row0 L + 62) (row0 L + 62 + 1)]{fullShare} G d)
                ∗ ((stW).view.loc (V d (cV L) (jV L)) ↦[(slotM0).view.set]{fullShare} f)))
          ∗ (∃ f, Transfers.Flight countersEmb (V d (cV L) (jV L)) (SemLoc.dma cc0_scratch4.sem) (default : HIx 1) 409600
              iprop((v3Loc d ↦[rowsSet (cL L) (row0 L + 63) (row0 L + 63 + 1)]{fullShare} G d)
                ∗ ((stW).view.loc (V d (cV L) (jV L)) ↦[(slotM1).view.set]{fullShare} f))))
        ∗ ∃ W', ⌜∀ p ∈ W', p ∈ W ∨ p.2 = none⌝ ∗ owes (V d (cV L) (jV L)) O W') := by
  unfold inv stagePart flightA flightB
  rw [if_neg (by decide), t1_trips]

/-! ## Putting the windows and the staging buffer back together -/

omit [FloatOps F] in
/-- The rows below the last two, and the last two rows, are the subcore's run of rows. -/
theorem rows_last (d : Dev nD) (c : Fin 2) (f : Buf (Elt F) (v3Loc d)) (r0 : ℕ) :
    iprop((v3Loc d ↦[rowsSet c r0 (r0 + 62)]{fullShare} f) ∗ (v3Loc d ↦[rowsSet c (r0 + 62) (r0 + 62 + 1)]{fullShare} f)
        ∗ (v3Loc d ↦[rowsSet c (r0 + 63) (r0 + 63 + 1)]{fullShare} f))
      ⊢ (v3Loc d ↦[rowsSet c r0 (r0 + 64)]{fullShare} f : sProp 𝕄) := by
  have e1 : r0 + 62 + 1 = r0 + 63 := rfl
  have e2 : r0 + 63 + 1 = r0 + 64 := rfl
  rw [e1, e2]
  iintro ⟨H1, H2, H3⟩
  iapply (rows_join (F := F) d c f (lo := r0) (mid := r0 + 63) (hi := r0 + 64) (by omega) (by omega))
  isplitl [H1 H2]
  · iapply (rows_join (F := F) d c f (lo := r0) (mid := r0 + 62) (hi := r0 + 63) (by omega) (by omega))
    isplitl [H1] <;> iassumption
  · iexact H3

omit [FloatOps F] in
/-- The two slots, at whatever they hold, are the staging buffer whole. -/
theorem stage_join (d : Dev nD) (L : grid0.Coords) (fA fB : Buf (Elt F) ((stW).view.loc (V d (cV L) (jV L)))) :
    iprop(((stW).view.loc (V d (cV L) (jV L)) ↦[(slotM0).view.set]{fullShare} fA)
        ∗ ((stW).view.loc (V d (cV L) (jV L)) ↦[(slotM1).view.set]{fullShare} fB))
      ⊢ (iprop(∃ f, (V d (cV L) (jV L)).loc cc0_scratch2 ↦{fullShare} f) : sProp 𝕄) := by
  have e : ((stW).view.loc (V d (cV L) (jV L)) ↦[(slotM1).view.set]{fullShare} fB : sProp 𝕄)
      = ((stW).view.loc (V d (cV L) (jV L)) ↦[Finset.univ \ (slotM0).view.set]{fullShare} fB) := by rw [compl_slotM0]
  rw [e]
  iintro H
  iexists _
  iapply (pointsTo_join_subset (ℓ := (stW).view.loc (V d (cV L) (jV L))) (I := (slotM0).view.set) (S := Finset.univ) (q := fullShare)
    (g := fA) (f := fB) (Finset.subset_univ _))
  iexact H

/-! ## The task -/

set_option maxHeartbeats 4000000 in
theorem tile_body (hF : (K (F := F)).Facts)
    (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0) :
    iprop(levAts (K (F := F)).L (K (F := F)).lev ∗ emp ∗ tileRes f1 f2 f3 d (cL L) (sL L)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1)
          fun _ => iprop(tileRes f1 f2 G d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes
  iintro ⟨#Hlv, -, ⟨Hv1, Hv2, Hwin⟩, ⟨⟨%ft0, Ht⟩, ⟨%fi0, Hi⟩, ⟨%fs0, Hs⟩, Hbufs⟩, ⟨Hs3, Hs4, Hc0, Hc1, Hsems⟩, HO⟩
  ihave Hmw := ((K (F := F)).mayWaits_none (thr := V d (cV L) (jV L)) hO) $$ Hlv
  ihave Hv1' := (Entails.of_eq (pts_v1 (F := F) d L _ _).symm) $$ Hv1
  ihave Hv2' := (Entails.of_eq (pts_v2 (F := F) d L _ _).symm) $$ Hv2
  ihave Ht' := (Entails.of_eq (pts_tab (F := F) d L _).symm) $$ Ht
  ihave Hi' := (Entails.of_eq (pts_idx (F := F) d L _).symm) $$ Hi
  ihave Hs' := (Entails.of_eq (pts_st (F := F) d L _).symm) $$ Hs
  ihave Hrows := (tile_rows (F := F) d (cL L) (f3 d) (sL L)) $$ Hwin
  sl_unfold [cc0__body]
  sl_unfold [k0_part58]
  sl_exec
  ihave Ht2 := (tab_intro (F := F) f1 d L _ ?hft) $$ Ht'
  case hft => intro j; sl_unfold_run_names; exact tab_copy L (f1 d) ft0 j
  icases Ht2 with ⟨%ft, %hft, Ht⟩
  ihave Hi2 := (tok_intro (F := F) f2 d L _ ?hfi) $$ Hi'
  case hfi => intro j; sl_unfold_run_names; exact tok_copy L (f2 d) fi0 j
  icases Hi2 with ⟨%fi, %hfi, Hi⟩
  sl_for (inv f3 G d L O W ft fi) $$ [Hmw Ht Hi Hrows Hs' Hs3 Hs4 HO]
  case region =>
    intro k1 acc
    cases acc
    exact outer_trip f1 f2 f3 G d L hg O W hO ft fi hft hfi k1 _
  · unfold inv stagePart
    rw [if_pos rfl]
    isplitl [Hmw]; · iexact Hmw
    isplitl [Ht]; · iexact Ht
    isplitl [Hi]; · iexact Hi
    isplitr; · iapply (rows_empty (F := F) d (cL L) (G d) (row0 L)); iempintro
    isplitl [Hrows]; · iexact Hrows
    isplitl [Hs' Hs3 Hs4]
    · isplitl [Hs']; · iexists _; iexact Hs'
      isplitl [Hs3]; · iexact Hs3
      iexact Hs4
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  iintro %acc HI
  ihave HI' := (Entails.of_eq (inv_last (F := F) f3 G d L O W ft fi acc)) $$ HI
  icases HI' with ⟨-, Ht, Hi, Hdone, -, ⟨⟨%fA, HFA⟩, ⟨%fB, HFB⟩⟩, %W', %hW', HO⟩
  sl_exec
  sl_step
  ihave Hall := (rows_last (F := F) d (cL L) (G d) (row0 L)) $$ [Hdone HFA_dst HFB_dst]
  · isplitl [Hdone]; · iexact Hdone
    isplitl [HFA_dst] <;> iassumption
  ihave Hwin := (tile_rows_back (F := F) d (cL L) (G d) (sL L)) $$ Hall
  ihave Hst := (stage_join (F := F) d L fA fB) $$ [HFA_src HFB_src]
  · isplitl [HFA_src] <;> iassumption
  isplitl [Hv1' Hv2' Hwin]
  · isplitl [Hv1']; · iexact Hv1'
    isplitl [Hv2']; · iexact Hv2'
    iexact Hwin
  isplitl [Ht Hi Hst Hbufs]
  · isplitl [Ht]; · iexists _; iexact Ht
    isplitl [Hi]; · iexists _; iexact Hi
    isplitl [Hst]; · iexact Hst
    iexact Hbufs
  isplitl [HFA HFB Hc0 Hc1 Hsems]
  · isplitl [HFA]; · iexact HFA
    isplitl [HFB]; · iexact HFB
    isplitl [Hc0]; · iexact Hc0
    isplitl [Hc1]; · iexact Hc1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact hW' p hp

end Cert.KI

end
-- ==== Proof.KI.Obl.lean ====
/-
  The launch theorem's obligation for a vector subcore's task: the body table's row for the kernel is the kernel's body
  at the subcore's grid point on the whole arrays and the subcore's own scratch storage, and the task's run at that grid
  point takes what the launch hands the subcore to what it hands back.
-/
import proofs.«218643_g31147102830872_cont_9to1_1815_7_alg».proof.Proof.KI.Tile

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.cc0_scratch0 : Memref Cert.KernelIdeal.sig Kind.scVector Space.vmem Cert.KernelIdeal.S64000 EltTy.f32)
local notation "idxW" => (Memref.whole Cert.KernelIdeal.cc0_scratch1 : Memref Cert.KernelIdeal.sig Kind.scVector Space.vmem Cert.KernelIdeal.S12800 EltTy.i32)
local notation "stW" => (Memref.whole Cert.KernelIdeal.cc0_scratch2 : Memref Cert.KernelIdeal.sig Kind.scVector Space.vmem Cert.KernelIdeal.S2x64x200 EltTy.f32)
local notation "v1W" => (Memref.whole Cert.KernelIdeal.main_v1_scv : Memref Cert.KernelIdeal.sig Kind.scVector Space.hbm Cert.KernelIdeal.S128000 EltTy.f32)
local notation "v2W" => (Memref.whole Cert.KernelIdeal.main_v2_scv : Memref Cert.KernelIdeal.sig Kind.scVector Space.hbm Cert.KernelIdeal.S204800 EltTy.i32)
local notation "v3W" => (Memref.whole Cert.KernelIdeal.main_v3_scv : Memref Cert.KernelIdeal.sig Kind.scVector Space.hbm Cert.KernelIdeal.S1024x128x200 EltTy.f32)

variable [FloatOps F]

/-- The body table's row for the kernel on a vector subcore: the kernel's body at the subcore's grid point. -/
theorem defs₀_vector (c : Fin τ.nSC) (s : Fin τ.nSub) :
    defs₀ (F := F) (.scVector c s) 0 ()
      = SparseCore.onTile hcore0 hsub0 (fun c s => cc0__body (coordsV c s)
          v1W (Memref.isWhole_whole _) v2W (Memref.isWhole_whole _) v3W (Memref.isWhole_whole _)
          tabW (Memref.isWhole_whole _) idxW (Memref.isWhole_whole _) stW (Memref.isWhole_whole _)
          cc0_scratch3 cc0_scratch4 cc0_scoped0 cc0_scoped1) ⟨⟩ c s := rfl

omit [FloatOps F] in
/-- The task's waits left over are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation of the kernel's tasks: each vector subcore's task takes its read shares and its windows at the
    launch contents to the same with every window at the lookup. -/
theorem tileObl (f1 : (d : Dev nD) → Buf (Elt F) (v1Loc d)) (f2 : (d : Dev nD) → Buf (Elt F) (v2Loc d))
    (f3 G : (d : Dev nD) → Buf (Elt F) (v3Loc d)) (hg : ∀ d, Good f1 f2 G d) :
    (K (F := F)).TileObl (D (F := F)) 𝒱 (P f1 f2 f3 G) v₀ 0 := by
  intro d c i O W hO _ _
  -- the kernel owes nothing for a protocol of its own
  simp only [show (P f1 f2 f3 G).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts f1 f2 f3 G d (coordsV ⟨_, hc.1⟩ ⟨_, hc.2⟩) (hg d) O W hO).trans (wp_mono frame _ _ fun _ => obl_post)

end Cert.KI

end
-- ==== Proof.KB.Setup.lean ====
/-
  The lookup kernel's program as the launch theorem sees it, the resources its threads hold, and what the
  launch hands each vector subcore.

  Thirty-two vector subcores (two SparseCores of sixteen) each serve sixty-four rows of the token array and one half of
  the table's columns: subcore (c, s) copies columns [64 c, 64 c + 64) of the flattened transposed table (a run of
  64000 words) and tokens of rows [64 s, 64 s + 64) (12800 words) into its own memory, and for every one of its rows
  b = 64 s + r fills a 64 x 200 staging slot with table entries and copies the slot out to the window
  out[b, 64 c .. 64 c + 64, 0 .. 200) of the result. The windows of different (b, c) are disjoint and cover the
  result; the two flat arrays are only read, by every subcore, under read shares.
-/
import proofs.«218643_g31147102830872_cont_9to1_1815_7_alg».proof.Proof.Gen.Kernel
import proofs.«218643_g31147102830872_cont_9to1_1815_7_alg».proof.Proof.Gen.Kernel.Skeleton
import proofs.«218643_g31147102830872_cont_9to1_1815_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens, the table, the transposed table, the flat transposed table, the flat tokens, the result: as locations of
    device `d`. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The vector subcore a grid point names. -/
abbrev cV (L : grid0.Coords) : Fin τ.nSC := (L 0).castLE hcore0
abbrev jV (L : grid0.Coords) : Fin τ.nSub := (L 1).castLE hsub0
def coordsV (c : Fin (grid0.bound 0)) (s : Fin (grid0.bound 1)) : grid0.Coords :=
  fun | 0 => c | 1 => s | ⟨_ + 2, h⟩ => absurd h (Nat.not_lt.2 (Nat.le_add_left _ _))

/-! ## The printed offset chains that read the grid point, in closed form -/

theorem k0_off1_eq : ∀ i : grid0.Coords, k0_off1 i = ![64000 * (i 0).val] := by decide +kernel
theorem k0_off2_eq : ∀ i : grid0.Coords, k0_off2 i = ![12800 * (i 1).val] := by decide +kernel
theorem k0_off69_eq : ∀ (i : grid0.Coords) (k1 : Fin k0_t1_loop.trips), k0_off69 i k1 = ![64 * (i 1).val + 2 * k1.val, 64 * (i 0).val, 0] := by decide +kernel
theorem k0_off136_eq : ∀ (i : grid0.Coords) (k1 : Fin k0_t1_loop.trips), k0_off136 i k1 = ![64 * (i 1).val + 2 * k1.val + 1, 64 * (i 0).val, 0] := by decide +kernel

/-! ## The result's windows -/

theorem win_inb (b : Fin 1024) (c : Fin 2) : ∀ a, (![b.val, 64 * c.val, 0] : Fin 3 → Nat) a + S1x64x200.size a ≤ S1024x128x200.size a := by
  intro a
  have hb := b.isLt
  have hc := c.isLt
  match a with
  | ⟨0, _⟩ => show b.val + 1 ≤ 1024; omega
  | ⟨1, _⟩ => show 64 * c.val + 64 ≤ 128; omega
  | ⟨2, _⟩ => show 0 + 200 ≤ 200; omega

/-- The window of the result that holds row `b` of the tokens at the columns of half `c`: out[b, 64 c .. 64 c + 64, :]. -/
abbrev winR (b : Fin 1024) (c : Fin 2) : Rect S1024x128x200 := Rect.unit (s := S1024x128x200) ![b.val, 64 * c.val, 0] S1x64x200.size (win_inb b c)
abbrev winSet (b : Fin 1024) (c : Fin 2) : Finset S1024x128x200.Idx := (winR b c).set

/-- Row `64 s + r` of the tokens, for vector subcore `s`'s local row `r`. -/
def rowB (s : Fin 16) (r : Fin 64) : Fin 1024 := ⟨64 * s.val + r.val, by have := s.isLt; have := r.isLt; omega⟩

/-! ## What the launch hands a vector subcore, and what comes back -/

section Pay

variable (f1 : (d : Dev nD) → Buf (Elt F) (v1Loc d)) (f2 : (d : Dev nD) → Buf (Elt F) (v2Loc d))
  (f3 G : (d : Dev nD) → Buf (Elt F) (v3Loc d))

/-- The read share of SparseCore `c`, and of its vector subcore `s`. -/
abbrev shC (c : Fin 2) : PosShare TreeShare := Transfers.shareTok fullShare 2 c
abbrev shV (c : Fin 2) (s : Fin 16) : PosShare TreeShare := Transfers.shareTok (shC c) 16 s

/-- A vector subcore's task: a read share of the two flat arrays, and its sixty-four windows of the result, at contents
    `g` (the launch contents going in, the lookup coming back). -/
def tileRes (g : (d : Dev nD) → Buf (Elt F) (v3Loc d)) (d : Dev nD) (c : Fin 2) (s : Fin 16) : sProp 𝕄 :=
  iprop((v1Loc d ↦{shV c s} f1 d) ∗ (v2Loc d ↦{shV c s} f2 d)
    ∗ bigSep (Finset.univ : Finset (Fin 64)) fun r => v3Loc d ↦[winSet (rowB s r) c]{fullShare} g d)

/-- A SparseCore's share of the call: a read share of the two flat arrays, and its half of the result's columns. -/
def coreRes (g : (d : Dev nD) → Buf (Elt F) (v3Loc d)) (d : Dev nD) (c : Fin 2) : sProp 𝕄 :=
  iprop((v1Loc d ↦{shC c} f1 d) ∗ (v2Loc d ↦{shC c} f2 d)
    ∗ bigSep (Finset.univ : Finset (Fin 1024)) fun b => v3Loc d ↦[winSet b c]{fullShare} g d)

def P : (K (F := F)).Pay (nD := nD) (Val := Elt F) (Name := ℕ) (U := UU) where
  st := fun q d c => match q with | 0 => coreRes f1 f2 f3 d (Fin.cast nCore_zero c)
  dn := fun q d c => match q with | 0 => coreRes f1 f2 G d (Fin.cast nCore_zero c)
  go := fun q d c s => match q with | 0 => tileRes f1 f2 f3 d (Fin.cast nCore_zero c) (Fin.cast nSub_zero s)
  td := fun q d c s => match q with | 0 => tileRes f1 f2 G d (Fin.cast nCore_zero c) (Fin.cast nSub_zero s)
  x := fun _ _ => iprop(emp)

instance P_storable : (P (F := F) f1 f2 f3 G).IsStorable where
  st q d c := match q with | 0 => by unfold P coreRes; infer_instance
  dn q d c := match q with | 0 => by unfold P coreRes; infer_instance
  go q d c s := match q with | 0 => by unfold P tileRes; infer_instance
  td q d c s := match q with | 0 => by unfold P tileRes; infer_instance

/-- What the kernel's proof asks of the two flat arrays and the lookup `G`: every token names a row of the table, and
    the lookup at (b, j, t) is the flat table at word `1000 j + token`, the token the flat tokens' word `200 b + t`. -/
structure Good (d : Dev nD) : Prop where
  range : ∀ j, (f2 d j).toNat < 1000
  look : ∀ (b : Fin 1024) (j : Fin 128) (t : Fin 200),
    G d (ValueIdx.ix3 b j t)
      = f1 d (ValueIdx.ix1 (n := 128000) ⟨1000 * j.val + (f2 d (ValueIdx.ix1 (n := 204800) ⟨200 * b.val + t.val, by have := b.isLt; have := t.isLt; omega⟩)).toNat % 1000,
          by have := j.isLt; omega⟩)

end Pay

end Cert.KB

end
-- ==== Proof.KB.Split.lean ====
/-
  A SparseCore's share of the call splits into its sixteen vector subcores' tasks and comes back: each read share
  into sixteen tokens (the remainder waits inside the wand), and the 1024 windows of a column half regrouped by the
  subcore that serves their row, row b = 64 s + r going to subcore s as its local row r.
-/
import proofs.«218643_g31147102830872_cont_9to1_1815_7_alg».proof.Proof.KB.Setup

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows by subcore -/

theorem rowB_inj : Function.Injective (fun p : Fin 16 × Fin 64 => rowB p.1 p.2) := by
  rintro ⟨s, r⟩ ⟨s', r'⟩ h
  have h' : 64 * s.val + r.val = 64 * s'.val + r'.val := congrArg Fin.val h
  clear h
  have := r.isLt; have := r'.isLt
  exact Prod.ext (Fin.ext (show s.val = s'.val by omega)) (Fin.ext (show r.val = r'.val by omega))

theorem rowB_surj : Function.Surjective (fun p : Fin 16 × Fin 64 => rowB p.1 p.2) := by
  intro b
  have hb := b.isLt
  exact ⟨(⟨b.val / 64, by omega⟩, ⟨b.val % 64, Nat.mod_lt _ (by decide)⟩), Fin.ext (by show 64 * (b.val / 64) + b.val % 64 = b.val; omega)⟩

/-- A product over the 1024 rows is the product over the subcores of the products over their sixty-four rows. -/
theorem bigSep_rows (Φ : Fin 1024 → sProp 𝕄) :
    bigSep Finset.univ Φ = bigSep Finset.univ fun s : Fin 16 => bigSep Finset.univ fun r : Fin 64 => Φ (rowB s r) := by
  rw [← Finset.image_univ_of_surjective rowB_surj, SparseCore.bigSep_image_of_injOn (rowB_inj.injOn) Φ,
    ← Finset.univ_product_univ, SparseCore.bigSep_product]

/-- A product over the call's grid of subcores is the product over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

section Pay

variable (f1 : (d : Dev nD) → Buf (Elt F) (v1Loc d)) (f2 : (d : Dev nD) → Buf (Elt F) (v2Loc d))
  (f3 G : (d : Dev nD) → Buf (Elt F) (v3Loc d))

/-! ## The payload's fields as equations -/

theorem P_st (d : Dev nD) (c : Fin ((K (F := F)).nCore 0)) : (P f1 f2 f3 G).st 0 d c = coreRes f1 f2 f3 d (Fin.cast nCore_zero c) := rfl
theorem P_dn (d : Dev nD) (c : Fin ((K (F := F)).nCore 0)) : (P f1 f2 f3 G).dn 0 d c = coreRes f1 f2 G d (Fin.cast nCore_zero c) := rfl
theorem P_go (d : Dev nD) (c : Fin ((K (F := F)).nCore 0)) (i : Fin ((K (F := F)).nSub 0)) :
    (P f1 f2 f3 G).go 0 d c i = tileRes f1 f2 f3 d (Fin.cast nCore_zero c) (Fin.cast nSub_zero i) := rfl
theorem P_td (d : Dev nD) (c : Fin ((K (F := F)).nCore 0)) (i : Fin ((K (F := F)).nSub 0)) :
    (P f1 f2 f3 G).td 0 d c i = tileRes f1 f2 G d (Fin.cast nCore_zero c) (Fin.cast nSub_zero i) := rfl

/-- The sixteen tasks of a SparseCore, gathered: the sixteen tokens of each read share and the column half's windows. -/
theorem tiles_eq (g : (d : Dev nD) → Buf (Elt F) (v3Loc d)) (d : Dev nD) (c : Fin 2) :
    (bigSep Finset.univ fun s : Fin 16 => tileRes f1 f2 g d c s)
      = iprop((bigSep Finset.univ fun s : Fin 16 => v1Loc d ↦{shV c s} f1 d)
          ∗ (bigSep Finset.univ fun s : Fin 16 => v2Loc d ↦{shV c s} f2 d)
          ∗ bigSep Finset.univ fun b : Fin 1024 => v3Loc d ↦[winSet b c]{fullShare} g d) := by
  unfold tileRes
  rw [bigSep_sep', bigSep_sep', bigSep_rows (F := F) fun b => v3Loc d ↦[winSet b c]{fullShare} g d]

theorem vecSplit : (K (F := F)).VecSplit' (P f1 f2 f3 G) 0 := by
  intro d c
  rw [P_st, P_dn]
  simp only [P_go, P_td]
  rw [bigSep_tasks (F := F) (fun s => tileRes f1 f2 f3 d (Fin.cast nCore_zero c) s),
    bigSep_tasks (F := F) (fun s => tileRes f1 f2 G d (Fin.cast nCore_zero c) s), tiles_eq, tiles_eq]
  generalize Fin.cast nCore_zero c = c'
  unfold coreRes
  iintro ⟨H1, H2, H3⟩
  ihave H1' := (Transfers.pointsTo_toks_split (shC c') 16) $$ H1
  ihave H2' := (Transfers.pointsTo_toks_split (shC c') 16) $$ H2
  icases H1' with ⟨H1d, H1t⟩
  icases H2' with ⟨H2d, H2t⟩
  imodintro
  isplitl [H1t H2t H3]
  · isplitl [H1t]; · iexact H1t
    isplitl [H2t]; · iexact H2t
    iexact H3
  iintro ⟨G1, G2, G3⟩
  isplitl [H1d G1]
  · iapply (Transfers.pointsTo_toks_join (shC c') 16)
    isplitl [H1d]; · iexact H1d
    iexact G1
  isplitl [H2d G2]
  · iapply (Transfers.pointsTo_toks_join (shC c') 16)
    isplitl [H2d]; · iexact H2d
    iexact G2
  iexact G3

end Pay

end Cert.KB

end
-- ==== Proof.KB.Windows.lean ====
/-
  The result as its windows: out[b, 64 c .. 64 c + 64, :] over the 1024 rows b and the two column halves c are pairwise
  disjoint and cover the array, an element (b', j, t) lying in the window of b = b' and c = j / 64. With it, the two
  SparseCores' shares of the call as one product.
-/
import proofs.«218643_g31147102830872_cont_9to1_1815_7_alg».proof.Proof.KB.Setup

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Membership in a window -/

theorem mem_winSet {b : Fin 1024} {c : Fin 2} {i : S1024x128x200.Idx} :
    i ∈ winSet b c ↔ (i 0).val = b.val ∧ (i 1).val / 64 = c.val := by
  show i ∈ (Rect.unit (s := S1024x128x200) ![b.val, 64 * c.val, 0] S1x64x200.size (win_inb b c)).set ↔ _
  rw [Rect.mem_set_unit]
  constructor
  · intro h
    have h0 : b.val ≤ (i 0).val ∧ (i 0).val < b.val + 1 := h 0
    have h1 : 64 * c.val ≤ (i 1).val ∧ (i 1).val < 64 * c.val + 64 := h 1
    exact ⟨by omega, by omega⟩
  · rintro ⟨h0, h1⟩ a
    have h2 : (i 2).val < 200 := (i 2).isLt
    have h3 : (i 1).val < 128 := (i 1).isLt
    match a with
    | ⟨0, _⟩ => show b.val ≤ (i 0).val ∧ (i 0).val < b.val + 1; omega
    | ⟨1, _⟩ => show 64 * c.val ≤ (i 1).val ∧ (i 1).val < 64 * c.val + 64; omega
    | ⟨2, _⟩ => show 0 ≤ (i 2).val ∧ (i 2).val < 0 + 200; omega

theorem win_disjoint : ∀ p ∈ (Finset.univ : Finset (Fin 2 × Fin 1024)), ∀ p' ∈ (Finset.univ : Finset (Fin 2 × Fin 1024)), p ≠ p' →
    Disjoint (winSet p.2 p.1) (winSet p'.2 p'.1) := by
  rintro ⟨c, b⟩ _ ⟨c', b'⟩ _ hne
  refine Finset.disjoint_left.mpr fun i hi hi' => hne ?_
  have h : (i 0).val = b.val ∧ (i 1).val / 64 = c.val := mem_winSet.mp hi
  have h' : (i 0).val = b'.val ∧ (i 1).val / 64 = c'.val := mem_winSet.mp hi'
  exact Prod.ext (Fin.ext (show c.val = c'.val by omega)) (Fin.ext (show b.val = b'.val by omega))

theorem win_cover : (Finset.univ : Finset (Fin 2 × Fin 1024)).biUnion (fun p => winSet p.2 p.1) = Finset.univ := by
  ext i
  simp only [Finset.mem_biUnion, Finset.mem_univ, true_and, iff_true]
  have h0 : (i 0).val < 1024 := (i 0).isLt
  have h1 : (i 1).val < 128 := (i 1).isLt
  exact ⟨(⟨(i 1).val / 64, by omega⟩, ⟨(i 0).val, h0⟩), mem_winSet.mpr ⟨rfl, rfl⟩⟩

/-- The result whole is its 2048 windows. -/
theorem v3_windows (d : Dev nD) (g : Buf (Elt F) (v3Loc d)) :
    (v3Loc d ↦{fullShare} g : sProp 𝕄)
      = bigSep Finset.univ fun c : Fin 2 => bigSep Finset.univ fun b : Fin 1024 => v3Loc d ↦[winSet b c]{fullShare} g := by
  rw [← SparseCore.bigSep_product Finset.univ Finset.univ (fun p : Fin 2 × Fin 1024 => (v3Loc d ↦[winSet p.2 p.1]{fullShare} g : sProp 𝕄)),
    Finset.univ_product_univ, ← pointsTo_biUnion Finset.univ (ℓ := v3Loc d) (fun p : Fin 2 × Fin 1024 => winSet p.2 p.1) win_disjoint, win_cover]

/-! ## The two SparseCores' shares -/

/-- A product over the call's grid of SparseCores is the product over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Pay

variable (f1 : (d : Dev nD) → Buf (Elt F) (v1Loc d)) (f2 : (d : Dev nD) → Buf (Elt F) (v2Loc d))
  (f3 G : (d : Dev nD) → Buf (Elt F) (v3Loc d))

/-- The two SparseCores' shares, gathered: the two tokens of each read share and the result's windows. -/
theorem cores_eq (g : (d : Dev nD) → Buf (Elt F) (v3Loc d)) (d : Dev nD) :
    (bigSep Finset.univ fun c : Fin 2 => coreRes f1 f2 g d c)
      = iprop((bigSep Finset.univ fun c : Fin 2 => v1Loc d ↦{shC c} f1 d)
          ∗ (bigSep Finset.univ fun c : Fin 2 => v2Loc d ↦{shC c} f2 d)
          ∗ v3Loc d ↦{fullShare} g d) := by
  unfold coreRes
  rw [bigSep_sep', bigSep_sep', v3_windows]

theorem st0_eq (d : Dev nD) :
    (bigSep Finset.univ fun c : Fin ((K (F := F)).nCore 0) => (P f1 f2 f3 G).st 0 d c)
      = iprop((bigSep Finset.univ fun c : Fin 2 => v1Loc d ↦{shC c} f1 d)
          ∗ (bigSep Finset.univ fun c : Fin 2 => v2Loc d ↦{shC c} f2 d)
          ∗ v3Loc d ↦{fullShare} f3 d) := by
  rw [← cores_eq]
  exact bigSep_cores (F := F) (fun c => coreRes f1 f2 f3 d c)

theorem dn0_eq (d : Dev nD) :
    (bigSep Finset.univ fun c : Fin ((K (F := F)).nCore 0) => (P f1 f2 f3 G).dn 0 d c)
      = iprop((bigSep Finset.univ fun c : Fin 2 => v1Loc d ↦{shC c} f1 d)
          ∗ (bigSep Finset.univ fun c : Fin 2 => v2Loc d ↦{shC c} f2 d)
          ∗ v3Loc d ↦{fullShare} G d) := by
  rw [← cores_eq]
  exact bigSep_cores (F := F) (fun c => coreRes f1 f2 G d c)

end Pay

end Cert.KB

end
-- ==== Proof.KB.Host.lean ====
/-
  What the three host operations leave in the flat arrays, and why the lookup read through them is the lookup of the
  arguments: the flat table at word 1000 j + v is the table's entry (v, j), the flat tokens at word 200 b + t the token (b, t).
-/
import proofs.«218643_g31147102830872_cont_9to1_1815_7_alg».proof.Proof.KB.Setup
import Idealize.ShloMosaic.Lib.ValueLayout

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
variable {F : FTy → Type}

local notation "𝕄" => MT nD τ sig (HIx 1) (Elt F) ℕ UU ℕ

variable [FloatOps F]
variable (m : (ℓ : Loc nD τ sig) → Buf (Elt F) ℓ)

/-- The transposed table: what the first host operation leaves in its result. -/
def V0t (d : Dev nD) : Buf (Elt F) (v0Loc d) :=
  transpose S128x1000 [1, 0] (m (a1Loc d)) transposes_S1000x128_S128x1000_1_0

/-- The flat transposed table: what the second host operation leaves in its result. -/
def V1 (d : Dev nD) : Buf (Elt F) (v1Loc d) :=
  fun i => shapeCast S128000 (V0t m d) shapeCasts_S128x1000_S128000 i

/-- The flat tokens: what the third host operation leaves in its result. -/
def V2 (d : Dev nD) : Buf (Elt F) (v2Loc d) :=
  fun i => shapeCast S204800 (m (a0Loc d)) shapeCasts_S1024x200_S204800 i

/-- The lookup of the two arguments. -/
def Gm (d : Dev nD) : Buf (Elt F) (v3Loc d) := Cert.Spec.lookupT (m (a0Loc d)) (m (a1Loc d))

/-- The flat tokens at word 200 b + t are the token (b, t). -/
theorem V2_apply (d : Dev nD) (b : Fin 1024) (t : Fin 200) (h : 200 * b.val + t.val < 204800) :
    V2 m d (ix1 (n := 204800) ⟨200 * b.val + t.val, h⟩) = m (a0Loc d) (ix2 (n0 := 1024) (n1 := 200) b t) := by
  unfold V2
  refine shapeCast_apply _ _ _ _ ?_
  show ((⟨2, ![1024, 200]⟩ : Shape).rowMajor (ix2 b t)).val = ((⟨1, ![204800]⟩ : Shape).rowMajor (ix1 ⟨200 * b.val + t.val, h⟩)).val
  rw [Shape.rowMajor_val_two, Shape.rowMajor_val_one]
  show b.val * 200 + t.val = 200 * b.val + t.val
  omega

/-- The flat transposed table at word 1000 j + v is the table's entry (v, j). -/
theorem V1_apply (d : Dev nD) (j : Fin 128) (v : Fin 1000) (h : 1000 * j.val + v.val < 128000) :
    V1 m d (ix1 (n := 128000) ⟨1000 * j.val + v.val, h⟩) = m (a1Loc d) (ix2 (n0 := 1000) (n1 := 128) v j) := by
  unfold V1
  rw [shapeCast_apply (V0t m d) shapeCasts_S128x1000_S128000 _ (ix2 (n0 := 128) (n1 := 1000) j v)
    (by
      show ((⟨2, ![128, 1000]⟩ : Shape).rowMajor (ix2 j v)).val = ((⟨1, ![128000]⟩ : Shape).rowMajor (ix1 ⟨1000 * j.val + v.val, h⟩)).val
      rw [Shape.rowMajor_val_two, Shape.rowMajor_val_one]
      show j.val * 1000 + v.val = 1000 * j.val + v.val
      omega)]
  unfold V0t
  exact transpose_ix2_apply (m (a1Loc d)) transposes_S1000x128_S128x1000_1_0 j v

theorem good (d : Dev nD) (hr : Cert.Spec.InRange (m (a0Loc d))) : Good (V1 m) (V2 m) (Gm m) d where
  range := fun j => by
    unfold V2 shapeCast
    exact hr _
  look := fun b j t => by
    have key : ∀ (x : BitVec 32) (_ : x = m (a0Loc d) (ix2 (n0 := 1024) (n1 := 200) b t)) (h : 1000 * j.val + x.toNat % 1000 < 128000),
        V1 m d (ix1 (n := 128000) ⟨1000 * j.val + x.toNat % 1000, h⟩)
          = m (a1Loc d) (ix2 (n0 := 1000) (n1 := 128) (Cert.Spec.rowOf (m (a0Loc d) (ix2 (n0 := 1024) (n1 := 200) b t))) j) := by
      intro x hx h
      subst hx
      exact V1_apply m d j (Cert.Spec.rowOf _) h
    refine (Cert.Spec.lookupT_apply (m (a0Loc d)) (m (a1Loc d)) b j t).trans ?_
    exact (key _ (V2_apply m d b t _) _).symm

end Cert.KB

end
-- ==== Proof.KB.Launch.lean ====
/-
  The launch of the lookup kernel: the handshakes' ghost state, @main on the TensorCore (the three host operations,
  then the call: each SparseCore is handed a read share of the two flat arrays and its column half of the result), and
  the program's run.
-/
import proofs.«218643_g31147102830872_cont_9to1_1815_7_alg».proof.Proof.KB.Split
import proofs.«218643_g31147102830872_cont_9to1_1815_7_alg».proof.Proof.KB.Windows
import proofs.«218643_g31147102830872_cont_9to1_1815_7_alg».proof.Proof.KB.Host

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
variable {F : FTy → Type}

local notation "𝕄" => MT nD τ sig (HIx 1) (Elt F) ℕ UU ℕ

variable [FloatOps F]
variable (m : (ℓ : Loc nD τ sig) → Buf (Elt F) ℓ) (ρ : Dev nD → PrngReg)

/-- The payloads at the launch memory: the flat arrays as the host operations leave them, the result from its launch
    contents to the lookup. -/
abbrev PM : (K (F := F)).Pay (nD := nD) (Val := Elt F) (Name := ℕ) (U := UU) :=
  P (V1 m) (V2 m) (fun d => m (v3Loc d)) (Gm m)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PM m).x q thr) = (iprop(emp) : sProp 𝕄) from by
    rw [show (fun thr : Thread nD τ => bigSep Finset.univ fun q : Fin 1 => (PM m).x q thr) = fun _ => (iprop(emp) : sProp 𝕄) from
      funext fun _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations: the table transposed, the transpose flattened, the tokens flattened. -/
abbrev opT : HloOp τ sig (Elt F) :=
  StableHlo.unary main_arg1 main_v0 ((transpose S128x1000 [1, 0] · transposes_S1000x128_S128x1000_1_0) : (⟨S1000x128, .f32⟩ : BufTy).Contents (Elt F) → (⟨S128x1000, .f32⟩ : BufTy).Contents (Elt F))
abbrev opR1 : HloOp τ sig (Elt F) := StableHlo.reshape main_v0 main_v1 rfl shapeCasts_S128x1000_S128000
abbrev opR2 : HloOp τ sig (Elt F) := StableHlo.reshape main_arg0 main_v2 rfl shapeCasts_S1024x200_S204800

/-- The TensorCore's arrays, all unscoped. -/
abbrev S6 : Finset (DevRef τ sig) := {a0', a1', v0', v1', v2', v3'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ (v0Loc d ↦{fullShare} W v0')
          ∗ (v1Loc d ↦{fullShare} W v1') ∗ (v2Loc d ↦{fullShare} W v2') ∗ (v3Loc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0)
          ∗ (v1Loc d ↦{fullShare} W main_v1) ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the arrays after the three host operations. -/
def W0 (d : Dev nD) : Valuation τ sig (Elt F) := fun b => m (d, b)
def W3 (d : Dev nD) : Valuation τ sig (Elt F) := StableHlo.after [opT, opR1, opR2] (W0 m d)

omit [FloatOps F] in
theorem unscoped_held (d : Dev nD) : (unscopedBufs d (fun b => m ((SparseCore.T d).loc b)) : sProp 𝕄) = held (T d) S6 (W0 m d) := by
  rw [unscopedBufs_eq, held_S6]; rfl

theorem W3_a0 (d : Dev nD) : W3 m d a0' = m (a0Loc d) := by
  unfold W3; after_results; rfl
theorem W3_a1 (d : Dev nD) : W3 m d a1' = m (a1Loc d) := by
  unfold W3; after_results; rfl
theorem W3_v1 (d : Dev nD) : W3 m d v1' = V1 m d := by
  unfold W3; after_results; rfl
theorem W3_v2 (d : Dev nD) : W3 m d v2' = V2 m d := by
  unfold W3; after_results; rfl
theorem W3_v3 (d : Dev nD) : W3 m d v3' = m (v3Loc d) := by
  unfold W3; after_results; rfl

theorem hT : (opT (F := F)).bufs ⊆ S6 := show ({a1', v0'} : Finset (DevRef τ sig)) ⊆ S6 by decide
theorem hR1 : (opR1 (F := F)).bufs ⊆ S6 := show ({v0', v1'} : Finset (DevRef τ sig)) ⊆ S6 by decide
theorem hR2 : (opR2 (F := F)).bufs ⊆ S6 := show ({a0', v2'} : Finset (DevRef τ sig)) ⊆ S6 by decide

/-- What @main leaves the claim: the two arguments at their launch contents, the result at the lookup. -/
abbrev FIN (d : Dev nD) : sProp 𝕄 :=
  iprop((a0Loc d ↦{fullShare} m (a0Loc d)) ∗ (a1Loc d ↦{fullShare} m (a1Loc d)) ∗ (v3Loc d ↦{fullShare} Gm m d))

/-- The arrays after the three host operations. -/
theorem held_W3 (d : Dev nD) :
    (held (T d) S6 ((opR2 (F := F)).result ((opR1 (F := F)).result ((opT (F := F)).result (W0 m d)))) : sProp 𝕄)
      = iprop((a0Loc d ↦{fullShare} m (a0Loc d)) ∗ (a1Loc d ↦{fullShare} m (a1Loc d)) ∗ (v0Loc d ↦{fullShare} W3 m d v0')
          ∗ (v1Loc d ↦{fullShare} V1 m d) ∗ (v2Loc d ↦{fullShare} V2 m d) ∗ (v3Loc d ↦{fullShare} m (v3Loc d))) := by
  show (held (T d) S6 (W3 m d) : sProp 𝕄) = _
  rw [held_S6, W3_a0, W3_a1, W3_v1, W3_v2, W3_v3]

/-- @main on device `d`'s TensorCore: the three host operations over the six arrays held whole; then the call, each
    SparseCore handed one of the two read tokens of each flat array and the result whole as its windows, and the lookup
    back; the arguments kept. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT) (S := S6) hT (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S6) hR1 (V := (opT (F := F)).result (W0 m d))) $$ [Hb Hheld]
  · isplitl [Hb]; · iexact Hb
    iexact Hheld
  iintro ⟨Hb, Hheld⟩
  rw [wp_ret]; imodintro
  iapply (wp_hlo_within 𝒱 (SparseCore.T d) none Set.univ (op := opR2) (S := S6) hR2 (V := (opR1 (F := F)).result ((opT (F := F)).result (W0 m d)))) $$ [Hb Hheld]
  · isplitl [Hb]; · iexact Hb
    iexact Hheld
  iintro ⟨Hb, Hheld⟩
  rw [wp_ret]; imodintro
  ihave Hh := (Entails.of_eq (held_W3 (F := F) m d)) $$ Hheld
  icases Hh with ⟨H0, H1, -, Hv1, Hv2, Hv3⟩
  ihave Hv1' := (Transfers.pointsTo_toks_split fullShare 2) $$ Hv1
  ihave Hv2' := (Transfers.pointsTo_toks_split fullShare 2) $$ Hv2
  icases Hv1' with ⟨-, Hv1t⟩
  icases Hv2' with ⟨-, Hv2t⟩
  iapply ((K (F := F)).wp_run (D (F := F)) 𝒱 (EH := EH) (P := PM m) κ d 0) $$ [Hst H0 H1 Hv1t Hv2t Hv3]
  isplitr; · iexact Hctx
  isplitl [Hst]; · iexact Hst
  isplitl [Hv1t Hv2t Hv3]
  · rw [st0_eq]
    isplitl [Hv1t]; · iexact Hv1t
    isplitl [Hv2t]; · iexact Hv2t
    iexact Hv3
  iintro ⟨Hst, Hdn⟩
  ihave Hdn' := (Entails.of_eq (dn0_eq (F := F) (V1 m) (V2 m) (fun d => m (v3Loc d)) (Gm m) d)) $$ Hdn
  icases Hdn' with ⟨-, -, G3⟩
  imodintro
  isplitl [Hst]; · iexact Hst
  isplitl [H0]; · iexact H0
  isplitl [H1]; · iexact H1
  iexact G3

def fq (d : Dev nD) (s' : Phys nD τ sig (Elt F)) : Prop :=
  s'.mem.mem (v3Loc d) = Gm m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v3Loc d) (I := Finset.univ) (q := fullShare) (f := Gm m d)) $$ [HSI H3]
  · isplitl [HSI] <;> iassumption
  icases H with %h3
  ipureintro
  exact ⟨funext fun i => h3 i (Finset.mem_univ i), funext fun i => h0 i (Finset.mem_univ i), funext fun i => h1 i (Finset.mem_univ i)⟩

/-! ## The program's run -/

def QC : PUnit × MemSt nD τ sig (Elt F) → Prop := fun r =>
  ∀ c : Dev nD, r.2.mem (v3Loc c) = Gm m c ∧ r.2.mem (a0Loc c) = m (a0Loc c) ∧ r.2.mem (a1Loc c) = m (a1Loc c)

theorem run_main [∀ e, Nonempty (Elt F e)]
    (htile : (K (F := F)).TileObl (D (F := F)) 𝒱 (P (V1 m) (V2 m) (fun d => m (v3Loc d)) (Gm m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => htile)
    (fun q _ => match q with | 0 => SparseCore.Cfg.VecSplit.of_plain (vecSplit _ _ _ _))
    m ρ main (fun _ => iprop(emp)) (FIN m) (u₀ (F := F)) (sep_elim_left.trans (hu₀ m)) (hmain m ρ) (fq m) (hfin m) (QC m) (fun _ h => h)

end Cert.KB

end
-- ==== Proof.KB.Vals.lean ====
/-
  What a staging slot must hold, and what one chunk of sixteen tokens changes in it.

  The staging buffer has two slots of 64 x 200 words. For the local token row `bl` (a row of the subcore's 64 x 200
  token block `fi`, flat) the slot is to hold, at (j, t), the word `1000 j + fi[200 bl + t]` of the subcore's copy `ft` of
  its half of the flat transposed table. One chunk of the kernel's inner work fills sixteen consecutive columns of all
  sixty-four rows of one slot with these words and leaves every other word of the buffer as it was.
-/
import proofs.«218643_g31147102830872_cont_9to1_1815_7_alg».proof.Proof.KB.Setup

noncomputable section

namespace Cert.KB

open Cert.Kernel Cert.Kernel.Gen
open Idealize.ShloMosaic Idealize.ShloMosaic.ValueIdx

variable {F : FTy → Type}

/-- The two slots of the staging buffer, as the kernel's copies out of it name them. -/
abbrev slotM0 : Memref sig .scVector .vmem S64x200 .f32 :=
  ((Memref.whole cc0_scratch2 : Memref sig .scVector .vmem S2x64x200 .f32).slice (Rect.unit (s := S2x64x200) ![0, 0, 0] S1x64x200.size inb_S2x64x200_S1x64x200_0_0_0) (fun _ => rfl)).squeeze S64x200 squeezes_S1x64x200_S64x200
abbrev slotM1 : Memref sig .scVector .vmem S64x200 .f32 :=
  ((Memref.whole cc0_scratch2 : Memref sig .scVector .vmem S2x64x200 .f32).slice (Rect.unit (s := S2x64x200) ![1, 0, 0] S1x64x200.size inb_S2x64x200_S1x64x200_1_0_0) (fun _ => rfl)).squeeze S64x200 squeezes_S1x64x200_S64x200

/-- The word a slot holds at `y = (slot, j, t)` for local token row `bl`: the table copy at `1000 j + token`, the token
    the word `200 bl + t` of the token block (reduced so that the function is total; under the range fact the
    reductions do nothing). -/
def stageVal (ft : S64000.Idx → Elt F .f32) (fi : S12800.Idx → Elt F .i32) (bl : ℕ) : S2x64x200.Idx → Elt F .f32 :=
  fun y => ft (ix1 (n := 64000) ⟨1000 * (y 1).val + (fi (ix1 (n := 12800) ⟨(200 * bl + (y 2).val) % 12800, Nat.mod_lt _ (by decide)⟩)).toNat % 1000,
    by have h1 : (y 1).val < 64 := (y 1).isLt
       have h2 := Nat.mod_lt (fi (ix1 (n := 12800) ⟨(200 * bl + (y 2).val) % 12800, Nat.mod_lt _ (by decide)⟩)).toNat (show 0 < 1000 by decide)
       omega⟩)

/-- `fs'` is `fs` with columns [c0, c0 + 16) of slot `k` set to `sv`. -/
def ChunkSet (sv : S2x64x200.Idx → Elt F .f32) (k c0 : ℕ) (fs fs' : S2x64x200.Idx → Elt F .f32) : Prop :=
  ∀ y, fs' y = if (y 0).val = k ∧ c0 ≤ (y 2).val ∧ (y 2).val < c0 + 16 then sv y else fs y

/-- Slot `k` of `fs` holds `sv` on its columns below `n`. -/
def SlotDone (sv : S2x64x200.Idx → Elt F .f32) (k n : ℕ) (fs : S2x64x200.Idx → Elt F .f32) : Prop :=
  ∀ y, (y 0).val = k → (y 2).val < n → fs y = sv y

theorem SlotDone.zero (sv : S2x64x200.Idx → Elt F .f32) (k : ℕ) (fs : S2x64x200.Idx → Elt F .f32) : SlotDone sv k 0 fs :=
  fun _ _ h => absurd h (Nat.not_lt_zero _)

/-- A chunk at the columns right after those done extends them by sixteen. -/
theorem SlotDone.chunk {sv : S2x64x200.Idx → Elt F .f32} {k n : ℕ} {fs fs' : S2x64x200.Idx → Elt F .f32}
    (h : SlotDone sv k n fs) (hc : ChunkSet sv k n fs fs') : SlotDone sv k (n + 16) fs' := by
  intro y hy0 hy2
  rw [hc y]
  split
  · rfl
  · next hn =>
    exact h y hy0 (by omega)

/-- A chunk that overlaps columns already done (the last chunk starts at column 184 after twelve chunks reached 192)
    keeps them done and completes the slot. -/
theorem SlotDone.chunk_overlap {sv : S2x64x200.Idx → Elt F .f32} {k n c0 : ℕ} {fs fs' : S2x64x200.Idx → Elt F .f32}
    (h : SlotDone sv k n fs) (hc : ChunkSet sv k c0 fs fs') (hle : c0 ≤ n) : SlotDone sv k (c0 + 16) fs' := by
  intro y hy0 hy2
  rw [hc y]
  split
  · rfl
  · next hn =>
    exact h y hy0 (by omega)

/-- A chunk in one slot leaves the other slot's columns as they were. -/
theorem SlotDone.other {sv sv' : S2x64x200.Idx → Elt F .f32} {k k' n c0 : ℕ} {fs fs' : S2x64x200.Idx → Elt F .f32}
    (h : SlotDone sv k n fs) (hc : ChunkSet sv' k' c0 fs fs') (hk : k ≠ k') : SlotDone sv k n fs' := by
  intro y hy0 hy2
  rw [hc y, if_neg (fun hh => hk (hy0 ▸ hh.1))]
  exact h y hy0 hy2

end Cert.KB

end
-- ==== Proof.KB.Sets.lean ====
/-
  The element sets of the views the lookup kernel's copies go through: each of the two staging slots is the set of
  indices of the staging buffer with that slot number, the two are complementary, and the view of the result a copy
  lands in is the window out[b, 64 c .. 64 c + 64, :] of the token row b the copy serves.
-/
import proofs.«218643_g31147102830872_cont_9to1_1815_7_alg».proof.Proof.KB.Setup
import proofs.«218643_g31147102830872_cont_9to1_1815_7_alg».proof.Proof.KB.Vals

noncomputable section

namespace Cert.KB

open Cert.Kernel Cert.Kernel.Gen

open Idealize.ShloMosaic Idealize.ShloMosaic.ValueIdx
open Idealize.ShloMosaic.SparseCore (S V T)

variable {F : FTy → Type}

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

theorem bound_zero : grid0.bound 0 = 2 := rfl
theorem bound_one : grid0.bound 1 = 16 := rfl
/-- The SparseCore and the vector subcore of a grid point, as numbers below 2 and 16. -/
abbrev cL (L : grid0.Coords) : Fin 2 := Fin.cast bound_zero (L 0)
abbrev sL (L : grid0.Coords) : Fin 16 := Fin.cast bound_one (L 1)

/-! ## The two staging slots -/

/-- The first slot is the rectangle of the staging buffer with slot number 0. -/
theorem set_slotM0 : (slotM0).view.set
    = (Rect.unit (s := S2x64x200) ![0, 0, 0] S1x64x200.size inb_S2x64x200_S1x64x200_0_0_0).set := by
  show (((View.whole (cc0_scratch2 : Ref sig .scVector)).slice
      (Rect.unit (s := S2x64x200) ![0, 0, 0] S1x64x200.size inb_S2x64x200_S1x64x200_0_0_0)).reshape S64x200
        squeezes_S1x64x200_S64x200.numel_eq).set = _
  rw [View.set_reshape, View.set_slice]; exact Finset.map_refl

theorem set_slotM1 : (slotM1).view.set
    = (Rect.unit (s := S2x64x200) ![1, 0, 0] S1x64x200.size inb_S2x64x200_S1x64x200_1_0_0).set := by
  show (((View.whole (cc0_scratch2 : Ref sig .scVector)).slice
      (Rect.unit (s := S2x64x200) ![1, 0, 0] S1x64x200.size inb_S2x64x200_S1x64x200_1_0_0)).reshape S64x200
        squeezes_S1x64x200_S64x200.numel_eq).set = _
  rw [View.set_reshape, View.set_slice]; exact Finset.map_refl

/-- An index of the staging buffer lies in the first slot exactly when its slot number is 0. -/
theorem mem_slotM0 (y : S2x64x200.Idx) : y ∈ (slotM0).view.set ↔ (y 0).val = 0 := by
  rw [set_slotM0, Rect.mem_set_unit]
  constructor
  · intro h
    have h0 := h 0
    have e : (![0, 0, 0] : Fin 3 → Nat) 0 + S1x64x200.size 0 = 1 := rfl
    have e' : (![0, 0, 0] : Fin 3 → Nat) 0 = 0 := rfl
    omega
  · intro h a
    have h1 : (y 1).val < 64 := (y 1).isLt
    have h2 : (y 2).val < 200 := (y 2).isLt
    match a with
    | ⟨0, _⟩ => exact ⟨Nat.zero_le _, show (y 0).val < 0 + 1 by omega⟩
    | ⟨1, _⟩ => exact ⟨Nat.zero_le _, show (y 1).val < 0 + 64 by omega⟩
    | ⟨2, _⟩ => exact ⟨Nat.zero_le _, show (y 2).val < 0 + 200 by omega⟩

/-- An index of the staging buffer lies in the second slot exactly when its slot number is 1. -/
theorem mem_slotM1 (y : S2x64x200.Idx) : y ∈ (slotM1).view.set ↔ (y 0).val = 1 := by
  rw [set_slotM1, Rect.mem_set_unit]
  constructor
  · intro h
    have h0 := h 0
    have e : (![1, 0, 0] : Fin 3 → Nat) 0 + S1x64x200.size 0 = 2 := rfl
    have e' : (![1, 0, 0] : Fin 3 → Nat) 0 = 1 := rfl
    omega
  · intro h a
    have h1 : (y 1).val < 64 := (y 1).isLt
    have h2 : (y 2).val < 200 := (y 2).isLt
    match a with
    | ⟨0, _⟩ => exact ⟨show 1 ≤ (y 0).val by omega, show (y 0).val < 1 + 1 by omega⟩
    | ⟨1, _⟩ => exact ⟨Nat.zero_le _, show (y 1).val < 0 + 64 by omega⟩
    | ⟨2, _⟩ => exact ⟨Nat.zero_le _, show (y 2).val < 0 + 200 by omega⟩

/-- The two slots are complementary: what is not in the first is the second, -/
theorem compl_slotM0 : (Finset.univ : Finset S2x64x200.Idx) \ (slotM0).view.set = (slotM1).view.set := by
  ext y
  have h0 : (y 0).val < 2 := (y 0).isLt
  rw [Finset.mem_sdiff, mem_slotM0, mem_slotM1]
  simp only [Finset.mem_univ, true_and]
  omega

/-- and what is not in the second is the first. -/
theorem compl_slotM1 : (Finset.univ : Finset S2x64x200.Idx) \ (slotM1).view.set = (slotM0).view.set := by
  ext y
  have h0 : (y 0).val < 2 := (y 0).isLt
  rw [Finset.mem_sdiff, mem_slotM0, mem_slotM1]
  simp only [Finset.mem_univ, true_and]
  omega

/-! ## The views of the result the copies land in -/

theorem t1_trips : k0_t1_loop.trips = 32 := by decide

/-- The view of the result the copy out of the first slot goes through, at trip `k1` of the row loop, -/
abbrev outW0 (L : grid0.Coords) (k1 : Fin k0_t1_loop.trips) : Memref sig .scVector .hbm S64x200 .f32 :=
  ((v3W).slice (Rect.unit (s := S1024x128x200) (k0_off69 L k1) S1x64x200.size (k0_off69_inb L k1)) (fun _ => rfl)).squeeze S64x200 squeezes_S1x64x200_S64x200
/-- and the one the copy out of the second slot goes through. -/
abbrev outW1 (L : grid0.Coords) (k1 : Fin k0_t1_loop.trips) : Memref sig .scVector .hbm S64x200 .f32 :=
  ((v3W).slice (Rect.unit (s := S1024x128x200) (k0_off136 L k1) S1x64x200.size (k0_off136_inb L k1)) (fun _ => rfl)).squeeze S64x200 squeezes_S1x64x200_S64x200

/-- The local token rows trip `k1` serves: `2 k1` through the first slot, `2 k1 + 1` through the second. -/
theorem t1_lt (k1 : Fin k0_t1_loop.trips) : k1.val < 32 := lt_of_lt_of_eq k1.isLt t1_trips
abbrev rowE (k1 : Fin k0_t1_loop.trips) : Fin 64 := ⟨2 * k1.val, by have := t1_lt k1; omega⟩
abbrev rowO (k1 : Fin k0_t1_loop.trips) : Fin 64 := ⟨2 * k1.val + 1, by have := t1_lt k1; omega⟩
theorem rowE_val (k1 : Fin k0_t1_loop.trips) : (rowE k1).val = 2 * k1.val := rfl
theorem rowO_val (k1 : Fin k0_t1_loop.trips) : (rowO k1).val = 2 * k1.val + 1 := rfl

/-- The rectangle the first copy's offsets name is the window of token row `64 s + 2 k1` at the columns of half `c`. -/
theorem rect_outW0 (L : grid0.Coords) (k1 : Fin k0_t1_loop.trips) :
    Rect.unit (s := S1024x128x200) (k0_off69 L k1) S1x64x200.size (k0_off69_inb L k1) = winR (rowB (sL L) (rowE k1)) (cL L) :=
  Rect.unit_congr ((k0_off69_eq L k1).trans rfl) _ _

theorem rect_outW1 (L : grid0.Coords) (k1 : Fin k0_t1_loop.trips) :
    Rect.unit (s := S1024x128x200) (k0_off136 L k1) S1x64x200.size (k0_off136_inb L k1) = winR (rowB (sL L) (rowO k1)) (cL L) :=
  Rect.unit_congr ((k0_off136_eq L k1).trans rfl) _ _

/-- The first copy lands in the window of token row `64 s + 2 k1`, -/
theorem set_outW0 (L : grid0.Coords) (k1 : Fin k0_t1_loop.trips) :
    (outW0 L k1).view.set = winSet (rowB (sL L) (rowE k1)) (cL L) := by
  show (((View.whole (main_v3_scv : Ref sig .scVector)).slice
      (Rect.unit (s := S1024x128x200) (k0_off69 L k1) S1x64x200.size (k0_off69_inb L k1))).reshape S64x200
        squeezes_S1x64x200_S64x200.numel_eq).set = _
  rw [View.set_reshape, View.set_slice]
  exact Finset.map_refl.trans (congrArg (fun r : Rect S1024x128x200 => r.toLoadRect.set) (rect_outW0 L k1))

/-- the second in the window of token row `64 s + 2 k1 + 1`. -/
theorem set_outW1 (L : grid0.Coords) (k1 : Fin k0_t1_loop.trips) :
    (outW1 L k1).view.set = winSet (rowB (sL L) (rowO k1)) (cL L) := by
  show (((View.whole (main_v3_scv : Ref sig .scVector)).slice
      (Rect.unit (s := S1024x128x200) (k0_off136 L k1) S1x64x200.size (k0_off136_inb L k1))).reshape S64x200
        squeezes_S1x64x200_S64x200.numel_eq).set = _
  rw [View.set_reshape, View.set_slice]
  exact Finset.map_refl.trans (congrArg (fun r : Rect S1024x128x200 => r.toLoadRect.set) (rect_outW1 L k1))

end Cert.KB

end
-- ==== Proof.KB.Rows.lean ====
/-
  Runs of rows of the result at one column half: the elements (b, j, t) with j in half c and lo ≤ b < hi. A run splits
  at any row between its ends, the empty run holds nothing, a run of one row is that row's window, and the sixty-four
  windows of a vector subcore are the run of its rows.
-/
import proofs.«218643_g31147102830872_cont_9to1_1815_7_alg».proof.Proof.KB.Setup
import proofs.«218643_g31147102830872_cont_9to1_1815_7_alg».proof.Proof.KB.Windows

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sets -/

/-- The rows `lo ≤ b < hi` of the result at the columns of half `c`. -/
def rowsSet (c : Fin 2) (lo hi : ℕ) : Finset S1024x128x200.Idx :=
  Finset.univ.filter fun i => (i 1).val / 64 = c.val ∧ lo ≤ (i 0).val ∧ (i 0).val < hi

theorem mem_rowsSet {c : Fin 2} {lo hi : ℕ} {i : S1024x128x200.Idx} :
    i ∈ rowsSet c lo hi ↔ (i 1).val / 64 = c.val ∧ lo ≤ (i 0).val ∧ (i 0).val < hi := by
  unfold rowsSet
  rw [Finset.mem_filter]
  exact and_iff_right (Finset.mem_univ _)

theorem rowsSet_empty (c : Fin 2) (lo hi : ℕ) (h : hi ≤ lo) : rowsSet c lo hi = ∅ := by
  ext i
  simp only [mem_rowsSet, Finset.notMem_empty, iff_false]
  rintro ⟨_, h1, h2⟩
  omega

theorem rowsSet_one (c : Fin 2) (b : Fin 1024) : rowsSet c b.val (b.val + 1) = winSet b c := by
  ext i
  rw [mem_rowsSet, mem_winSet]
  constructor
  · rintro ⟨hc, h1, h2⟩
    exact ⟨by omega, hc⟩
  · rintro ⟨h0, hc⟩
    exact ⟨hc, by omega, by omega⟩

theorem rowsSet_union (c : Fin 2) {lo mid hi : ℕ} (h1 : lo ≤ mid) (h2 : mid ≤ hi) :
    rowsSet c lo hi = rowsSet c lo mid ∪ rowsSet c mid hi := by
  ext i
  simp only [Finset.mem_union, mem_rowsSet]
  constructor
  · rintro ⟨hc, hl, hh⟩
    by_cases hm : (i 0).val < mid
    · exact Or.inl ⟨hc, hl, hm⟩
    · exact Or.inr ⟨hc, by omega, hh⟩
  · rintro (⟨hc, hl, hh⟩ | ⟨hc, hl, hh⟩)
    · exact ⟨hc, hl, by omega⟩
    · exact ⟨hc, by omega, hh⟩

theorem rowsSet_disjoint (c : Fin 2) (lo mid hi : ℕ) : Disjoint (rowsSet c lo mid) (rowsSet c mid hi) := by
  refine Finset.disjoint_left.mpr fun i hi hi' => ?_
  have h := (mem_rowsSet.mp hi).2.2
  have h' := (mem_rowsSet.mp hi').2.1
  omega

theorem rowB_val (s : Fin 16) (r : Fin 64) : (rowB s r).val = 64 * s.val + r.val := rfl

/-- A vector subcore's sixty-four windows are the run of its rows. -/
theorem tile_cover (s : Fin 16) (c : Fin 2) :
    (Finset.univ : Finset (Fin 64)).biUnion (fun r => winSet (rowB s r) c) = rowsSet c (64 * s.val) (64 * s.val + 64) := by
  ext i
  simp only [Finset.mem_biUnion, Finset.mem_univ, true_and, mem_winSet, mem_rowsSet, rowB_val]
  constructor
  · rintro ⟨r, h0, hc⟩
    have := r.isLt
    exact ⟨hc, by omega, by omega⟩
  · rintro ⟨hc, hl, hh⟩
    exact ⟨⟨(i 0).val - 64 * s.val, by omega⟩, by show (i 0).val = 64 * s.val + ((i 0).val - 64 * s.val); omega, hc⟩

theorem tile_disjoint (s : Fin 16) (c : Fin 2) : ∀ r ∈ (Finset.univ : Finset (Fin 64)), ∀ r' ∈ (Finset.univ : Finset (Fin 64)), r ≠ r' →
    Disjoint (winSet (rowB s r) c) (winSet (rowB s r') c) := by
  intro r _ r' _ hne
  refine Finset.disjoint_left.mpr fun i hi hi' => hne ?_
  have h : (i 0).val = 64 * s.val + r.val := (mem_winSet.mp hi).1
  have h' : (i 0).val = 64 * s.val + r'.val := (mem_winSet.mp hi').1
  exact Fin.ext (by omega)

/-! ## The points-to forms -/

section PointsTo

variable (d : Dev nD) (c : Fin 2) (f : Buf (Elt F) (v3Loc d))

/-- A run of rows is its two parts at any row between its ends: as an equation, -/
theorem rows_split_eq {lo mid hi : ℕ} (h1 : lo ≤ mid) (h2 : mid ≤ hi) :
    (v3Loc d ↦[rowsSet c lo hi]{fullShare} f : sProp 𝕄)
      = iprop((v3Loc d ↦[rowsSet c lo mid]{fullShare} f) ∗ (v3Loc d ↦[rowsSet c mid hi]{fullShare} f)) := by
  rw [rowsSet_union c h1 h2]
  have hu : (v3Loc d ↦[rowsSet c lo mid ∪ rowsSet c mid hi]{fullShare} f : sProp 𝕄)
      ⊣⊢ iprop((v3Loc d ↦[rowsSet c lo mid]{fullShare} f) ∗ (v3Loc d ↦[rowsSet c mid hi]{fullShare} f)) :=
    pointsTo_union (rowsSet_disjoint c lo mid hi)
  exact BI.equiv_iff.mp ⟨hu.1, hu.2⟩

/-- and as the two entailments. -/
theorem rows_split {lo mid hi : ℕ} (h1 : lo ≤ mid) (h2 : mid ≤ hi) :
    (v3Loc d ↦[rowsSet c lo hi]{fullShare} f : sProp 𝕄)
      ⊢ iprop((v3Loc d ↦[rowsSet c lo mid]{fullShare} f) ∗ (v3Loc d ↦[rowsSet c mid hi]{fullShare} f)) :=
  Entails.of_eq (rows_split_eq d c f h1 h2)

theorem rows_join {lo mid hi : ℕ} (h1 : lo ≤ mid) (h2 : mid ≤ hi) :
    iprop((v3Loc d ↦[rowsSet c lo mid]{fullShare} f) ∗ (v3Loc d ↦[rowsSet c mid hi]{fullShare} f))
      ⊢ (v3Loc d ↦[rowsSet c lo hi]{fullShare} f : sProp 𝕄) :=
  Entails.of_eq (rows_split_eq d c f h1 h2).symm

/-- The empty run holds nothing. -/
theorem rows_empty_eq (lo : ℕ) : (v3Loc d ↦[rowsSet c lo lo]{fullShare} f : sProp 𝕄) = iprop(emp) := by
  rw [rowsSet_empty c lo lo le_rfl, pointsTo_empty]

theorem rows_empty (lo : ℕ) : (iprop(emp) : sProp 𝕄) ⊢ v3Loc d ↦[rowsSet c lo lo]{fullShare} f :=
  Entails.of_eq (rows_empty_eq d c f lo).symm

theorem rows_empty_elim (lo : ℕ) : (v3Loc d ↦[rowsSet c lo lo]{fullShare} f : sProp 𝕄) ⊢ iprop(emp) :=
  Entails.of_eq (rows_empty_eq d c f lo)

/-- A run of one row is that row's window. -/
theorem rows_one (b : Fin 1024) :
    (v3Loc d ↦[rowsSet c b.val (b.val + 1)]{fullShare} f : sProp 𝕄) = (v3Loc d ↦[winSet b c]{fullShare} f) := by
  rw [rowsSet_one]

/-- A vector subcore's sixty-four windows as one points-to: as an equation, -/
theorem tile_rows_eq (s : Fin 16) :
    (bigSep (Finset.univ : Finset (Fin 64)) fun r => (v3Loc d ↦[winSet (rowB s r) c]{fullShare} f : sProp 𝕄))
      = (v3Loc d ↦[rowsSet c (64 * s.val) (64 * s.val + 64)]{fullShare} f) := by
  rw [← pointsTo_biUnion Finset.univ (ℓ := v3Loc d) (fun r : Fin 64 => winSet (rowB s r) c) (tile_disjoint s c), tile_cover]

/-- and as the two entailments. -/
theorem tile_rows (s : Fin 16) :
    (bigSep (Finset.univ : Finset (Fin 64)) fun r => (v3Loc d ↦[winSet (rowB s r) c]{fullShare} f : sProp 𝕄))
      ⊢ (v3Loc d ↦[rowsSet c (64 * s.val) (64 * s.val + 64)]{fullShare} f) :=
  Entails.of_eq (tile_rows_eq d c f s)

theorem tile_rows_back (s : Fin 16) :
    (v3Loc d ↦[rowsSet c (64 * s.val) (64 * s.val + 64)]{fullShare} f : sProp 𝕄)
      ⊢ bigSep (Finset.univ : Finset (Fin 64)) fun r => (v3Loc d ↦[winSet (rowB s r) c]{fullShare} f : sProp 𝕄) :=
  Entails.of_eq (tile_rows_eq d c f s).symm

/-- Contents that agree on a set are the same points-to there. -/
theorem rows_congr {A : Finset S1024x128x200.Idx} {g : Buf (Elt F) (v3Loc d)} (h : ∀ i ∈ A, f i = g i) :
    (v3Loc d ↦[A]{fullShare} f : sProp 𝕄) ⊢ (v3Loc d ↦[A]{fullShare} g) :=
  Entails.of_eq (pointsTo_congr h)

end PointsTo

end Cert.KB

end
-- ==== Proof.KB.ValsG.lean ====
/-
  The values the lookup kernel moves, against the lookup: the word a staging slot is to hold for a local token row is
  the lookup's entry for that row; the two copies at the start bring in the subcore's half of the flat transposed
  table and its block of the flat tokens; and a complete slot copied out leaves the lookup on its window of the result.
-/
import proofs.«218643_g31147102830872_cont_9to1_1815_7_alg».proof.Proof.KB.Sets
import Idealize.ShloMosaic.Lib.Writes
import Idealize.ShloMosaic.Lib.ValueIdx

noncomputable section

namespace Cert.KB

open Cert.Kernel Cert.Kernel.Gen

open Idealize.ShloMosaic Idealize.ShloMosaic.ValueIdx
open Idealize.ShloMosaic.SparseCore (S V T)

variable {F : FTy → Type}

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

/-! ## The word a slot is to hold is the lookup's -/

section Stage

variable (f1 : (d : Dev nD) → Buf (Elt F) (v1Loc d)) (f2 : (d : Dev nD) → Buf (Elt F) (v2Loc d))
  (G : (d : Dev nD) → Buf (Elt F) (v3Loc d)) (d : Dev nD) (L : grid0.Coords)

/-- The subcore's copy `ft` of the table is words [64000 c, 64000 c + 64000) of the flat transposed table. -/
abbrev TabIs (ft : S64000.Idx → Elt F .f32) : Prop :=
  ∀ j : Fin 64000, ft (ix1 j) = f1 d (ix1 (n := 128000) ⟨64000 * (cL L).val + j.val, by have := (cL L).isLt; have := j.isLt; omega⟩)

/-- The subcore's token block `fi` is words [12800 s, 12800 s + 12800) of the flat tokens. -/
abbrev TokIs (fi : S12800.Idx → Elt F .i32) : Prop :=
  ∀ j : Fin 12800, fi (ix1 j) = f2 d (ix1 (n := 204800) ⟨12800 * (sL L).val + j.val, by have := (sL L).isLt; have := j.isLt; omega⟩)

/-- For local token row `bl`, the word the slot is to hold at (j, t) is the lookup at (64 s + bl, 64 c + j, t):
    word 1000 j + token of the table copy is word 64000 c + 1000 j + token = 1000 (64 c + j) + token of the flat
    table, and word 200 bl + t of the token block is word 12800 s + 200 bl + t = 200 (64 s + bl) + t of the flat
    tokens. -/
theorem stageVal_eq_G (hg : Good f1 f2 G d) (ft : S64000.Idx → Elt F .f32) (fi : S12800.Idx → Elt F .i32)
    (hft : TabIs f1 d L ft) (hfi : TokIs f2 d L fi) (bl : Fin 64) (y : S2x64x200.Idx) :
    stageVal ft fi bl.val y
      = G d (ix3 (rowB (sL L) bl)
          (⟨64 * (cL L).val + (y 1).val, by have := (cL L).isLt; have h1 : (y 1).val < 64 := (y 1).isLt; omega⟩ : Fin 128)
          (⟨(y 2).val, (y 2).isLt⟩ : Fin 200)) := by
  have hb : bl.val < 64 := bl.isLt
  have h1 : (y 1).val < 64 := (y 1).isLt
  have h2 : (y 2).val < 200 := (y 2).isLt
  have hc : (cL L).val < 2 := (cL L).isLt
  have hs : (sL L).val < 16 := (sL L).isLt
  have hmod : (200 * bl.val + (y 2).val) % 12800 = 200 * bl.val + (y 2).val := Nat.mod_eq_of_lt (by omega)
  have htok : fi (ix1 (n := 12800) ⟨(200 * bl.val + (y 2).val) % 12800, Nat.mod_lt _ (by decide)⟩)
      = f2 d (ix1 (n := 204800) ⟨200 * (rowB (sL L) bl).val + (y 2).val, by
          have : (rowB (sL L) bl).val = 64 * (sL L).val + bl.val := rfl
          omega⟩) := by
    refine (hfi _).trans (congrArg (f2 d) (congrArg (ix1 (n := 204800)) (Fin.ext ?_)))
    show 12800 * (sL L).val + (200 * bl.val + (y 2).val) % 12800 = 200 * (64 * (sL L).val + bl.val) + (y 2).val
    omega
  refine Eq.trans ?_ (hg.look _ _ _).symm
  refine (hft _).trans (congrArg (f1 d) (congrArg (ix1 (n := 128000)) (Fin.ext ?_)))
  show 64000 * (cL L).val + (1000 * (y 1).val
        + (fi (ix1 (n := 12800) ⟨(200 * bl.val + (y 2).val) % 12800, Nat.mod_lt _ (by decide)⟩)).toNat % 1000)
      = 1000 * (64 * (cL L).val + (y 1).val)
        + (f2 d (ix1 (n := 204800) ⟨200 * (rowB (sL L) bl).val + (y 2).val, _⟩)).toNat % 1000
  rw [htok]
  omega

/-- Every token of the block names a row of the table when every flat token does. -/
theorem fi_range (hr : ∀ j, (f2 d j).toNat < 1000) (fi : S12800.Idx → Elt F .i32) (hfi : TokIs f2 d L fi) :
    ∀ j, (fi j).toNat < 1000 := by
  intro j
  have hj : fi j = f2 d _ := (congrArg fi (eq_ix1 (n := 12800) j)).trans (hfi (j 0))
  rw [hj]
  exact hr _

end Stage

/-! ## The two copies at the start -/

/-- After the copy of words [64000 c, 64000 c + 64000) of the flat transposed table `f1'` into the table copy, the
    table copy holds them. -/
theorem tab_copy (L : grid0.Coords) (f1' : S128000.Idx → Elt F .f32) (ft0 : S64000.Idx → Elt F .f32) (j : Fin 64000) :
    (tabW).view.write (Elt F) ft0
        ((ReadAs.same : ReadAs (Elt F) S64000 .f32 S64000 .f32).apply
          (((v1W).slice (Rect.unit (s := S128000) (k0_off1 L) S64000.size (k0_off1_inb L)) (fun _ => rfl)).view.read (Elt F) f1'))
        Finset.univ (ix1 j)
      = f1' (ix1 (n := 128000) ⟨64000 * (cL L).val + j.val, by have := (cL L).isLt; have := j.isLt; omega⟩) := by
  show (View.whole (cc0_scratch0 : Ref sig .scVector)).write (Elt F) ft0 _ Finset.univ (ix1 j) = _
  rw [View.write_whole_univ]
  show f1' ((Rect.unit (s := S128000) (k0_off1 L) S64000.size (k0_off1_inb L)).emb (ix1 j)) = _
  refine congrArg f1' ((eq_ix1 _).trans (congrArg (ix1 (n := 128000)) (Fin.ext ?_)))
  show (k0_off1 L) 0 + 1 * j.val = 64000 * (cL L).val + j.val
  rw [k0_off1_eq]
  show 64000 * (L 0).val + 1 * j.val = 64000 * (L 0).val + j.val
  omega

/-- After the copy of words [12800 s, 12800 s + 12800) of the flat tokens `f2'` into the token block, the token block
    holds them. -/
theorem tok_copy (L : grid0.Coords) (f2' : S204800.Idx → Elt F .i32) (fi0 : S12800.Idx → Elt F .i32) (j : Fin 12800) :
    (idxW).view.write (Elt F) fi0
        ((ReadAs.same : ReadAs (Elt F) S12800 .i32 S12800 .i32).apply
          (((v2W).slice (Rect.unit (s := S204800) (k0_off2 L) S12800.size (k0_off2_inb L)) (fun _ => rfl)).view.read (Elt F) f2'))
        Finset.univ (ix1 j)
      = f2' (ix1 (n := 204800) ⟨12800 * (sL L).val + j.val, by have := (sL L).isLt; have := j.isLt; omega⟩) := by
  show (View.whole (cc0_scratch1 : Ref sig .scVector)).write (Elt F) fi0 _ Finset.univ (ix1 j) = _
  rw [View.write_whole_univ]
  show f2' ((Rect.unit (s := S204800) (k0_off2 L) S12800.size (k0_off2_inb L)).emb (ix1 j)) = _
  refine congrArg f2' ((eq_ix1 _).trans (congrArg (ix1 (n := 204800)) (Fin.ext ?_)))
  show (k0_off2 L) 0 + 1 * j.val = 12800 * (sL L).val + j.val
  rw [k0_off2_eq]
  show 12800 * (L 1).val + 1 * j.val = 12800 * (L 1).val + j.val
  omega

/-! ## A complete slot copied out leaves the lookup on its window -/

/-- Where the first slot's (j, t) sits in the staging buffer: at (0, j, t); -/
theorem emb_slotM0 (x : S64x200.Idx) :
    (slotM0).view.emb x = ix3 (⟨0, by decide⟩ : Fin 2) (⟨(x 0).val, (x 0).isLt⟩ : Fin 64) (⟨(x 1).val, (x 1).isLt⟩ : Fin 200) := by
  show (Rect.unit (s := S2x64x200) ![0, 0, 0] S1x64x200.size inb_S2x64x200_S1x64x200_0_0_0).emb
      (Shape.reshapeEquiv squeezes_S1x64x200_S64x200.numel_eq x) = _
  rw [Shape.reshapeEquiv_cons_one]
  funext a
  refine Fin.ext ?_
  match a with
  | ⟨0, _⟩ => rfl
  | ⟨1, _⟩ => show 0 + 1 * (x 0).val = (x 0).val; omega
  | ⟨2, _⟩ => show 0 + 1 * (x 1).val = (x 1).val; omega

/-- the second slot's at (1, j, t). -/
theorem emb_slotM1 (x : S64x200.Idx) :
    (slotM1).view.emb x = ix3 (⟨1, by decide⟩ : Fin 2) (⟨(x 0).val, (x 0).isLt⟩ : Fin 64) (⟨(x 1).val, (x 1).isLt⟩ : Fin 200) := by
  show (Rect.unit (s := S2x64x200) ![1, 0, 0] S1x64x200.size inb_S2x64x200_S1x64x200_1_0_0).emb
      (Shape.reshapeEquiv squeezes_S1x64x200_S64x200.numel_eq x) = _
  rw [Shape.reshapeEquiv_cons_one]
  funext a
  refine Fin.ext ?_
  match a with
  | ⟨0, _⟩ => rfl
  | ⟨1, _⟩ => show 0 + 1 * (x 0).val = (x 0).val; omega
  | ⟨2, _⟩ => show 0 + 1 * (x 1).val = (x 1).val; omega

/-- Where (j, t) of the view the first copy lands in sits in the result: at (64 s + 2 k1, 64 c + j, t); -/
theorem emb_outW0 (L : grid0.Coords) (k1 : Fin k0_t1_loop.trips) (x : S64x200.Idx) :
    (outW0 L k1).view.emb x
      = ix3 (rowB (sL L) (rowE k1))
          (⟨64 * (cL L).val + (x 0).val, by have := (cL L).isLt; have h0 : (x 0).val < 64 := (x 0).isLt; omega⟩ : Fin 128)
          (⟨(x 1).val, (x 1).isLt⟩ : Fin 200) := by
  show (Rect.unit (s := S1024x128x200) (k0_off69 L k1) S1x64x200.size (k0_off69_inb L k1)).emb
      (Shape.reshapeEquiv squeezes_S1x64x200_S64x200.numel_eq x) = _
  rw [Shape.reshapeEquiv_cons_one]
  funext a
  refine Fin.ext ?_
  have e : k0_off69 L k1 a = (![64 * (L 1).val + 2 * k1.val, 64 * (L 0).val, 0] : Fin 3 → Nat) a := congrFun (k0_off69_eq L k1) a
  rw [Rect.emb_apply, Rect.off_unit, Rect.stride_unit, e]
  match a with
  | ⟨0, _⟩ => show 64 * (L 1).val + 2 * k1.val + 1 * 0 = 64 * (L 1).val + 2 * k1.val; omega
  | ⟨1, _⟩ => show 64 * (L 0).val + 1 * (x 0).val = 64 * (L 0).val + (x 0).val; omega
  | ⟨2, _⟩ => show 0 + 1 * (x 1).val = (x 1).val; omega

/-- of the view the second copy lands in, at (64 s + 2 k1 + 1, 64 c + j, t). -/
theorem emb_outW1 (L : grid0.Coords) (k1 : Fin k0_t1_loop.trips) (x : S64x200.Idx) :
    (outW1 L k1).view.emb x
      = ix3 (rowB (sL L) (rowO k1))
          (⟨64 * (cL L).val + (x 0).val, by have := (cL L).isLt; have h0 : (x 0).val < 64 := (x 0).isLt; omega⟩ : Fin 128)
          (⟨(x 1).val, (x 1).isLt⟩ : Fin 200) := by
  show (Rect.unit (s := S1024x128x200) (k0_off136 L k1) S1x64x200.size (k0_off136_inb L k1)).emb
      (Shape.reshapeEquiv squeezes_S1x64x200_S64x200.numel_eq x) = _
  rw [Shape.reshapeEquiv_cons_one]
  funext a
  refine Fin.ext ?_
  have e : k0_off136 L k1 a = (![64 * (L 1).val + 2 * k1.val + 1, 64 * (L 0).val, 0] : Fin 3 → Nat) a := congrFun (k0_off136_eq L k1) a
  rw [Rect.emb_apply, Rect.off_unit, Rect.stride_unit, e]
  match a with
  | ⟨0, _⟩ => show 64 * (L 1).val + 2 * k1.val + 1 + 1 * 0 = 64 * (L 1).val + (2 * k1.val + 1); omega
  | ⟨1, _⟩ => show 64 * (L 0).val + 1 * (x 0).val = 64 * (L 0).val + (x 0).val; omega
  | ⟨2, _⟩ => show 0 + 1 * (x 1).val = (x 1).val; omega

section Landed

variable (f1 : (d : Dev nD) → Buf (Elt F) (v1Loc d)) (f2 : (d : Dev nD) → Buf (Elt F) (v2Loc d))
  (G : (d : Dev nD) → Buf (Elt F) (v3Loc d)) (d : Dev nD) (L : grid0.Coords)

/-- The first slot, complete for local token row `2 k1`, copied whole through the view of the result the first copy
    lands in, leaves the lookup on that view's elements, whatever the result held. -/
theorem landed0 (hg : Good f1 f2 G d) (ft : S64000.Idx → Elt F .f32) (fi : S12800.Idx → Elt F .i32)
    (hft : TabIs f1 d L ft) (hfi : TokIs f2 d L fi) (k1 : Fin k0_t1_loop.trips)
    (fsA : S2x64x200.Idx → Elt F .f32) (hA : SlotDone (stageVal ft fi (2 * k1.val)) 0 200 fsA)
    (fo : Buf (Elt F) (v3Loc d)) :
    ∀ i ∈ (outW0 L k1).view.set,
      (outW0 L k1).view.writes (Elt F) fo
          [⟨Rect.whole S64x200, (ReadAs.same : ReadAs (Elt F) S64x200 .f32 S64x200 .f32).apply ((slotM0).view.read (Elt F) fsA)⟩] i
        = G d i := by
  intro i hi
  obtain ⟨x, -, rfl⟩ := Finset.mem_map.mp hi
  have hw := View.read_writes_cons_emb (outW0 L k1).view fo (Rect.whole S64x200)
    ((ReadAs.same : ReadAs (Elt F) S64x200 .f32 S64x200 .f32).apply ((slotM0).view.read (Elt F) fsA)) [] x
  rw [Rect.emb_whole_apply] at hw
  refine Eq.trans ?_ (hw.trans ?_)
  · rfl
  · show fsA ((slotM0).view.emb x) = G d ((outW0 L k1).view.emb x)
    rw [emb_slotM0, emb_outW0, hA _ rfl (x 1).isLt]
    exact stageVal_eq_G f1 f2 G d L hg ft fi hft hfi (rowE k1) _

/-- The same for the second slot, local token row `2 k1 + 1` and the second copy. -/
theorem landed1 (hg : Good f1 f2 G d) (ft : S64000.Idx → Elt F .f32) (fi : S12800.Idx → Elt F .i32)
    (hft : TabIs f1 d L ft) (hfi : TokIs f2 d L fi) (k1 : Fin k0_t1_loop.trips)
    (fsB : S2x64x200.Idx → Elt F .f32) (hB : SlotDone (stageVal ft fi (2 * k1.val + 1)) 1 200 fsB)
    (fo : Buf (Elt F) (v3Loc d)) :
    ∀ i ∈ (outW1 L k1).view.set,
      (outW1 L k1).view.writes (Elt F) fo
          [⟨Rect.whole S64x200, (ReadAs.same : ReadAs (Elt F) S64x200 .f32 S64x200 .f32).apply ((slotM1).view.read (Elt F) fsB)⟩] i
        = G d i := by
  intro i hi
  obtain ⟨x, -, rfl⟩ := Finset.mem_map.mp hi
  have hw := View.read_writes_cons_emb (outW1 L k1).view fo (Rect.whole S64x200)
    ((ReadAs.same : ReadAs (Elt F) S64x200 .f32 S64x200 .f32).apply ((slotM1).view.read (Elt F) fsB)) [] x
  rw [Rect.emb_whole_apply] at hw
  refine Eq.trans ?_ (hw.trans ?_)
  · rfl
  · show fsB ((slotM1).view.emb x) = G d ((outW1 L k1).view.emb x)
    rw [emb_slotM1, emb_outW1, hB _ rfl (x 1).isLt]
    exact stageVal_eq_G f1 f2 G d L hg ft fi hft hfi (rowO k1) _

end Landed

end Cert.KB

end
-- ==== Proof.KB.Chunk.lean ====
/-
  One chunk of the kernel's inner work, as a value.

  A chunk reads sixteen consecutive tokens of one row of the token block and, for each of the sixty-four table rows
  `g`, gathers the table copy at the sixteen words `token + 1000 g` and stores them as a box of sixteen words at
  (slot, g, column). Every token is below 1000, so `token + 1000 g` is below 64000: the gather's range check passes,
  the 32-bit sum does not wrap, and the gathered word is the word the slot must hold there (`stageVal`). The
  sixty-four boxes are the rows of one 64 x 16 block of the slot; after them the block holds `stageVal` and every other
  word of the buffer is as before (`ChunkSet`). The statement is about the buffer's contents as the list of stores
  leaves them, whatever part of the buffer is held.
-/
import proofs.«218643_g31147102830872_cont_9to1_1815_7_alg».proof.Proof.KB.Vals
import Idealize.ShloMosaic.Lib.Writes
import Idealize.ShloMosaic.Lib.WritesUnit
import Idealize.ShloMosaic.Lib.ValueIdx
import Idealize.ShloMosaic.Lib.Pipeline.Value
import Idealize.ShloMosaic.Lib.Exec.Geometry

noncomputable section

namespace Cert.KB

open Cert.Kernel Cert.Kernel.Gen
open Idealize.ShloMosaic Idealize.ShloMosaic.ValueIdx
open Idealize.ShloMosaic.SparseCore (S V T)

variable {F : FTy → Type}

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)

/-! ## The gather's range check -/

/-- Every word a load of the token block reads is a token: below 1000. -/
theorem read_lt (d : Dev nD) (L : grid0.Coords) (fi : Buf (Elt F) ((idxW).view.loc (V d (cV L) (jV L))))
    (hfi : ∀ j, (fi j).toNat < 1000) (r : LoadRect S12800) :
    ∀ x, ((View.readAt (Elt F) (idxW).view r fi) x).toNat < 1000 := by
  intro x
  simp only [View.readAt_apply, Memref.view_whole, View.read_whole]
  exact hfi _

/-- The range check of a gather whose index vector is sixteen tokens plus a row offset of at most 63000:
    every token is below 1000, so every lane is below 64000. -/
theorem chk_ok (d : Dev nD) (L : grid0.Coords) (fi : Buf (Elt F) ((idxW).view.loc (V d (cV L) (jV L))))
    (hfi : ∀ j, (fi j).toNat < 1000) (off : Fin 1 → Nat) (hoff : ∀ a, off a + S16.size a ≤ S12800.size a)
    (c : BitVec 32) (hc : c.toNat ≤ 63000) :
    ∀ a x, ((![addi (View.readAt (Elt F) (idxW).view (Rect.unit (s := S12800) off S16.size hoff).toLoadRect fi) (broadcast S16 c)]
      : Fin 1 → IVec S16 32) a x).toNat < S64000.size a := by
  intro a x
  obtain rfl : a = 0 := Subsingleton.elim _ _
  show (IntOp.addi (View.readAt (Elt F) (idxW).view (Rect.unit (s := S12800) off S16.size hoff).toLoadRect fi x) c).toNat < 64000
  unfold IntOp.addi
  rw [BitVec.toNat_add]
  have h := read_lt d L fi hfi (Rect.unit (s := S12800) off S16.size hoff).toLoadRect x
  omega

/-! ## One store of a chunk, and the list of its sixty-four stores -/

/-- Piece `p` is a store of sixteen consecutive words of row `g` of slot `k`, from column `c0`, and what it
    stores at each of them is `sv` there. The rectangle's offsets, sizes and strides are given by equations, so that
    offsets the program computes and their closed form both fit. -/
structure IsChunkPiece (sv : S2x64x200.Idx → Elt F .f32) (k c0 g : ℕ) (p : View.Piece (Elt F) S2x64x200 .f32) : Prop where
  off : p.1.off = ![k, g, c0]
  size : p.1.size = ![1, 1, 16]
  stride : ∀ a, p.1.stride a = 1
  val : ∀ x, p.2 x = sv (p.1.emb x)

/-- The words such a piece covers: row `g` of slot `k`, columns [c0, c0 + 16). -/
theorem IsChunkPiece.mem_iff {sv : S2x64x200.Idx → Elt F .f32} {k c0 g : ℕ} {p : View.Piece (Elt F) S2x64x200 .f32}
    (h : IsChunkPiece sv k c0 g p) (y : S2x64x200.Idx) :
    y ∈ p.1.set ↔ (y 0).val = k ∧ (y 1).val = g ∧ c0 ≤ (y 2).val ∧ (y 2).val < c0 + 16 := by
  rw [LoadRect.mem_set]
  constructor
  · intro hm
    obtain ⟨j0, hj0, e0⟩ := hm 0
    obtain ⟨j1, hj1, e1⟩ := hm 1
    obtain ⟨j2, hj2, e2⟩ := hm 2
    rw [h.off, h.stride] at e0 e1 e2
    rw [h.size] at hj0 hj1 hj2
    have hj0' : j0 < 1 := hj0
    have hj1' : j1 < 1 := hj1
    have hj2' : j2 < 16 := hj2
    have e0' : (y 0).val = k + 1 * j0 := e0
    have e1' : (y 1).val = g + 1 * j1 := e1
    have e2' : (y 2).val = c0 + 1 * j2 := e2
    omega
  · rintro ⟨e0, e1, l2, u2⟩ a
    rw [h.off, h.size, h.stride]
    match a with
    | ⟨0, _⟩ => exact ⟨0, Nat.one_pos, show (y 0).val = k + 1 * 0 by omega⟩
    | ⟨1, _⟩ => exact ⟨0, Nat.one_pos, show (y 1).val = g + 1 * 0 by omega⟩
    | ⟨2, _⟩ => exact ⟨(y 2).val - c0, show (y 2).val - c0 < 16 by omega, show (y 2).val = c0 + 1 * ((y 2).val - c0) by omega⟩

/-- After a list of stores each of which is such a piece of some row below 64, every row below 64 among them, the
    buffer holds `sv` on columns [c0, c0 + 16) of slot `k` and is unchanged elsewhere. -/
theorem chunkSet_of_pieces (sv : S2x64x200.Idx → Elt F .f32) (k c0 : ℕ) (fs : S2x64x200.Idx → Elt F .f32)
    (L : List (View.Piece (Elt F) S2x64x200 .f32))
    (hall : ∀ p ∈ L, ∃ g, g < 64 ∧ IsChunkPiece sv k c0 g p)
    (hcov : ∀ g, g < 64 → ∃ p ∈ L, IsChunkPiece sv k c0 g p) :
    ChunkSet sv k c0 fs ((stW).view.writes (Elt F) fs L) := by
  intro y
  show (stW).view.read (Elt F) ((stW).view.writes (Elt F) fs L) y = _
  by_cases hy : (y 0).val = k ∧ c0 ≤ (y 2).val ∧ (y 2).val < c0 + 16
  · rw [if_pos hy]
    obtain ⟨p, hp, hpc⟩ := hcov (y 1).val (y 1).isLt
    exact View.read_writes_apply_of_pieces (stW).view fs sv L
      (fun p hp x => by obtain ⟨g, _, hg⟩ := hall p hp; exact hg.val x) y
      ⟨p, hp, (hpc.mem_iff y).mpr ⟨hy.1, rfl, hy.2.1, hy.2.2⟩⟩
  · rw [if_neg hy]
    exact View.read_writes_apply_of_forall_not_mem (stW).view fs y L
      (fun p hp hm => by
        obtain ⟨g, _, hg⟩ := hall p hp
        have hh := (hg.mem_iff y).mp hm
        exact hy ⟨hh.1, hh.2.2.1, hh.2.2.2⟩)

/-- The stores of one chunk in program order, last store first: `ChunkPieces sv k c0 n L` says `L` lists the pieces of
    rows `n - 1, …, 1, 0`. -/
inductive ChunkPieces (sv : S2x64x200.Idx → Elt F .f32) (k c0 : ℕ) : ℕ → List (View.Piece (Elt F) S2x64x200 .f32) → Prop
  | nil : ChunkPieces sv k c0 0 []
  | cons {n : ℕ} {p : View.Piece (Elt F) S2x64x200 .f32} {L : List (View.Piece (Elt F) S2x64x200 .f32)} :
      IsChunkPiece sv k c0 n p → ChunkPieces sv k c0 n L → ChunkPieces sv k c0 (n + 1) (p :: L)

theorem ChunkPieces.all {sv : S2x64x200.Idx → Elt F .f32} {k c0 n : ℕ} {L : List (View.Piece (Elt F) S2x64x200 .f32)}
    (h : ChunkPieces sv k c0 n L) : ∀ p ∈ L, ∃ g, g < n ∧ IsChunkPiece sv k c0 g p := by
  induction h with
  | nil => intro p hp; exact absurd hp List.not_mem_nil
  | cons hp _ ih =>
    intro q hq
    rcases List.mem_cons.mp hq with rfl | hq
    · exact ⟨_, Nat.lt_succ_self _, hp⟩
    · obtain ⟨g, hg, hq'⟩ := ih q hq
      exact ⟨g, Nat.lt_succ_of_lt hg, hq'⟩

theorem ChunkPieces.cover {sv : S2x64x200.Idx → Elt F .f32} {k c0 n : ℕ} {L : List (View.Piece (Elt F) S2x64x200 .f32)}
    (h : ChunkPieces sv k c0 n L) : ∀ g, g < n → ∃ p ∈ L, IsChunkPiece sv k c0 g p := by
  induction h with
  | nil => intro g hg; exact absurd hg (Nat.not_lt_zero _)
  | cons hp _ ih =>
    intro g hg
    rcases Nat.lt_succ_iff_lt_or_eq.mp hg with hlt | rfl
    · obtain ⟨q, hq, hq'⟩ := ih g hlt
      exact ⟨q, List.mem_cons_of_mem _ hq, hq'⟩
    · exact ⟨_, List.mem_cons_self, hp⟩

/-- One chunk's sixty-four stores set columns [c0, c0 + 16) of slot `k` to `sv` and change nothing else. -/
theorem chunkSet_of_chunkPieces {sv : S2x64x200.Idx → Elt F .f32} {k c0 : ℕ} (fs : S2x64x200.Idx → Elt F .f32)
    {L : List (View.Piece (Elt F) S2x64x200 .f32)} (h : ChunkPieces sv k c0 64 L) :
    ChunkSet sv k c0 fs ((stW).view.writes (Elt F) fs L) :=
  chunkSet_of_pieces sv k c0 fs L h.all h.cover

/-- The piece the program stores for row `g`: a box of sixteen words at offsets equal to (k, g, c0), holding the gather of
    the table copy at sixteen tokens (the words of the token block from `200 bl + c0`) each plus `1000 g`. Every token
    is below 1000 and `g` below 64, so the 32-bit sum does not wrap and the gathered word is the one the slot must hold. -/
theorem isChunkPiece_gather (ft : S64000.Idx → Elt F .f32) (fi : S12800.Idx → Elt F .i32) (hfi : ∀ j, (fi j).toNat < 1000)
    (bl k c0 g tok : ℕ)
    (off : Fin 3 → ℕ) (inb : ∀ a, off a + S1x1x16.size a ≤ S2x64x200.size a)
    (offI : Fin 1 → ℕ) (inbI : ∀ a, offI a + S16.size a ≤ S12800.size a) (c : BitVec 32)
    (hchk : ∀ a x, ((![addi (View.readAt (Elt F) (idxW).view (Rect.unit (s := S12800) offI S16.size inbI).toLoadRect fi) (broadcast S16 c)]
      : Fin 1 → IVec S16 32) a x).toNat < S64000.size a)
    (hcast : S16.ShapeCasts S1x1x16)
    (hoff : off = ![k, g, c0]) (hoffI : offI = ![tok]) (htok : tok = 200 * bl + c0) (hc : c.toNat = 1000 * g) (hg : g < 64) :
    IsChunkPiece (stageVal ft fi bl) k c0 g
      ⟨Rect.unit (s := S2x64x200) off S1x1x16.size inb,
        shapeCast S1x1x16 (loadIdx (View.readAt (Elt F) (tabW).view (LoadRect.whole S64000) ft)
          ![addi (View.readAt (Elt F) (idxW).view (Rect.unit (s := S12800) offI S16.size inbI).toLoadRect fi) (broadcast S16 c)] hchk) hcast⟩ where
  off := hoff
  size := rfl
  stride := fun _ => rfl
  val := by
    intro x
    subst htok
    subst hoff hoffI
    have hx2 : (x 2).val < 16 := (x 2).isLt
    have hx1 : (x 1).val < 1 := (x 1).isLt
    have hx0 : (x 0).val < 1 := (x 0).isLt
    have hI : 200 * bl + c0 + 16 ≤ 12800 := inbI 0
    dsimp only
    refine (shapeCast_apply _ hcast x (ix1 (n := 16) ⟨(x 2).val, hx2⟩) ?_).trans ?_
    · rw [Shape.rowMajor_val_one, Shape.rowMajor_val_three]
      show (x 2).val = ((x 0).val * 1 + (x 1).val) * 16 + (x 2).val
      omega
    · have hL : ∀ i : S64000.Idx, (LoadRect.whole S64000).idx i = i := by
        intro i; funext a; refine Fin.ext ?_
        show 0 + 1 * (i a).val = (i a).val
        omega
      unfold loadIdx
      rw [View.readAt_apply, View.read_whole, hL]
      unfold stageVal
      refine congrArg ft (funext fun a => Fin.ext ?_)
      obtain rfl : a = (0 : Fin 1) := Subsingleton.elim (α := Fin 1) _ _
      unfold idxAt
      have hidx : (Rect.unit (s := S12800) ![200 * bl + c0] ![16] inbI).toLoadRect.idx (ix1 (n := 16) ⟨(x 2).val, hx2⟩)
          = ix1 (n := 12800) ⟨(200 * bl + ((Rect.unit (s := S2x64x200) ![k, g, c0] ![1, 1, 16] inb).emb x 2).val) % 12800,
              Nat.mod_lt _ (by decide)⟩ := by
        funext a
        obtain rfl : a = (0 : Fin 1) := Subsingleton.elim (α := Fin 1) _ _
        refine Fin.ext ?_
        show 200 * bl + c0 + 1 * (x 2).val = (200 * bl + (c0 + 1 * (x 2).val)) % 12800
        rw [Nat.mod_eq_of_lt (by omega)]; omega
      have h1 : ((Rect.unit (s := S2x64x200) ![k, g, c0] ![1, 1, 16] inb).emb x 1).val = g := by
        show g + 1 * (x 1).val = g
        omega
      show (IntOp.addi (fi ((Rect.unit (s := S12800) ![200 * bl + c0] ![16] inbI).toLoadRect.idx (ix1 (n := 16) ⟨(x 2).val, hx2⟩))) c).toNat = _
      rw [hidx]
      show _ = 1000 * ((Rect.unit (s := S2x64x200) ![k, g, c0] ![1, 1, 16] inb).emb x 1).val + _
      rw [h1]
      have htk := hfi (ix1 (n := 12800) ⟨(200 * bl + ((Rect.unit (s := S2x64x200) ![k, g, c0] ![1, 1, 16] inb).emb x 2).val) % 12800,
              Nat.mod_lt _ (by decide)⟩)
      unfold IntOp.addi
      rw [BitVec.toNat_add, hc]
      omega

/-! ## The pieces a symbolic run leaves

After a run of one chunk (the run's names opened) the buffer's contents are the list of the chunk's sixty-four stores,
row 63 first, each in the form `isChunkPiece_gather` reads. `chunk_piece hfi hI` proves one piece's `IsChunkPiece`
(`hfi` the range fact, `hI : offI = ![tok]` the closed form of the chunk's token offset; the row `g` is read off the
store's offsets, by their closed form or as literals); `chunk_pieces hfi hI` proves `ChunkPieces … 64 L` for the list. -/

/-- One printed piece: the row is read off the store's offsets. -/
macro "chunk_piece " hfi:term:max ppSpace hI:term:max : tactic => `(tactic|
  (refine isChunkPiece_gather _ _ $hfi _ _ _ _ _ _ _ _ _ _ _ _ ?hoff $hI ?htok ?hc ?hg
   case hoff => first | exact ClosedOff.eq | rfl
   case htok => omega
   case hc => rfl
   case hg => decide))

/-- The sixty-four printed pieces of one chunk, last store first. -/
macro "chunk_pieces " hfi:term:max ppSpace hI:term:max : tactic => `(tactic|
  (repeat (refine ChunkPieces.cons (by chunk_piece $hfi $hI) ?_)
   exact ChunkPieces.nil))

end Cert.KB

end
-- ==== Proof.KB.Inv.lean ====
/-
  The invariants of the lookup kernel's loops, for one vector subcore at a symbolic grid point.

  The outer loop serves two token rows per trip, row 2k into staging slot 0 and row 2k + 1 into slot 1, and copies each
  finished slot out to its window of the result while the other slot is being filled: before trip k > 0 the copies of
  rows 2k - 2 and 2k - 1 are still in flight, each holding its slot and its window; the windows of the rows below
  2k - 2 hold the lookup, those from 2k on the launch contents. Each inner loop fills one slot sixteen columns a trip.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

section Inv

variable (f3 G : (d : Dev nD) → Buf (Elt F) (v3Loc d)) (d : Dev nD) (L : grid0.Coords)
  (O : CellTallies nD τ sig (HIx 1)) (W : Waits sig (HIx 1))
  (ft : Buf (Elt F) ((tabW).view.loc (V d (cV L) (jV L)))) (fi : Buf (Elt F) ((idxW).view.loc (V d (cV L) (jV L))))

/-- The first row of the result this subcore serves. -/
abbrev row0 (L : grid0.Coords) : ℕ := 64 * (sL L).val

/-- The copy of slot 0 to row `b`'s window, in flight: its landing hands back the window at the lookup and the slot. -/
def flightA (b : ℕ) : sProp 𝕄 :=
  iprop(∃ f, Transfers.Flight countersEmb (V d (cV L) (jV L)) (SemLoc.dma cc0_scratch3.sem) (default : HIx 1) 409600
    iprop((v3Loc d ↦[rowsSet (cL L) b (b + 1)]{fullShare} G d)
      ∗ ((stW).view.loc (V d (cV L) (jV L)) ↦[(slotM0).view.set]{fullShare} f)))
/-- The copy of slot 1 likewise. -/
def flightB (b : ℕ) : sProp 𝕄 :=
  iprop(∃ f, Transfers.Flight countersEmb (V d (cV L) (jV L)) (SemLoc.dma cc0_scratch4.sem) (default : HIx 1) 409600
    iprop((v3Loc d ↦[rowsSet (cL L) b (b + 1)]{fullShare} G d)
      ∗ ((stW).view.loc (V d (cV L) (jV L)) ↦[(slotM1).view.set]{fullShare} f)))

/-- The staging buffer and the two copy semaphores before trip `k`: at rest before the first trip, both slots in flight
    to the previous trip's rows afterwards. -/
def stagePart (k : ℕ) : sProp 𝕄 :=
  if k = 0 then
    iprop((∃ f, (stW).view.loc (V d (cV L) (jV L)) ↦{fullShare} f)
      ∗ semVal (V d (cV L) (jV L), SemLoc.dma cc0_scratch3.sem) 0 ∗ semVal (V d (cV L) (jV L), SemLoc.dma cc0_scratch4.sem) 0)
  else iprop(flightA G d L (row0 L + (2 * k - 2)) ∗ flightB G d L (row0 L + (2 * k - 1)))

/-- Before trip `k` of the outer loop. -/
def inv (k : ℕ) (_ : PUnit) : sProp 𝕄 :=
  iprop(Transfers.MayWaits (V d (cV L) (jV L)) (none : HIx 1) O
    ∗ ((tabW).view.loc (V d (cV L) (jV L)) ↦{fullShare} ft) ∗ ((idxW).view.loc (V d (cV L) (jV L)) ↦{fullShare} fi)
    ∗ (v3Loc d ↦[rowsSet (cL L) (row0 L) (row0 L + (2 * k - 2))]{fullShare} G d)
    ∗ (v3Loc d ↦[rowsSet (cL L) (row0 L + 2 * k) (row0 L + 64)]{fullShare} f3 d)
    ∗ stagePart G d L k
    ∗ ∃ W', ⌜∀ p ∈ W', p ∈ W ∨ p.2 = none⌝ ∗ owes (V d (cV L) (jV L)) O W')

/-- Before trip `k` of the loop that fills slot 0 for local row `bl`: the table copy, the tokens, and the staging
    buffer less slot 1, slot 0 done on its columns below `16 k`. -/
def inv2 (bl : ℕ) (k : ℕ) (_ : Unit) : sProp 𝕄 :=
  iprop(((tabW).view.loc (V d (cV L) (jV L)) ↦{fullShare} ft) ∗ ((idxW).view.loc (V d (cV L) (jV L)) ↦{fullShare} fi)
    ∗ ∃ fs, ((stW).view.loc (V d (cV L) (jV L)) ↦[Finset.univ \ (slotM1).view.set]{fullShare} fs)
        ∗ ⌜SlotDone (stageVal ft fi bl) 0 (16 * k) fs⌝)
/-- The same for slot 1. -/
def inv3 (bl : ℕ) (k : ℕ) (_ : Unit) : sProp 𝕄 :=
  iprop(((tabW).view.loc (V d (cV L) (jV L)) ↦{fullShare} ft) ∗ ((idxW).view.loc (V d (cV L) (jV L)) ↦{fullShare} fi)
    ∗ ∃ fs, ((stW).view.loc (V d (cV L) (jV L)) ↦[Finset.univ \ (slotM0).view.set]{fullShare} fs)
        ∗ ⌜SlotDone (stageVal ft fi bl) 1 (16 * k) fs⌝)

end Inv

/-- The guard of the two conditional waits of trip `k1`: set exactly from the second trip on. -/
theorem cond_pos : ∀ k1 : Fin k0_t1_loop.trips, 0 < k1.val →
    Scalar.cmpi .ne (Scalar.extui (Scalar.cmpi .sgt (Scf.iv 0#32 1#32 k1) 0#32)) 0#32 = 1#1 := by decide +kernel
theorem cond_zero : ∀ k1 : Fin k0_t1_loop.trips, k1.val = 0 →
    ¬ Scalar.cmpi .ne (Scalar.extui (Scalar.cmpi .sgt (Scf.iv 0#32 1#32 k1) 0#32)) 0#32 = 1#1 := by decide +kernel

end Cert.KB

end
-- ==== Proof.KB.Trip2.lean ====
/-
  One trip of the first slot's chunk loop.

  The trip loads sixteen tokens of local row `2 k1` from column `16 k2`, gathers the sixty-four rows of the table copy at
  them and stores the sixty-four boxes into slot 0 at columns [16 k2, 16 k2 + 16). The table copy and the token block
  are only read; the staging buffer is held less the second slot, which the stores do not touch. What the stores leave
  is the list of the sixty-four pieces over the contents before, which is those contents with the block set to the words
  the slot must hold.
-/
import proofs.«218643_g31147102830872_cont_9to1_1815_7_alg».proof.Proof.KB.Chunk
import Idealize.ShloMosaic.Lib.SparseCore.Launch
import Idealize.ShloMosaic.Lib.SparseCore.Ops
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

set_option allowUnsafeReducibility true in
attribute [local reducible] Idealize.ShloMosaic.SparseCore.vectorLoadIdx

set_option maxHeartbeats 4000000 in
/-- One trip of the first slot's chunk loop: the chunk at columns `16 k2` of slot 0 for the local token row `2 k1`,
    run while the second slot is lent out. -/
theorem trip2 (d : Dev nD) (L : grid0.Coords) (k1 : Fin k0_t1_loop.trips) (v51 : BitVec 32) (k2 : Fin k0_t2_loop.trips)
    (ft : Buf (Elt F) ((tabW).view.loc (V d (cV L) (jV L)))) (fi : Buf (Elt F) ((idxW).view.loc (V d (cV L) (jV L))))
    (fs : Buf (Elt F) ((stW).view.loc (V d (cV L) (jV L)))) (hfi : ∀ j, (fi j).toNat < 1000) :
    iprop(((tabW).view.loc (V d (cV L) (jV L)) ↦{fullShare} ft) ∗ ((idxW).view.loc (V d (cV L) (jV L)) ↦{fullShare} fi)
        ∗ ((stW).view.loc (V d (cV L) (jV L)) ↦[Finset.univ \ (slotM1).view.set]{fullShare} fs) : sProp 𝕄)
      ⊢ wp frame (wpE (defs₀ (F := F)) 𝒱₀ (V d (cV L) (jV L)) none) Set.univ
          (k0_t2_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 0#32 1#32 k1 v51 k2 ())
          (fun _ => iprop(((tabW).view.loc (V d (cV L) (jV L)) ↦{fullShare} ft) ∗ ((idxW).view.loc (V d (cV L) (jV L)) ↦{fullShare} fi)
            ∗ ∃ fs' : Buf (Elt F) ((stW).view.loc (V d (cV L) (jV L))),
                ((stW).view.loc (V d (cV L) (jV L)) ↦[Finset.univ \ (slotM1).view.set]{fullShare} fs')
                  ∗ ⌜ChunkSet (stageVal ft fi (2 * k1.val)) 0 (16 * k2.val) fs fs'⌝)) := by
  iintro ⟨Ht, Hi, Hs⟩
  sl_unfold [k0_t2_body]
  sl_unfold [k0_part1, k0_part2, k0_part3, k0_part4, k0_part5, k0_part6, k0_part7, k0_part8, k0_part9, k0_part10, k0_part11, k0_part12, k0_part13, k0_part14, Idealize.ShloMosaic.SparseCore.vectorLoadIdx]
  sl_exec (disch := (sl_unfold_run_names; exact chk_ok d L fi hfi _ _ _ (by decide)))
  sl_step
  isplitl [Ht]
  · iexact Ht
  isplitl [Hi]
  · iexact Hi
  iexists _
  isplitl [Hs]
  · iexact Hs
  ipureintro
  sl_unfold_run_names
  exact chunkSet_of_chunkPieces fs (by chunk_pieces hfi (k0_off3_eq k1 k2))

end Cert.KB

end
-- ==== Proof.KB.Trip3.lean ====
/-
  One trip of the second slot's chunk loop.

  The trip loads sixteen tokens of local row `2 k1 + 1` from column `16 k3`, gathers the sixty-four rows of the table copy
  at them and stores the sixty-four boxes into slot 1 at columns [16 k3, 16 k3 + 16). The table copy and the token block
  are only read; the staging buffer is held less the first slot, which the stores do not touch. What the stores leave
  is the list of the sixty-four pieces over the contents before, which is those contents with the block set to the words
  the slot must hold.
-/
import proofs.«218643_g31147102830872_cont_9to1_1815_7_alg».proof.Proof.KB.Chunk
import Idealize.ShloMosaic.Lib.SparseCore.Launch
import Idealize.ShloMosaic.Lib.SparseCore.Ops
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

set_option allowUnsafeReducibility true in
attribute [local reducible] Idealize.ShloMosaic.SparseCore.vectorLoadIdx

set_option maxHeartbeats 4000000 in
/-- One trip of the second slot's chunk loop: the chunk at columns `16 k3` of slot 1 for the local token row
    `2 k1 + 1`, run while the first slot is lent out. -/
theorem trip3 (d : Dev nD) (L : grid0.Coords) (k1 : Fin k0_t1_loop.trips) (v30 arg10 v51 : BitVec 32)
    (v410 v416 : Vec F S16 .f32) (v454 : BitVec 32) (k3 : Fin k0_t3_loop.trips)
    (ft : Buf (Elt F) ((tabW).view.loc (V d (cV L) (jV L)))) (fi : Buf (Elt F) ((idxW).view.loc (V d (cV L) (jV L))))
    (fs : Buf (Elt F) ((stW).view.loc (V d (cV L) (jV L)))) (hfi : ∀ j, (fi j).toNat < 1000) :
    iprop(((tabW).view.loc (V d (cV L) (jV L)) ↦{fullShare} ft) ∗ ((idxW).view.loc (V d (cV L) (jV L)) ↦{fullShare} fi)
        ∗ ((stW).view.loc (V d (cV L) (jV L)) ↦[Finset.univ \ (slotM0).view.set]{fullShare} fs) : sProp 𝕄)
      ⊢ wp frame (wpE (defs₀ (F := F)) 𝒱₀ (V d (cV L) (jV L)) none) Set.univ
          (k0_t3_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 arg10 v51 v410 v416 v454 k3 ())
          (fun _ => iprop(((tabW).view.loc (V d (cV L) (jV L)) ↦{fullShare} ft) ∗ ((idxW).view.loc (V d (cV L) (jV L)) ↦{fullShare} fi)
            ∗ ∃ fs' : Buf (Elt F) ((stW).view.loc (V d (cV L) (jV L))),
                ((stW).view.loc (V d (cV L) (jV L)) ↦[Finset.univ \ (slotM0).view.set]{fullShare} fs')
                  ∗ ⌜ChunkSet (stageVal ft fi (2 * k1.val + 1)) 1 (16 * k3.val) fs fs'⌝)) := by
  iintro ⟨Ht, Hi, Hs⟩
  sl_unfold [k0_t3_body]
  sl_unfold [k0_part15, k0_part16, k0_part17, k0_part18, k0_part19, k0_part20, k0_part21, k0_part22, k0_part23, k0_part24, k0_part25, k0_part26, k0_part27, k0_part28, Idealize.ShloMosaic.SparseCore.vectorLoadIdx]
  sl_exec (disch := (sl_unfold_run_names; exact chk_ok d L fi hfi _ _ _ (by decide)))
  sl_step
  isplitl [Ht]
  · iexact Ht
  isplitl [Hi]
  · iexact Hi
  iexists _
  isplitl [Hs]
  · iexact Hs
  ipureintro
  sl_unfold_run_names
  exact chunkSet_of_chunkPieces fs (by chunk_pieces hfi (k0_off70_eq k1 k3))

end Cert.KB

end
-- ==== Proof.KB.TripL.lean ====
/-
  One trip of the lookup kernel's outer loop after the first, for one vector subcore at a symbolic grid point: the two
  copies of the previous trip land (each hands back its slot and its window at the lookup), slot 0 is filled for token
  row 2k and copied out, slot 1 for row 2k + 1 and copied out; the invariant moves from k to k + 1.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.Trip2
import proofs.«218643_g31147102830872_cont_9to1_1815_7_alg».proof.Proof.KB.Trip3

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

section Lemmas

variable (d : Dev nD) (L : grid0.Coords)

omit [FloatOps F] in
/-- A slot held by its own elements is the staging buffer less the other slot. -/
theorem slot0_as_rest (f : Buf (Elt F) ((stW).view.loc (V d (cV L) (jV L)))) :
    ((stW).view.loc (V d (cV L) (jV L)) ↦[(slotM0).view.set]{fullShare} f : sProp 𝕄)
      = ((stW).view.loc (V d (cV L) (jV L)) ↦[Finset.univ \ (slotM1).view.set]{fullShare} f) := by
  rw [compl_slotM1]
omit [FloatOps F] in
theorem slot1_as_rest (f : Buf (Elt F) ((stW).view.loc (V d (cV L) (jV L)))) :
    ((stW).view.loc (V d (cV L) (jV L)) ↦[(slotM1).view.set]{fullShare} f : sProp 𝕄)
      = ((stW).view.loc (V d (cV L) (jV L)) ↦[Finset.univ \ (slotM0).view.set]{fullShare} f) := by
  rw [compl_slotM0]

omit [FloatOps F] in
/-- The window the even row's copy writes, as the rows `[b, b + 1)` of the result at this subcore's columns. -/
theorem pts_outW0 (k1 : Fin k0_t1_loop.trips) (f : Buf (Elt F) (v3Loc d)) :
    ((outW0 L k1).view.loc (V d (cV L) (jV L)) ↦[(outW0 L k1).view.set]{fullShare} f : sProp 𝕄)
      = (v3Loc d ↦[rowsSet (cL L) (row0 L + 2 * k1.val) (row0 L + 2 * k1.val + 1)]{fullShare} f) := by
  rw [set_outW0]
  exact (rows_one (F := F) d (cL L) f (rowB (sL L) (rowE k1))).symm
omit [FloatOps F] in
theorem pts_outW1 (k1 : Fin k0_t1_loop.trips) (f : Buf (Elt F) (v3Loc d)) :
    ((outW1 L k1).view.loc (V d (cV L) (jV L)) ↦[(outW1 L k1).view.set]{fullShare} f : sProp 𝕄)
      = (v3Loc d ↦[rowsSet (cL L) (row0 L + 2 * k1.val + 1) (row0 L + 2 * k1.val + 1 + 1)]{fullShare} f) := by
  rw [set_outW1]
  exact (rows_one (F := F) d (cL L) f (rowB (sL L) (rowO k1))).symm

omit [FloatOps F] in
/-- Rows between equal bounds, respelt. -/
theorem rows_cast (c : Fin 2) (f : Buf (Elt F) (v3Loc d)) {lo hi lo' hi' : ℕ} (h1 : lo = lo') (h2 : hi = hi') :
    (v3Loc d ↦[rowsSet c lo hi]{fullShare} f : sProp 𝕄) ⊢ (v3Loc d ↦[rowsSet c lo' hi']{fullShare} f) := by
  subst h1; subst h2; exact BI.Entails.refl _

variable (ft : Buf (Elt F) ((tabW).view.loc (V d (cV L) (jV L)))) (fi : Buf (Elt F) ((idxW).view.loc (V d (cV L) (jV L))))

omit [FloatOps F] in
/-- After a chunk at the columns right after those done, the invariant of the slot-0 loop holds one trip on. -/
theorem post2 (bl k2 : ℕ) (fs : Buf (Elt F) ((stW).view.loc (V d (cV L) (jV L))))
    (hd : SlotDone (stageVal ft fi bl) 0 (16 * k2) fs) (acc : Unit) :
    iprop(((tabW).view.loc (V d (cV L) (jV L)) ↦{fullShare} ft) ∗ ((idxW).view.loc (V d (cV L) (jV L)) ↦{fullShare} fi)
        ∗ ∃ fs' : Buf (Elt F) ((stW).view.loc (V d (cV L) (jV L))),
            ((stW).view.loc (V d (cV L) (jV L)) ↦[Finset.univ \ (slotM1).view.set]{fullShare} fs')
              ∗ ⌜ChunkSet (stageVal ft fi bl) 0 (16 * k2) fs fs'⌝ : sProp 𝕄)
      ⊢ inv2 d L ft fi bl (k2 + 1) acc := by
  unfold inv2
  iintro ⟨Ht, Hi, %fs', Hs, %hc⟩
  isplitl [Ht]; · iexact Ht
  isplitl [Hi]; · iexact Hi
  iexists fs'
  isplitl [Hs]; · iexact Hs
  ipureintro
  have h := hd.chunk hc
  rwa [show 16 * (k2 + 1) = 16 * k2 + 16 by ring]
omit [FloatOps F] in
theorem post3 (bl k3 : ℕ) (fs : Buf (Elt F) ((stW).view.loc (V d (cV L) (jV L))))
    (hd : SlotDone (stageVal ft fi bl) 1 (16 * k3) fs) (acc : Unit) :
    iprop(((tabW).view.loc (V d (cV L) (jV L)) ↦{fullShare} ft) ∗ ((idxW).view.loc (V d (cV L) (jV L)) ↦{fullShare} fi)
        ∗ ∃ fs' : Buf (Elt F) ((stW).view.loc (V d (cV L) (jV L))),
            ((stW).view.loc (V d (cV L) (jV L)) ↦[Finset.univ \ (slotM0).view.set]{fullShare} fs')
              ∗ ⌜ChunkSet (stageVal ft fi bl) 1 (16 * k3) fs fs'⌝ : sProp 𝕄)
      ⊢ inv3 d L ft fi bl (k3 + 1) acc := by
  unfold inv3
  iintro ⟨Ht, Hi, %fs', Hs, %hc⟩
  isplitl [Ht]; · iexact Ht
  isplitl [Hi]; · iexact Hi
  iexists fs'
  isplitl [Hs]; · iexact Hs
  ipureintro
  have h := hd.chunk hc
  rwa [show 16 * (k3 + 1) = 16 * k3 + 16 by ring]

/-- One trip of the loop that fills slot 0. -/
theorem region2 (hfi : ∀ j, (fi j).toNat < 1000) (k1 : Fin k0_t1_loop.trips) (v51 : BitVec 32)
    (k2 : Fin k0_t2_loop.trips) (acc : Unit) :
    inv2 d L ft fi (2 * k1.val) k2.val acc
      ⊢ wp frame (wpE (defs₀ (F := F)) 𝒱₀ (V d (cV L) (jV L)) none) Set.univ
          (k0_t2_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 0#32 1#32 k1 v51 k2 acc)
          (inv2 d L ft fi (2 * k1.val) (k2.val + 1)) := by
  unfold inv2
  iintro ⟨Ht, Hi, %fs, Hs, %hd⟩
  iapply ((trip2 (F := F) d L k1 v51 k2 ft fi fs hfi).trans (wp_mono frame _ _ fun a => post2 (F := F) d L ft fi (2 * k1.val) k2.val fs hd a)) $$ [Ht Hi Hs]
  isplitl [Ht]; · iexact Ht
  isplitl [Hi]; · iexact Hi
  iexact Hs
theorem region3 (hfi : ∀ j, (fi j).toNat < 1000) (k1 : Fin k0_t1_loop.trips) (v30 arg10 v51 : BitVec 32)
    (v410 v416 : Vec F S16 .f32) (v454 : BitVec 32) (k3 : Fin k0_t3_loop.trips) (acc : Unit) :
    inv3 d L ft fi (2 * k1.val + 1) k3.val acc
      ⊢ wp frame (wpE (defs₀ (F := F)) 𝒱₀ (V d (cV L) (jV L)) none) Set.univ
          (k0_t3_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 arg10 v51 v410 v416 v454 k3 acc)
          (inv3 d L ft fi (2 * k1.val + 1) (k3.val + 1)) := by
  unfold inv3
  iintro ⟨Ht, Hi, %fs, Hs, %hd⟩
  iapply ((trip3 (F := F) d L k1 v30 arg10 v51 v410 v416 v454 k3 ft fi fs hfi).trans (wp_mono frame _ _ fun a => post3 (F := F) d L ft fi (2 * k1.val + 1) k3.val fs hd a)) $$ [Ht Hi Hs]
  isplitl [Ht]; · iexact Ht
  isplitl [Hi]; · iexact Hi
  iexact Hs

end Lemmas

end Cert.KB

end
-- ==== Proof.KB.TripC.lean ====
/-
  What a copy in flight hands back, restated for the outer loop's invariant: the window it lands in holds the lookup on
  its rows (the slot it was copied from was complete), and the slot comes back as it was lent.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.TripL

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

section Conv

omit [FloatOps F] in
theorem flight_conv0 (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w0 : Buf (Elt F) ((stW).view.loc (V d (cV L) (jV L))))
    (hA : SlotDone (stageVal ft fi (2 * k1.val)) 0 200 w0) (fo : Buf (Elt F) (v3Loc d)) (b : ℕ) (hb : b = row0 L + 2 * k1.val) :
    iprop(((outW0 L k1).view.loc (V d (cV L) (jV L)) ↦[(outW0 L k1).view.set]{fullShare}
          ((outW0 L k1).view.writes (Elt F) fo
            [⟨Rect.whole S64x200, (ReadAs.same : ReadAs (Elt F) S64x200 .f32 S64x200 .f32).apply ((slotM0).view.read (Elt F) w0)⟩]))
        ∗ ((stW).view.loc (V d (cV L) (jV L)) ↦[(slotM0).view.set]{fullShare} w0) : sProp 𝕄)
      ⊢ iprop((v3Loc d ↦[rowsSet (cL L) b (b + 1)]{fullShare} G d)
        ∗ ((stW).view.loc (V d (cV L) (jV L)) ↦[(slotM0).view.set]{fullShare} w0)) := by
  subst hb
  rw [pointsTo_congr (landed0 f1 f2 G d L hg ft fi hft hfiE k1 w0 hA fo), pts_outW0]

omit [FloatOps F] in
theorem flight_conv1 (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w1 : Buf (Elt F) ((stW).view.loc (V d (cV L) (jV L))))
    (hB : SlotDone (stageVal ft fi (2 * k1.val + 1)) 1 200 w1) (fo : Buf (Elt F) (v3Loc d)) (b : ℕ) (hb : b = row0 L + 2 * k1.val + 1) :
    iprop(((outW1 L k1).view.loc (V d (cV L) (jV L)) ↦[(outW1 L k1).view.set]{fullShare}
          ((outW1 L k1).view.writes (Elt F) fo
            [⟨Rect.whole S64x200, (ReadAs.same : ReadAs (Elt F) S64x200 .f32 S64x200 .f32).apply ((slotM1).view.read (Elt F) w1)⟩]))
        ∗ ((stW).view.loc (V d (cV L) (jV L)) ↦[(slotM1).view.set]{fullShare} w1) : sProp 𝕄)
      ⊢ iprop((v3Loc d ↦[rowsSet (cL L) b (b + 1)]{fullShare} G d)
        ∗ ((stW).view.loc (V d (cV L) (jV L)) ↦[(slotM1).view.set]{fullShare} w1)) := by
  subst hb
  rw [pointsTo_congr (landed1 f1 f2 G d L hg ft fi hft hfiE k1 w1 hB fo), pts_outW1]

end Conv

end Cert.KB

end
-- ==== Proof.KB.TripP.lean ====
/-
  One trip of the lookup kernel's outer loop after the first, for one vector subcore at a symbolic grid point: the two
  copies of the previous trip land (each hands back its slot and its window at the lookup), slot 0 is filled for token
  row 2k and copied out, slot 1 for row 2k + 1 and copied out; the invariant moves from k to k + 1.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.TripL
import proofs.«218643_g31147102830872_cont_9to1_1815_7_alg».proof.Proof.KB.TripC

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

set_option maxHeartbeats 32000000 in
theorem outer_trip_pos (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (hk : 0 < k1.val) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  have hfi : ∀ j, (fi j).toNat < 1000 := fi_range f2 d L hg.range fi hfiE
  have hk32 : k1.val < 32 := t1_lt k1
  have hc1 := cond_pos k1 hk
  unfold inv stagePart
  rw [if_neg (by omega : ¬ k1.val = 0), if_neg (by omega : ¬ k1.val + 1 = 0)]
  unfold flightA flightB
  iintro ⟨Hmw, Ht, Hi, Hdone, Htodo, ⟨⟨%fA, HFA⟩, ⟨%fB, HFB⟩⟩, %W', %hW', HO⟩
  -- this trip's two windows, off the rows still to serve
  ihave Hsp := (rows_split (F := F) d (cL L) (f3 d) (lo := row0 L + 2 * k1.val) (mid := row0 L + 2 * k1.val + 1) (hi := row0 L + 64) (by omega) (by omega)) $$ Htodo
  icases Hsp with ⟨Hw0, Htodo⟩
  ihave Hsp := (rows_split (F := F) d (cL L) (f3 d) (lo := row0 L + 2 * k1.val + 1) (mid := row0 L + 2 * k1.val + 1 + 1) (hi := row0 L + 64) (by omega) (by omega)) $$ Htodo
  icases Hsp with ⟨Hw1, Htodo⟩
  ihave Ho0 := (Entails.of_eq (pts_outW0 (F := F) d L k1 (f3 d)).symm) $$ Hw0
  ihave Ho1 := (Entails.of_eq (pts_outW1 (F := F) d L k1 (f3 d)).symm) $$ Hw1
  sl_unfold [k0_t1_body]
  sl_unfold [k0_part29]
  sl_unfold [k0_part30, k0_part31, k0_part32, k0_part33, k0_part34, k0_part35, k0_part36, k0_part37, k0_part38, k0_part39, k0_part40, k0_part41, k0_part42, k0_part44, k0_part45, k0_part46, k0_part47, k0_part48, k0_part49, k0_part50, k0_part51, k0_part52, k0_part53, k0_part54, k0_part55, k0_part56, k0_part57, Idealize.ShloMosaic.SparseCore.vectorLoadIdx]
  -- the previous copy out of slot 0 lands
  sl_exec (disch := first | (sl_unfold_run_names; exact chk_ok d L fi hfi _ _ _ (by decide)) | (sl_unfold_run_names; exact hc1))
  ihave Hs := (Entails.of_eq (slot0_as_rest (F := F) d L fA)) $$ HFA_src
  first
    | sl_for (inv2 d L ft fi (2 * k1.val)) $$ [Ht Hi Hs]
    | (sl_rw [Idealize.SL.Sem.Prog.bind_assoc]; sl_for (inv2 d L ft fi (2 * k1.val)) $$ [Ht Hi Hs])
  case region => intro k2 acc; exact region2 (F := F) d L ft fi hfi k1 _ k2 acc
  · unfold inv2
    isplitl [Ht]; · iexact Ht
    isplitl [Hi]; · iexact Hi
    iexists fA
    isplitl [Hs]; · iexact Hs
    ipureintro; exact SlotDone.zero _ _ _
  iintro %_ HI
  unfold inv2
  icases HI with ⟨Ht, Hi, %fs2, Hs, %hd2⟩
  have hd2' : SlotDone (stageVal ft fi (2 * k1.val)) 0 192 fs2 := hd2
  -- the last chunk of slot 0, its copy out, the previous copy out of slot 1 lands
  sl_exec (disch := first | (sl_unfold_run_names; exact chk_ok d L fi hfi _ _ _ (by decide)) | (sl_unfold_run_names; exact hc1))
  iclear Hs
  ihave Hs1 := (Entails.of_eq (slot1_as_rest (F := F) d L fB)) $$ HFB_src
  first
    | sl_for (inv3 d L ft fi (2 * k1.val + 1)) $$ [Ht Hi Hs1]
    | (sl_rw [Idealize.SL.Sem.Prog.bind_assoc]; sl_for (inv3 d L ft fi (2 * k1.val + 1)) $$ [Ht Hi Hs1])
  case region => intro k3 acc; exact region3 (F := F) d L ft fi hfi k1 0#32 0#32 0#32 (fun _ => ft (ValueIdx.ix1 (n := 64000) ⟨0, by decide⟩)) (fun _ => ft (ValueIdx.ix1 (n := 64000) ⟨0, by decide⟩)) _ k3 acc
  · unfold inv3
    isplitl [Ht]; · iexact Ht
    isplitl [Hi]; · iexact Hi
    iexists fB
    isplitl [Hs1]; · iexact Hs1
    ipureintro; exact SlotDone.zero _ _ _
  iintro %_ HI
  unfold inv3
  icases HI with ⟨Ht, Hi, %fs3, Hs1, %hd3⟩
  have hd3' : SlotDone (stageVal ft fi (2 * k1.val + 1)) 1 192 fs3 := hd3
  -- the last chunk of slot 1 and its copy out
  sl_exec (disch := first | (sl_unfold_run_names; exact chk_ok d L fi hfi _ _ _ (by decide)) | (sl_unfold_run_names; exact hc1))
  try sl_unfold [Idealize.ShloMosaic.SparseCore.vectorLoadIdx]
  sl_exec (disch := first | (sl_unfold_run_names; exact chk_ok d L fi hfi _ _ _ (by decide)) | (sl_unfold_run_names; exact hc1))
  sl_step
  iclear Hs1
  sl_unfold_run_names
  -- the two copies just issued, as the invariant states them: their slots were complete, so their windows land at the lookup
  ihave HA := (Transfers.Flight_mono countersEmb (V d (cV L) (jV L)) (flight_conv0 (F := F) f1 f2 G d L hg ft fi hft hfiE k1 _ ?hA (f3 d) (row0 L + (2 * (k1.val + 1) - 2)) ?hbA)) $$ HFA
  case hA => exact hd2'.chunk_overlap (chunkSet_of_chunkPieces fs2 (by chunk_pieces hfi (k0_off68_eq k1))) (by omega)
  case hbA => omega
  ihave HB := (Transfers.Flight_mono countersEmb (V d (cV L) (jV L)) (flight_conv1 (F := F) f1 f2 G d L hg ft fi hft hfiE k1 _ ?hB (f3 d) (row0 L + (2 * (k1.val + 1) - 1)) ?hbB)) $$ HFB
  case hB => exact hd3'.chunk_overlap (chunkSet_of_chunkPieces fs3 (by chunk_pieces hfi (k0_off135_eq k1))) (by omega)
  case hbB => omega
  isplitl [Hmw]; · iexact Hmw
  isplitl [Ht]; · iexact Ht
  isplitl [Hi]; · iexact Hi
  isplitl [Hdone HFA_dst HFB_dst]
  · -- the rows done: those before, and the two that have just landed
    ihave H1 := (rows_join (F := F) d (cL L) (G d) (lo := row0 L) (mid := row0 L + (2 * k1.val - 2)) (hi := row0 L + (2 * k1.val - 2) + 1) (by omega) (by omega)) $$ [Hdone HFA_dst]
    · isplitl [Hdone] <;> iassumption
    ihave HB' := (rows_cast (F := F) d (cL L) (G d) (lo := row0 L + (2 * k1.val - 1)) (hi := row0 L + (2 * k1.val - 1) + 1) (lo' := row0 L + (2 * k1.val - 2) + 1) (hi' := row0 L + (2 * k1.val - 2) + 1 + 1) (by omega) (by omega)) $$ HFB_dst
    ihave H2 := (rows_join (F := F) d (cL L) (G d) (lo := row0 L) (mid := row0 L + (2 * k1.val - 2) + 1) (hi := row0 L + (2 * k1.val - 2) + 1 + 1) (by omega) (by omega)) $$ [H1 HB']
    · isplitl [H1] <;> iassumption
    iapply (rows_cast (F := F) d (cL L) (G d) (lo := row0 L) (hi := row0 L + (2 * k1.val - 2) + 1 + 1) (lo' := row0 L) (hi' := row0 L + (2 * (k1.val + 1) - 2)) rfl (by omega))
    iexact H2
  isplitl [Htodo]
  · iapply (rows_cast (F := F) d (cL L) (f3 d) (lo := row0 L + 2 * k1.val + 1 + 1) (hi := row0 L + 64) (lo' := row0 L + 2 * (k1.val + 1)) (hi' := row0 L + 64) (by omega) rfl)
    iexact Htodo
  isplitl [HA HB]
  · isplitl [HA]
    · iexists _; iexact HA
    · iexists _; iexact HB
  iexists (insert (SemLoc.dma cc0_scratch4.sem, (default : HIx 1)) (insert (SemLoc.dma cc0_scratch3.sem, (default : HIx 1)) W'))
  isplitr
  · ipureintro
    intro p hp
    rcases Finset.mem_insert.mp hp with hp | hp
    · exact .inr (hp ▸ rfl)
    rcases Finset.mem_insert.mp hp with hp | hp
    · exact .inr (hp ▸ rfl)
    · exact hW' p hp
  · iexact HO

end Cert.KB

end
-- ==== Proof.KB.TripZ.lean ====
/-
  The first trip of the lookup kernel's outer loop, for one vector subcore at a symbolic grid point.

  Before the first trip nothing is in flight: the staging buffer is at rest and the two copy semaphores are at zero, so
  neither of the trip's two conditional waits is taken. The buffer is held as its two slots. Slot 0 is filled for token
  row 0 (twelve chunks by the first loop, the last chunk at column 184 overlapping the twelfth) and copied out to the
  window of row `row0`; slot 1 is filled for token row 1 in the same way and copied out to the window of row `row0 + 1`.
  Each copy is issued on a semaphore held at zero and stays in flight: its landing hands back its slot and its window,
  the window holding the lookup because the slot is complete for its row. No window is done yet, the windows from
  `row0 + 2` on still hold the launch contents, and no wait has been recorded: the invariant holds at 1.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.TripL
import proofs.«218643_g31147102830872_cont_9to1_1815_7_alg».proof.Proof.KB.TripC

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

omit [FloatOps F] in
/-- The copy of the first slot, complete for local token row `2 k1`, out to its window: in flight it is the first of the
    invariant's two flights, for the row `row0 + 2 k1`. -/
theorem flightA_intro (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w0 : Buf (Elt F) ((stW).view.loc (V d (cV L) (jV L))))
    (hA : SlotDone (stageVal ft fi (2 * k1.val)) 0 200 w0) (fo : Buf (Elt F) (v3Loc d)) (b : ℕ) (hb : b = row0 L + 2 * k1.val) :
    (Transfers.Flight countersEmb (V d (cV L) (jV L)) (SemLoc.dma cc0_scratch3.sem) (default : HIx 1) 409600
        iprop(((outW0 L k1).view.loc (V d (cV L) (jV L)) ↦[(outW0 L k1).view.set]{fullShare}
              ((outW0 L k1).view.writes (Elt F) fo
                [⟨Rect.whole S64x200, (ReadAs.same : ReadAs (Elt F) S64x200 .f32 S64x200 .f32).apply ((slotM0).view.read (Elt F) w0)⟩]))
            ∗ ((stW).view.loc (V d (cV L) (jV L)) ↦[(slotM0).view.set]{fullShare} w0)) : sProp 𝕄)
      ⊢ flightA G d L b := by
  unfold flightA
  iintro H
  iexists w0
  iapply (Transfers.Flight_mono countersEmb (V d (cV L) (jV L)) (flight_conv0 (F := F) f1 f2 G d L hg ft fi hft hfiE k1 w0 hA fo b hb)) $$ H

omit [FloatOps F] in
/-- The same for the second slot, local token row `2 k1 + 1`, and the invariant's second flight. -/
theorem flightB_intro (f1 : (d : Dev nD) → Buf (Elt F) (v1Loc d)) (f2 : (d : Dev nD) → Buf (Elt F) (v2Loc d))
    (G : (d : Dev nD) → Buf (Elt F) (v3Loc d)) (d : Dev nD) (L : grid0.Coords) (hg : Good f1 f2 G d)
    (ft : Buf (Elt F) ((tabW).view.loc (V d (cV L) (jV L)))) (fi : Buf (Elt F) ((idxW).view.loc (V d (cV L) (jV L))))
    (hft : TabIs f1 d L ft) (hfiE : TokIs f2 d L fi) (k1 : Fin k0_t1_loop.trips)
    (w1 : Buf (Elt F) ((stW).view.loc (V d (cV L) (jV L))))
    (hB : SlotDone (stageVal ft fi (2 * k1.val + 1)) 1 200 w1) (fo : Buf (Elt F) (v3Loc d)) (b : ℕ) (hb : b = row0 L + 2 * k1.val + 1) :
    (Transfers.Flight countersEmb (V d (cV L) (jV L)) (SemLoc.dma cc0_scratch4.sem) (default : HIx 1) 409600
        iprop(((outW1 L k1).view.loc (V d (cV L) (jV L)) ↦[(outW1 L k1).view.set]{fullShare}
              ((outW1 L k1).view.writes (Elt F) fo
                [⟨Rect.whole S64x200, (ReadAs.same : ReadAs (Elt F) S64x200 .f32 S64x200 .f32).apply ((slotM1).view.read (Elt F) w1)⟩]))
            ∗ ((stW).view.loc (V d (cV L) (jV L)) ↦[(slotM1).view.set]{fullShare} w1)) : sProp 𝕄)
      ⊢ flightB G d L b := by
  unfold flightB
  iintro H
  iexists w1
  iapply (Transfers.Flight_mono countersEmb (V d (cV L) (jV L)) (flight_conv1 (F := F) f1 f2 G d L hg ft fi hft hfiE k1 w1 hB fo b hb)) $$ H

set_option maxHeartbeats 32000000 in
/-- The first trip of the outer loop: from the invariant at 0 (nothing in flight, the staging buffer at rest) to the
    invariant at 1 (the copies of rows `row0` and `row0 + 1` in flight). -/
theorem outer_trip_zero (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (h0 : k1.val = 0) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  have hfi : ∀ j, (fi j).toNat < 1000 := fi_range f2 d L hg.range fi hfiE
  have hlt : 0 < k0_t1_loop.trips := by decide
  obtain rfl : k1 = ⟨0, hlt⟩ := Fin.ext h0
  have hv : ((⟨0, hlt⟩ : Fin k0_t1_loop.trips) : ℕ) = 0 := rfl
  unfold inv stagePart
  rw [if_pos hv, if_neg (by omega : ¬ ((⟨0, hlt⟩ : Fin k0_t1_loop.trips) : ℕ) + 1 = 0)]
  iintro ⟨Hmw, Ht, Hi, Hdone, Htodo, ⟨⟨%f0, Hst⟩, Hs3, Hs4⟩, %W', %hW', HO⟩
  -- this trip's two windows, off the rows still to serve
  ihave Hsp := (rows_split (F := F) d (cL L) (f3 d) (lo := row0 L + 2 * ((⟨0, hlt⟩ : Fin k0_t1_loop.trips) : ℕ)) (mid := row0 L + 2 * ((⟨0, hlt⟩ : Fin k0_t1_loop.trips) : ℕ) + 1) (hi := row0 L + 64) (by omega) (by omega)) $$ Htodo
  icases Hsp with ⟨Hw0, Htodo⟩
  ihave Hsp := (rows_split (F := F) d (cL L) (f3 d) (lo := row0 L + 2 * ((⟨0, hlt⟩ : Fin k0_t1_loop.trips) : ℕ) + 1) (mid := row0 L + 2 * ((⟨0, hlt⟩ : Fin k0_t1_loop.trips) : ℕ) + 1 + 1) (hi := row0 L + 64) (by omega) (by omega)) $$ Htodo
  icases Hsp with ⟨Hw1, Htodo⟩
  ihave Ho0 := (Entails.of_eq (pts_outW0 (F := F) d L ⟨0, hlt⟩ (f3 d)).symm) $$ Hw0
  ihave Ho1 := (Entails.of_eq (pts_outW1 (F := F) d L ⟨0, hlt⟩ (f3 d)).symm) $$ Hw1
  -- the staging buffer at rest: the second slot's elements, and the rest
  ihave Hsp := (pointsTo_split_subset (I := (slotM1).view.set) (Finset.subset_univ _)).1 $$ Hst
  icases Hsp with ⟨Hs1, Hs⟩
  sl_unfold [k0_t1_body]
  sl_unfold [k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, Idealize.ShloMosaic.SparseCore.vectorLoadIdx]
  sl_exec (disch := (sl_unfold_run_names; exact chk_ok d L fi hfi _ _ _ (by decide)))
  first
    | sl_for (inv2 d L ft fi (2 * ((⟨0, hlt⟩ : Fin k0_t1_loop.trips) : ℕ))) $$ [Ht Hi Hs]
    | (sl_rw [Idealize.SL.Sem.Prog.bind_assoc]; sl_for (inv2 d L ft fi (2 * ((⟨0, hlt⟩ : Fin k0_t1_loop.trips) : ℕ))) $$ [Ht Hi Hs])
  case region => intro k2 acc; exact region2 (F := F) d L ft fi hfi ⟨0, hlt⟩ _ k2 acc
  · unfold inv2
    isplitl [Ht]; · iexact Ht
    isplitl [Hi]; · iexact Hi
    iexists f0
    isplitl [Hs]; · iexact Hs
    ipureintro; exact SlotDone.zero _ _ _
  iintro %_ HI
  unfold inv2
  icases HI with ⟨Ht, Hi, %fs2, Hs, %hd2⟩
  have hd2' : SlotDone (stageVal ft fi (2 * ((⟨0, hlt⟩ : Fin k0_t1_loop.trips) : ℕ))) 0 192 fs2 := hd2
  -- the last chunk of slot 0 and its copy out
  sl_exec (disch := (sl_unfold_run_names; exact chk_ok d L fi hfi _ _ _ (by decide)))
  -- nothing of the staging buffer is left outside the two slots
  iclear Hs
  -- the second slot's elements, as the staging buffer less the first slot
  ihave Hs1 := (Entails.of_eq (slot1_as_rest (F := F) d L f0)) $$ Hs1
  first
    | sl_for (inv3 d L ft fi (2 * ((⟨0, hlt⟩ : Fin k0_t1_loop.trips) : ℕ) + 1)) $$ [Ht Hi Hs1]
    | (sl_rw [Idealize.SL.Sem.Prog.bind_assoc]; sl_for (inv3 d L ft fi (2 * ((⟨0, hlt⟩ : Fin k0_t1_loop.trips) : ℕ) + 1)) $$ [Ht Hi Hs1])
  case region =>
    intro k3 acc
    exact region3 (F := F) d L ft fi hfi ⟨0, hlt⟩ 0#32 0#32 0#32 (fun _ => ft (ValueIdx.ix1 (n := 64000) ⟨0, by decide⟩)) (fun _ => ft (ValueIdx.ix1 (n := 64000) ⟨0, by decide⟩)) _ k3 acc
  · unfold inv3
    isplitl [Ht]; · iexact Ht
    isplitl [Hi]; · iexact Hi
    iexists f0
    isplitl [Hs1]; · iexact Hs1
    ipureintro; exact SlotDone.zero _ _ _
  iintro %_ HI
  unfold inv3
  icases HI with ⟨Ht, Hi, %fs3, Hs1, %hd3⟩
  have hd3' : SlotDone (stageVal ft fi (2 * ((⟨0, hlt⟩ : Fin k0_t1_loop.trips) : ℕ) + 1)) 1 192 fs3 := hd3
  -- the last chunk of slot 1 and its copy out
  sl_exec (disch := (sl_unfold_run_names; exact chk_ok d L fi hfi _ _ _ (by decide)))
  sl_step
  iclear Hs1
  sl_unfold_run_names
  isplitl [Hmw]
  · iexact Hmw
  isplitl [Ht]
  · iexact Ht
  isplitl [Hi]
  · iexact Hi
  isplitl [Hdone]
  · iapply (rows_cast (F := F) d (cL L) (G d) (lo := row0 L) (hi := row0 L + (2 * ((⟨0, hlt⟩ : Fin k0_t1_loop.trips) : ℕ) - 2)) (lo' := row0 L) (hi' := row0 L + (2 * (((⟨0, hlt⟩ : Fin k0_t1_loop.trips) : ℕ) + 1) - 2)) rfl (by omega)) $$ Hdone
  isplitl [Htodo]
  · iapply (rows_cast (F := F) d (cL L) (f3 d) (lo := row0 L + 2 * ((⟨0, hlt⟩ : Fin k0_t1_loop.trips) : ℕ) + 1 + 1) (hi := row0 L + 64) (lo' := row0 L + 2 * (((⟨0, hlt⟩ : Fin k0_t1_loop.trips) : ℕ) + 1)) (hi' := row0 L + 64) (by omega) rfl) $$ Htodo
  isplitl [Hs3 Hs4]
  · isplitl [Hs3]
    · istop
      refine flightA_intro (F := F) f1 f2 G d L hg ft fi hft hfiE ⟨0, hlt⟩ _ ?_ (f3 d) _ ?_
      · exact hd2'.chunk_overlap (chunkSet_of_chunkPieces fs2 (by chunk_pieces hfi (k0_off68_eq ⟨0, hlt⟩))) (by omega)
      · omega
    · istop
      refine flightB_intro (F := F) f1 f2 G d L hg ft fi hft hfiE ⟨0, hlt⟩ _ ?_ (f3 d) _ ?_
      · exact hd3'.chunk_overlap (chunkSet_of_chunkPieces fs3 (by chunk_pieces hfi (k0_off135_eq ⟨0, hlt⟩))) (by omega)
      · omega
  iexists W'
  isplitr [HO]
  · ipureintro
    exact hW'
  iexact HO

end Cert.KB

end
-- ==== Proof.KB.Trip.lean ====
/-
  One trip of the lookup kernel's outer loop: the first trip, which finds the staging buffer at rest, and every later
  one, which finds the previous trip's two copies in flight.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.Chunk
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.TripP
import proofs.«218643_g31147102830872_cont_9to1_1815_7_alg».proof.Proof.KB.TripZ

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

theorem outer_trip (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0)
    (ft : Buf (Elt F) ((tabW).view.loc (V d (cV L) (jV L)))) (fi : Buf (Elt F) ((idxW).view.loc (V d (cV L) (jV L))))
    (hft : TabIs f1 d L ft) (hfiE : TokIs f2 d L fi)
    (k1 : Fin k0_t1_loop.trips) (v30 : BitVec 32) :
    inv f3 G d L O W ft fi k1.val ()
      ⊢ wp frame (wpE (defs₀ (F := F)) 𝒱₀ (V d (cV L) (jV L)) none) Set.univ
          (k0_t1_body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1 v30 k1 ())
          (inv f3 G d L O W ft fi (k1.val + 1)) := by
  rcases Nat.eq_zero_or_pos k1.val with h0 | hp
  · exact outer_trip_zero f1 f2 f3 G d L hg O W hO ft fi hft hfiE k1 h0 v30
  · exact outer_trip_pos f1 f2 f3 G d L hg O W hO ft fi hft hfiE k1 hp v30

end Cert.KB

end
-- ==== Proof.KB.Tile.lean ====
/-
  One vector subcore's task, run once at a symbolic grid point: from its read shares of the two flat arrays, its
  sixty-four windows of the result at the launch contents and its own scratch storage, the kernel's body runs to the
  same resources with every window holding the lookup. The two start copies fill the table copy and the token block;
  the row loop runs by its invariant, one trip the outer trip's lemma; the two last copies out are waited for and the
  windows, the staging buffer and the semaphores are put back together.
-/
import proofs.«218643_g31147102830872_cont_9to1_1815_7_alg».proof.Proof.KB.Setup
import proofs.«218643_g31147102830872_cont_9to1_1815_7_alg».proof.Proof.KB.Vals
import proofs.«218643_g31147102830872_cont_9to1_1815_7_alg».proof.Proof.KB.Sets
import proofs.«218643_g31147102830872_cont_9to1_1815_7_alg».proof.Proof.KB.Rows
import proofs.«218643_g31147102830872_cont_9to1_1815_7_alg».proof.Proof.KB.ValsG
import proofs.«218643_g31147102830872_cont_9to1_1815_7_alg».proof.Proof.KB.Inv
import proofs.«218643_g31147102830872_cont_9to1_1815_7_alg».proof.Proof.KB.Trip

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

/-! ## The subcore's own cells and buffers -/

section Own

variable (d : Dev nD) (L : grid0.Coords)

abbrev cA (d : Dev nD) (L : grid0.Coords) : GSem nD τ sig := (V d (cV L) (jV L), SemLoc.dma cc0_scratch3.sem)
abbrev cB (d : Dev nD) (L : grid0.Coords) : GSem nD τ sig := (V d (cV L) (jV L), SemLoc.dma cc0_scratch4.sem)
abbrev c0 (d : Dev nD) (L : grid0.Coords) : GSem nD τ sig := (V d (cV L) (jV L), SemLoc.dma cc0_scoped0.sem)
abbrev c1 (d : Dev nD) (L : grid0.Coords) : GSem nD τ sig := (V d (cV L) (jV L), SemLoc.dma cc0_scoped1.sem)

omit [FloatOps F] in
theorem cell_ne {thr : Thread nD τ} {a b : SemLoc sig} (h : a ≠ b) : ((thr, a) : GSem nD τ sig) ≠ (thr, b) :=
  fun e => h (Prod.mk.inj e).2

omit [FloatOps F] in
theorem mem_own (sm : SemLoc sig) (h : sm.isScoped .scVector = true) :
    ((V d (cV L) (jV L), sm) : GSem nD τ sig) ∈ ownCells (V d (cV L) (jV L)) :=
  (mem_ownCells (g := (V d (cV L) (jV L), sm))).mpr ⟨rfl, h⟩

omit [FloatOps F] in
/-- The four DMA semaphores are among the subcore's own cells: they are them, at zero, and the rest. -/
theorem ownSems0_V :
    (ownSems0 (V d (cV L) (jV L)) : sProp 𝕄)
      = iprop(semVal (cA d L) 0 ∗ semVal (cB d L) 0 ∗ semVal (c0 d L) 0 ∗ semVal (c1 d L) 0
          ∗ bigSep (((((ownCells (V d (cV L) (jV L))).erase (cA d L)).erase (cB d L)).erase (c0 d L)).erase (c1 d L))
              fun g => semVal g 0) := by
  unfold SparseCore.Cfg.ownSems0
  have hA := mem_own d L (SemLoc.dma cc0_scratch3.sem) (by decide)
  have hB := mem_own d L (SemLoc.dma cc0_scratch4.sem) (by decide)
  have h0 := mem_own d L (SemLoc.dma cc0_scoped0.sem) (by decide)
  have h1 := mem_own d L (SemLoc.dma cc0_scoped1.sem) (by decide)
  rw [SparseCore.bigSep_erase' hA,
    SparseCore.bigSep_erase' (Finset.mem_erase.mpr ⟨cell_ne (by decide), hB⟩),
    SparseCore.bigSep_erase' (Finset.mem_erase.mpr ⟨cell_ne (by decide), Finset.mem_erase.mpr ⟨cell_ne (by decide), h0⟩⟩),
    SparseCore.bigSep_erase' (Finset.mem_erase.mpr ⟨cell_ne (by decide), Finset.mem_erase.mpr ⟨cell_ne (by decide),
      Finset.mem_erase.mpr ⟨cell_ne (by decide), h1⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The arrays and the scratch buffers as the subcore's memrefs address them. -/
theorem pts_v1 (q : PosShare TreeShare) (f : Buf (Elt F) (v1Loc d)) :
    ((v1W).view.loc (V d (cV L) (jV L)) ↦{q} f : sProp 𝕄) = v1Loc d ↦{q} f := rfl
omit [FloatOps F] in
theorem pts_v2 (q : PosShare TreeShare) (f : Buf (Elt F) (v2Loc d)) :
    ((v2W).view.loc (V d (cV L) (jV L)) ↦{q} f : sProp 𝕄) = v2Loc d ↦{q} f := rfl
omit [FloatOps F] in
theorem pts_tab (f : Buf (Elt F) ((V d (cV L) (jV L)).loc cc0_scratch0)) :
    ((tabW).view.loc (V d (cV L) (jV L)) ↦{fullShare} f : sProp 𝕄) = (V d (cV L) (jV L)).loc cc0_scratch0 ↦{fullShare} f := rfl
omit [FloatOps F] in
theorem pts_idx (f : Buf (Elt F) ((V d (cV L) (jV L)).loc cc0_scratch1)) :
    ((idxW).view.loc (V d (cV L) (jV L)) ↦{fullShare} f : sProp 𝕄) = (V d (cV L) (jV L)).loc cc0_scratch1 ↦{fullShare} f := rfl
omit [FloatOps F] in
theorem pts_st (f : Buf (Elt F) ((V d (cV L) (jV L)).loc cc0_scratch2)) :
    ((stW).view.loc (V d (cV L) (jV L)) ↦{fullShare} f : sProp 𝕄) = (V d (cV L) (jV L)).loc cc0_scratch2 ↦{fullShare} f := rfl

end Own

/-! ## The start copies' contents as facts -/

theorem tab_intro (f1 : (d : Dev nD) → Buf (Elt F) (v1Loc d)) (d : Dev nD) (L : grid0.Coords)
    (X : Buf (Elt F) ((tabW).view.loc (V d (cV L) (jV L)))) (h : TabIs f1 d L X) :
    ((tabW).view.loc (V d (cV L) (jV L)) ↦{fullShare} X : sProp 𝕄)
      ⊢ iprop(∃ ft, ⌜TabIs f1 d L ft⌝ ∗ ((tabW).view.loc (V d (cV L) (jV L)) ↦{fullShare} ft)) := by
  iintro H
  iexists X
  isplitr
  · ipureintro; exact h
  · iexact H

theorem tok_intro (f2 : (d : Dev nD) → Buf (Elt F) (v2Loc d)) (d : Dev nD) (L : grid0.Coords)
    (X : Buf (Elt F) ((idxW).view.loc (V d (cV L) (jV L)))) (h : TokIs f2 d L X) :
    ((idxW).view.loc (V d (cV L) (jV L)) ↦{fullShare} X : sProp 𝕄)
      ⊢ iprop(∃ fi, ⌜TokIs f2 d L fi⌝ ∗ ((idxW).view.loc (V d (cV L) (jV L)) ↦{fullShare} fi)) := by
  iintro H
  iexists X
  isplitr
  · ipureintro; exact h
  · iexact H

/-! ## The invariant after the last trip -/

theorem inv_last (f3 G : (d : Dev nD) → Buf (Elt F) (v3Loc d)) (d : Dev nD) (L : grid0.Coords)
    (O : CellTallies nD τ sig (HIx 1)) (W : Waits sig (HIx 1))
    (ft : Buf (Elt F) ((tabW).view.loc (V d (cV L) (jV L)))) (fi : Buf (Elt F) ((idxW).view.loc (V d (cV L) (jV L)))) (acc : PUnit) :
    inv f3 G d L O W ft fi k0_t1_loop.trips acc
      = iprop(Transfers.MayWaits (V d (cV L) (jV L)) (none : HIx 1) O
        ∗ ((tabW).view.loc (V d (cV L) (jV L)) ↦{fullShare} ft) ∗ ((idxW).view.loc (V d (cV L) (jV L)) ↦{fullShare} fi)
        ∗ (v3Loc d ↦[rowsSet (cL L) (row0 L) (row0 L + 62)]{fullShare} G d)
        ∗ (v3Loc d ↦[rowsSet (cL L) (row0 L + 64) (row0 L + 64)]{fullShare} f3 d)
        ∗ ((∃ f, Transfers.Flight countersEmb (V d (cV L) (jV L)) (SemLoc.dma cc0_scratch3.sem) (default : HIx 1) 409600
              iprop((v3Loc d ↦[rowsSet (cL L) (row0 L + 62) (row0 L + 62 + 1)]{fullShare} G d)
                ∗ ((stW).view.loc (V d (cV L) (jV L)) ↦[(slotM0).view.set]{fullShare} f)))
          ∗ (∃ f, Transfers.Flight countersEmb (V d (cV L) (jV L)) (SemLoc.dma cc0_scratch4.sem) (default : HIx 1) 409600
              iprop((v3Loc d ↦[rowsSet (cL L) (row0 L + 63) (row0 L + 63 + 1)]{fullShare} G d)
                ∗ ((stW).view.loc (V d (cV L) (jV L)) ↦[(slotM1).view.set]{fullShare} f))))
        ∗ ∃ W', ⌜∀ p ∈ W', p ∈ W ∨ p.2 = none⌝ ∗ owes (V d (cV L) (jV L)) O W') := by
  unfold inv stagePart flightA flightB
  rw [if_neg (by decide), t1_trips]

/-! ## Putting the windows and the staging buffer back together -/

omit [FloatOps F] in
/-- The rows below the last two, and the last two rows, are the subcore's run of rows. -/
theorem rows_last (d : Dev nD) (c : Fin 2) (f : Buf (Elt F) (v3Loc d)) (r0 : ℕ) :
    iprop((v3Loc d ↦[rowsSet c r0 (r0 + 62)]{fullShare} f) ∗ (v3Loc d ↦[rowsSet c (r0 + 62) (r0 + 62 + 1)]{fullShare} f)
        ∗ (v3Loc d ↦[rowsSet c (r0 + 63) (r0 + 63 + 1)]{fullShare} f))
      ⊢ (v3Loc d ↦[rowsSet c r0 (r0 + 64)]{fullShare} f : sProp 𝕄) := by
  have e1 : r0 + 62 + 1 = r0 + 63 := rfl
  have e2 : r0 + 63 + 1 = r0 + 64 := rfl
  rw [e1, e2]
  iintro ⟨H1, H2, H3⟩
  iapply (rows_join (F := F) d c f (lo := r0) (mid := r0 + 63) (hi := r0 + 64) (by omega) (by omega))
  isplitl [H1 H2]
  · iapply (rows_join (F := F) d c f (lo := r0) (mid := r0 + 62) (hi := r0 + 63) (by omega) (by omega))
    isplitl [H1] <;> iassumption
  · iexact H3

omit [FloatOps F] in
/-- The two slots, at whatever they hold, are the staging buffer whole. -/
theorem stage_join (d : Dev nD) (L : grid0.Coords) (fA fB : Buf (Elt F) ((stW).view.loc (V d (cV L) (jV L)))) :
    iprop(((stW).view.loc (V d (cV L) (jV L)) ↦[(slotM0).view.set]{fullShare} fA)
        ∗ ((stW).view.loc (V d (cV L) (jV L)) ↦[(slotM1).view.set]{fullShare} fB))
      ⊢ (iprop(∃ f, (V d (cV L) (jV L)).loc cc0_scratch2 ↦{fullShare} f) : sProp 𝕄) := by
  have e : ((stW).view.loc (V d (cV L) (jV L)) ↦[(slotM1).view.set]{fullShare} fB : sProp 𝕄)
      = ((stW).view.loc (V d (cV L) (jV L)) ↦[Finset.univ \ (slotM0).view.set]{fullShare} fB) := by rw [compl_slotM0]
  rw [e]
  iintro H
  iexists _
  iapply (pointsTo_join_subset (ℓ := (stW).view.loc (V d (cV L) (jV L))) (I := (slotM0).view.set) (S := Finset.univ) (q := fullShare)
    (g := fA) (f := fB) (Finset.subset_univ _))
  iexact H

/-! ## The task -/

set_option maxHeartbeats 4000000 in
theorem tile_body (hF : (K (F := F)).Facts)
    (f1 : (d : Dev nD) → Buf (Elt F) (v1Loc d)) (f2 : (d : Dev nD) → Buf (Elt F) (v2Loc d))
    (f3 G : (d : Dev nD) → Buf (Elt F) (v3Loc d)) (d : Dev nD) (L : grid0.Coords) (hg : Good f1 f2 G d)
    (O : CellTallies nD τ sig (HIx 1)) (W : Waits sig (HIx 1)) (hO : ∀ g, O g none = 0) :
    iprop(levAts (K (F := F)).L (K (F := F)).lev ∗ emp ∗ tileRes f1 f2 f3 d (cL L) (sL L)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__body L v1W (Memref.isWhole_whole _) v2W (Memref.isWhole_whole _) v3W (Memref.isWhole_whole _)
            tabW (Memref.isWhole_whole _) idxW (Memref.isWhole_whole _) stW (Memref.isWhole_whole _)
            cc0_scratch3 cc0_scratch4 cc0_scoped0 cc0_scoped1)
          fun _ => iprop(tileRes f1 f2 G d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes
  iintro ⟨#Hlv, -, ⟨Hv1, Hv2, Hwin⟩, ⟨⟨%ft0, Ht⟩, ⟨%fi0, Hi⟩, ⟨%fs0, Hs⟩, Hbufs⟩, ⟨Hs3, Hs4, Hc0, Hc1, Hsems⟩, HO⟩
  ihave Hmw := ((K (F := F)).mayWaits_none (thr := V d (cV L) (jV L)) hO) $$ Hlv
  ihave Hv1' := (Entails.of_eq (pts_v1 (F := F) d L _ _).symm) $$ Hv1
  ihave Hv2' := (Entails.of_eq (pts_v2 (F := F) d L _ _).symm) $$ Hv2
  ihave Ht' := (Entails.of_eq (pts_tab (F := F) d L _).symm) $$ Ht
  ihave Hi' := (Entails.of_eq (pts_idx (F := F) d L _).symm) $$ Hi
  ihave Hs' := (Entails.of_eq (pts_st (F := F) d L _).symm) $$ Hs
  ihave Hrows := (tile_rows (F := F) d (cL L) (f3 d) (sL L)) $$ Hwin
  sl_unfold [cc0__body]
  sl_unfold [k0_part58]
  sl_exec
  ihave Ht2 := (tab_intro (F := F) f1 d L _ ?hft) $$ Ht'
  case hft => intro j; sl_unfold_run_names; exact tab_copy L (f1 d) ft0 j
  icases Ht2 with ⟨%ft, %hft, Ht⟩
  ihave Hi2 := (tok_intro (F := F) f2 d L _ ?hfi) $$ Hi'
  case hfi => intro j; sl_unfold_run_names; exact tok_copy L (f2 d) fi0 j
  icases Hi2 with ⟨%fi, %hfi, Hi⟩
  sl_for (inv f3 G d L O W ft fi) $$ [Hmw Ht Hi Hrows Hs' Hs3 Hs4 HO]
  case region =>
    intro k1 acc
    cases acc
    exact outer_trip f1 f2 f3 G d L hg O W hO ft fi hft hfi k1 _
  · unfold inv stagePart
    rw [if_pos rfl]
    isplitl [Hmw]; · iexact Hmw
    isplitl [Ht]; · iexact Ht
    isplitl [Hi]; · iexact Hi
    isplitr; · iapply (rows_empty (F := F) d (cL L) (G d) (row0 L)); iempintro
    isplitl [Hrows]; · iexact Hrows
    isplitl [Hs' Hs3 Hs4]
    · isplitl [Hs']; · iexists _; iexact Hs'
      isplitl [Hs3]; · iexact Hs3
      iexact Hs4
    iexists _; isplitr
    rotate_left
    · iexact HO
    · ipureintro; intro p hp
      rcases Finset.mem_insert.mp hp with rfl | hp
      · exact .inr rfl
      rcases Finset.mem_insert.mp hp with rfl | hp
      · exact .inr rfl
      · exact .inl hp
  iintro %acc HI
  ihave HI' := (Entails.of_eq (inv_last (F := F) f3 G d L O W ft fi acc)) $$ HI
  icases HI' with ⟨-, Ht, Hi, Hdone, -, ⟨⟨%fA, HFA⟩, ⟨%fB, HFB⟩⟩, %W', %hW', HO⟩
  sl_exec
  sl_step
  ihave Hall := (rows_last (F := F) d (cL L) (G d) (row0 L)) $$ [Hdone HFA_dst HFB_dst]
  · isplitl [Hdone]; · iexact Hdone
    isplitl [HFA_dst] <;> iassumption
  ihave Hwin := (tile_rows_back (F := F) d (cL L) (G d) (sL L)) $$ Hall
  ihave Hst := (stage_join (F := F) d L fA fB) $$ [HFA_src HFB_src]
  · isplitl [HFA_src] <;> iassumption
  isplitl [Hv1' Hv2' Hwin]
  · isplitl [Hv1']; · iexact Hv1'
    isplitl [Hv2']; · iexact Hv2'
    iexact Hwin
  isplitl [Ht Hi Hst Hbufs]
  · isplitl [Ht]; · iexists _; iexact Ht
    isplitl [Hi]; · iexists _; iexact Hi
    isplitl [Hst]; · iexact Hst
    iexact Hbufs
  isplitl [HFA HFB Hc0 Hc1 Hsems]
  · isplitl [HFA]; · iexact HFA
    isplitl [HFB]; · iexact HFB
    isplitl [Hc0]; · iexact Hc0
    isplitl [Hc1]; · iexact Hc1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact hW' p hp

end Cert.KB

end
-- ==== Proof.KB.Obl.lean ====
/-
  The launch theorem's obligation for a vector subcore's task: the body table's row for the kernel is the kernel's body
  at the subcore's grid point on the whole arrays and the subcore's own scratch storage, and the task's run at that grid
  point takes what the launch hands the subcore to what it hands back.
-/
import proofs.«218643_g31147102830872_cont_9to1_1815_7_alg».proof.Proof.KB.Tile

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.cc0_scratch0 : Memref Cert.Kernel.sig Kind.scVector Space.vmem Cert.Kernel.S64000 EltTy.f32)
local notation "idxW" => (Memref.whole Cert.Kernel.cc0_scratch1 : Memref Cert.Kernel.sig Kind.scVector Space.vmem Cert.Kernel.S12800 EltTy.i32)
local notation "stW" => (Memref.whole Cert.Kernel.cc0_scratch2 : Memref Cert.Kernel.sig Kind.scVector Space.vmem Cert.Kernel.S2x64x200 EltTy.f32)
local notation "v1W" => (Memref.whole Cert.Kernel.main_v1_scv : Memref Cert.Kernel.sig Kind.scVector Space.hbm Cert.Kernel.S128000 EltTy.f32)
local notation "v2W" => (Memref.whole Cert.Kernel.main_v2_scv : Memref Cert.Kernel.sig Kind.scVector Space.hbm Cert.Kernel.S204800 EltTy.i32)
local notation "v3W" => (Memref.whole Cert.Kernel.main_v3_scv : Memref Cert.Kernel.sig Kind.scVector Space.hbm Cert.Kernel.S1024x128x200 EltTy.f32)

variable [FloatOps F]

/-- The body table's row for the kernel on a vector subcore: the kernel's body at the subcore's grid point. -/
theorem defs₀_vector (c : Fin τ.nSC) (s : Fin τ.nSub) :
    defs₀ (F := F) (.scVector c s) 0 ()
      = SparseCore.onTile hcore0 hsub0 (fun c s => cc0__body (coordsV c s)
          v1W (Memref.isWhole_whole _) v2W (Memref.isWhole_whole _) v3W (Memref.isWhole_whole _)
          tabW (Memref.isWhole_whole _) idxW (Memref.isWhole_whole _) stW (Memref.isWhole_whole _)
          cc0_scratch3 cc0_scratch4 cc0_scoped0 cc0_scoped1) ⟨⟩ c s := rfl

omit [FloatOps F] in
/-- The task's waits left over are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation of the kernel's tasks: each vector subcore's task takes its read shares and its windows at the
    launch contents to the same with every window at the lookup. -/
theorem tileObl (f1 : (d : Dev nD) → Buf (Elt F) (v1Loc d)) (f2 : (d : Dev nD) → Buf (Elt F) (v2Loc d))
    (f3 G : (d : Dev nD) → Buf (Elt F) (v3Loc d)) (hg : ∀ d, Good f1 f2 G d) :
    (K (F := F)).TileObl (D (F := F)) 𝒱 (P f1 f2 f3 G) v₀ 0 := by
  intro d c i O W hO _ _
  -- the kernel owes nothing for a protocol of its own
  simp only [show (P f1 f2 f3 G).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts f1 f2 f3 G d (coordsV ⟨_, hc.1⟩ ⟨_, hc.2⟩) (hg d) O W hO).trans (wp_mono frame _ _ fun _ => obl_post)

end Cert.KB

end
-- ==== Proof.PreRange.lean ====
/-
  The precondition read back: every token names a row of the table.
  The predicate's second conjunct is the conjunction, over all tokens x, of (0 ≤ x) and (x ≤ 999) as SIGNED 32-bit words,
  all reduced by "and"; that the whole is 1 gives both comparisons at every token, and a signed word between 0 and 999
  is its own value as a natural number, below 1000.
-/
import proofs.«218643_g31147102830872_cont_9to1_1815_7_alg».proof.Proof.Gen.Pre_input_domain
import proofs.«218643_g31147102830872_cont_9to1_1815_7_alg».proof.Proof.Spec
import Idealize.ShloMosaic.Lib.ReduceAll

noncomputable section

namespace Cert.RefSide

open Idealize.ShloMosaic

/-- A rank-0 shape has one index. -/
instance subsingleton_scalarIdx : Subsingleton Cert.Pre_input_domain.S_.Idx := ⟨fun a b => funext fun d => d.elim0⟩

/-- A 32-bit word that is, read signed, at least 0 and at most 999 has a value below 1000. -/
theorem toNat_lt_of_signed_bounds (v : BitVec 32) (h0 : IntOp.cmpi .sge v 0#32 = 1#1) (h1 : IntOp.cmpi .sle v 999#32 = 1#1) :
    v.toNat < 1000 := by
  rw [IntOp.cmpi_sge, show (0#32 : BitVec 32).toInt = 0 from by decide] at h0
  rw [IntOp.cmpi_sle, show (999#32 : BitVec 32).toInt = 999 from by decide] at h1
  have e := BitVec.toInt_eq_toNat_cond v
  have := v.isLt
  omega

/-- The precondition gives the range of every token. -/
theorem inRange_of_pre {F : FTy → Type} [FloatOps F] (inp : IVec Cert.Pre_input_domain.S1024x200 32)
    (emb : FVec F Cert.Pre_input_domain.S1000x128 .f32)
    (h : Cert.Pre_input_domain.fn (F := F) inp emb = fun _ => 1#1) : Cert.Spec.InRange inp := by
  intro j
  have e := congrFun h ValueIdx.ix0
  dsimp only [Cert.Pre_input_domain.fn] at e
  have e2 := (IntOp.andi_eq_one.1 e).2
  have e3 := Host.reduce_andi_all _ _ _ _ _ e2 j
  obtain ⟨h0, h1⟩ := IntOp.andi_eq_one.1 e3
  exact toNat_lt_of_signed_bounds (inp j) h0 h1

end Cert.RefSide

end
-- ==== Proof.RefTerm.lean ====
/-
  The reference's result as one pure term of its two arguments: the operations of the lookup function (the wrap of
  negative tokens, the gather of rows, the mask of out-of-range rows by NaN) and the final transpose, composed in
  the program's order.
-/
import proofs.«218643_g31147102830872_cont_9to1_1815_7_alg».proof.Proof.Gen.ReferenceIdeal

noncomputable section

namespace Cert.RefSide

open Cert.ReferenceIdeal Cert.ReferenceIdeal.Gen Idealize.ShloMosaic

variable {F : FTy → Type} [FloatOps F]

/-- The token actually looked up: a negative token (as a signed word) is moved up by the table's height. -/
def wrapped (inp : IVec S1024x200 32) : IVec S1024x200 32 :=
  select (cmpi .slt inp (broadcastInDim S1024x200 ![] bcast_S_S1024x200 (constantI S_ 32 0#32)))
    (addi inp (broadcastInDim S1024x200 ![] bcast_S_S1024x200 (constantI S_ 32 1000#32))) inp

/-- The start indices of the gather: the wrapped tokens with a trailing unit axis. -/
def startIdx (inp : IVec S1024x200 32) : IVec S1024x200x1 32 :=
  broadcastInDim S1024x200x1 ![0, 1] bcast_S1024x200_S1024x200x1_0_1 (wrapped inp)

/-- Which tokens are rows of the table: 0 ≤ token ≤ 999 as signed words, reduced by "and" over the unit axis. -/
def inBounds (inp : IVec S1024x200 32) : IVec S1024x200 1 :=
  Host.reduce IntOp.andi
    (andi (cmpi .sge (startIdx inp) (broadcastInDim S1024x200x1 ![] bcast_S_S1024x200x1 (constantI S_ 32 0#32)))
      (cmpi .sle (startIdx inp) (broadcastInDim S1024x200x1 ![0, 1, 2] bcast_S1x1x1_S1024x200x1_0_1_2
        (broadcastInDim S1x1x1 ![2] bcast_S1_S1x1x1_2 (constantI S1 32 999#32)))))
    (constantI S_ 1 1#1) reducesTo_S1024x200x1_S1024x200_d2 h_S_

/-- The rows gathered, before the mask. -/
def gathered (inp : IVec S1024x200 32) (emb : FVec F S1000x128 .f32) : FVec F S1024x200x128 .f32 :=
  Host.gather gather_S1000x128_S1024x200x1_S1024x200x128_2_0_n_n_0_2_1128 emb (startIdx inp)

/-- The lookup function's result: the gathered rows, NaN where the token is no row. -/
def taken (inp : IVec S1024x200 32) (emb : FVec F S1000x128 .f32) : FVec F S1024x200x128 .f32 :=
  select (broadcastInDim S1024x200x128 ![0, 1] bcast_S1024x200_S1024x200x128_0_1 (inBounds inp)) (gathered inp emb)
    (broadcastInDim S1024x200x128 ![] bcast_S_S1024x200x128 (constant S_ .f32 0x7FC00000#32))

/-- The reference's result: the lookup, its last two axes exchanged. -/
def refTerm (inp : IVec S1024x200 32) (emb : FVec F S1000x128 .f32) : FVec F S1024x128x200 .f32 :=
  transpose S1024x128x200 [0, 2, 1] (taken inp emb) transposes_S1024x200x128_S1024x128x200_0_2_1

end Cert.RefSide

end
-- ==== Proof.RefRun.lean ====
/-
  The reference's @main as a list of its 24 operations — the lookup function's 22 and the select of the function it
  calls, listed at the call sites over the calls' buffers, then the transpose — and its run read back: every weakly
  fair execution terminates with the result buffer at the composed term of the arguments' launch contents
  (`refTerm`), the arguments unchanged.
-/
import proofs.«218643_g31147102830872_cont_9to1_1815_7_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded. -/
abbrev ops : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 1000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1) main_call0.v5 main_call0.v13 (fun x i => Host.gather gather_S1000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    unary main_v0 main_v1 ((transpose S1024x128x200 [0, 2, 1] · transposes_S1024x200x128_S1024x128x200_0_2_1) : (⟨S1024x200x128, .f32⟩ : BufTy).Contents (Elt F) → (⟨S1024x128x200, .f32⟩ : BufTy).Contents (Elt F)) ]

set_option maxRecDepth 1024 in
/-- @main is that straight line: the two functions' definitions unfolded at their calls, both sides are one chain of
    operations once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

set_option maxRecDepth 8192 in
/-- The fold at the result buffer is the composed term: each operation's result at its own buffer is its function of
    its operands' contents, and at any other buffer what was there; the transports between a buffer's type and its
    tensor value's type are the identity. -/
theorem out_eq (V : Valuation τ sig (Elt F)) :
    after ops V (main_v1 : DevRef τ sig) = refTerm (V (main_arg0 : DevRef τ sig)) (V (main_arg1 : DevRef τ sig)) := by
  after_results_simp
  simp only [TRef.ofBuf, TRef.toBuf, cast_cast, cast_eq]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- On every device, for any float values, from any memory with zero counters: every weakly fair execution of @main
    terminates with the result at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.RefSide

end
-- ==== Proof.RefValue.lean ====
/-
  The reference's composed term is the transposed lookup, when every token names a row of the table.
  Under that hypothesis a token is nonnegative as a signed word, so it is not moved by the wrap; both range tests
  hold, so the "and" over the unit axis is 1 and the select keeps the gathered row; the gather's start index,
  read signed and clamped into [0, 999], is the token's own value; and the transpose exchanges the last two
  coordinates.
-/
import proofs.«218643_g31147102830872_cont_9to1_1815_7_alg».proof.Proof.RefTerm
import proofs.«218643_g31147102830872_cont_9to1_1815_7_alg».proof.Proof.Spec
import Idealize.ShloMosaic.Lib.ValueLayout
import Idealize.ShloMosaic.Lib.Pipeline.Value
import Idealize.ShloMosaic.Lib.Affine
import Idealize.ShloMosaic.PureOps.Reduce

noncomputable section

namespace Cert.RefSide

open Cert.ReferenceIdeal Cert.ReferenceIdeal.Gen Idealize.ShloMosaic Idealize.ShloMosaic.ValueIdx

/-! ## Words: a token below 1000 -/

section Words
variable {v : BitVec 32}

/-- A word below 1000 reads the same signed and unsigned. -/
theorem toInt_of_lt (h : v.toNat < 1000) : v.toInt = v.toNat := BitVec.toInt_eq_toNat_of_lt (by omega)

theorem cmpi_slt_zero_of_lt (h : v.toNat < 1000) : IntOp.cmpi .slt v 0#32 = 0#1 := by
  refine eq_zero_of_ne_one fun e => ?_
  rw [IntOp.cmpi_slt, toInt_of_lt h, show (0#32 : BitVec 32).toInt = 0 from by decide] at e
  omega

theorem cmpi_sge_zero_of_lt (h : v.toNat < 1000) : IntOp.cmpi .sge v 0#32 = 1#1 := by
  rw [IntOp.cmpi_sge, toInt_of_lt h, show (0#32 : BitVec 32).toInt = 0 from by decide]
  omega

theorem cmpi_sle_999_of_lt (h : v.toNat < 1000) : IntOp.cmpi .sle v 999#32 = 1#1 := by
  rw [IntOp.cmpi_sle, toInt_of_lt h, show (999#32 : BitVec 32).toInt = 999 from by decide]
  omega

/-- Read signed and clamped into [0, 999], a word below 1000 is its own value. -/
theorem clamp_of_lt (h : v.toNat < 1000) : min v.toInt.toNat 999 = v.toNat := by
  rw [toInt_of_lt h, Int.toNat_natCast]
  omega

end Words

/-! ## A reduce by "and" of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A `stablehlo.reduce` by "and" from 1 over an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-! ## The operations read at an index -/

section Read
variable {F : FTy → Type} [FloatOps F] (inp : IVec S1024x200 32) (emb : FVec F S1000x128 .f32)

/-- A token below 1000 is not moved by the wrap. -/
theorem wrapped_apply (j : S1024x200.Idx) (h : (inp j).toNat < 1000) : wrapped inp j = inp j := by
  show Scalar.select (IntOp.cmpi .slt (inp j) 0#32) _ (inp j) = inp j
  rw [cmpi_slt_zero_of_lt h, select_zero]

/-- The start indices at (b, t, 0) are the wrapped token at (b, t). -/
theorem startIdx_apply (b : Fin 1024) (t : Fin 200) (u : Fin 1) : startIdx inp (ix3 b t u) = wrapped inp (ix2 b t) :=
  broadcastInDim_apply _ _ _ _ (ix2 b t) fun a => match a with | ⟨0, _⟩ => rfl | ⟨1, _⟩ => rfl

/-- Under the range hypothesis every token passes both range tests. -/
theorem inBounds_apply (h : Cert.Spec.InRange inp) (j : S1024x200.Idx) : inBounds inp j = 1#1 := by
  refine reduce_andi_ones _ _ _ _ (fun i => ?_) (fun _ => rfl) j
  obtain ⟨b, t, u, rfl⟩ : ∃ b t u, i = ix3 b t u := ⟨_, _, _, eq_ix3 i⟩
  have hs : startIdx inp (ix3 b t u) = inp (ix2 b t) := (startIdx_apply inp b t u).trans (wrapped_apply inp _ (h _))
  show IntOp.andi (IntOp.cmpi .sge (startIdx inp (ix3 b t u)) 0#32) (IntOp.cmpi .sle (startIdx inp (ix3 b t u)) 999#32) = 1#1
  rw [hs, cmpi_sge_zero_of_lt (h _), cmpi_sle_999_of_lt (h _)]
  decide

end Read

/-! ## The gather read at an index -/

/-- The gather's dimension numbers: rows of a [1000, 128] operand at start indices [1024, 200, 1]. -/
abbrev rowDims : GatherDims S1000x128 S1024x200x1 S1024x200x128 := gather_S1000x128_S1024x200x1_S1024x200x128_2_0_n_n_0_2_1128

/-- The gather read at (b, t, d): the operand at row "the start index at (b, t, 0), read signed and clamped into
    [0, 999]", column d. On the row axis the operand index is the clamped start (no batching, the axis collapsed); on
    the column axis the start is 0 (the axis is not in the start index map) and the offset is the result's last
    coordinate. -/
theorem gather_rows_apply {α : Type} {w : Nat} (x : S1000x128.Idx → α) (idx : IVec S1024x200x1 w) (b : Fin 1024) (t : Fin 200)
    (d : Fin 128) :
    Host.gather rowDims x idx (ix3 b t d) = x (ix2 ⟨min (idx (ix3 b t (0 : Fin 1))).toInt.toNat 999, by omega⟩ d) := by
  unfold Host.gather
  refine congrArg x (funext fun a => Fin.ext ?_)
  match a with
  | ⟨0, _⟩ =>
    show rowDims.start (ix3 b t d) idx 0 + rowDims.batchCoord (ix3 b t d) 0 + rowDims.offCoord (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b t d) ⟨List.idxOf (0 : Fin 2) rowDims.startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show rowDims.start (ix3 b t d) idx 1 + rowDims.batchCoord (ix3 b t d) 1 + rowDims.offCoord (ix3 b t d) 1 = d.val
    have hst : rowDims.start (ix3 b t d) idx 1 = 0 := by
      unfold GatherDims.start
      rw [dif_neg (show (1 : Fin 2) ∉ rowDims.startIndexMap from by decide)]
    have hmem : (1 : Fin 2) ∈ rowDims.sKept := (rowDims.mem_sKept 1).2 ⟨by decide, List.not_mem_nil⟩
    rw [hst, GatherDims.batchCoord_eq_zero _ _ _ List.not_mem_nil]
    unfold GatherDims.offCoord
    rw [dif_pos hmem]
    simp only [Nat.zero_add, Nat.add_zero]
    rfl

/-! ## The value -/

section Value
variable {F : FTy → Type} [FloatOps F] (inp : IVec S1024x200 32) (emb : FVec F S1000x128 .f32)

/-- Under the range hypothesis the gathered row at (b, t) is the table's row named by the token at (b, t). -/
theorem gathered_apply (h : Cert.Spec.InRange inp) (b : Fin 1024) (t : Fin 200) (d : Fin 128) :
    gathered inp emb (ix3 b t d) = emb (ix2 (Cert.Spec.rowOf (inp (ix2 b t))) d) := by
  have hs : startIdx inp (ix3 b t (0 : Fin 1)) = inp (ix2 b t) := (startIdx_apply inp b t 0).trans (wrapped_apply inp _ (h _))
  refine (gather_rows_apply emb (startIdx inp) b t d).trans (congrArg (fun r => emb (ix2 r d)) (Fin.ext ?_))
  show min (startIdx inp (ix3 b t (0 : Fin 1))).toInt.toNat 999 = (Cert.Spec.rowOf (inp (ix2 b t))).val
  rw [hs, clamp_of_lt (h _), Cert.Spec.rowOf_val_of_lt (h _)]

/-- Under the range hypothesis the lookup function's result at (b, t, d) is the table's entry (token at (b, t), d): the
    mask is 1 and the select keeps the gathered row. -/
theorem taken_apply (h : Cert.Spec.InRange inp) (b : Fin 1024) (t : Fin 200) (d : Fin 128) :
    taken inp emb (ix3 b t d) = emb (ix2 (Cert.Spec.rowOf (inp (ix2 b t))) d) := by
  have hm : broadcastInDim S1024x200x128 ![0, 1] bcast_S1024x200_S1024x200x128_0_1 (inBounds inp) (ix3 b t d) = 1#1 :=
    (broadcastInDim_apply _ _ _ _ (ix2 b t) fun a => match a with | ⟨0, _⟩ => rfl | ⟨1, _⟩ => rfl).trans (inBounds_apply inp h _)
  unfold taken
  rw [select_apply, hm, select_one, gathered_apply inp emb h]

/-- THE VALUE: when every token names a row of the table, the reference's composed term is the transposed lookup. -/
theorem refTerm_eq_lookupT (h : Cert.Spec.InRange inp) : refTerm inp emb = Cert.Spec.lookupT inp emb := by
  funext i
  obtain ⟨b, d, t, rfl⟩ : ∃ b d t, i = ix3 b d t := ⟨_, _, _, eq_ix3 i⟩
  rw [Cert.Spec.lookupT_apply]
  unfold refTerm
  rw [transpose_ix3_021_apply]
  exact taken_apply inp emb h b t d

end Value

end Cert.RefSide

end
-- ==== Proof.RefSide.lean ====
/-
  The reference's run with its value: from any memory whose tokens all name rows of the table, every weakly fair
  execution of the reference terminates with the result buffer at the transposed lookup of the arguments' launch
  contents, the arguments unchanged. (The run gives the composed term; the value lemma says that term is the lookup.)
-/
import proofs.«218643_g31147102830872_cont_9to1_1815_7_alg».proof.Proof.RefRun
import proofs.«218643_g31147102830872_cont_9to1_1815_7_alg».proof.Proof.RefValue

noncomputable section

namespace Cert.RefSide

open Idealize.ShloMosaic Idealize.ShloMosaic.TcCoe Idealize.SL.Sem

/-- The run at any float instance. -/
theorem run_lookup {F : FTy → Type} [FloatOps F]
    (m' : (ℓ : Loc Cert.ReferenceIdeal.nD Cert.ReferenceIdeal.τ Cert.ReferenceIdeal.sig) → Buf (Elt F) ℓ)
    (g' : Dev Cert.ReferenceIdeal.nD → PrngReg)
    (hr : ∀ c : Dev Cert.ReferenceIdeal.nD,
      Cert.Spec.InRange (m' ((c.tc : Thread Cert.ReferenceIdeal.nD Cert.ReferenceIdeal.τ).loc Cert.ReferenceIdeal.main_arg0))) :
    θ_run (Cert.ReferenceIdeal.defs (F := F)) (onTc (τ := Cert.ReferenceIdeal.τ) (Cert.ReferenceIdeal.main (F := F))) ⟨m', fun _ => 0, g'⟩
      (fun r => ∀ c : Dev Cert.ReferenceIdeal.nD,
        r.2.mem ((c.tc : Thread Cert.ReferenceIdeal.nD Cert.ReferenceIdeal.τ).loc Cert.ReferenceIdeal.main_v1)
          = Cert.Spec.lookupT (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run (Cert.ReferenceIdeal.defs (F := F)) _ _).mono
    (fun _ h c => ⟨(h c).1.trans (refTerm_eq_lookupT _ _ (hr c)), (h c).2⟩) (run_term (F := F) m' g')

/-- The run at the ideal instance. -/
theorem run
    (m' : (ℓ : Loc Cert.ReferenceIdeal.nD Cert.ReferenceIdeal.τ Cert.ReferenceIdeal.sig) → Buf (Elt Ideal) ℓ)
    (g' : Dev Cert.ReferenceIdeal.nD → PrngReg)
    (hr : ∀ c : Dev Cert.ReferenceIdeal.nD,
      Cert.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v1)
          = Cert.Spec.lookupT (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  run_lookup (F := Ideal) m' g' hr

end Cert.RefSide

end
-- ==== Proof.lean ====
/-
  The certificate's claim, assembled.

  Both programs compute the transposed embedding lookup `Cert.Spec.lookupT`: for tokens inp[1024, 200] and a table
  emb[1000, 128] the result at (b, d, t) is emb[inp[b, t], d]. The precondition makes every token a row of the table
  (`Cert.RefSide.inRange_of_pre`).

  The kernel (`Cert.KI` for the program read at the ideal values, `Cert.KB` for the same text read at the bit
  patterns): three host operations lay the table out transposed and flat and the tokens flat; thirty-two vector
  subcores then each copy one half of the table's columns and sixty-four rows of tokens into their own memory and
  fill, row by row, the windows out[b, 64 c .. 64 c + 64, :] of the result, which are disjoint and cover it. One
  task's run (`tile_body`) gives the launch theorem its obligation (`tileObl`), and the launch (`run_main`) ends
  with the result at the lookup and the two arguments unchanged, provided the tokens are in range (`good`).

  The reference (`Cert.RefSide`): its run ends with the result at the composition of its operations (`run_term`),
  which under the same range hypothesis is the lookup (`run`): the wrap of negative tokens and the mask of
  out-of-range rows do nothing, and the gather reads the row the token names.

  The three frames drop the value from these runs; the algebraic claim takes the lookup of the kernel's arguments as
  the common result, the reference's arguments being equal to the kernel's.
-/
import proofs.«218643_g31147102830872_cont_9to1_1815_7_alg».proof.Defs
import proofs.«218643_g31147102830872_cont_9to1_1815_7_alg».proof.Proof.Gen.Kernel
import proofs.«218643_g31147102830872_cont_9to1_1815_7_alg».proof.Proof.Gen.Kernel.Skeleton
import proofs.«218643_g31147102830872_cont_9to1_1815_7_alg».proof.Proof.Gen.KernelIdeal
import proofs.«218643_g31147102830872_cont_9to1_1815_7_alg».proof.Proof.Gen.KernelIdeal.Skeleton
import proofs.«218643_g31147102830872_cont_9to1_1815_7_alg».proof.Proof.Gen.ReferenceIdeal
import proofs.«218643_g31147102830872_cont_9to1_1815_7_alg».proof.Proof.Gen.Pre_input_domain
import proofs.«218643_g31147102830872_cont_9to1_1815_7_alg».proof.Proof.KI.Launch
import proofs.«218643_g31147102830872_cont_9to1_1815_7_alg».proof.Proof.KI.Obl
import proofs.«218643_g31147102830872_cont_9to1_1815_7_alg».proof.Proof.KB.Launch
import proofs.«218643_g31147102830872_cont_9to1_1815_7_alg».proof.Proof.KB.Obl
import proofs.«218643_g31147102830872_cont_9to1_1815_7_alg».proof.Proof.PreRange
import proofs.«218643_g31147102830872_cont_9to1_1815_7_alg».proof.Proof.RefSide
import Idealize.ShloMosaic.Adequacy
import Idealize.ShloMosaic.Init

noncomputable section

namespace Cert.Proof

open Idealize.ShloMosaic Idealize.SL.Sem

/-- The kernel at the bit patterns runs and keeps its arguments. -/
theorem frame_Kernel : Cert.frame_Kernel := fun m g hpre =>
  (θ_run (Cert.Kernel.defs (F := Bits)) _ _).mono (fun _ h c => (h c).2)
    (Cert.KB.run_main (F := Bits) m g
      (Cert.KB.tileObl _ _ _ _ fun d => Cert.KB.good m d (Cert.RefSide.inRange_of_pre _ _ (hpre d))))

/-- The kernel at the ideal values runs and keeps its arguments. -/
theorem frame_KernelIdeal : Cert.frame_KernelIdeal := fun m g hpre =>
  (θ_run (Cert.KernelIdeal.defs (F := Ideal)) _ _).mono (fun _ h c => (h c).2)
    (Cert.KI.run_main (F := Ideal) m g
      (Cert.KI.tileObl _ _ _ _ fun d => Cert.KI.good m d (Cert.RefSide.inRange_of_pre _ _ (hpre d))))

/-- The reference runs and keeps its arguments. -/
theorem frame_ReferenceIdeal : Cert.frame_ReferenceIdeal := fun m g _ =>
  (θ_run (Cert.ReferenceIdeal.defs (F := Ideal)) _ _).mono (fun _ h c => (h c).2) (Cert.RefSide.run_term (F := Ideal) m g)

/-- At the ideal values the kernel and the reference, run from memories that agree on the arguments, both end with the
    lookup of the kernel's arguments in their results. -/
theorem algebraic : Cert.algebraic_KernelIdeal_ReferenceIdeal := fun m g m' g' hpre hagree =>
  ⟨fun c => Cert.Spec.lookupT (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run (Cert.KernelIdeal.defs (F := Ideal)) _ _).mono (fun _ h c => h c)
      (Cert.KI.run_main (F := Ideal) m g
        (Cert.KI.tileObl _ _ _ _ fun d => Cert.KI.good m d (Cert.RefSide.inRange_of_pre _ _ (hpre d)))),
    (θ_run (Cert.ReferenceIdeal.defs (F := Ideal)) _ _).mono
      (fun _ h c => ⟨by rw [(h c).1, (hagree c).1, (hagree c).2], (h c).2⟩)
      (Cert.RefSide.run m' g' fun c => by
        rw [(hagree c).1]
        exact Cert.RefSide.inRange_of_pre _ _ (hpre c))⟩

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
